-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v147)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v147) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v275) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S800000 : Shape := ⟨1, ![800000]⟩
abbrev S128x64 : Shape := ⟨2, ![128, 64]⟩
abbrev S64 : Shape := ⟨1, ![64]⟩
abbrev S64x64 : Shape := ⟨2, ![64, 64]⟩
abbrev S192x64 : Shape := ⟨2, ![192, 64]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S192x64 : S_.BroadcastsInDim S192x64 (![] : Fin 0 → Fin S192x64.rank)
  reducesTo_S192x64_S_d0_1 : S192x64.ReducesTo [0, 1] S_

variable [Facts]

def fn_part3 {F : FTy → Type} [FloatOps F] (main_arg15 : FVec F S64 .f32) (main_v48 : IVec S_ 1) (main_v49 : FVec F S192x64 .f32) (main_v50 : FVec F S192x64 .f32) : IVec S_ 1 :=
  let main_v51 : IVec S192x64 1 := cmpf .olt main_v49 main_v50
  let main_c_19 : IVec S_ 1 := constantI S_ 1 1#1
  let main_v52 : IVec S_ 1 := (fun x v => Host.reduce IntOp.andi x v reducesTo_S192x64_S_d0_1 h_S_) main_v51 main_c_19
  let main_v53 : IVec S_ 1 := andi main_v48 main_v52
  let main_v54 : FVec F S64 .f32 := Host.absf main_arg15
  let main_cst_20 : FVec F S_ .f32 := constant S_ .f32 0x7F800000#32
  let main_v55 : FVec F S64 .f32 := broadcastInDim S64 ![] bcast_S_S64 main_cst_20
  let main_v56 : IVec S64 1 := cmpf .olt main_v54 main_v55
  let main_c_21 : IVec S_ 1 := constantI S_ 1 1#1
  let main_v57 : IVec S_ 1 := (fun x v => Host.reduce IntOp.andi x v reducesTo_S64_S_d0 h_S_) main_v56 main_c_21
  let main_v58 : IVec S_ 1 := andi main_v53 main_v57
  main_v58

def fn_part2 {F : FTy → Type} [FloatOps F] (main_arg11 : FVec F S64 .f32) (main_arg12 : FVec F S64x64 .f32) (main_arg13 : FVec F S64 .f32) (main_arg14 : FVec F S192x64 .f32) (main_arg15 : FVec F S64 .f32) (main_v33 : IVec S_ 1) : IVec S_ 1 :=
  let main_v34 : FVec F S64 .f32 := Host.absf main_arg11
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S64x64 .f32 := Host.absf main_arg12
  let main_cst_14 : FVec F S_ .f32 := constant S_ .f32 0x7F800000#32
  let main_v40 : FVec F S64x64 .f32 := broadcastInDim S64x64 ![] bcast_S_S64x64 main_cst_14
  let main_v41 : IVec S64x64 1 := cmpf .olt main_v39 main_v40
  let main_c_15 : IVec S_ 1 := constantI S_ 1 1#1
  let main_v42 : IVec S_ 1 := (fun x v => Host.reduce IntOp.andi x v reducesTo_S64x64_S_d0_1 h_S_) main_v41 main_c_15
  let main_v43 : IVec S_ 1 := andi main_v38 main_v42
  let main_v44 : FVec F S64 .f32 := Host.absf main_arg13
  let main_cst_16 : FVec F S_ .f32 := constant S_ .f32 0x7F800000#32
  let main_v45 : FVec F S64 .f32 := broadcastInDim S64 ![] bcast_S_S64 main_cst_16
  let main_v46 : IVec S64 1 := cmpf .olt main_v44 main_v45
  let main_c_17 : IVec S_ 1 := constantI S_ 1 1#1
  let main_v47 : IVec S_ 1 := (fun x v => Host.reduce IntOp.andi x v reducesTo_S64_S_d0 h_S_) main_v46 main_c_17
  let main_v48 : IVec S_ 1 := andi main_v43 main_v47
  let main_v49 : FVec F S192x64 .f32 := Host.absf main_arg14
  let main_cst_18 : FVec F S_ .f32 := constant S_ .f32 0x7F800000#32
  let main_v50 : FVec F S192x64 .f32 := broadcastInDim S192x64 ![] bcast_S_S192x64 main_cst_18
  fn_part3 (F := F) main_arg15 main_v48 main_v49 main_v50

def fn_part1 {F : FTy → Type} [FloatOps F] (main_arg8 : FVec F S64x64 .f32) (main_arg9 : FVec F S64 .f32) (main_arg10 : FVec F S128x64 .f32) (main_arg11 : FVec F S64 .f32) (main_arg12 : FVec F S64x64 .f32) (main_arg13 : FVec F S64 .f32) (main_arg14 : FVec F S192x64 .f32) (main_arg15 : FVec F S64 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x64 .f32 := Host.absf main_arg8
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64 .f32 := Host.absf main_arg9
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S128x64 .f32 := Host.absf main_arg10
  let main_cst_10 : FVec F S_ .f32 := constant S_ .f32 0x7F800000#32
  let main_v30 : FVec F S128x64 .f32 := broadcastInDim S128x64 ![] bcast_S_S128x64 main_cst_10
  let main_v31 : IVec S128x64 1 := cmpf .olt main_v29 main_v30
  let main_c_11 : IVec S_ 1 := constantI S_ 1 1#1
  let main_v32 : IVec S_ 1 := (fun x v => Host.reduce IntOp.andi x v reducesTo_S128x64_S_d0_1 h_S_) main_v31 main_c_11
  let main_v33 : IVec S_ 1 := andi main_v28 main_v32
  fn_part2 (F := F) main_arg11 main_arg12 main_arg13 main_arg14 main_arg15 main_v33

def fn {F : FTy → Type} [FloatOps F] (main_arg0 : FVec F S50000x128 .f32) (main_arg1 : FVec F S50000x128 .f32) (main_arg2 : IVec S800000 32) (main_arg3 : IVec S800000 32) (main_arg4 : IVec S800000 32) (main_arg5 : IVec S800000 32) (main_arg6 : FVec F S128x64 .f32) (main_arg7 : FVec F S64 .f32) (main_arg8 : FVec F S64x64 .f32) (main_arg9 : FVec F S64 .f32) (main_arg10 : FVec F S128x64 .f32) (main_arg11 : FVec F S64 .f32) (main_arg12 : FVec F S64x64 .f32) (main_arg13 : FVec F S64 .f32) (main_arg14 : FVec F S192x64 .f32) (main_arg15 : FVec F S64 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S50000x128 .f32 := Host.absf main_arg1
  let main_cst_0 : FVec F S_ .f32 := constant S_ .f32 0x7F800000#32
  let main_v5 : FVec F S50000x128 .f32 := broadcastInDim S50000x128 ![] bcast_S_S50000x128 main_cst_0
  let main_v6 : IVec S50000x128 1 := cmpf .olt main_v4 main_v5
  let main_c_1 : IVec S_ 1 := constantI S_ 1 1#1
  let main_v7 : IVec S_ 1 := (fun x v => Host.reduce IntOp.andi x v reducesTo_S50000x128_S_d0_1 h_S_) main_v6 main_c_1
  let main_v8 : IVec S_ 1 := andi main_v3 main_v7
  let main_v9 : FVec F S128x64 .f32 := Host.absf main_arg6
  let main_cst_2 : FVec F S_ .f32 := constant S_ .f32 0x7F800000#32
  let main_v10 : FVec F S128x64 .f32 := broadcastInDim S128x64 ![] bcast_S_S128x64 main_cst_2
  let main_v11 : IVec S128x64 1 := cmpf .olt main_v9 main_v10
  let main_c_3 : IVec S_ 1 := constantI S_ 1 1#1
  let main_v12 : IVec S_ 1 := (fun x v => Host.reduce IntOp.andi x v reducesTo_S128x64_S_d0_1 h_S_) main_v11 main_c_3
  let main_v13 : IVec S_ 1 := andi main_v8 main_v12
  let main_v14 : FVec F S64 .f32 := Host.absf main_arg7
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg8 main_arg9 main_arg10 main_arg11 main_arg12 main_arg13 main_arg14 main_arg15 main_v13 main_v16
-- ==== Kernel.lean ====
abbrev S50000x128 : Shape := ⟨2, ![50000, 128]⟩
abbrev S800000 : Shape := ⟨1, ![800000]⟩
abbrev S128x64 : Shape := ⟨2, ![128, 64]⟩
abbrev S64 : Shape := ⟨1, ![64]⟩
abbrev S64x64 : Shape := ⟨2, ![64, 64]⟩
abbrev S192x64 : Shape := ⟨2, ![192, 64]⟩
abbrev S1x50000x128 : Shape := ⟨3, ![1, 50000, 128]⟩
abbrev S2x50000x128 : Shape := ⟨3, ![2, 50000, 128]⟩
abbrev S1x128x64 : Shape := ⟨3, ![1, 128, 64]⟩
abbrev S2x128x64 : Shape := ⟨3, ![2, 128, 64]⟩
abbrev S1x64 : Shape := ⟨2, ![1, 64]⟩
abbrev S2x64 : Shape := ⟨2, ![2, 64]⟩
abbrev S1x64x64 : Shape := ⟨3, ![1, 64, 64]⟩
abbrev S2x64x64 : Shape := ⟨3, ![2, 64, 64]⟩
abbrev S2x1x64 : Shape := ⟨3, ![2, 1, 64]⟩
abbrev S2x50000x64 : Shape := ⟨3, ![2, 50000, 64]⟩
abbrev S1x10000x128 : Shape := ⟨3, ![1, 10000, 128]⟩
abbrev S1x1x64 : Shape := ⟨3, ![1, 1, 64]⟩
abbrev S1x10000x64 : Shape := ⟨3, ![1, 10000, 64]⟩
abbrev S10000x128 : Shape := ⟨2, ![10000, 128]⟩
abbrev S10000x64 : Shape := ⟨2, ![10000, 64]⟩
abbrev S1x50000x64 : Shape := ⟨3, ![1, 50000, 64]⟩
abbrev S50000x64 : Shape := ⟨2, ![50000, 64]⟩
abbrev S_ : Shape := ⟨0, ![]⟩
abbrev S50000 : Shape := ⟨1, ![50000]⟩
abbrev S800000x1 : Shape := ⟨2, ![800000, 1]⟩
abbrev S50000x1 : Shape := ⟨2, ![50000, 1]⟩
abbrev S800000x64 : Shape := ⟨2, ![800000, 64]⟩
abbrev S3x50000x64 : Shape := ⟨3, ![3, 50000, 64]⟩
abbrev S1x3x50000x64 : Shape := ⟨4, ![1, 3, 50000, 64]⟩
abbrev S2x3x50000x64 : Shape := ⟨4, ![2, 3, 50000, 64]⟩
abbrev S3x64x64 : Shape := ⟨3, ![3, 64, 64]⟩
abbrev S1x3x10000x64 : Shape := ⟨4, ![1, 3, 10000, 64]⟩
abbrev S1x1x10000x64 : Shape := ⟨4, ![1, 1, 10000, 64]⟩

abbrev nBuf : Space → Nat
  | .hbm => 200
  | .vmem => 18
  | .smem => 0
  | _ => 0

abbrev hbmTy0_0 (i : Nat) : BufTy := match i % 128 with
  | 0 => ⟨S50000x128, .f32⟩
  | 1 => ⟨S50000x128, .f32⟩
  | 2 => ⟨S800000, .i32⟩
  | 3 => ⟨S800000, .i32⟩
  | 4 => ⟨S800000, .i32⟩
  | 5 => ⟨S800000, .i32⟩
  | 6 => ⟨S128x64, .f32⟩
  | 7 => ⟨S64, .f32⟩
  | 8 => ⟨S64x64, .f32⟩
  | 9 => ⟨S64, .f32⟩
  | 10 => ⟨S128x64, .f32⟩
  | 11 => ⟨S64, .f32⟩
  | 12 => ⟨S64x64, .f32⟩
  | 13 => ⟨S64, .f32⟩
  | 14 => ⟨S192x64, .f32⟩
  | 15 => ⟨S64, .f32⟩
  | 16 => ⟨S1x50000x128, .f32⟩
  | 17 => ⟨S1x50000x128, .f32⟩
  | 18 => ⟨S2x50000x128, .f32⟩
  | 19 => ⟨S1x128x64, .f32⟩
  | 20 => ⟨S1x128x64, .f32⟩
  | 21 => ⟨S2x128x64, .f32⟩
  | 22 => ⟨S1x64, .f32⟩
  | 23 => ⟨S1x64, .f32⟩
  | 24 => ⟨S2x64, .f32⟩
  | 25 => ⟨S1x64x64, .f32⟩
  | 26 => ⟨S1x64x64, .f32⟩
  | 27 => ⟨S2x64x64, .f32⟩
  | 28 => ⟨S1x64, .f32⟩
  | 29 => ⟨S1x64, .f32⟩
  | 30 => ⟨S2x64, .f32⟩
  | 31 => ⟨S2x1x64, .f32⟩
  | 32 => ⟨S2x1x64, .f32⟩
  | 33 => ⟨S2x50000x64, .f32⟩
  | 34 => ⟨S1x50000x64, .f32⟩
  | 35 => ⟨S50000x64, .f32⟩
  | 36 => ⟨S_, .f32⟩
  | 37 => ⟨S800000, .f32⟩
  | 38 => ⟨S_, .f32⟩
  | 39 => ⟨S50000, .f32⟩
  | 40 => ⟨S800000x1, .i32⟩
  | 41 => ⟨S50000, .f32⟩
  | 42 => ⟨S_, .f32⟩
  | 43 => ⟨S_, .f32⟩
  | 44 => ⟨S50000, .f32⟩
  | 45 => ⟨S50000, .f32⟩
  | 46 => ⟨S_, .f32⟩
  | 47 => ⟨S50000, .f32⟩
  | 48 => ⟨S50000, .f32⟩
  | 49 => ⟨S50000x1, .f32⟩
  | 50 => ⟨S50000x64, .f32⟩
  | 51 => ⟨S50000x64, .f32⟩
  | 52 => ⟨S_, .i32⟩
  | 53 => ⟨S800000, .i32⟩
  | 54 => ⟨S800000, .i1⟩
  | 55 => ⟨S_, .i32⟩
  | 56 => ⟨S800000, .i32⟩
  | 57 => ⟨S800000, .i32⟩
  | 58 => ⟨S800000, .i32⟩
  | 59 => ⟨S800000x1, .i32⟩
  | 60 => ⟨S800000x64, .f32⟩
  | 61 => ⟨S_, .f32⟩
  | 62 => ⟨S50000x64, .f32⟩
  | 63 => ⟨S800000x1, .i32⟩
  | 64 => ⟨S50000x64, .f32⟩
  | 65 => ⟨S50000x64, .f32⟩
  | 66 => ⟨S50000x64, .f32⟩
  | 67 => ⟨S50000x64, .f32⟩
  | 68 => ⟨S50000x64, .f32⟩
  | 69 => ⟨S50000x64, .f32⟩
  | 70 => ⟨S_, .i32⟩
  | 71 => ⟨S800000, .i32⟩
  | 72 => ⟨S800000, .i1⟩
  | 73 => ⟨S_, .i32⟩
  | 74 => ⟨S800000, .i32⟩
  | 75 => ⟨S800000, .i32⟩
  | 76 => ⟨S800000, .i32⟩
  | 77 => ⟨S800000x1, .i32⟩
  | 78 => ⟨S800000x64, .f32⟩
  | 79 => ⟨S_, .f32⟩
  | 80 => ⟨S50000x64, .f32⟩
  | 81 => ⟨S800000x1, .i32⟩
  | 82 => ⟨S50000x64, .f32⟩
  | 83 => ⟨S50000x64, .f32⟩
  | 84 => ⟨S50000x64, .f32⟩
  | 85 => ⟨S50000x64, .f32⟩
  | 86 => ⟨S1x50000x64, .f32⟩
  | 87 => ⟨S1x50000x64, .f32⟩
  | 88 => ⟨S1x50000x64, .f32⟩
  | 89 => ⟨S3x50000x64, .f32⟩
  | 90 => ⟨S1x50000x64, .f32⟩
  | 91 => ⟨S50000x64, .f32⟩
  | 92 => ⟨S_, .f32⟩
  | 93 => ⟨S800000, .f32⟩
  | 94 => ⟨S_, .f32⟩
  | 95 => ⟨S50000, .f32⟩
  | 96 => ⟨S800000x1, .i32⟩
  | 97 => ⟨S50000, .f32⟩
  | 98 => ⟨S_, .f32⟩
  | 99 => ⟨S_, .f32⟩
  | 100 => ⟨S50000, .f32⟩
  | 101 => ⟨S50000, .f32⟩
  | 102 => ⟨S_, .f32⟩
  | 103 => ⟨S50000, .f32⟩
  | 104 => ⟨S50000, .f32⟩
  | 105 => ⟨S50000x1, .f32⟩
  | 106 => ⟨S50000x64, .f32⟩
  | 107 => ⟨S50000x64, .f32⟩
  | 108 => ⟨S_, .i32⟩
  | 109 => ⟨S800000, .i32⟩
  | 110 => ⟨S800000, .i1⟩
  | 111 => ⟨S_, .i32⟩
  | 112 => ⟨S800000, .i32⟩
  | 113 => ⟨S800000, .i32⟩
  | 114 => ⟨S800000, .i32⟩
  | 115 => ⟨S800000x1, .i32⟩
  | 116 => ⟨S800000x64, .f32⟩
  | 117 => ⟨S_, .f32⟩
  | 118 => ⟨S50000x64, .f32⟩
  | 119 => ⟨S800000x1, .i32⟩
  | 120 => ⟨S50000x64, .f32⟩
  | 121 => ⟨S50000x64, .f32⟩
  | 122 => ⟨S50000x64, .f32⟩
  | 123 => ⟨S50000x64, .f32⟩
  | 124 => ⟨S50000x64, .f32⟩
  | 125 => ⟨S50000x64, .f32⟩
  | 126 => ⟨S_, .i32⟩
  | 127 => ⟨S800000, .i32⟩
  | _ => ⟨S50000x128, .f32⟩

abbrev hbmTy0_1 (i : Nat) : BufTy := match i % 128 with
  | 0 => ⟨S800000, .i1⟩
  | 1 => ⟨S_, .i32⟩
  | 2 => ⟨S800000, .i32⟩
  | 3 => ⟨S800000, .i32⟩
  | 4 => ⟨S800000, .i32⟩
  | 5 => ⟨S800000x1, .i32⟩
  | 6 => ⟨S800000x64, .f32⟩
  | 7 => ⟨S_, .f32⟩
  | 8 => ⟨S50000x64, .f32⟩
  | 9 => ⟨S800000x1, .i32⟩
  | 10 => ⟨S50000x64, .f32⟩
  | 11 => ⟨S50000x64, .f32⟩
  | 12 => ⟨S50000x64, .f32⟩
  | 13 => ⟨S50000x64, .f32⟩
  | 14 => ⟨S1x50000x64, .f32⟩
  | 15 => ⟨S1x50000x64, .f32⟩
  | 16 => ⟨S1x50000x64, .f32⟩
  | 17 => ⟨S3x50000x64, .f32⟩
  | 18 => ⟨S1x3x50000x64, .f32⟩
  | 19 => ⟨S1x3x50000x64, .f32⟩
  | 20 => ⟨S2x3x50000x64, .f32⟩
  | 21 => ⟨S64x64, .f32⟩
  | 22 => ⟨S64x64, .f32⟩
  | 23 => ⟨S64x64, .f32⟩
  | 24 => ⟨S_, .f32⟩
  | 25 => ⟨S64x64, .f32⟩
  | 26 => ⟨S_, .f32⟩
  | 27 => ⟨S64x64, .f32⟩
  | 28 => ⟨S64x64, .f32⟩
  | 29 => ⟨S64x64, .f32⟩
  | 30 => ⟨S_, .f32⟩
  | 31 => ⟨S64x64, .f32⟩
  | 32 => ⟨S64x64, .f32⟩
  | 33 => ⟨S64x64, .f32⟩
  | 34 => ⟨S_, .f32⟩
  | 35 => ⟨S64x64, .f32⟩
  | 36 => ⟨S64x64, .f32⟩
  | 37 => ⟨S64x64, .f32⟩
  | 38 => ⟨S_, .f32⟩
  | 39 => ⟨S64x64, .f32⟩
  | 40 => ⟨S_, .f32⟩
  | 41 => ⟨S64x64, .f32⟩
  | 42 => ⟨S64x64, .f32⟩
  | 43 => ⟨S64x64, .f32⟩
  | 44 => ⟨S_, .f32⟩
  | 45 => ⟨S64x64, .f32⟩
  | 46 => ⟨S64x64, .f32⟩
  | 47 => ⟨S64x64, .f32⟩
  | 48 => ⟨S_, .f32⟩
  | 49 => ⟨S64x64, .f32⟩
  | 50 => ⟨S64x64, .f32⟩
  | 51 => ⟨S64x64, .f32⟩
  | 52 => ⟨S_, .f32⟩
  | 53 => ⟨S64x64, .f32⟩
  | 54 => ⟨S_, .f32⟩
  | 55 => ⟨S64x64, .f32⟩
  | 56 => ⟨S64x64, .f32⟩
  | 57 => ⟨S64x64, .f32⟩
  | 58 => ⟨S_, .f32⟩
  | 59 => ⟨S64x64, .f32⟩
  | 60 => ⟨S64x64, .f32⟩
  | 61 => ⟨S64x64, .f32⟩
  | 62 => ⟨S_, .f32⟩
  | 63 => ⟨S64x64, .f32⟩
  | 64 => ⟨S64x64, .f32⟩
  | 65 => ⟨S64x64, .f32⟩
  | 66 => ⟨S1x64x64, .f32⟩
  | 67 => ⟨S1x64x64, .f32⟩
  | 68 => ⟨S1x64x64, .f32⟩
  | 69 => ⟨S3x64x64, .f32⟩
  | 70 => ⟨S1x64, .f32⟩
  | 71 => ⟨S50000x64, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | .local _ .vmem, ⟨0, _⟩ => ⟨S1x10000x128, .f32⟩
  | .local _ .vmem, ⟨1, _⟩ => ⟨S1x10000x128, .f32⟩
  | .local _ .vmem, ⟨2, _⟩ => ⟨S1x128x64, .f32⟩
  | .local _ .vmem, ⟨3, _⟩ => ⟨S1x128x64, .f32⟩
  | .local _ .vmem, ⟨4, _⟩ => ⟨S1x1x64, .f32⟩
  | .local _ .vmem, ⟨5, _⟩ => ⟨S1x1x64, .f32⟩
  | .local _ .vmem, ⟨6, _⟩ => ⟨S1x64x64, .f32⟩
  | .local _ .vmem, ⟨7, _⟩ => ⟨S1x64x64, .f32⟩
  | .local _ .vmem, ⟨8, _⟩ => ⟨S1x1x64, .f32⟩
  | .local _ .vmem, ⟨9, _⟩ => ⟨S1x1x64, .f32⟩
  | .local _ .vmem, ⟨10, _⟩ => ⟨S1x10000x64, .f32⟩
  | .local _ .vmem, ⟨11, _⟩ => ⟨S1x10000x64, .f32⟩
  | .local _ .vmem, ⟨12, _⟩ => ⟨S1x3x10000x64, .f32⟩
  | .local _ .vmem, ⟨13, _⟩ => ⟨S1x3x10000x64, .f32⟩
  | .local _ .vmem, ⟨14, _⟩ => ⟨S3x64x64, .f32⟩
  | .local _ .vmem, ⟨15, _⟩ => ⟨S1x64, .f32⟩
  | .local _ .vmem, ⟨16, _⟩ => ⟨S10000x64, .f32⟩
  | .local _ .vmem, ⟨17, _⟩ => ⟨S10000x64, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_cst : Ref sig .tc := ⟨.hbm, 36, rfl⟩
abbrev main_v20 : Ref sig .tc := ⟨.hbm, 37, rfl⟩
abbrev main_cst_0 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_cst_1 : Ref sig .tc := ⟨.hbm, 42, rfl⟩
abbrev main_call0_v0 : Ref sig .tc := ⟨.hbm, 43, rfl⟩
abbrev main_call0_v1 : Ref sig .tc := ⟨.hbm, 44, rfl⟩
abbrev main_v24 : Ref sig .tc := ⟨.hbm, 45, rfl⟩
abbrev main_cst_2 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_c : Ref sig .tc := ⟨.hbm, 52, rfl⟩
abbrev main_v30 : Ref sig .tc := ⟨.hbm, 53, rfl⟩
abbrev main_v31 : Ref sig .tc := ⟨.hbm, 54, rfl⟩
abbrev main_c_3 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_cst_4 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_c_5 : Ref sig .tc := ⟨.hbm, 70, rfl⟩
abbrev main_v45 : Ref sig .tc := ⟨.hbm, 71, rfl⟩
abbrev main_v46 : Ref sig .tc := ⟨.hbm, 72, rfl⟩
abbrev main_c_6 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_cst_7 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_cst_8 : Ref sig .tc := ⟨.hbm, 92, rfl⟩
abbrev main_v64 : Ref sig .tc := ⟨.hbm, 93, rfl⟩
abbrev main_cst_9 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_cst_10 : Ref sig .tc := ⟨.hbm, 98, rfl⟩
abbrev main_call1_v0 : Ref sig .tc := ⟨.hbm, 99, rfl⟩
abbrev main_call1_v1 : Ref sig .tc := ⟨.hbm, 100, rfl⟩
abbrev main_v68 : Ref sig .tc := ⟨.hbm, 101, rfl⟩
abbrev main_cst_11 : Ref sig .tc := ⟨.hbm, 102, rfl⟩
abbrev main_v69 : Ref sig .tc := ⟨.hbm, 103, rfl⟩
abbrev main_v70 : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩
abbrev main_c_12 : Ref sig .tc := ⟨.hbm, 108, rfl⟩
abbrev main_v74 : Ref sig .tc := ⟨.hbm, 109, rfl⟩
abbrev main_v75 : Ref sig .tc := ⟨.hbm, 110, rfl⟩
abbrev main_c_13 : Ref sig .tc := ⟨.hbm, 111, rfl⟩
abbrev main_v76 : Ref sig .tc := ⟨.hbm, 112, rfl⟩
abbrev main_v77 : Ref sig .tc := ⟨.hbm, 113, rfl⟩
abbrev main_v78 : Ref sig .tc := ⟨.hbm, 114, rfl⟩
abbrev main_v79 : Ref sig .tc := ⟨.hbm, 115, rfl⟩
abbrev main_v80 : Ref sig .tc := ⟨.hbm, 116, rfl⟩
abbrev main_cst_14 : Ref sig .tc := ⟨.hbm, 117, rfl⟩
abbrev main_v81 : Ref sig .tc := ⟨.hbm, 118, rfl⟩
abbrev main_v82 : Ref sig .tc := ⟨.hbm, 119, rfl⟩
abbrev main_v83 : Ref sig .tc := ⟨.hbm, 120, rfl⟩
abbrev main_v84 : Ref sig .tc := ⟨.hbm, 121, rfl⟩
abbrev main_v85 : Ref sig .tc := ⟨.hbm, 122, rfl⟩
abbrev main_v86 : Ref sig .tc := ⟨.hbm, 123, rfl⟩
abbrev main_v87 : Ref sig .tc := ⟨.hbm, 124, rfl⟩
abbrev main_v88 : Ref sig .tc := ⟨.hbm, 125, rfl⟩
abbrev main_c_15 : Ref sig .tc := ⟨.hbm, 126, rfl⟩
abbrev main_v89 : Ref sig .tc := ⟨.hbm, 127, rfl⟩
abbrev main_v90 : Ref sig .tc := ⟨.hbm, 128, rfl⟩
abbrev main_c_16 : Ref sig .tc := ⟨.hbm, 129, rfl⟩
abbrev main_v91 : Ref sig .tc := ⟨.hbm, 130, rfl⟩
abbrev main_v92 : Ref sig .tc := ⟨.hbm, 131, rfl⟩
abbrev main_v93 : Ref sig .tc := ⟨.hbm, 132, rfl⟩
abbrev main_v94 : Ref sig .tc := ⟨.hbm, 133, rfl⟩
abbrev main_v95 : Ref sig .tc := ⟨.hbm, 134, rfl⟩
abbrev main_cst_17 : Ref sig .tc := ⟨.hbm, 135, rfl⟩
abbrev main_v96 : Ref sig .tc := ⟨.hbm, 136, rfl⟩
abbrev main_v97 : Ref sig .tc := ⟨.hbm, 137, rfl⟩
abbrev main_v98 : Ref sig .tc := ⟨.hbm, 138, rfl⟩
abbrev main_v99 : Ref sig .tc := ⟨.hbm, 139, rfl⟩
abbrev main_v100 : Ref sig .tc := ⟨.hbm, 140, rfl⟩
abbrev main_v101 : Ref sig .tc := ⟨.hbm, 141, rfl⟩
abbrev main_v102 : Ref sig .tc := ⟨.hbm, 142, rfl⟩
abbrev main_v103 : Ref sig .tc := ⟨.hbm, 143, rfl⟩
abbrev main_v104 : Ref sig .tc := ⟨.hbm, 144, rfl⟩
abbrev main_v105 : Ref sig .tc := ⟨.hbm, 145, rfl⟩
abbrev main_v106 : Ref sig .tc := ⟨.hbm, 146, rfl⟩
abbrev main_v107 : Ref sig .tc := ⟨.hbm, 147, rfl⟩
abbrev main_v108 : Ref sig .tc := ⟨.hbm, 148, rfl⟩
abbrev main_v109 : Ref sig .tc := ⟨.hbm, 149, rfl⟩
abbrev main_v110 : Ref sig .tc := ⟨.hbm, 150, rfl⟩
abbrev main_v111 : Ref sig .tc := ⟨.hbm, 151, rfl⟩
abbrev main_cst_18 : Ref sig .tc := ⟨.hbm, 152, rfl⟩
abbrev main_v112 : Ref sig .tc := ⟨.hbm, 153, rfl⟩
abbrev main_cst_19 : Ref sig .tc := ⟨.hbm, 154, rfl⟩
abbrev main_v113 : Ref sig .tc := ⟨.hbm, 155, rfl⟩
abbrev main_v114 : Ref sig .tc := ⟨.hbm, 156, rfl⟩
abbrev main_v115 : Ref sig .tc := ⟨.hbm, 157, rfl⟩
abbrev main_cst_20 : Ref sig .tc := ⟨.hbm, 158, rfl⟩
abbrev main_v116 : Ref sig .tc := ⟨.hbm, 159, rfl⟩
abbrev main_v117 : Ref sig .tc := ⟨.hbm, 160, rfl⟩
abbrev main_v118 : Ref sig .tc := ⟨.hbm, 161, rfl⟩
abbrev main_cst_21 : Ref sig .tc := ⟨.hbm, 162, rfl⟩
abbrev main_v119 : Ref sig .tc := ⟨.hbm, 163, rfl⟩
abbrev main_v120 : Ref sig .tc := ⟨.hbm, 164, rfl⟩
abbrev main_v121 : Ref sig .tc := ⟨.hbm, 165, rfl⟩
abbrev main_cst_22 : Ref sig .tc := ⟨.hbm, 166, rfl⟩
abbrev main_v122 : Ref sig .tc := ⟨.hbm, 167, rfl⟩
abbrev main_cst_23 : Ref sig .tc := ⟨.hbm, 168, rfl⟩
abbrev main_v123 : Ref sig .tc := ⟨.hbm, 169, rfl⟩
abbrev main_v124 : Ref sig .tc := ⟨.hbm, 170, rfl⟩
abbrev main_v125 : Ref sig .tc := ⟨.hbm, 171, rfl⟩
abbrev main_cst_24 : Ref sig .tc := ⟨.hbm, 172, rfl⟩
abbrev main_v126 : Ref sig .tc := ⟨.hbm, 173, rfl⟩
abbrev main_v127 : Ref sig .tc := ⟨.hbm, 174, rfl⟩
abbrev main_v128 : Ref sig .tc := ⟨.hbm, 175, rfl⟩
abbrev main_cst_25 : Ref sig .tc := ⟨.hbm, 176, rfl⟩
abbrev main_v129 : Ref sig .tc := ⟨.hbm, 177, rfl⟩
abbrev main_v130 : Ref sig .tc := ⟨.hbm, 178, rfl⟩
abbrev main_v131 : Ref sig .tc := ⟨.hbm, 179, rfl⟩
abbrev main_cst_26 : Ref sig .tc := ⟨.hbm, 180, rfl⟩
abbrev main_v132 : Ref sig .tc := ⟨.hbm, 181, rfl⟩
abbrev main_cst_27 : Ref sig .tc := ⟨.hbm, 182, rfl⟩
abbrev main_v133 : Ref sig .tc := ⟨.hbm, 183, rfl⟩
abbrev main_v134 : Ref sig .tc := ⟨.hbm, 184, rfl⟩
abbrev main_v135 : Ref sig .tc := ⟨.hbm, 185, rfl⟩
abbrev main_cst_28 : Ref sig .tc := ⟨.hbm, 186, rfl⟩
abbrev main_v136 : Ref sig .tc := ⟨.hbm, 187, rfl⟩
abbrev main_v137 : Ref sig .tc := ⟨.hbm, 188, rfl⟩
abbrev main_v138 : Ref sig .tc := ⟨.hbm, 189, rfl⟩
abbrev main_cst_29 : Ref sig .tc := ⟨.hbm, 190, rfl⟩
abbrev main_v139 : Ref sig .tc := ⟨.hbm, 191, rfl⟩
abbrev main_v140 : Ref sig .tc := ⟨.hbm, 192, rfl⟩
abbrev main_v141 : Ref sig .tc := ⟨.hbm, 193, rfl⟩
abbrev main_v142 : Ref sig .tc := ⟨.hbm, 194, rfl⟩
abbrev main_v143 : Ref sig .tc := ⟨.hbm, 195, rfl⟩
abbrev main_v144 : Ref sig .tc := ⟨.hbm, 196, rfl⟩
abbrev main_v145 : Ref sig .tc := ⟨.hbm, 197, rfl⟩
abbrev main_v146 : Ref sig .tc := ⟨.hbm, 198, rfl⟩
abbrev main_v147 : Ref sig .tc := ⟨.hbm, 199, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg2_0 : Ref sig .tc := ⟨.vmem, 15, rfl⟩
abbrev cc1_stg3_0 : Ref sig .tc := ⟨.vmem, 16, rfl⟩
abbrev cc1_stg3_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc1_sem0_0 : DmaSem sig := 12
abbrev cc1_sem0_1 : DmaSem sig := 13
abbrev cc1_sem1_0 : DmaSem sig := 14
abbrev cc1_sem2_0 : DmaSem sig := 15
abbrev cc1_sem3_0 : DmaSem sig := 16
abbrev cc1_sem3_1 : DmaSem sig := 17

abbrev nD : Nat := 1
abbrev τ : Topo := Topo.v7x

variable {F : FTy → Type} [FloatOps F]

abbrev grid0 : Pipeline.Grid := ⟨2, ![2, 5], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x64x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x10000x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev grid1 : Pipeline.Grid := ⟨2, ![5, 2], ![false, false]⟩

def k1_cond1 (i : grid1.Coords) : BitVec 1 :=
  let arg1 : BitVec 32 := BitVec.ofNat 32 (i 1).val
  let c0_i32 : BitVec 32 := 0#32
  let v21 : BitVec 1 := Scalar.cmpi .eq arg1 c0_i32
  let v22 : BitVec 32 := Scalar.extui v21
  let c0_i32_22 : BitVec 32 := 0#32
  let v23 : BitVec 1 := Scalar.cmpi .ne v22 c0_i32_22
  v23

def k1_cond2 (i : grid1.Coords) : BitVec 1 :=
  let arg1 : BitVec 32 := BitVec.ofNat 32 (i 1).val
  let c0_i32_23 : BitVec 32 := 0#32
  let v24 : BitVec 1 := Scalar.cmpi .ne arg1 c0_i32_23
  let v25 : BitVec 32 := Scalar.extui v24
  let c0_i32_24 : BitVec 32 := 0#32
  let v26 : BitVec 1 := Scalar.cmpi .ne v25 c0_i32_24
  v26

def k1_cond3 (i : grid1.Coords) : BitVec 1 :=
  let arg1 : BitVec 32 := BitVec.ofNat 32 (i 1).val
  let c1_i32 : BitVec 32 := 1#32
  let v27 : BitVec 1 := Scalar.cmpi .eq arg1 c1_i32
  let v28 : BitVec 32 := Scalar.extui v27
  let c0_i32_25 : BitVec 32 := 0#32
  let v29 : BitVec 1 := Scalar.cmpi .ne v28 c0_i32_25
  v29

def cc1_transform_0 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, arg0.toNat, c0_i32_0.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S1x3x10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 1 → Memref sig .tc .vmem S3x64x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 2 → Memref sig .tc .vmem S10000x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

class Facts₀ : Prop where
  bcast_S50000x128_S1x50000x128_1_2 : S50000x128.BroadcastsInDim S1x50000x128 (![1, 2] : Fin 2 → Fin S1x50000x128.rank)
  concatenates_S1x50000x128_S1x50000x128_S2x50000x128_d0 : Shape.Concatenates [S1x50000x128, S1x50000x128] S2x50000x128 0
  bcast_S128x64_S1x128x64_1_2 : S128x64.BroadcastsInDim S1x128x64 (![1, 2] : Fin 2 → Fin S1x128x64.rank)
  concatenates_S1x128x64_S1x128x64_S2x128x64_d0 : Shape.Concatenates [S1x128x64, S1x128x64] S2x128x64 0
  bcast_S64_S1x64_1 : S64.BroadcastsInDim S1x64 (![1] : Fin 1 → Fin S1x64.rank)
  concatenates_S1x64_S1x64_S2x64_d0 : Shape.Concatenates [S1x64, S1x64] S2x64 0
  bcast_S64x64_S1x64x64_1_2 : S64x64.BroadcastsInDim S1x64x64 (![1, 2] : Fin 2 → Fin S1x64x64.rank)
  concatenates_S1x64x64_S1x64x64_S2x64x64_d0 : Shape.Concatenates [S1x64x64, S1x64x64] S2x64x64 0
  shapeCasts_S2x64_S2x1x64 : S2x64.ShapeCasts S2x1x64
  inb_S1x10000x128_S1x10000x128_0_0_0 : ∀ a, (![0, 0, 0] : Fin 3 → Nat) a + S1x10000x128.size a ≤ S1x10000x128.size a
  h_S1x10000x128 : 0 < S1x10000x128.numel
  shapeCasts_S1x10000x128_S10000x128 : S1x10000x128.ShapeCasts S10000x128
  inb_S1x128x64_S1x128x64_0_0_0 : ∀ a, (![0, 0, 0] : Fin 3 → Nat) a + S1x128x64.size a ≤ S1x128x64.size a
  h_S1x128x64 : 0 < S1x128x64.numel
  shapeCasts_S1x128x64_S128x64 : S1x128x64.ShapeCasts S128x64
  inb_S1x1x64_S1x1x64_0_0_0 : ∀ a, (![0, 0, 0] : Fin 3 → Nat) a + S1x1x64.size a ≤ S1x1x64.size a
  h_S1x1x64 : 0 < S1x1x64.numel
  shapeCasts_S1x1x64_S1x64 : S1x1x64.ShapeCasts S1x64
  broadcasts_S1x64_S10000x64 : S1x64.Broadcasts S10000x64
  inb_S1x64x64_S1x64x64_0_0_0 : ∀ a, (![0, 0, 0] : Fin 3 → Nat) a + S1x64x64.size a ≤ S1x64x64.size a
  h_S1x64x64 : 0 < S1x64x64.numel
  shapeCasts_S1x64x64_S64x64 : S1x64x64.ShapeCasts S64x64
  inb_S1x10000x64_S1x10000x64_0_0_0 : ∀ a, (![0, 0, 0] : Fin 3 → Nat) a + S1x10000x64.size a ≤ S1x10000x64.size a
  h_S1x10000x64 : 0 < S1x10000x64.numel
  shapeCasts_S1x10000x64_S10000x64 : S1x10000x64.ShapeCasts S10000x64
  shapeCasts_S10000x64_S1x10000x64 : S10000x64.ShapeCasts S1x10000x64
  slices_S2x50000x64_S1x50000x64_0_0_0 : S2x50000x64.Slices ![0, 0, 0] S1x50000x64
  shapeCasts_S1x50000x64_S50000x64 : S1x50000x64.ShapeCasts S50000x64
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S50000_S50000x1_0 : S50000.BroadcastsInDim S50000x1 (![0] : Fin 1 → Fin S50000x1.rank)
  bcast_S50000x1_S50000x64_0_1 : S50000x1.BroadcastsInDim S50000x64 (![0, 1] : Fin 2 → Fin S50000x64.rank)
  bcast_S_S50000x64 : S_.BroadcastsInDim S50000x64 (![] : Fin 0 → Fin S50000x64.rank)
  bcast_S50000x64_S1x50000x64_1_2 : S50000x64.BroadcastsInDim S1x50000x64 (![1, 2] : Fin 2 → Fin S1x50000x64.rank)
  concatenates_S1x50000x64_S1x50000x64_S1x50000x64_S3x50000x64_d0 : Shape.Concatenates [S1x50000x64, S1x50000x64, S1x50000x64] S3x50000x64 0
  slices_S2x50000x64_S1x50000x64_1_0_0 : S2x50000x64.Slices ![1, 0, 0] S1x50000x64
  bcast_S3x50000x64_S1x3x50000x64_1_2_3 : S3x50000x64.BroadcastsInDim S1x3x50000x64 (![1, 2, 3] : Fin 3 → Fin S1x3x50000x64.rank)
  concatenates_S1x3x50000x64_S1x3x50000x64_S2x3x50000x64_d0 : Shape.Concatenates [S1x3x50000x64, S1x3x50000x64] S2x3x50000x64 0
  slices_S192x64_S64x64_0_0 : S192x64.Slices ![0, 0] S64x64
  slices_S192x64_S64x64_64_0 : S192x64.Slices ![64, 0] S64x64
  slices_S192x64_S64x64_128_0 : S192x64.Slices ![128, 0] S64x64
  bcast_S_S64x64 : S_.BroadcastsInDim S64x64 (![] : Fin 0 → Fin S64x64.rank)
  concatenates_S1x64x64_S1x64x64_S1x64x64_S3x64x64_d0 : Shape.Concatenates [S1x64x64, S1x64x64, S1x64x64] S3x64x64 0
  shapeCasts_S64_S1x64 : S64.ShapeCasts S1x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  inb_S1x3x10000x64_S1x1x10000x64_0_0_0_0 : ∀ a, (![0, 0, 0, 0] : Fin 4 → Nat) a + S1x1x10000x64.size a ≤ S1x3x10000x64.size a
  h_S1x1x10000x64 : 0 < S1x1x10000x64.numel
  shapeCasts_S1x1x10000x64_S10000x64 : S1x1x10000x64.ShapeCasts S10000x64
  inb_S3x64x64_S1x64x64_0_0_0 : ∀ a, (![0, 0, 0] : Fin 3 → Nat) a + S1x64x64.size a ≤ S3x64x64.size a
  inb_S1x3x10000x64_S1x1x10000x64_0_1_0_0 : ∀ a, (![0, 1, 0, 0] : Fin 4 → Nat) a + S1x1x10000x64.size a ≤ S1x3x10000x64.size a
  inb_S3x64x64_S1x64x64_1_0_0 : ∀ a, (![1, 0, 0] : Fin 3 → Nat) a + S1x64x64.size a ≤ S3x64x64.size a
  inb_S1x3x10000x64_S1x1x10000x64_0_2_0_0 : ∀ a, (![0, 2, 0, 0] : Fin 4 → Nat) a + S1x1x10000x64.size a ≤ S1x3x10000x64.size a
  inb_S3x64x64_S1x64x64_2_0_0 : ∀ a, (![2, 0, 0] : Fin 3 → Nat) a + S1x64x64.size a ≤ S3x64x64.size a
  inb_S10000x64_S10000x64_0_0 : ∀ a, (![0, 0] : Fin 2 → Nat) a + S10000x64.size a ≤ S10000x64.size a
  h_S10000x64 : 0 < S10000x64.numel
  shapeCasts_S10000x64_S10000x64 : S10000x64.ShapeCasts S10000x64
  dot_S10000x128_S128x64_S10000x64_1_0_0_1_n_n_wf : DotDims.WF S10000x128 S128x64 S10000x64 [1] [0] [0] [1] [] []
  dot_S10000x64_S64x64_S10000x64_1_0_0_1_n_n_wf : DotDims.WF S10000x64 S64x64 S10000x64 [1] [0] [0] [1] [] []
  scatter_S50000_S800000x1_S800000_n_0_0_1_wf : ScatterDims.WF S50000 S800000x1 S800000 [] [0] [0] 1
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x10000x128.size a ≤ S2x50000x128.size a
  hwx0_0 : ∀ i : grid0.Coords, EltTy.bits .f32 = 32 ∨ (Rect.block (s := S2x50000x128) S1x10000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x128x64.size a ≤ S2x128x64.size a
  hwx0_1 : ∀ i : grid0.Coords, EltTy.bits .f32 = 32 ∨ (Rect.block (s := S2x128x64) S1x128x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x64.size a ≤ S2x1x64.size a
  hwx0_2 : ∀ i : grid0.Coords, EltTy.bits .f32 = 32 ∨ (Rect.block (s := S2x1x64) S1x1x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x64x64.size a ≤ S2x64x64.size a
  hwx0_3 : ∀ i : grid0.Coords, EltTy.bits .f32 = 32 ∨ (Rect.block (s := S2x64x64) S1x64x64.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1x64.size a ≤ S2x1x64.size a
  hwx0_4 : ∀ i : grid0.Coords, EltTy.bits .f32 = 32 ∨ (Rect.block (s := S2x1x64) S1x1x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x10000x64.size a ≤ S2x50000x64.size a
  hwx0_5 : ∀ i : grid0.Coords, EltTy.bits .f32 = 32 ∨ (Rect.block (s := S2x50000x64) S1x10000x64.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x3x10000x64.size a ≤ S2x3x50000x64.size a
  hwx1_0 : ∀ i : grid1.Coords, EltTy.bits .f32 = 32 ∨ (Rect.block (s := S2x3x50000x64) S1x3x10000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S3x64x64.size a ≤ S3x64x64.size a
  hwx1_1 : ∀ i : grid1.Coords, EltTy.bits .f32 = 32 ∨ (Rect.block (s := S3x64x64) S3x64x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x64.size a ≤ S1x64.size a
  hwx1_2 : ∀ i : grid1.Coords, EltTy.bits .f32 = 32 ∨ (Rect.block (s := S1x64) S1x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S10000x64.size a ≤ S50000x64.size a
  hwx1_3 : ∀ i : grid1.Coords, EltTy.bits .f32 = 32 ∨ (Rect.block (s := S50000x64) S10000x64.size (cc1_transform_3 i) (hinb1_3 i)).WholeWords (EltTy.packing .f32)

variable [Facts₀]

def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf

abbrev win0_0 : Pipeline.Window sig grid0 :=
  Pipeline.Window.ofSpec (Memref.whole main_v2) S1x10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v5) S1x128x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v15) S1x1x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v11) S1x64x64.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v16) S1x1x64.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v17) S1x10000x64.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v108) S1x3x10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v145) S3x64x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v146) S1x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v147) S10000x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun _ => false | 3 => fun i => !(k1_cond1 i == 1#1) && !(k1_cond2 i == 1#1) && !(k1_cond3 i == 1#1) | ⟨_ + 4, h⟩ => absurd h (Nat.not_lt.2 (Nat.le_add_left _ _))

class Facts : Prop extends Facts₀ where

variable [Facts]
-- ==== ReferenceIdeal.lean ====
abbrev S50000x128 : Shape := ⟨2, ![50000, 128]⟩
abbrev S800000 : Shape := ⟨1, ![800000]⟩
abbrev S128x64 : Shape := ⟨2, ![128, 64]⟩
abbrev S64 : Shape := ⟨1, ![64]⟩
abbrev S64x64 : Shape := ⟨2, ![64, 64]⟩
abbrev S192x64 : Shape := ⟨2, ![192, 64]⟩
abbrev S50000x64 : Shape := ⟨2, ![50000, 64]⟩
abbrev S1x64 : Shape := ⟨2, ![1, 64]⟩
abbrev S_ : Shape := ⟨0, ![]⟩
abbrev S50000 : Shape := ⟨1, ![50000]⟩
abbrev S800000x1 : Shape := ⟨2, ![800000, 1]⟩
abbrev S50000x1 : Shape := ⟨2, ![50000, 1]⟩
abbrev S800000x64 : Shape := ⟨2, ![800000, 64]⟩
abbrev S50000x192 : Shape := ⟨2, ![50000, 192]⟩

abbrev nBuf : Space → Nat
  | .hbm => 393
  | .vmem => 0
  | .smem => 0
  | _ => 0

abbrev hbmTy0_0 (i : Nat) : BufTy := match i % 128 with
  | 0 => ⟨S50000x128, .f32⟩
  | 1 => ⟨S50000x128, .f32⟩
  | 2 => ⟨S800000, .i32⟩
  | 3 => ⟨S800000, .i32⟩
  | 4 => ⟨S800000, .i32⟩
  | 5 => ⟨S800000, .i32⟩
  | 6 => ⟨S128x64, .f32⟩
  | 7 => ⟨S64, .f32⟩
  | 8 => ⟨S64x64, .f32⟩
  | 9 => ⟨S64, .f32⟩
  | 10 => ⟨S128x64, .f32⟩
  | 11 => ⟨S64, .f32⟩
  | 12 => ⟨S64x64, .f32⟩
  | 13 => ⟨S64, .f32⟩
  | 14 => ⟨S192x64, .f32⟩
  | 15 => ⟨S64, .f32⟩
  | 16 => ⟨S50000x64, .f32⟩
  | 17 => ⟨S1x64, .f32⟩
  | 18 => ⟨S50000x64, .f32⟩
  | 19 => ⟨S50000x64, .f32⟩
  | 20 => ⟨S_, .f32⟩
  | 21 => ⟨S_, .f32⟩
  | 22 => ⟨S50000x64, .f32⟩
  | 23 => ⟨S50000x64, .i1⟩
  | 24 => ⟨S_, .f32⟩
  | 25 => ⟨S50000x64, .f32⟩
  | 26 => ⟨S50000x64, .f32⟩
  | 27 => ⟨S50000x64, .f32⟩
  | 28 => ⟨S50000x64, .f32⟩
  | 29 => ⟨S1x64, .f32⟩
  | 30 => ⟨S50000x64, .f32⟩
  | 31 => ⟨S50000x64, .f32⟩
  | 32 => ⟨S_, .f32⟩
  | 33 => ⟨S_, .f32⟩
  | 34 => ⟨S50000x64, .f32⟩
  | 35 => ⟨S50000x64, .i1⟩
  | 36 => ⟨S_, .f32⟩
  | 37 => ⟨S50000x64, .f32⟩
  | 38 => ⟨S50000x64, .f32⟩
  | 39 => ⟨S50000x64, .f32⟩
  | 40 => ⟨S_, .f32⟩
  | 41 => ⟨S800000, .f32⟩
  | 42 => ⟨S_, .f32⟩
  | 43 => ⟨S50000, .f32⟩
  | 44 => ⟨S800000x1, .i32⟩
  | 45 => ⟨S50000, .f32⟩
  | 46 => ⟨S_, .f32⟩
  | 47 => ⟨S_, .f32⟩
  | 48 => ⟨S50000, .f32⟩
  | 49 => ⟨S50000, .f32⟩
  | 50 => ⟨S_, .f32⟩
  | 51 => ⟨S50000, .f32⟩
  | 52 => ⟨S50000, .f32⟩
  | 53 => ⟨S50000x1, .f32⟩
  | 54 => ⟨S_, .f32⟩
  | 55 => ⟨S50000x64, .f32⟩
  | 56 => ⟨S50000x64, .f32⟩
  | 57 => ⟨S50000x64, .f32⟩
  | 58 => ⟨S50000x64, .f32⟩
  | 59 => ⟨S_, .i32⟩
  | 60 => ⟨S800000, .i32⟩
  | 61 => ⟨S800000, .i1⟩
  | 62 => ⟨S_, .i32⟩
  | 63 => ⟨S800000, .i32⟩
  | 64 => ⟨S800000, .i32⟩
  | 65 => ⟨S800000, .i32⟩
  | 66 => ⟨S800000x1, .i32⟩
  | 67 => ⟨S800000x64, .f32⟩
  | 68 => ⟨S_, .f32⟩
  | 69 => ⟨S50000x64, .f32⟩
  | 70 => ⟨S800000x1, .i32⟩
  | 71 => ⟨S50000x64, .f32⟩
  | 72 => ⟨S50000x64, .f32⟩
  | 73 => ⟨S50000x64, .f32⟩
  | 74 => ⟨S50000x64, .f32⟩
  | 75 => ⟨S_, .f32⟩
  | 76 => ⟨S50000x64, .f32⟩
  | 77 => ⟨S50000x64, .f32⟩
  | 78 => ⟨S50000x64, .f32⟩
  | 79 => ⟨S50000x64, .f32⟩
  | 80 => ⟨S50000x64, .f32⟩
  | 81 => ⟨S_, .i32⟩
  | 82 => ⟨S800000, .i32⟩
  | 83 => ⟨S800000, .i1⟩
  | 84 => ⟨S_, .i32⟩
  | 85 => ⟨S800000, .i32⟩
  | 86 => ⟨S800000, .i32⟩
  | 87 => ⟨S800000, .i32⟩
  | 88 => ⟨S800000x1, .i32⟩
  | 89 => ⟨S800000x64, .f32⟩
  | 90 => ⟨S_, .f32⟩
  | 91 => ⟨S50000x64, .f32⟩
  | 92 => ⟨S800000x1, .i32⟩
  | 93 => ⟨S50000x64, .f32⟩
  | 94 => ⟨S50000x64, .f32⟩
  | 95 => ⟨S50000x64, .f32⟩
  | 96 => ⟨S50000x64, .f32⟩
  | 97 => ⟨S_, .f32⟩
  | 98 => ⟨S50000x64, .f32⟩
  | 99 => ⟨S50000x64, .f32⟩
  | 100 => ⟨S50000x64, .f32⟩
  | 101 => ⟨S_, .f32⟩
  | 102 => ⟨S50000x64, .f32⟩
  | 103 => ⟨S50000x64, .f32⟩
  | 104 => ⟨S50000x64, .f32⟩
  | 105 => ⟨S50000x64, .f32⟩
  | 106 => ⟨S_, .i32⟩
  | 107 => ⟨S800000, .i32⟩
  | 108 => ⟨S800000, .i1⟩
  | 109 => ⟨S_, .i32⟩
  | 110 => ⟨S800000, .i32⟩
  | 111 => ⟨S800000, .i32⟩
  | 112 => ⟨S800000, .i32⟩
  | 113 => ⟨S800000x1, .i32⟩
  | 114 => ⟨S800000x64, .f32⟩
  | 115 => ⟨S_, .f32⟩
  | 116 => ⟨S50000x64, .f32⟩
  | 117 => ⟨S800000x1, .i32⟩
  | 118 => ⟨S50000x64, .f32⟩
  | 119 => ⟨S50000x64, .f32⟩
  | 120 => ⟨S50000x64, .f32⟩
  | 121 => ⟨S50000x64, .f32⟩
  | 122 => ⟨S_, .f32⟩
  | 123 => ⟨S50000x64, .f32⟩
  | 124 => ⟨S50000x64, .f32⟩
  | 125 => ⟨S50000x64, .f32⟩
  | 126 => ⟨S50000x64, .f32⟩
  | 127 => ⟨S50000x64, .f32⟩
  | _ => ⟨S50000x128, .f32⟩

abbrev hbmTy0_1 (i : Nat) : BufTy := match i % 128 with
  | 0 => ⟨S_, .i32⟩
  | 1 => ⟨S800000, .i32⟩
  | 2 => ⟨S800000, .i1⟩
  | 3 => ⟨S_, .i32⟩
  | 4 => ⟨S800000, .i32⟩
  | 5 => ⟨S800000, .i32⟩
  | 6 => ⟨S800000, .i32⟩
  | 7 => ⟨S800000x1, .i32⟩
  | 8 => ⟨S800000x64, .f32⟩
  | 9 => ⟨S_, .f32⟩
  | 10 => ⟨S50000x64, .f32⟩
  | 11 => ⟨S800000x1, .i32⟩
  | 12 => ⟨S50000x64, .f32⟩
  | 13 => ⟨S50000x64, .f32⟩
  | 14 => ⟨S50000x64, .f32⟩
  | 15 => ⟨S50000x64, .f32⟩
  | 16 => ⟨S_, .f32⟩
  | 17 => ⟨S50000x64, .f32⟩
  | 18 => ⟨S50000x64, .f32⟩
  | 19 => ⟨S50000x64, .f32⟩
  | 20 => ⟨S_, .f32⟩
  | 21 => ⟨S50000x64, .f32⟩
  | 22 => ⟨S50000x64, .f32⟩
  | 23 => ⟨S50000x64, .f32⟩
  | 24 => ⟨S50000x64, .f32⟩
  | 25 => ⟨S_, .i32⟩
  | 26 => ⟨S800000, .i32⟩
  | 27 => ⟨S800000, .i1⟩
  | 28 => ⟨S_, .i32⟩
  | 29 => ⟨S800000, .i32⟩
  | 30 => ⟨S800000, .i32⟩
  | 31 => ⟨S800000, .i32⟩
  | 32 => ⟨S800000x1, .i32⟩
  | 33 => ⟨S800000x64, .f32⟩
  | 34 => ⟨S_, .f32⟩
  | 35 => ⟨S50000x64, .f32⟩
  | 36 => ⟨S800000x1, .i32⟩
  | 37 => ⟨S50000x64, .f32⟩
  | 38 => ⟨S50000x64, .f32⟩
  | 39 => ⟨S50000x64, .f32⟩
  | 40 => ⟨S50000x64, .f32⟩
  | 41 => ⟨S_, .f32⟩
  | 42 => ⟨S50000x64, .f32⟩
  | 43 => ⟨S50000x64, .f32⟩
  | 44 => ⟨S50000x64, .f32⟩
  | 45 => ⟨S50000x64, .f32⟩
  | 46 => ⟨S50000x64, .f32⟩
  | 47 => ⟨S_, .i32⟩
  | 48 => ⟨S800000, .i32⟩
  | 49 => ⟨S800000, .i1⟩
  | 50 => ⟨S_, .i32⟩
  | 51 => ⟨S800000, .i32⟩
  | 52 => ⟨S800000, .i32⟩
  | 53 => ⟨S800000, .i32⟩
  | 54 => ⟨S800000x1, .i32⟩
  | 55 => ⟨S800000x64, .f32⟩
  | 56 => ⟨S_, .f32⟩
  | 57 => ⟨S50000x64, .f32⟩
  | 58 => ⟨S800000x1, .i32⟩
  | 59 => ⟨S50000x64, .f32⟩
  | 60 => ⟨S50000x64, .f32⟩
  | 61 => ⟨S50000x64, .f32⟩
  | 62 => ⟨S50000x64, .f32⟩
  | 63 => ⟨S_, .f32⟩
  | 64 => ⟨S50000x64, .f32⟩
  | 65 => ⟨S50000x64, .f32⟩
  | 66 => ⟨S50000x64, .f32⟩
  | 67 => ⟨S50000x192, .f32⟩
  | 68 => ⟨S50000x64, .f32⟩
  | 69 => ⟨S1x64, .f32⟩
  | 70 => ⟨S50000x64, .f32⟩
  | 71 => ⟨S50000x64, .f32⟩
  | 72 => ⟨S50000x64, .f32⟩
  | 73 => ⟨S1x64, .f32⟩
  | 74 => ⟨S50000x64, .f32⟩
  | 75 => ⟨S50000x64, .f32⟩
  | 76 => ⟨S_, .f32⟩
  | 77 => ⟨S_, .f32⟩
  | 78 => ⟨S50000x64, .f32⟩
  | 79 => ⟨S50000x64, .i1⟩
  | 80 => ⟨S_, .f32⟩
  | 81 => ⟨S50000x64, .f32⟩
  | 82 => ⟨S50000x64, .f32⟩
  | 83 => ⟨S50000x64, .f32⟩
  | 84 => ⟨S50000x64, .f32⟩
  | 85 => ⟨S1x64, .f32⟩
  | 86 => ⟨S50000x64, .f32⟩
  | 87 => ⟨S50000x64, .f32⟩
  | 88 => ⟨S_, .f32⟩
  | 89 => ⟨S_, .f32⟩
  | 90 => ⟨S50000x64, .f32⟩
  | 91 => ⟨S50000x64, .i1⟩
  | 92 => ⟨S_, .f32⟩
  | 93 => ⟨S50000x64, .f32⟩
  | 94 => ⟨S50000x64, .f32⟩
  | 95 => ⟨S50000x64, .f32⟩
  | 96 => ⟨S_, .f32⟩
  | 97 => ⟨S800000, .f32⟩
  | 98 => ⟨S_, .f32⟩
  | 99 => ⟨S50000, .f32⟩
  | 100 => ⟨S800000x1, .i32⟩
  | 101 => ⟨S50000, .f32⟩
  | 102 => ⟨S_, .f32⟩
  | 103 => ⟨S_, .f32⟩
  | 104 => ⟨S50000, .f32⟩
  | 105 => ⟨S50000, .f32⟩
  | 106 => ⟨S_, .f32⟩
  | 107 => ⟨S50000, .f32⟩
  | 108 => ⟨S50000, .f32⟩
  | 109 => ⟨S50000x1, .f32⟩
  | 110 => ⟨S_, .f32⟩
  | 111 => ⟨S50000x64, .f32⟩
  | 112 => ⟨S50000x64, .f32⟩
  | 113 => ⟨S50000x64, .f32⟩
  | 114 => ⟨S50000x64, .f32⟩
  | 115 => ⟨S_, .i32⟩
  | 116 => ⟨S800000, .i32⟩
  | 117 => ⟨S800000, .i1⟩
  | 118 => ⟨S_, .i32⟩
  | 119 => ⟨S800000, .i32⟩
  | 120 => ⟨S800000, .i32⟩
  | 121 => ⟨S800000, .i32⟩
  | 122 => ⟨S800000x1, .i32⟩
  | 123 => ⟨S800000x64, .f32⟩
  | 124 => ⟨S_, .f32⟩
  | 125 => ⟨S50000x64, .f32⟩
  | 126 => ⟨S800000x1, .i32⟩
  | 127 => ⟨S50000x64, .f32⟩
  | _ => ⟨S50000x128, .f32⟩

abbrev hbmTy0_2 (i : Nat) : BufTy := match i % 128 with
  | 0 => ⟨S50000x64, .f32⟩
  | 1 => ⟨S50000x64, .f32⟩
  | 2 => ⟨S50000x64, .f32⟩
  | 3 => ⟨S_, .f32⟩
  | 4 => ⟨S50000x64, .f32⟩
  | 5 => ⟨S50000x64, .f32⟩
  | 6 => ⟨S50000x64, .f32⟩
  | 7 => ⟨S50000x64, .f32⟩
  | 8 => ⟨S50000x64, .f32⟩
  | 9 => ⟨S_, .i32⟩
  | 10 => ⟨S800000, .i32⟩
  | 11 => ⟨S800000, .i1⟩
  | 12 => ⟨S_, .i32⟩
  | 13 => ⟨S800000, .i32⟩
  | 14 => ⟨S800000, .i32⟩
  | 15 => ⟨S800000, .i32⟩
  | 16 => ⟨S800000x1, .i32⟩
  | 17 => ⟨S800000x64, .f32⟩
  | 18 => ⟨S_, .f32⟩
  | 19 => ⟨S50000x64, .f32⟩
  | 20 => ⟨S800000x1, .i32⟩
  | 21 => ⟨S50000x64, .f32⟩
  | 22 => ⟨S50000x64, .f32⟩
  | 23 => ⟨S50000x64, .f32⟩
  | 24 => ⟨S50000x64, .f32⟩
  | 25 => ⟨S_, .f32⟩
  | 26 => ⟨S50000x64, .f32⟩
  | 27 => ⟨S50000x64, .f32⟩
  | 28 => ⟨S50000x64, .f32⟩
  | 29 => ⟨S_, .f32⟩
  | 30 => ⟨S50000x64, .f32⟩
  | 31 => ⟨S50000x64, .f32⟩
  | 32 => ⟨S50000x64, .f32⟩
  | 33 => ⟨S50000x64, .f32⟩
  | 34 => ⟨S_, .i32⟩
  | 35 => ⟨S800000, .i32⟩
  | 36 => ⟨S800000, .i1⟩
  | 37 => ⟨S_, .i32⟩
  | 38 => ⟨S800000, .i32⟩
  | 39 => ⟨S800000, .i32⟩
  | 40 => ⟨S800000, .i32⟩
  | 41 => ⟨S800000x1, .i32⟩
  | 42 => ⟨S800000x64, .f32⟩
  | 43 => ⟨S_, .f32⟩
  | 44 => ⟨S50000x64, .f32⟩
  | 45 => ⟨S800000x1, .i32⟩
  | 46 => ⟨S50000x64, .f32⟩
  | 47 => ⟨S50000x64, .f32⟩
  | 48 => ⟨S50000x64, .f32⟩
  | 49 => ⟨S50000x64, .f32⟩
  | 50 => ⟨S_, .f32⟩
  | 51 => ⟨S50000x64, .f32⟩
  | 52 => ⟨S50000x64, .f32⟩
  | 53 => ⟨S50000x64, .f32⟩
  | 54 => ⟨S50000x64, .f32⟩
  | 55 => ⟨S50000x64, .f32⟩
  | 56 => ⟨S_, .i32⟩
  | 57 => ⟨S800000, .i32⟩
  | 58 => ⟨S800000, .i1⟩
  | 59 => ⟨S_, .i32⟩
  | 60 => ⟨S800000, .i32⟩
  | 61 => ⟨S800000, .i32⟩
  | 62 => ⟨S800000, .i32⟩
  | 63 => ⟨S800000x1, .i32⟩
  | 64 => ⟨S800000x64, .f32⟩
  | 65 => ⟨S_, .f32⟩
  | 66 => ⟨S50000x64, .f32⟩
  | 67 => ⟨S800000x1, .i32⟩
  | 68 => ⟨S50000x64, .f32⟩
  | 69 => ⟨S50000x64, .f32⟩
  | 70 => ⟨S50000x64, .f32⟩
  | 71 => ⟨S50000x64, .f32⟩
  | 72 => ⟨S_, .f32⟩
  | 73 => ⟨S50000x64, .f32⟩
  | 74 => ⟨S50000x64, .f32⟩
  | 75 => ⟨S50000x64, .f32⟩
  | 76 => ⟨S_, .f32⟩
  | 77 => ⟨S50000x64, .f32⟩
  | 78 => ⟨S50000x64, .f32⟩
  | 79 => ⟨S50000x64, .f32⟩
  | 80 => ⟨S50000x64, .f32⟩
  | 81 => ⟨S_, .i32⟩
  | 82 => ⟨S800000, .i32⟩
  | 83 => ⟨S800000, .i1⟩
  | 84 => ⟨S_, .i32⟩
  | 85 => ⟨S800000, .i32⟩
  | 86 => ⟨S800000, .i32⟩
  | 87 => ⟨S800000, .i32⟩
  | 88 => ⟨S800000x1, .i32⟩
  | 89 => ⟨S800000x64, .f32⟩
  | 90 => ⟨S_, .f32⟩
  | 91 => ⟨S50000x64, .f32⟩
  | 92 => ⟨S800000x1, .i32⟩
  | 93 => ⟨S50000x64, .f32⟩
  | 94 => ⟨S50000x64, .f32⟩
  | 95 => ⟨S50000x64, .f32⟩
  | 96 => ⟨S50000x64, .f32⟩
  | 97 => ⟨S_, .f32⟩
  | 98 => ⟨S50000x64, .f32⟩
  | 99 => ⟨S50000x64, .f32⟩
  | 100 => ⟨S50000x64, .f32⟩
  | 101 => ⟨S50000x64, .f32⟩
  | 102 => ⟨S50000x64, .f32⟩
  | 103 => ⟨S_, .i32⟩
  | 104 => ⟨S800000, .i32⟩
  | 105 => ⟨S800000, .i1⟩
  | 106 => ⟨S_, .i32⟩
  | 107 => ⟨S800000, .i32⟩
  | 108 => ⟨S800000, .i32⟩
  | 109 => ⟨S800000, .i32⟩
  | 110 => ⟨S800000x1, .i32⟩
  | 111 => ⟨S800000x64, .f32⟩
  | 112 => ⟨S_, .f32⟩
  | 113 => ⟨S50000x64, .f32⟩
  | 114 => ⟨S800000x1, .i32⟩
  | 115 => ⟨S50000x64, .f32⟩
  | 116 => ⟨S50000x64, .f32⟩
  | 117 => ⟨S50000x64, .f32⟩
  | 118 => ⟨S50000x64, .f32⟩
  | 119 => ⟨S_, .f32⟩
  | 120 => ⟨S50000x64, .f32⟩
  | 121 => ⟨S50000x64, .f32⟩
  | 122 => ⟨S50000x64, .f32⟩
  | 123 => ⟨S50000x192, .f32⟩
  | 124 => ⟨S50000x64, .f32⟩
  | 125 => ⟨S1x64, .f32⟩
  | 126 => ⟨S50000x64, .f32⟩
  | 127 => ⟨S50000x64, .f32⟩
  | _ => ⟨S50000x128, .f32⟩

abbrev hbmTy0_3 (i : Nat) : BufTy := match i % 128 with
  | 0 => ⟨S50000x64, .f32⟩
  | 1 => ⟨S_, .f32⟩
  | 2 => ⟨S_, .f32⟩
  | 3 => ⟨S50000x64, .f32⟩
  | 4 => ⟨S50000x64, .i1⟩
  | 5 => ⟨S_, .f32⟩
  | 6 => ⟨S50000x64, .f32⟩
  | 7 => ⟨S50000x64, .f32⟩
  | 8 => ⟨S50000x64, .f32⟩
  | _ => ⟨S50000x128, .f32⟩

abbrev hbmTy (i : Nat) : BufTy := match i / 128 with
  | 0 => hbmTy0_0 i
  | 1 => hbmTy0_1 i
  | 2 => hbmTy0_2 i
  | 3 => hbmTy0_3 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_cst : Ref sig .tc := ⟨.hbm, 20, rfl⟩
abbrev main_call0_cst : Ref sig .tc := ⟨.hbm, 21, rfl⟩
abbrev main_call0_v0 : Ref sig .tc := ⟨.hbm, 22, rfl⟩
abbrev main_call0_v1 : Ref sig .tc := ⟨.hbm, 23, rfl⟩
abbrev main_call0_v2 : Ref sig .tc := ⟨.hbm, 24, rfl⟩
abbrev main_call0_v3 : Ref sig .tc := ⟨.hbm, 25, rfl⟩
abbrev main_call0_v4 : Ref sig .tc := ⟨.hbm, 26, rfl⟩
abbrev main_v4 : Ref sig .tc := ⟨.hbm, 27, rfl⟩
abbrev main_v5 : Ref sig .tc := ⟨.hbm, 28, rfl⟩
abbrev main_v6 : Ref sig .tc := ⟨.hbm, 29, rfl⟩
abbrev main_v7 : Ref sig .tc := ⟨.hbm, 30, rfl⟩
abbrev main_v8 : Ref sig .tc := ⟨.hbm, 31, rfl⟩
abbrev main_cst_0 : Ref sig .tc := ⟨.hbm, 32, rfl⟩
abbrev main_call1_cst : Ref sig .tc := ⟨.hbm, 33, rfl⟩
abbrev main_call1_v0 : Ref sig .tc := ⟨.hbm, 34, rfl⟩
abbrev main_call1_v1 : Ref sig .tc := ⟨.hbm, 35, rfl⟩
abbrev main_call1_v2 : Ref sig .tc := ⟨.hbm, 36, rfl⟩
abbrev main_call1_v3 : Ref sig .tc := ⟨.hbm, 37, rfl⟩
abbrev main_call1_v4 : Ref sig .tc := ⟨.hbm, 38, rfl⟩
abbrev main_v9 : Ref sig .tc := ⟨.hbm, 39, rfl⟩
abbrev main_cst_1 : Ref sig .tc := ⟨.hbm, 40, rfl⟩
abbrev main_v10 : Ref sig .tc := ⟨.hbm, 41, rfl⟩
abbrev main_cst_2 : Ref sig .tc := ⟨.hbm, 42, rfl⟩
abbrev main_v11 : Ref sig .tc := ⟨.hbm, 43, rfl⟩
abbrev main_v12 : Ref sig .tc := ⟨.hbm, 44, rfl⟩
abbrev main_v13 : Ref sig .tc := ⟨.hbm, 45, rfl⟩
abbrev main_cst_3 : Ref sig .tc := ⟨.hbm, 46, rfl⟩
abbrev main_call2_v0 : Ref sig .tc := ⟨.hbm, 47, rfl⟩
abbrev main_call2_v1 : Ref sig .tc := ⟨.hbm, 48, rfl⟩
abbrev main_v14 : Ref sig .tc := ⟨.hbm, 49, rfl⟩
abbrev main_cst_4 : Ref sig .tc := ⟨.hbm, 50, rfl⟩
abbrev main_v15 : Ref sig .tc := ⟨.hbm, 51, rfl⟩
abbrev main_v16 : Ref sig .tc := ⟨.hbm, 52, rfl⟩
abbrev main_v17 : Ref sig .tc := ⟨.hbm, 53, rfl⟩
abbrev main_cst_5 : Ref sig .tc := ⟨.hbm, 54, rfl⟩
abbrev main_v18 : Ref sig .tc := ⟨.hbm, 55, rfl⟩
abbrev main_v19 : Ref sig .tc := ⟨.hbm, 56, rfl⟩
abbrev main_v20 : Ref sig .tc := ⟨.hbm, 57, rfl⟩
abbrev main_v21 : Ref sig .tc := ⟨.hbm, 58, rfl⟩
abbrev main_c : Ref sig .tc := ⟨.hbm, 59, rfl⟩
abbrev main_v22 : Ref sig .tc := ⟨.hbm, 60, rfl⟩
abbrev main_v23 : Ref sig .tc := ⟨.hbm, 61, rfl⟩
abbrev main_c_6 : Ref sig .tc := ⟨.hbm, 62, rfl⟩
abbrev main_v24 : Ref sig .tc := ⟨.hbm, 63, rfl⟩
abbrev main_v25 : Ref sig .tc := ⟨.hbm, 64, rfl⟩
abbrev main_v26 : Ref sig .tc := ⟨.hbm, 65, rfl⟩
abbrev main_v27 : Ref sig .tc := ⟨.hbm, 66, rfl⟩
abbrev main_v28 : Ref sig .tc := ⟨.hbm, 67, rfl⟩
abbrev main_cst_7 : Ref sig .tc := ⟨.hbm, 68, rfl⟩
abbrev main_v29 : Ref sig .tc := ⟨.hbm, 69, rfl⟩
abbrev main_v30 : Ref sig .tc := ⟨.hbm, 70, rfl⟩
abbrev main_v31 : Ref sig .tc := ⟨.hbm, 71, rfl⟩
abbrev main_v32 : Ref sig .tc := ⟨.hbm, 72, rfl⟩
abbrev main_v33 : Ref sig .tc := ⟨.hbm, 73, rfl⟩
abbrev main_v34 : Ref sig .tc := ⟨.hbm, 74, rfl⟩
abbrev main_cst_8 : Ref sig .tc := ⟨.hbm, 75, rfl⟩
abbrev main_v35 : Ref sig .tc := ⟨.hbm, 76, rfl⟩
abbrev main_v36 : Ref sig .tc := ⟨.hbm, 77, rfl⟩
abbrev main_v37 : Ref sig .tc := ⟨.hbm, 78, rfl⟩
abbrev main_v38 : Ref sig .tc := ⟨.hbm, 79, rfl⟩
abbrev main_v39 : Ref sig .tc := ⟨.hbm, 80, rfl⟩
abbrev main_c_9 : Ref sig .tc := ⟨.hbm, 81, rfl⟩
abbrev main_v40 : Ref sig .tc := ⟨.hbm, 82, rfl⟩
abbrev main_v41 : Ref sig .tc := ⟨.hbm, 83, rfl⟩
abbrev main_c_10 : Ref sig .tc := ⟨.hbm, 84, rfl⟩
abbrev main_v42 : Ref sig .tc := ⟨.hbm, 85, rfl⟩
abbrev main_v43 : Ref sig .tc := ⟨.hbm, 86, rfl⟩
abbrev main_v44 : Ref sig .tc := ⟨.hbm, 87, rfl⟩
abbrev main_v45 : Ref sig .tc := ⟨.hbm, 88, rfl⟩
abbrev main_v46 : Ref sig .tc := ⟨.hbm, 89, rfl⟩
abbrev main_cst_11 : Ref sig .tc := ⟨.hbm, 90, rfl⟩
abbrev main_v47 : Ref sig .tc := ⟨.hbm, 91, rfl⟩
abbrev main_v48 : Ref sig .tc := ⟨.hbm, 92, rfl⟩
abbrev main_v49 : Ref sig .tc := ⟨.hbm, 93, rfl⟩
abbrev main_v50 : Ref sig .tc := ⟨.hbm, 94, rfl⟩
abbrev main_v51 : Ref sig .tc := ⟨.hbm, 95, rfl⟩
abbrev main_v52 : Ref sig .tc := ⟨.hbm, 96, rfl⟩
abbrev main_cst_12 : Ref sig .tc := ⟨.hbm, 97, rfl⟩
abbrev main_v53 : Ref sig .tc := ⟨.hbm, 98, rfl⟩
abbrev main_v54 : Ref sig .tc := ⟨.hbm, 99, rfl⟩
abbrev main_v55 : Ref sig .tc := ⟨.hbm, 100, rfl⟩
abbrev main_cst_13 : Ref sig .tc := ⟨.hbm, 101, rfl⟩
abbrev main_v56 : Ref sig .tc := ⟨.hbm, 102, rfl⟩
abbrev main_v57 : Ref sig .tc := ⟨.hbm, 103, rfl⟩
abbrev main_v58 : Ref sig .tc := ⟨.hbm, 104, rfl⟩
abbrev main_v59 : Ref sig .tc := ⟨.hbm, 105, rfl⟩
abbrev main_c_14 : Ref sig .tc := ⟨.hbm, 106, rfl⟩
abbrev main_v60 : Ref sig .tc := ⟨.hbm, 107, rfl⟩
abbrev main_v61 : Ref sig .tc := ⟨.hbm, 108, rfl⟩
abbrev main_c_15 : Ref sig .tc := ⟨.hbm, 109, rfl⟩
abbrev main_v62 : Ref sig .tc := ⟨.hbm, 110, rfl⟩
abbrev main_v63 : Ref sig .tc := ⟨.hbm, 111, rfl⟩
abbrev main_v64 : Ref sig .tc := ⟨.hbm, 112, rfl⟩
abbrev main_v65 : Ref sig .tc := ⟨.hbm, 113, rfl⟩
abbrev main_v66 : Ref sig .tc := ⟨.hbm, 114, rfl⟩
abbrev main_cst_16 : Ref sig .tc := ⟨.hbm, 115, rfl⟩
abbrev main_v67 : Ref sig .tc := ⟨.hbm, 116, rfl⟩
abbrev main_v68 : Ref sig .tc := ⟨.hbm, 117, rfl⟩
abbrev main_v69 : Ref sig .tc := ⟨.hbm, 118, rfl⟩
abbrev main_v70 : Ref sig .tc := ⟨.hbm, 119, rfl⟩
abbrev main_v71 : Ref sig .tc := ⟨.hbm, 120, rfl⟩
abbrev main_v72 : Ref sig .tc := ⟨.hbm, 121, rfl⟩
abbrev main_cst_17 : Ref sig .tc := ⟨.hbm, 122, rfl⟩
abbrev main_v73 : Ref sig .tc := ⟨.hbm, 123, rfl⟩
abbrev main_v74 : Ref sig .tc := ⟨.hbm, 124, rfl⟩
abbrev main_v75 : Ref sig .tc := ⟨.hbm, 125, rfl⟩
abbrev main_v76 : Ref sig .tc := ⟨.hbm, 126, rfl⟩
abbrev main_v77 : Ref sig .tc := ⟨.hbm, 127, rfl⟩
abbrev main_c_18 : Ref sig .tc := ⟨.hbm, 128, rfl⟩
abbrev main_v78 : Ref sig .tc := ⟨.hbm, 129, rfl⟩
abbrev main_v79 : Ref sig .tc := ⟨.hbm, 130, rfl⟩
abbrev main_c_19 : Ref sig .tc := ⟨.hbm, 131, rfl⟩
abbrev main_v80 : Ref sig .tc := ⟨.hbm, 132, rfl⟩
abbrev main_v81 : Ref sig .tc := ⟨.hbm, 133, rfl⟩
abbrev main_v82 : Ref sig .tc := ⟨.hbm, 134, rfl⟩
abbrev main_v83 : Ref sig .tc := ⟨.hbm, 135, rfl⟩
abbrev main_v84 : Ref sig .tc := ⟨.hbm, 136, rfl⟩
abbrev main_cst_20 : Ref sig .tc := ⟨.hbm, 137, rfl⟩
abbrev main_v85 : Ref sig .tc := ⟨.hbm, 138, rfl⟩
abbrev main_v86 : Ref sig .tc := ⟨.hbm, 139, rfl⟩
abbrev main_v87 : Ref sig .tc := ⟨.hbm, 140, rfl⟩
abbrev main_v88 : Ref sig .tc := ⟨.hbm, 141, rfl⟩
abbrev main_v89 : Ref sig .tc := ⟨.hbm, 142, rfl⟩
abbrev main_v90 : Ref sig .tc := ⟨.hbm, 143, rfl⟩
abbrev main_cst_21 : Ref sig .tc := ⟨.hbm, 144, rfl⟩
abbrev main_v91 : Ref sig .tc := ⟨.hbm, 145, rfl⟩
abbrev main_v92 : Ref sig .tc := ⟨.hbm, 146, rfl⟩
abbrev main_v93 : Ref sig .tc := ⟨.hbm, 147, rfl⟩
abbrev main_cst_22 : Ref sig .tc := ⟨.hbm, 148, rfl⟩
abbrev main_v94 : Ref sig .tc := ⟨.hbm, 149, rfl⟩
abbrev main_v95 : Ref sig .tc := ⟨.hbm, 150, rfl⟩
abbrev main_v96 : Ref sig .tc := ⟨.hbm, 151, rfl⟩
abbrev main_v97 : Ref sig .tc := ⟨.hbm, 152, rfl⟩
abbrev main_c_23 : Ref sig .tc := ⟨.hbm, 153, rfl⟩
abbrev main_v98 : Ref sig .tc := ⟨.hbm, 154, rfl⟩
abbrev main_v99 : Ref sig .tc := ⟨.hbm, 155, rfl⟩
abbrev main_c_24 : Ref sig .tc := ⟨.hbm, 156, rfl⟩
abbrev main_v100 : Ref sig .tc := ⟨.hbm, 157, rfl⟩
abbrev main_v101 : Ref sig .tc := ⟨.hbm, 158, rfl⟩
abbrev main_v102 : Ref sig .tc := ⟨.hbm, 159, rfl⟩
abbrev main_v103 : Ref sig .tc := ⟨.hbm, 160, rfl⟩
abbrev main_v104 : Ref sig .tc := ⟨.hbm, 161, rfl⟩
abbrev main_cst_25 : Ref sig .tc := ⟨.hbm, 162, rfl⟩
abbrev main_v105 : Ref sig .tc := ⟨.hbm, 163, rfl⟩
abbrev main_v106 : Ref sig .tc := ⟨.hbm, 164, rfl⟩
abbrev main_v107 : Ref sig .tc := ⟨.hbm, 165, rfl⟩
abbrev main_v108 : Ref sig .tc := ⟨.hbm, 166, rfl⟩
abbrev main_v109 : Ref sig .tc := ⟨.hbm, 167, rfl⟩
abbrev main_v110 : Ref sig .tc := ⟨.hbm, 168, rfl⟩
abbrev main_cst_26 : Ref sig .tc := ⟨.hbm, 169, rfl⟩
abbrev main_v111 : Ref sig .tc := ⟨.hbm, 170, rfl⟩
abbrev main_v112 : Ref sig .tc := ⟨.hbm, 171, rfl⟩
abbrev main_v113 : Ref sig .tc := ⟨.hbm, 172, rfl⟩
abbrev main_v114 : Ref sig .tc := ⟨.hbm, 173, rfl⟩
abbrev main_v115 : Ref sig .tc := ⟨.hbm, 174, rfl⟩
abbrev main_c_27 : Ref sig .tc := ⟨.hbm, 175, rfl⟩
abbrev main_v116 : Ref sig .tc := ⟨.hbm, 176, rfl⟩
abbrev main_v117 : Ref sig .tc := ⟨.hbm, 177, rfl⟩
abbrev main_c_28 : Ref sig .tc := ⟨.hbm, 178, rfl⟩
abbrev main_v118 : Ref sig .tc := ⟨.hbm, 179, rfl⟩
abbrev main_v119 : Ref sig .tc := ⟨.hbm, 180, rfl⟩
abbrev main_v120 : Ref sig .tc := ⟨.hbm, 181, rfl⟩
abbrev main_v121 : Ref sig .tc := ⟨.hbm, 182, rfl⟩
abbrev main_v122 : Ref sig .tc := ⟨.hbm, 183, rfl⟩
abbrev main_cst_29 : Ref sig .tc := ⟨.hbm, 184, rfl⟩
abbrev main_v123 : Ref sig .tc := ⟨.hbm, 185, rfl⟩
abbrev main_v124 : Ref sig .tc := ⟨.hbm, 186, rfl⟩
abbrev main_v125 : Ref sig .tc := ⟨.hbm, 187, rfl⟩
abbrev main_v126 : Ref sig .tc := ⟨.hbm, 188, rfl⟩
abbrev main_v127 : Ref sig .tc := ⟨.hbm, 189, rfl⟩
abbrev main_v128 : Ref sig .tc := ⟨.hbm, 190, rfl⟩
abbrev main_cst_30 : Ref sig .tc := ⟨.hbm, 191, rfl⟩
abbrev main_v129 : Ref sig .tc := ⟨.hbm, 192, rfl⟩
abbrev main_v130 : Ref sig .tc := ⟨.hbm, 193, rfl⟩
abbrev main_v131 : Ref sig .tc := ⟨.hbm, 194, rfl⟩
abbrev main_v132 : Ref sig .tc := ⟨.hbm, 195, rfl⟩
abbrev main_v133 : Ref sig .tc := ⟨.hbm, 196, rfl⟩
abbrev main_v134 : Ref sig .tc := ⟨.hbm, 197, rfl⟩
abbrev main_v135 : Ref sig .tc := ⟨.hbm, 198, rfl⟩
abbrev main_v136 : Ref sig .tc := ⟨.hbm, 199, rfl⟩
abbrev main_v137 : Ref sig .tc := ⟨.hbm, 200, rfl⟩
abbrev main_v138 : Ref sig .tc := ⟨.hbm, 201, rfl⟩
abbrev main_v139 : Ref sig .tc := ⟨.hbm, 202, rfl⟩
abbrev main_v140 : Ref sig .tc := ⟨.hbm, 203, rfl⟩
abbrev main_cst_31 : Ref sig .tc := ⟨.hbm, 204, rfl⟩
abbrev main_call3_cst : Ref sig .tc := ⟨.hbm, 205, rfl⟩
abbrev main_call3_v0 : Ref sig .tc := ⟨.hbm, 206, rfl⟩
abbrev main_call3_v1 : Ref sig .tc := ⟨.hbm, 207, rfl⟩
abbrev main_call3_v2 : Ref sig .tc := ⟨.hbm, 208, rfl⟩
abbrev main_call3_v3 : Ref sig .tc := ⟨.hbm, 209, rfl⟩
abbrev main_call3_v4 : Ref sig .tc := ⟨.hbm, 210, rfl⟩
abbrev main_v141 : Ref sig .tc := ⟨.hbm, 211, rfl⟩
abbrev main_v142 : Ref sig .tc := ⟨.hbm, 212, rfl⟩
abbrev main_v143 : Ref sig .tc := ⟨.hbm, 213, rfl⟩
abbrev main_v144 : Ref sig .tc := ⟨.hbm, 214, rfl⟩
abbrev main_v145 : Ref sig .tc := ⟨.hbm, 215, rfl⟩
abbrev main_cst_32 : Ref sig .tc := ⟨.hbm, 216, rfl⟩
abbrev main_call4_cst : Ref sig .tc := ⟨.hbm, 217, rfl⟩
abbrev main_call4_v0 : Ref sig .tc := ⟨.hbm, 218, rfl⟩
abbrev main_call4_v1 : Ref sig .tc := ⟨.hbm, 219, rfl⟩
abbrev main_call4_v2 : Ref sig .tc := ⟨.hbm, 220, rfl⟩
abbrev main_call4_v3 : Ref sig .tc := ⟨.hbm, 221, rfl⟩
abbrev main_call4_v4 : Ref sig .tc := ⟨.hbm, 222, rfl⟩
abbrev main_v146 : Ref sig .tc := ⟨.hbm, 223, rfl⟩
abbrev main_cst_33 : Ref sig .tc := ⟨.hbm, 224, rfl⟩
abbrev main_v147 : Ref sig .tc := ⟨.hbm, 225, rfl⟩
abbrev main_cst_34 : Ref sig .tc := ⟨.hbm, 226, rfl⟩
abbrev main_v148 : Ref sig .tc := ⟨.hbm, 227, rfl⟩
abbrev main_v149 : Ref sig .tc := ⟨.hbm, 228, rfl⟩
abbrev main_v150 : Ref sig .tc := ⟨.hbm, 229, rfl⟩
abbrev main_cst_35 : Ref sig .tc := ⟨.hbm, 230, rfl⟩
abbrev main_call5_v0 : Ref sig .tc := ⟨.hbm, 231, rfl⟩
abbrev main_call5_v1 : Ref sig .tc := ⟨.hbm, 232, rfl⟩
abbrev main_v151 : Ref sig .tc := ⟨.hbm, 233, rfl⟩
abbrev main_cst_36 : Ref sig .tc := ⟨.hbm, 234, rfl⟩
abbrev main_v152 : Ref sig .tc := ⟨.hbm, 235, rfl⟩
abbrev main_v153 : Ref sig .tc := ⟨.hbm, 236, rfl⟩
abbrev main_v154 : Ref sig .tc := ⟨.hbm, 237, rfl⟩
abbrev main_cst_37 : Ref sig .tc := ⟨.hbm, 238, rfl⟩
abbrev main_v155 : Ref sig .tc := ⟨.hbm, 239, rfl⟩
abbrev main_v156 : Ref sig .tc := ⟨.hbm, 240, rfl⟩
abbrev main_v157 : Ref sig .tc := ⟨.hbm, 241, rfl⟩
abbrev main_v158 : Ref sig .tc := ⟨.hbm, 242, rfl⟩
abbrev main_c_38 : Ref sig .tc := ⟨.hbm, 243, rfl⟩
abbrev main_v159 : Ref sig .tc := ⟨.hbm, 244, rfl⟩
abbrev main_v160 : Ref sig .tc := ⟨.hbm, 245, rfl⟩
abbrev main_c_39 : Ref sig .tc := ⟨.hbm, 246, rfl⟩
abbrev main_v161 : Ref sig .tc := ⟨.hbm, 247, rfl⟩
abbrev main_v162 : Ref sig .tc := ⟨.hbm, 248, rfl⟩
abbrev main_v163 : Ref sig .tc := ⟨.hbm, 249, rfl⟩
abbrev main_v164 : Ref sig .tc := ⟨.hbm, 250, rfl⟩
abbrev main_v165 : Ref sig .tc := ⟨.hbm, 251, rfl⟩
abbrev main_cst_40 : Ref sig .tc := ⟨.hbm, 252, rfl⟩
abbrev main_v166 : Ref sig .tc := ⟨.hbm, 253, rfl⟩
abbrev main_v167 : Ref sig .tc := ⟨.hbm, 254, rfl⟩
abbrev main_v168 : Ref sig .tc := ⟨.hbm, 255, rfl⟩
abbrev main_v169 : Ref sig .tc := ⟨.hbm, 256, rfl⟩
abbrev main_v170 : Ref sig .tc := ⟨.hbm, 257, rfl⟩
abbrev main_v171 : Ref sig .tc := ⟨.hbm, 258, rfl⟩
abbrev main_cst_41 : Ref sig .tc := ⟨.hbm, 259, rfl⟩
abbrev main_v172 : Ref sig .tc := ⟨.hbm, 260, rfl⟩
abbrev main_v173 : Ref sig .tc := ⟨.hbm, 261, rfl⟩
abbrev main_v174 : Ref sig .tc := ⟨.hbm, 262, rfl⟩
abbrev main_v175 : Ref sig .tc := ⟨.hbm, 263, rfl⟩
abbrev main_v176 : Ref sig .tc := ⟨.hbm, 264, rfl⟩
abbrev main_c_42 : Ref sig .tc := ⟨.hbm, 265, rfl⟩
abbrev main_v177 : Ref sig .tc := ⟨.hbm, 266, rfl⟩
abbrev main_v178 : Ref sig .tc := ⟨.hbm, 267, rfl⟩
abbrev main_c_43 : Ref sig .tc := ⟨.hbm, 268, rfl⟩
abbrev main_v179 : Ref sig .tc := ⟨.hbm, 269, rfl⟩
abbrev main_v180 : Ref sig .tc := ⟨.hbm, 270, rfl⟩
abbrev main_v181 : Ref sig .tc := ⟨.hbm, 271, rfl⟩
abbrev main_v182 : Ref sig .tc := ⟨.hbm, 272, rfl⟩
abbrev main_v183 : Ref sig .tc := ⟨.hbm, 273, rfl⟩
abbrev main_cst_44 : Ref sig .tc := ⟨.hbm, 274, rfl⟩
abbrev main_v184 : Ref sig .tc := ⟨.hbm, 275, rfl⟩
abbrev main_v185 : Ref sig .tc := ⟨.hbm, 276, rfl⟩
abbrev main_v186 : Ref sig .tc := ⟨.hbm, 277, rfl⟩
abbrev main_v187 : Ref sig .tc := ⟨.hbm, 278, rfl⟩
abbrev main_v188 : Ref sig .tc := ⟨.hbm, 279, rfl⟩
abbrev main_v189 : Ref sig .tc := ⟨.hbm, 280, rfl⟩
abbrev main_cst_45 : Ref sig .tc := ⟨.hbm, 281, rfl⟩
abbrev main_v190 : Ref sig .tc := ⟨.hbm, 282, rfl⟩
abbrev main_v191 : Ref sig .tc := ⟨.hbm, 283, rfl⟩
abbrev main_v192 : Ref sig .tc := ⟨.hbm, 284, rfl⟩
abbrev main_cst_46 : Ref sig .tc := ⟨.hbm, 285, rfl⟩
abbrev main_v193 : Ref sig .tc := ⟨.hbm, 286, rfl⟩
abbrev main_v194 : Ref sig .tc := ⟨.hbm, 287, rfl⟩
abbrev main_v195 : Ref sig .tc := ⟨.hbm, 288, rfl⟩
abbrev main_v196 : Ref sig .tc := ⟨.hbm, 289, rfl⟩
abbrev main_c_47 : Ref sig .tc := ⟨.hbm, 290, rfl⟩
abbrev main_v197 : Ref sig .tc := ⟨.hbm, 291, rfl⟩
abbrev main_v198 : Ref sig .tc := ⟨.hbm, 292, rfl⟩
abbrev main_c_48 : Ref sig .tc := ⟨.hbm, 293, rfl⟩
abbrev main_v199 : Ref sig .tc := ⟨.hbm, 294, rfl⟩
abbrev main_v200 : Ref sig .tc := ⟨.hbm, 295, rfl⟩
abbrev main_v201 : Ref sig .tc := ⟨.hbm, 296, rfl⟩
abbrev main_v202 : Ref sig .tc := ⟨.hbm, 297, rfl⟩
abbrev main_v203 : Ref sig .tc := ⟨.hbm, 298, rfl⟩
abbrev main_cst_49 : Ref sig .tc := ⟨.hbm, 299, rfl⟩
abbrev main_v204 : Ref sig .tc := ⟨.hbm, 300, rfl⟩
abbrev main_v205 : Ref sig .tc := ⟨.hbm, 301, rfl⟩
abbrev main_v206 : Ref sig .tc := ⟨.hbm, 302, rfl⟩
abbrev main_v207 : Ref sig .tc := ⟨.hbm, 303, rfl⟩
abbrev main_v208 : Ref sig .tc := ⟨.hbm, 304, rfl⟩
abbrev main_v209 : Ref sig .tc := ⟨.hbm, 305, rfl⟩
abbrev main_cst_50 : Ref sig .tc := ⟨.hbm, 306, rfl⟩
abbrev main_v210 : Ref sig .tc := ⟨.hbm, 307, rfl⟩
abbrev main_v211 : Ref sig .tc := ⟨.hbm, 308, rfl⟩
abbrev main_v212 : Ref sig .tc := ⟨.hbm, 309, rfl⟩
abbrev main_v213 : Ref sig .tc := ⟨.hbm, 310, rfl⟩
abbrev main_v214 : Ref sig .tc := ⟨.hbm, 311, rfl⟩
abbrev main_c_51 : Ref sig .tc := ⟨.hbm, 312, rfl⟩
abbrev main_v215 : Ref sig .tc := ⟨.hbm, 313, rfl⟩
abbrev main_v216 : Ref sig .tc := ⟨.hbm, 314, rfl⟩
abbrev main_c_52 : Ref sig .tc := ⟨.hbm, 315, rfl⟩
abbrev main_v217 : Ref sig .tc := ⟨.hbm, 316, rfl⟩
abbrev main_v218 : Ref sig .tc := ⟨.hbm, 317, rfl⟩
abbrev main_v219 : Ref sig .tc := ⟨.hbm, 318, rfl⟩
abbrev main_v220 : Ref sig .tc := ⟨.hbm, 319, rfl⟩
abbrev main_v221 : Ref sig .tc := ⟨.hbm, 320, rfl⟩
abbrev main_cst_53 : Ref sig .tc := ⟨.hbm, 321, rfl⟩
abbrev main_v222 : Ref sig .tc := ⟨.hbm, 322, rfl⟩
abbrev main_v223 : Ref sig .tc := ⟨.hbm, 323, rfl⟩
abbrev main_v224 : Ref sig .tc := ⟨.hbm, 324, rfl⟩
abbrev main_v225 : Ref sig .tc := ⟨.hbm, 325, rfl⟩
abbrev main_v226 : Ref sig .tc := ⟨.hbm, 326, rfl⟩
abbrev main_v227 : Ref sig .tc := ⟨.hbm, 327, rfl⟩
abbrev main_cst_54 : Ref sig .tc := ⟨.hbm, 328, rfl⟩
abbrev main_v228 : Ref sig .tc := ⟨.hbm, 329, rfl⟩
abbrev main_v229 : Ref sig .tc := ⟨.hbm, 330, rfl⟩
abbrev main_v230 : Ref sig .tc := ⟨.hbm, 331, rfl⟩
abbrev main_cst_55 : Ref sig .tc := ⟨.hbm, 332, rfl⟩
abbrev main_v231 : Ref sig .tc := ⟨.hbm, 333, rfl⟩
abbrev main_v232 : Ref sig .tc := ⟨.hbm, 334, rfl⟩
abbrev main_v233 : Ref sig .tc := ⟨.hbm, 335, rfl⟩
abbrev main_v234 : Ref sig .tc := ⟨.hbm, 336, rfl⟩
abbrev main_c_56 : Ref sig .tc := ⟨.hbm, 337, rfl⟩
abbrev main_v235 : Ref sig .tc := ⟨.hbm, 338, rfl⟩
abbrev main_v236 : Ref sig .tc := ⟨.hbm, 339, rfl⟩
abbrev main_c_57 : Ref sig .tc := ⟨.hbm, 340, rfl⟩
abbrev main_v237 : Ref sig .tc := ⟨.hbm, 341, rfl⟩
abbrev main_v238 : Ref sig .tc := ⟨.hbm, 342, rfl⟩
abbrev main_v239 : Ref sig .tc := ⟨.hbm, 343, rfl⟩
abbrev main_v240 : Ref sig .tc := ⟨.hbm, 344, rfl⟩
abbrev main_v241 : Ref sig .tc := ⟨.hbm, 345, rfl⟩
abbrev main_cst_58 : Ref sig .tc := ⟨.hbm, 346, rfl⟩
abbrev main_v242 : Ref sig .tc := ⟨.hbm, 347, rfl⟩
abbrev main_v243 : Ref sig .tc := ⟨.hbm, 348, rfl⟩
abbrev main_v244 : Ref sig .tc := ⟨.hbm, 349, rfl⟩
abbrev main_v245 : Ref sig .tc := ⟨.hbm, 350, rfl⟩
abbrev main_v246 : Ref sig .tc := ⟨.hbm, 351, rfl⟩
abbrev main_v247 : Ref sig .tc := ⟨.hbm, 352, rfl⟩
abbrev main_cst_59 : Ref sig .tc := ⟨.hbm, 353, rfl⟩
abbrev main_v248 : Ref sig .tc := ⟨.hbm, 354, rfl⟩
abbrev main_v249 : Ref sig .tc := ⟨.hbm, 355, rfl⟩
abbrev main_v250 : Ref sig .tc := ⟨.hbm, 356, rfl⟩
abbrev main_v251 : Ref sig .tc := ⟨.hbm, 357, rfl⟩
abbrev main_v252 : Ref sig .tc := ⟨.hbm, 358, rfl⟩
abbrev main_c_60 : Ref sig .tc := ⟨.hbm, 359, rfl⟩
abbrev main_v253 : Ref sig .tc := ⟨.hbm, 360, rfl⟩
abbrev main_v254 : Ref sig .tc := ⟨.hbm, 361, rfl⟩
abbrev main_c_61 : Ref sig .tc := ⟨.hbm, 362, rfl⟩
abbrev main_v255 : Ref sig .tc := ⟨.hbm, 363, rfl⟩
abbrev main_v256 : Ref sig .tc := ⟨.hbm, 364, rfl⟩
abbrev main_v257 : Ref sig .tc := ⟨.hbm, 365, rfl⟩
abbrev main_v258 : Ref sig .tc := ⟨.hbm, 366, rfl⟩
abbrev main_v259 : Ref sig .tc := ⟨.hbm, 367, rfl⟩
abbrev main_cst_62 : Ref sig .tc := ⟨.hbm, 368, rfl⟩
abbrev main_v260 : Ref sig .tc := ⟨.hbm, 369, rfl⟩
abbrev main_v261 : Ref sig .tc := ⟨.hbm, 370, rfl⟩
abbrev main_v262 : Ref sig .tc := ⟨.hbm, 371, rfl⟩
abbrev main_v263 : Ref sig .tc := ⟨.hbm, 372, rfl⟩
abbrev main_v264 : Ref sig .tc := ⟨.hbm, 373, rfl⟩
abbrev main_v265 : Ref sig .tc := ⟨.hbm, 374, rfl⟩
abbrev main_cst_63 : Ref sig .tc := ⟨.hbm, 375, rfl⟩
abbrev main_v266 : Ref sig .tc := ⟨.hbm, 376, rfl⟩
abbrev main_v267 : Ref sig .tc := ⟨.hbm, 377, rfl⟩
abbrev main_v268 : Ref sig .tc := ⟨.hbm, 378, rfl⟩
abbrev main_v269 : Ref sig .tc := ⟨.hbm, 379, rfl⟩
abbrev main_v270 : Ref sig .tc := ⟨.hbm, 380, rfl⟩
abbrev main_v271 : Ref sig .tc := ⟨.hbm, 381, rfl⟩
abbrev main_v272 : Ref sig .tc := ⟨.hbm, 382, rfl⟩
abbrev main_v273 : Ref sig .tc := ⟨.hbm, 383, rfl⟩
abbrev main_v274 : Ref sig .tc := ⟨.hbm, 384, rfl⟩
abbrev main_cst_64 : Ref sig .tc := ⟨.hbm, 385, rfl⟩
abbrev main_call6_cst : Ref sig .tc := ⟨.hbm, 386, rfl⟩
abbrev main_call6_v0 : Ref sig .tc := ⟨.hbm, 387, rfl⟩
abbrev main_call6_v1 : Ref sig .tc := ⟨.hbm, 388, rfl⟩
abbrev main_call6_v2 : Ref sig .tc := ⟨.hbm, 389, rfl⟩
abbrev main_call6_v3 : Ref sig .tc := ⟨.hbm, 390, rfl⟩
abbrev main_call6_v4 : Ref sig .tc := ⟨.hbm, 391, rfl⟩
abbrev main_v275 : Ref sig .tc := ⟨.hbm, 392, rfl⟩

abbrev nD : Nat := 1
abbrev τ : Topo := Topo.v7x

variable {F : FTy → Type} [FloatOps F]

class Facts₀ : Prop where
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  bcast_S_S50000x64 : S_.BroadcastsInDim S50000x64 (![] : Fin 0 → Fin S50000x64.rank)
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S50000_S50000x1_0 : S50000.BroadcastsInDim S50000x1 (![0] : Fin 1 → Fin S50000x1.rank)
  bcast_S50000x1_S50000x64_0_1 : S50000x1.BroadcastsInDim S50000x64 (![0, 1] : Fin 2 → Fin S50000x64.rank)
  concatenates_S50000x64_S50000x64_S50000x64_S50000x192_d1 : Shape.Concatenates [S50000x64, S50000x64, S50000x64] S50000x192 1
  dot_S50000x128_S128x64_S50000x64_1_0_0_1_n_n_wf : DotDims.WF S50000x128 S128x64 S50000x64 [1] [0] [0] [1] [] []
  dot_S50000x64_S64x64_S50000x64_1_0_0_1_n_n_wf : DotDims.WF S50000x64 S64x64 S50000x64 [1] [0] [0] [1] [] []
  scatter_S50000_S800000x1_S800000_n_0_0_1_wf : ScatterDims.WF S50000 S800000x1 S800000 [] [0] [0] 1
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  dot_S50000x192_S192x64_S50000x64_1_0_0_1_n_n_wf : DotDims.WF S50000x192 S192x64 S50000x64 [1] [0] [0] [1] [] []

variable [Facts₀]

def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf
def dot_S50000x64_S64x64_S50000x64_1_0_0_1_n_n : DotDims S50000x64 S64x64 S50000x64 where
  lhsContracting := [1]
  rhsContracting := [0]
  lhsNonContracting := [0]
  rhsNonContracting := [1]
  lhsBatch := []
  rhsBatch := []
  wf := dot_S50000x64_S64x64_S50000x64_1_0_0_1_n_n_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S50000x192_S192x64_S50000x64_1_0_0_1_n_n : DotDims S50000x192 S192x64 S50000x64 where
  lhsContracting := [1]
  rhsContracting := [0]
  lhsNonContracting := [0]
  rhsNonContracting := [1]
  lhsBatch := []
  rhsBatch := []
  wf := dot_S50000x192_S192x64_S50000x64_1_0_0_1_n_n_wf

class Facts : Prop extends Facts₀ where

variable [Facts]
-- ==== Proof.KRegion0.lean ====
/- The body half of region 0 (pipeline 0, custom_call 0, the two-layer MLP tile) of the kernel program,
   at a parameter `V`: the TensorCore's buffer contents when the region is entered. Each window's block at a
   point, what each input's staging buffer holds when the body is called, what the body leaves in the output
   window's buffer (one whole-block store over the five loaded blocks), the body's triple, the pipeline's proof
   data and the body obligation. Generic in the float model `F`. -/
import proofs.«121376_j36636071035259_2_alg».proof.Proof.Gen.KernelIdeal.Launch
import proofs.«121376_j36636071035259_2_alg».proof.Proof.Gen.KernelIdeal.Skeleton
import proofs.«121376_j36636071035259_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of extent 10000 along one axis recurses once per coordinate of the long axis
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region0
-- the TensorCore's buffer contents when the region is entered: the parameter the whole half is stated at
variable (V : (c : Dev nD) → (b : Ref sig .tc) → Buf (Elt F) ((c : Thread nD τ).loc b))

/-! # REGION 0: custom_call 0, `cc0__mlp_kernel` (pipeline 0), at the entry contents `V` -/

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for ANY proof
    data whose array is `V`'s (`hA`) and whose body leaves the block in place (`hafter`): unfetched, the block
    index has not moved, and the buffer still holds the previous point's block, which is this point's; the window
    is uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, fetched there or not, for ANY proof
    data whose array is `V`'s (`hA`) and whose body leaves the block in place (`hafter`): unfetched, the block
    index has not moved, and the buffer still holds the previous point's block, which is this point's; the window
    is uncut and never idle. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every point, fetched there or not, for ANY proof
    data whose array is `V`'s (`hA`) and whose body leaves the block in place (`hafter`): unfetched, the block
    index has not moved, and the buffer still holds the previous point's block, which is this point's; the window
    is uncut and never idle. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's current staging buffer holds its block at every point, fetched there or not, for ANY proof
    data whose array is `V`'s (`hA`) and whose body leaves the block in place (`hafter`): unfetched, the block
    index has not moved, and the buffer still holds the previous point's block, which is this point's; the window
    is uncut and never idle. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- Input window 4's current staging buffer holds its block at every point, fetched there or not, for ANY proof
    data whose array is `V`'s (`hA`) and whose body leaves the block in place (`hafter`): unfetched, the block
    index has not moved, and the buffer still holds the previous point's block, which is this point's; the window
    is uncut and never idle. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses -/

/-- The whole block of each staging buffer: the rectangle at the origin with the buffer's own extents. -/
abbrev r0_0 : Rect S1x10000x128 := Rect.unit (s := S1x10000x128) ![0, 0, 0] S1x10000x128.size inb_S1x10000x128_S1x10000x128_0_0_0
abbrev r0_1 : Rect S1x128x64 := Rect.unit (s := S1x128x64) ![0, 0, 0] S1x128x64.size inb_S1x128x64_S1x128x64_0_0_0
abbrev r0_2 : Rect S1x1x64 := Rect.unit (s := S1x1x64) ![0, 0, 0] S1x1x64.size inb_S1x1x64_S1x1x64_0_0_0
abbrev r0_3 : Rect S1x64x64 := Rect.unit (s := S1x64x64) ![0, 0, 0] S1x64x64.size inb_S1x64x64_S1x64x64_0_0_0
abbrev r0_5 : Rect S1x10000x64 := Rect.unit (s := S1x10000x64) ![0, 0, 0] S1x10000x64.size inb_S1x10000x64_S1x10000x64_0_0_0

/-! ## What the body leaves in the output window's buffer -/

/-- Window 5's staging buffer after the body, from the input windows' blocks: its one store as a piece, the
    payload the two-layer MLP of the five loaded blocks (x, W1, b1, W2, b2). -/
def out0_5 (x0 : Vec F S1x10000x128 .f32) (x1 : Vec F S1x128x64 .f32) (x2 : Vec F S1x1x64 .f32) (x3 : Vec F S1x64x64 .f32) (x4 : Vec F S1x1x64 .f32) : Vec F S1x10000x64 .f32 :=
  View.canon [⟨r0_5, k0_pay1 (View.ld x0 r0_0) (View.ld x1 r0_1) (View.ld x2 r0_2) (View.ld x3 r0_3) (View.ld x4 r0_2)⟩]

/-- Its one store is the whole buffer (checked by evaluation), so it covers it. -/
theorem cover0_5 (p0 : Vec F S1x10000x64 .f32) (y : S1x10000x64.Idx) :
    ∃ pc ∈ ([⟨r0_5, p0⟩] : List (View.Piece (Elt F) S1x10000x64 .f32)), y ∈ pc.1.set :=
  View.cover_of_tiled [⟨r0_5, p0⟩] S1x10000x64.size (by rfl) y

/-! ## The body's triple -/

set_option maxHeartbeats 1000000 in
/-- The kernel body on whole staging memrefs, the inputs' at read contents `xW` and the output's at anything, runs to
    the continuation holding the inputs' as they were and the output's at `out0_5` of the inputs'. -/
theorem sound_kernel0 (c : Dev nD) (E : Set ℕ) (i : grid0.Coords)
    (arg0 : Memref sig .tc .vmem S1x10000x128 .f32) (harg0 : arg0.IsWhole) (arg1 : Memref sig .tc .vmem S1x128x64 .f32) (harg1 : arg1.IsWhole)
    (arg2 : Memref sig .tc .vmem S1x1x64 .f32) (harg2 : arg2.IsWhole) (arg3 : Memref sig .tc .vmem S1x64x64 .f32) (harg3 : arg3.IsWhole)
    (arg4 : Memref sig .tc .vmem S1x1x64 .f32) (harg4 : arg4.IsWhole) (arg5 : Memref sig .tc .vmem S1x10000x64 .f32) (harg5 : arg5.IsWhole)
    (x0 : Vec F S1x10000x128 .f32) (x1 : Vec F S1x128x64 .f32) (x2 : Vec F S1x1x64 .f32) (x3 : Vec F S1x64x64 .f32) (x4 : Vec F S1x1x64 .f32)
    (K : PUnit → sProp 𝕄) :
    iprop(owns (c : Thread nD τ) arg0 fullShare x0 ∗ owns (c : Thread nD τ) arg1 fullShare x1 ∗ owns (c : Thread nD τ) arg2 fullShare x2
        ∗ owns (c : Thread nD τ) arg3 fullShare x3 ∗ owns (c : Thread nD τ) arg4 fullShare x4 ∗ (∃ d, owns (c : Thread nD τ) arg5 fullShare d)
        ∗ (iprop(owns (c : Thread nD τ) arg0 fullShare x0 ∗ owns (c : Thread nD τ) arg1 fullShare x1 ∗ owns (c : Thread nD τ) arg2 fullShare x2
            ∗ owns (c : Thread nD τ) arg3 fullShare x3 ∗ owns (c : Thread nD τ) arg4 fullShare x4
            ∗ owns (c : Thread nD τ) arg5 fullShare (out0_5 x0 x1 x2 x3 x4)) -∗ K ⟨⟩))
      ⊢ wp frame (wpE (defs₀ (F := F)) Variants.none c none) E (cc0__mlp_kernel i arg0 harg0 arg1 harg1 arg2 harg2 arg3 harg3 arg4 harg4 arg5 harg5) K := by
  simp only [cc0__mlp_kernel_eq_skeleton]; unfold cc0__mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover0_5 _)

/-! ## The pipeline's proof data -/

/-- The proof data of pipeline 0 on core `c`: the arrays as the region finds them (`V`); after the body at
    point `t` each input's buffer at its block and the output's at `out0_5` of the input blocks; the invariant
    the scoped rest and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => out0_5 (iblk0 V c 0 t) (iblk0 V c 1 t) (iblk0 V c 2 t) (iblk0 V c 3 t) (iblk0 V c 4 t)
  Φ _ := Pipeline.ΦA spec0 c
  q _ := fullShare
  owed _ := 0

/-- The proof data's arrays are the region-entry contents (the proof data's definition projected). -/
theorem A_eq0 (c : Dev nD) (w : Fin cfg0.W) : (dat0 V c).A w = V c (Pipeline.arrRef spec0 w) := by
  dsimp only [dat0]

/-- What the body leaves, window by window (the proof data's `match` reduced). -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = out0_5 (iblk0 V c 0 t) (iblk0 V c 1 t) (iblk0 V c 2 t) (iblk0 V c 3 t) (iblk0 V c 4 t) := by dsimp only [dat0]

/-- Each input's current staging buffer holds its block at every point, fetched there or not (`before0_W_of`). -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d

/-! ## The body obligation, at a generic point -/

/-- What the body is called with at point `t` (the body obligation's precondition, the windows one by one), -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t))

/-- The body at any point: the inputs' memrefs hold their blocks (`before0_W`), so `sound_kernel0` applies; the invariant and
    the core's `owes` pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).Φ t.succ = (dat0 V c).Φ t.castSucc from rfl,
    show (dat0 V c).owesAt () t.succ = (dat0 V c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel0 c Set.univ (grid0.coords t) _ _ _ _ _ _ _ _ _ _ _ _ (iblk0 V c 0 t) (iblk0 V c 1 t) (iblk0 V c 2 t) (iblk0 V c 3 t) (iblk0 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation0 (c : Dev nD) : BodyObligation (dat0 (F := F) V c) (defs₀ (F := F)) Variants.none () Set.univ := fun t => by
  rw [bigSep_W0, bigSep_W0]
  exact sound_body0 V c t

end Region0

end Cert.KernelIdeal.Hand

end
-- ==== Proof.KRegion1Runs.lean ====
/-
  Region 1 (the program's second kernel call, grid [5, 2], the second axis innermost): what the two whole-body runs and
  the frame half share. Each window's block at a point read off the region-entry contents; the three input
  windows' staging buffers hold their blocks at every point; the body's three branch conditions in closed form
  over the linear point t = 2 i + r (the first holds exactly at even t, the second and third exactly at odd
  t); the output window is live at every point (at every point one of the conditions holds); the staging
  memrefs as the pipeline passes them.
-/
import proofs.«121376_j36636071035259_2_alg».proof.Proof.Gen.KernelIdeal.Launch
import proofs.«121376_j36636071035259_2_alg».proof.Proof.Gen.KernelIdeal.Skeleton
import proofs.«121376_j36636071035259_2_alg».proof.Proof.Gen.KernelIdeal.Points
import Idealize.ShloMosaic.Lib.Pipeline.FrameBody
import Idealize.ShloMosaic.Lib.Ring
import Idealize.ShloMosaic.Lib.Tactic

-- membership in a rectangle of full extents recurses once per coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: every statement below is at this parameter
variable (V : (c : Dev nD) → (b : Ref sig .tc) → Buf (Elt F) ((c : Thread nD τ).loc b))

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, for any proof data whose array is
    `V`'s and whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1 likewise (fetched at the first point only: the index never moves). -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2 likewise. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The body's branch conditions, in closed form -/

/-- The first condition (second coordinate = 0) holds exactly at the even points. -/
theorem hcond1_1 : ∀ t : Fin cfg1.N, k1_cond1 (grid1.coords t) = 1#1 ↔ t.val % 2 = 0 :=
  (by decide +kernel : ∀ t : Fin grid1.N, k1_cond1 (grid1.coords t) = 1#1 ↔ t.val % 2 = 0)
/-- The second condition (second coordinate ≠ 0) holds exactly at the odd points. -/
theorem hcond1_2 : ∀ t : Fin cfg1.N, k1_cond2 (grid1.coords t) = 1#1 ↔ ¬t.val % 2 = 0 :=
  (by decide +kernel : ∀ t : Fin grid1.N, k1_cond2 (grid1.coords t) = 1#1 ↔ ¬t.val % 2 = 0)
/-- The third condition (second coordinate = 1) holds exactly at the odd points. -/
theorem hcond1_3 : ∀ t : Fin cfg1.N, k1_cond3 (grid1.coords t) = 1#1 ↔ ¬t.val % 2 = 0 :=
  (by decide +kernel : ∀ t : Fin grid1.N, k1_cond3 (grid1.coords t) = 1#1 ↔ ¬t.val % 2 = 0)

/-! ## Where the windows are idle -/

/-- The output window is live at every point: at every point one of the three conditions holds. -/
theorem liveAt1_3 : ∀ i : grid1.Coords, cfg1.idle 3 i = false :=
  (by decide +kernel : ∀ i : grid1.Coords, idle1 3 i = false)

/-! ## The staging memrefs -/

/-- One staging buffer of the output window, through which its contents are stated (the choice does not matter). -/
abbrev VO1_3 : View sig .tc .vmem S10000x64 .f32 := (Memref.whole cc1_stg3_0 : Memref sig .tc .vmem S10000x64 .f32).view
/-- Each window's current staging memref at point `t`, spelled as the pipeline passes it, and its wholeness. -/
abbrev ms1_0 (t : Fin cfg1.N) : Memref sig .tc .vmem S1x3x10000x64 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S3x64x64 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x64 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S10000x64 .f32 := win1_3.stage (cfg1.slots t 3)
abbrev hs1_3 (t : Fin cfg1.N) : (ms1_3 t).IsWhole := hstage1_3 ((cfg1.slots t 3).cast nbuf1_3)

end Cert.KernelIdeal.Hand

end
-- ==== Proof.KRegion1A.lean ====
/-
  Region 1, CASE A (second grid coordinate 0: the first conditional taken, the second and third not): the whole
  body on any whole staging memrefs, the three inputs' at their contents and the output's at anything, runs to
  the continuation holding the inputs' as they were and the output's buffer with the pieces the body's one
  store leaves written into it. The pieces are the witness the run finds.
-/
import proofs.«121376_j36636071035259_2_alg».proof.Proof.KRegion1Runs

-- membership in a rectangle of full extents recurses once per coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: every statement below is at this parameter
variable (V : (c : Dev nD) → (b : Ref sig .tc) → Buf (Elt F) ((c : Thread nD τ).loc b))

set_option maxHeartbeats 1000000 in
/-- What the body's stores leave in the output's staging memref, as pieces (last first), in case A, with the
    proof that the body runs to the continuation holding each input's buffer as it was and the output's with
    its pieces written. -/
noncomputable def kernelRun1_A (c : Dev nD) (i : grid1.Coords)
    (arg2 : Memref sig .tc .vmem S1x3x10000x64 .f32) (harg2 : arg2.IsWhole) (arg3 : Memref sig .tc .vmem S3x64x64 .f32) (harg3 : arg3.IsWhole) (arg4 : Memref sig .tc .vmem S1x64 .f32) (harg4 : arg4.IsWhole) (arg5 : Memref sig .tc .vmem S10000x64 .f32) (harg5 : arg5.IsWhole)
    (hc1 : k1_cond1 i = 1#1) (hc2 : ¬k1_cond2 i = 1#1) (hc3 : ¬k1_cond3 i = 1#1)
    (x0 : Vec F S1x3x10000x64 .f32) (x1 : Vec F S3x64x64 .f32) (x2 : Vec F S1x64 .f32) :
    { L3 : List (View.Piece (Elt F) S10000x64 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d)
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3)) -∗ K ⟨⟩))
          ⊢ wp frame (wpE (defs₀ (F := F)) Variants.none c none) E (cc1__final_kernel i arg2 harg2 arg3 harg3 arg4 harg4 arg5 harg5) K } := by
  refine ⟨?_, fun E K => ?run⟩
  case run =>
    simp only [cc1__final_kernel_eq_skeleton]; unfold cc1__final_kernel_skel
    simp only [k1_part1_eq_skeleton]
    unfold owns
    iintro ⟨⟨%f0, %hf0, H0⟩, ⟨%f1, %hf1, H1⟩, ⟨%f2, %hf2, H2⟩, ⟨%d3, %f3, -, H3⟩, Hk⟩
    obtain rfl := harg2.eq_unread hf0; obtain rfl := harg3.eq_unread hf1; obtain rfl := harg4.eq_unread hf2
    sl_exec (disch := first | exact hc1 | exact hc2 | exact hc3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact H3

end Cert.KernelIdeal.Hand

end
-- ==== Proof.KRegion1B.lean ====
/-
  Region 1, CASE B (second grid coordinate 1: the first conditional not taken, the second and third taken): the
  whole body on any whole staging memrefs, the three inputs' at their contents and the output's at its running
  contents (it is read back before it is covered), runs to the continuation holding the inputs' as they were
  and the output's buffer with the pieces the body's two stores leave written into it. The pieces are the
  witness the run finds.
-/
import proofs.«121376_j36636071035259_2_alg».proof.Proof.KRegion1A

-- membership in a rectangle of full extents recurses once per coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: every statement below is at this parameter
variable (V : (c : Dev nD) → (b : Ref sig .tc) → Buf (Elt F) ((c : Thread nD τ).loc b))

set_option maxHeartbeats 1000000 in
/-- What the body's stores leave in the output's staging memref, as pieces (last first), in case B, with the
    proof that the body runs to the continuation holding each input's buffer as it was and the output's with
    its pieces written. -/
noncomputable def kernelRun1_B (c : Dev nD) (i : grid1.Coords)
    (arg2 : Memref sig .tc .vmem S1x3x10000x64 .f32) (harg2 : arg2.IsWhole) (arg3 : Memref sig .tc .vmem S3x64x64 .f32) (harg3 : arg3.IsWhole) (arg4 : Memref sig .tc .vmem S1x64 .f32) (harg4 : arg4.IsWhole) (arg5 : Memref sig .tc .vmem S10000x64 .f32) (harg5 : arg5.IsWhole)
    (hc1 : ¬k1_cond1 i = 1#1) (hc2 : k1_cond2 i = 1#1) (hc3 : k1_cond3 i = 1#1)
    (x0 : Vec F S1x3x10000x64 .f32) (x1 : Vec F S3x64x64 .f32) (x2 : Vec F S1x64 .f32) (xo3 : Vec F S10000x64 .f32) :
    { L3 : List (View.Piece (Elt F) S10000x64 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xo3
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3)) -∗ K ⟨⟩))
          ⊢ wp frame (wpE (defs₀ (F := F)) Variants.none c none) E (cc1__final_kernel i arg2 harg2 arg3 harg3 arg4 harg4 arg5 harg5) K } := by
  refine ⟨?_, fun E K => ?run⟩
  case run =>
    simp only [cc1__final_kernel_eq_skeleton]; unfold cc1__final_kernel_skel
    simp only [k1_part1_eq_skeleton]
    unfold owns
    iintro ⟨⟨%f0, %hf0, H0⟩, ⟨%f1, %hf1, H1⟩, ⟨%f2, %hf2, H2⟩, ⟨%f3, %hf3, H3⟩, Hk⟩
    obtain rfl := harg2.eq_unread hf0; obtain rfl := harg3.eq_unread hf1; obtain rfl := harg4.eq_unread hf2; obtain rfl := harg5.eq_unread hf3
    sl_exec (disch := first | exact hc1 | exact hc2 | exact hc3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact H3

end Cert.KernelIdeal.Hand

end
-- ==== Proof.KRegion1.lean ====
/-
  Region 1 (the program's second kernel call), the frame half, at the region-entry contents `V`. The output
  block (index (i, 0)) is visited twice, at the points t = 2 i and t = 2 i + 1, and written back after the
  second only. At an even point the body stores the affine sum of the point's three feature slabs; at an odd
  point it reads that sum back, adds the point's own, stores, reads the total back and stores its leaky
  rectification. What the output's staging buffer holds after each point is therefore a recursion on the
  point (`outsAt1`) with one equation per case; the proof data, the body obligation, and the two case values
  as explicit terms over the skeleton's payloads follow.
-/
import proofs.«121376_j36636071035259_2_alg».proof.Proof.KRegion1B
import Idealize.ShloMosaic.Lib.Pipeline.Value

-- membership in a rectangle of full extents recurses once per coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: every statement below is at this parameter
variable (V : (c : Dev nD) → (b : Ref sig .tc) → Buf (Elt F) ((c : Thread nD τ).loc b))

/-! ## What each case leaves in the output's staging buffer -/

/-- Case A's pieces tile the output block, so they cover it. -/
theorem cover1_A_3 (c : Dev nD) (i : grid1.Coords) (arg2 : Memref sig .tc .vmem S1x3x10000x64 .f32) (harg2 : arg2.IsWhole) (arg3 : Memref sig .tc .vmem S3x64x64 .f32) (harg3 : arg3.IsWhole) (arg4 : Memref sig .tc .vmem S1x64 .f32) (harg4 : arg4.IsWhole) (arg5 : Memref sig .tc .vmem S10000x64 .f32) (harg5 : arg5.IsWhole) (hc1 : k1_cond1 i = 1#1) (hc2 : ¬k1_cond2 i = 1#1) (hc3 : ¬k1_cond3 i = 1#1)
    (x0 : Vec F S1x3x10000x64 .f32) (x1 : Vec F S3x64x64 .f32) (x2 : Vec F S1x64 .f32) (y : S10000x64.Idx) :
    ∃ pc ∈ (kernelRun1_A c i arg2 harg2 arg3 harg3 arg4 harg4 arg5 harg5 hc1 hc2 hc3 x0 x1 x2).1, y ∈ pc.1.set :=
  View.cover_of_tiledL (kernelRun1_A c i arg2 harg2 arg3 harg3 arg4 harg4 arg5 harg5 hc1 hc2 hc3 x0 x1 x2).1 S10000x64.size (by sl_kernel_rfl) y

/-- What case A leaves in the output's staging buffer: its pieces read back over junk. -/
def out1_A_3 (c : Dev nD) (i : grid1.Coords) (arg2 : Memref sig .tc .vmem S1x3x10000x64 .f32) (harg2 : arg2.IsWhole) (arg3 : Memref sig .tc .vmem S3x64x64 .f32) (harg3 : arg3.IsWhole) (arg4 : Memref sig .tc .vmem S1x64 .f32) (harg4 : arg4.IsWhole) (arg5 : Memref sig .tc .vmem S10000x64 .f32) (harg5 : arg5.IsWhole) (hc1 : k1_cond1 i = 1#1) (hc2 : ¬k1_cond2 i = 1#1) (hc3 : ¬k1_cond3 i = 1#1)
    (x0 : Vec F S1x3x10000x64 .f32) (x1 : Vec F S3x64x64 .f32) (x2 : Vec F S1x64 .f32) : Vec F S10000x64 .f32 :=
  VO1_3.read (Elt F) (VO1_3.writes (Elt F) VO1_3.junk (kernelRun1_A c i arg2 harg2 arg3 harg3 arg4 harg4 arg5 harg5 hc1 hc2 hc3 x0 x1 x2).1)

/-- Case B's pieces tile the output block, so they cover it. -/
theorem cover1_B_3 (c : Dev nD) (i : grid1.Coords) (arg2 : Memref sig .tc .vmem S1x3x10000x64 .f32) (harg2 : arg2.IsWhole) (arg3 : Memref sig .tc .vmem S3x64x64 .f32) (harg3 : arg3.IsWhole) (arg4 : Memref sig .tc .vmem S1x64 .f32) (harg4 : arg4.IsWhole) (arg5 : Memref sig .tc .vmem S10000x64 .f32) (harg5 : arg5.IsWhole) (hc1 : ¬k1_cond1 i = 1#1) (hc2 : k1_cond2 i = 1#1) (hc3 : k1_cond3 i = 1#1)
    (x0 : Vec F S1x3x10000x64 .f32) (x1 : Vec F S3x64x64 .f32) (x2 : Vec F S1x64 .f32) (xo3 : Vec F S10000x64 .f32) (y : S10000x64.Idx) :
    ∃ pc ∈ (kernelRun1_B c i arg2 harg2 arg3 harg3 arg4 harg4 arg5 harg5 hc1 hc2 hc3 x0 x1 x2 xo3).1, y ∈ pc.1.set :=
  View.cover_of_tiledL (kernelRun1_B c i arg2 harg2 arg3 harg3 arg4 harg4 arg5 harg5 hc1 hc2 hc3 x0 x1 x2 xo3).1 S10000x64.size (by sl_kernel_rfl) y

/-- What case B leaves in the output's staging buffer: its pieces read back over junk. -/
def out1_B_3 (c : Dev nD) (i : grid1.Coords) (arg2 : Memref sig .tc .vmem S1x3x10000x64 .f32) (harg2 : arg2.IsWhole) (arg3 : Memref sig .tc .vmem S3x64x64 .f32) (harg3 : arg3.IsWhole) (arg4 : Memref sig .tc .vmem S1x64 .f32) (harg4 : arg4.IsWhole) (arg5 : Memref sig .tc .vmem S10000x64 .f32) (harg5 : arg5.IsWhole) (hc1 : ¬k1_cond1 i = 1#1) (hc2 : k1_cond2 i = 1#1) (hc3 : k1_cond3 i = 1#1)
    (x0 : Vec F S1x3x10000x64 .f32) (x1 : Vec F S3x64x64 .f32) (x2 : Vec F S1x64 .f32) (xo3 : Vec F S10000x64 .f32) : Vec F S10000x64 .f32 :=
  VO1_3.read (Elt F) (VO1_3.writes (Elt F) VO1_3.junk (kernelRun1_B c i arg2 harg2 arg3 harg3 arg4 harg4 arg5 harg5 hc1 hc2 hc3 x0 x1 x2 xo3).1)

/-! ## What the output holds after each point -/

/-- What the output's staging buffer holds after the body at position `n`: the case the closed forms select at
    `n`, run at the point's memrefs and input blocks; in case B the buffer, read before it is covered, at what
    this leaves at `n - 1` (it is not written back between). -/
def outsAt1 (c : Dev nD) : (n : ℕ) → n < cfg1.N → Vec F S10000x64 .f32
  | 0, hn => out1_A_3 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) ((hcond1_1 ⟨0, hn⟩).mpr (Nat.zero_mod _)) (fun h => (hcond1_2 ⟨0, hn⟩).mp h (Nat.zero_mod _)) (fun h => (hcond1_3 ⟨0, hn⟩).mp h (Nat.zero_mod _)) (iblk1 V c 0 ⟨0, hn⟩) (iblk1 V c 1 ⟨0, hn⟩) (iblk1 V c 2 ⟨0, hn⟩)
  | n + 1, hn =>
    if h0 : (n + 1) % 2 = 0 then
      out1_A_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) ((hcond1_1 ⟨n + 1, hn⟩).mpr h0) (fun h => (hcond1_2 ⟨n + 1, hn⟩).mp h h0) (fun h => (hcond1_3 ⟨n + 1, hn⟩).mp h h0) (iblk1 V c 0 ⟨n + 1, hn⟩) (iblk1 V c 1 ⟨n + 1, hn⟩) (iblk1 V c 2 ⟨n + 1, hn⟩)
    else
      out1_B_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (fun h => h0 ((hcond1_1 ⟨n + 1, hn⟩).mp h)) ((hcond1_2 ⟨n + 1, hn⟩).mpr h0) ((hcond1_3 ⟨n + 1, hn⟩).mpr h0) (iblk1 V c 0 ⟨n + 1, hn⟩) (iblk1 V c 1 ⟨n + 1, hn⟩) (iblk1 V c 2 ⟨n + 1, hn⟩) (outsAt1 c n (Nat.lt_of_succ_lt hn))

/-- `outsAt1` at a point of case A (even): that case's contents. -/
theorem outsAt1_A (c : Dev nD) (t : Fin cfg1.N) (h0 : t.val % 2 = 0) :
    outsAt1 V c t.val t.isLt = out1_A_3 c (grid1.coords t) (ms1_0 t) (hs1_0 t) (ms1_1 t) (hs1_1 t) (ms1_2 t) (hs1_2 t) (ms1_3 t) (hs1_3 t) ((hcond1_1 t).mpr h0) (fun h => (hcond1_2 t).mp h h0) (fun h => (hcond1_3 t).mp h h0) (iblk1 V c 0 t) (iblk1 V c 1 t) (iblk1 V c 2 t) := by
  obtain ⟨n, hn⟩ := t
  cases n with
  | zero => exact rfl
  | succ n => exact (dif_pos h0).trans rfl

/-- `outsAt1` at a point of case B (odd): that case's contents, over what the point before left. -/
theorem outsAt1_B (c : Dev nD) (t : Fin cfg1.N) (h0 : ¬t.val % 2 = 0) :
    outsAt1 V c t.val t.isLt = out1_B_3 c (grid1.coords t) (ms1_0 t) (hs1_0 t) (ms1_1 t) (hs1_1 t) (ms1_2 t) (hs1_2 t) (ms1_3 t) (hs1_3 t) (fun h => h0 ((hcond1_1 t).mp h)) ((hcond1_2 t).mpr h0) ((hcond1_3 t).mpr h0) (iblk1 V c 0 t) (iblk1 V c 1 t) (iblk1 V c 2 t) (outsAt1 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans rfl

/-! ## The proof data -/

/-- The proof data of pipeline 1 on core `c`: the arrays as the region finds them (`V`); after the body at point
    `t` each input's buffer at its block and the output's at `outsAt1`; the class's invariant; nothing owed;
    full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t.val t.isLt)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = (outsAt1 V c t.val t.isLt) := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
/-- At a point of case B the output's current staging buffer holds what the body left at the point before: the
    point is not the first, the buffer was not written back between (write-backs follow the odd points only), the
    window is live and uncut. -/
theorem before1_3_B (c : Dev nD) (t : Fin cfg1.N) (h0 : ¬t.val % 2 = 0) (d) :
    (dat1 V c).before 3 t d = (outsAt1 V c (t.val - 1) (Nat.lt_of_le_of_lt (Nat.sub_le _ _) t.isLt)) := by
  have hN : t.val < 10 := lt_of_lt_of_eq t.isLt (show cfg1.N = 10 from N_1)
  rw [Dat.before_out_kept _ 3 rfl t (by omega) (Bool.eq_false_iff.mpr fun h => by have := (flush1_3 _).mp h; dsimp only at this; omega)
    liveAt1_3 (fun _ _ => rfl)]
  dsimp only [dat1]

/-! ## The body obligation, at a generic point -/

/-- What the body is called with at point `t` (the library's precondition, the windows one by one), -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

/-- and what it returns (the output window's post the library's exact one, rewritten by its liveness). -/
def bodyPost1 (c : Dev nD) (t : Fin cfg1.N) : sProp 𝕄 :=
  iprop((dat1 V c).Φ t.succ ∗ (dat1 V c).owesAt () t.succ
    ∗ owns (c : Thread nD τ) (ms1_0 t) fullShare ((dat1 V c).after 0 t)
    ∗ owns (c : Thread nD τ) (ms1_1 t) fullShare ((dat1 V c).after 1 t)
    ∗ owns (c : Thread nD τ) (ms1_2 t) fullShare ((dat1 V c).after 2 t)
    ∗ (dat1 V c).leavesExact 3 t)

set_option maxHeartbeats 800000 in
/-- The body at any point: the inputs' memrefs hold their blocks; the closed forms say which case the point is
    in; in case B the output's buffer holds what the point before left; so the case's run applies; the
    invariant passes through unread; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).leavesExact 3 t = owns (c : Thread nD τ) (ms1_3 t) fullShare ((dat1 V c).after 3 t) from by
      unfold Dat.leavesExact; rw [liveAt1_3]]
  rw [show (dat1 V c).Φ t.succ = (dat1 V c).Φ t.castSucc from rfl,
    show (dat1 V c).owesAt () t.succ = (dat1 V c).owesAt () t.castSucc from rfl,
    after1_0, after1_1, after1_2, after1_3]
  have hN : t.val < 10 := lt_of_lt_of_eq t.isLt (show cfg1.N = 10 from N_1)
  by_cases h0 : t.val % 2 = 0
  · rw [outsAt1_A V c t h0]
    unfold out1_A_3
    iintro ⟨HΦ, Ho, ⟨%d0, H0⟩, ⟨%d1, H1⟩, ⟨%d2, H2⟩, ⟨%d3, H3⟩⟩
    iapply ((kernelRun1_A c (grid1.coords t) _ _ _ _ _ _ _ _ ((hcond1_1 t).mpr h0) (fun h => (hcond1_2 t).mp h h0) (fun h => (hcond1_3 t).mp h h0) (iblk1 V c 0 t) (iblk1 V c 1 t) (iblk1 V c 2 t)).2 Set.univ _)
    isplitl [H0]; · iexact H0
    isplitl [H1]; · iexact H1
    isplitl [H2]; · iexact H2
    isplitl [H3]; · iexists _; iexact H3
    iintro ⟨H0, H1, H2, ⟨%e3, H3⟩⟩
    isplitl [HΦ]; · iexact HΦ
    isplitl [Ho]; · iexact Ho
    isplitl [H0]; · iexact H0
    isplitl [H1]; · iexact H1
    isplitl [H2]; · iexact H2
    unfold owns; iexists _; isplitr
    swap; · iexact H3
    ipureintro; exact View.read_writes_of_cover _ _ _ _ _ (cover1_A_3 c _ _ _ _ _ _ _ _ _ _ _ _ _ _ _)
  · rw [outsAt1_B V c t h0]
    simp only [before1_3_B V c t h0]
    unfold out1_B_3
    iintro ⟨HΦ, Ho, ⟨%d0, H0⟩, ⟨%d1, H1⟩, ⟨%d2, H2⟩, ⟨%d3, H3⟩⟩
    iapply ((kernelRun1_B c (grid1.coords t) _ _ _ _ _ _ _ _ (fun h => h0 ((hcond1_1 t).mp h)) ((hcond1_2 t).mpr h0) ((hcond1_3 t).mpr h0) (iblk1 V c 0 t) (iblk1 V c 1 t) (iblk1 V c 2 t) _).2 Set.univ _)
    isplitl [H0]; · iexact H0
    isplitl [H1]; · iexact H1
    isplitl [H2]; · iexact H2
    isplitl [H3]; · iexact H3
    iintro ⟨H0, H1, H2, ⟨%e3, H3⟩⟩
    isplitl [HΦ]; · iexact HΦ
    isplitl [Ho]; · iexact Ho
    isplitl [H0]; · iexact H0
    isplitl [H1]; · iexact H1
    isplitl [H2]; · iexact H2
    unfold owns; iexists _; isplitr
    swap; · iexact H3
    ipureintro; exact View.read_writes_of_cover _ _ _ _ _ (cover1_B_3 c _ _ _ _ _ _ _ _ _ _ _ _ _ _ _ _)

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KRun.lean ====
import proofs.«121376_j36636071035259_2_alg».proof.Proof.Gen.KernelIdeal.Launch
import proofs.«121376_j36636071035259_2_alg».proof.Proof.Gen.KernelIdeal.Skeleton
import proofs.«121376_j36636071035259_2_alg».proof.Proof.Gen.KernelIdeal.Points
import proofs.«121376_j36636071035259_2_alg».proof.Proof.KRegion0
import proofs.«121376_j36636071035259_2_alg».proof.Proof.KRegion1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary of @main: a fold from the launch memory -/

/-- Core `c`'s buffers at launch. -/
abbrev W0 : Dev nD → Valuation τ sig (Elt F) := fun c b => (s₀ m ρ).mem ((c : Dev nD), b)
/-- After the first stretch of host operations: what region 0 is entered from. -/
abbrev W1 : Dev nD → Valuation τ sig (Elt F) := fun c => StableHlo.after main_part0_ops0 (W0 m ρ c)
abbrev V1 : (c : Dev nD) → (b : Ref sig .tc) → Buf (Elt F) ((c : Thread nD τ).loc b) := fun c b => W1 m ρ c b
/-- At region 0's exit: its arrays at what the write-backs leave, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)
/-- After host stretch 1. -/
abbrev W3 : Dev nD → Valuation τ sig (Elt F) := fun c => StableHlo.after main_part0_ops1 (W2 m ρ c)
/-- After host stretch 2. -/
abbrev W4 : Dev nD → Valuation τ sig (Elt F) := fun c => StableHlo.after main_part0_ops2 (W3 m ρ c)
/-- After host stretch 3. -/
abbrev W5 : Dev nD → Valuation τ sig (Elt F) := fun c => StableHlo.after main_part0_ops3 (W4 m ρ c)
/-- After host stretch 4. -/
abbrev W6 : Dev nD → Valuation τ sig (Elt F) := fun c => StableHlo.after main_part1_ops0 (W5 m ρ c)
/-- After host stretch 5. -/
abbrev W7 : Dev nD → Valuation τ sig (Elt F) := fun c => StableHlo.after main_part1_ops1 (W6 m ρ c)
/-- After host stretch 6. -/
abbrev W8 : Dev nD → Valuation τ sig (Elt F) := fun c => StableHlo.after main_part1_ops2 (W7 m ρ c)
/-- After host stretch 7. -/
abbrev W9 : Dev nD → Valuation τ sig (Elt F) := fun c => StableHlo.after main_part2_ops0 (W8 m ρ c)
abbrev V9 : (c : Dev nD) → (b : Ref sig .tc) → Buf (Elt F) ((c : Thread nD τ).loc b) := fun c b => W9 m ρ c b
/-- At region 1's exit. -/
def W10 (c : Dev nD) : Valuation τ sig (Elt F) :=
  Pipeline.withArrays spec1 c (W9 m ρ c) fun w => (dat1 (V9 m ρ) c).arrAt w cfg1.N
theorem W10_arr (c : Dev nD) (w : Fin cfg1.W) :
    W10 m ρ c (Proc.devRef .tc (Pipeline.arrRef spec1 w)) = (dat1 (V9 m ρ) c).arrAt w cfg1.N := by
  unfold W10; exact Pipeline.withArrays_arr spec1 launch1.win.arr_inj c _ _ w
theorem W10_of_ne (c : Dev nD) (b : Ref sig .tc) (hb : ∀ w, Pipeline.arrRef spec1 w ≠ b) :
    W10 m ρ c (Proc.devRef .tc b) = W9 m ρ c (Proc.devRef .tc b) := by
  unfold W10; exact Pipeline.withArrays_of_ne spec1 c _ _ b hb
abbrev V10 : (c : Dev nD) → (b : Ref sig .tc) → Buf (Elt F) ((c : Thread nD τ).loc b) := fun c b => W10 m ρ c b
theorem hF1 (c : Dev nD) (w : Fin cfg1.W) : (dat1 (V9 m ρ) c).arrAt w cfg1.N = V10 m ρ c (Pipeline.arrRef spec1 w) :=
  (W10_arr m ρ c w).symm
theorem hrest1 (c : Dev nD) : ∀ b, b ∉ Finset.univ.image (Pipeline.arrRef spec1) → V10 m ρ c b = V9 m ρ c b :=
  fun b hb => W10_of_ne m ρ c b fun w e => hb (Finset.mem_image.mpr ⟨w, Finset.mem_univ _, e⟩)

/-! ## What each stretch of host operations writes -/

abbrev S0_W : List (Ref sig .tc) := [main_v0, main_v1, main_v2, main_v3, main_v4, main_v5, main_v6, main_v7, main_v8, main_v9, main_v10, main_v11, main_v12, main_v13, main_v14, main_v15, main_v16]
theorem S0_writes : (main_part0_ops0 : List (HloOp τ sig (Elt F))).Forall fun op => op.writes ⊆ (S0_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
theorem S0_fresh : (main_part0_ops0 : List (HloOp τ sig (Elt F))).Forall fun op => op.fresh = ∅ := by
  simp only [List.Forall]; repeat' constructor
abbrev S1_W : List (Ref sig .tc) := [main_v18, main_v19, main_cst, main_v20, main_cst_0, main_v21, main_v22, main_v23, main_cst_1]
theorem S1_writes : (main_part0_ops1 : List (HloOp τ sig (Elt F))).Forall fun op => op.writes ⊆ (S1_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
theorem S1_fresh : (main_part0_ops1 : List (HloOp τ sig (Elt F))).Forall fun op => op.fresh = ∅ := by
  simp only [List.Forall]; repeat' constructor
abbrev S2_W : List (Ref sig .tc) := [main_call0_v0, main_call0_v1, main_v24]
theorem S2_writes : (main_part0_ops2 : List (HloOp τ sig (Elt F))).Forall fun op => op.writes ⊆ (S2_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
theorem S2_fresh : (main_part0_ops2 : List (HloOp τ sig (Elt F))).Forall fun op => op.fresh = ∅ := by
  simp only [List.Forall]; repeat' constructor
abbrev S3_W : List (Ref sig .tc) := [main_cst_2, main_v25, main_v26, main_v27, main_v28, main_v29, main_c, main_v30, main_v31, main_c_3, main_v32, main_v33, main_v34, main_v35, main_v36, main_cst_4, main_v37, main_v38, main_v39, main_v40, main_v41, main_v42, main_v43, main_v44, main_c_5, main_v45, main_v46, main_c_6, main_v47, main_v48, main_v49, main_v50]
theorem S3_writes : (main_part0_ops3 : List (HloOp τ sig (Elt F))).Forall fun op => op.writes ⊆ (S3_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
theorem S3_fresh : (main_part0_ops3 : List (HloOp τ sig (Elt F))).Forall fun op => op.fresh = ∅ := by
  simp only [List.Forall]; repeat' constructor
abbrev S4_W : List (Ref sig .tc) := [main_v51, main_cst_7, main_v52, main_v53, main_v54, main_v55, main_v56, main_v57, main_v58, main_v59, main_v60, main_v61, main_v62, main_v63, main_cst_8, main_v64, main_cst_9, main_v65, main_v66, main_v67, main_cst_10]
theorem S4_writes : (main_part1_ops0 : List (HloOp τ sig (Elt F))).Forall fun op => op.writes ⊆ (S4_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
theorem S4_fresh : (main_part1_ops0 : List (HloOp τ sig (Elt F))).Forall fun op => op.fresh = ∅ := by
  simp only [List.Forall]; repeat' constructor
abbrev S5_W : List (Ref sig .tc) := [main_call1_v0, main_call1_v1, main_v68]
theorem S5_writes : (main_part1_ops1 : List (HloOp τ sig (Elt F))).Forall fun op => op.writes ⊆ (S5_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
theorem S5_fresh : (main_part1_ops1 : List (HloOp τ sig (Elt F))).Forall fun op => op.fresh = ∅ := by
  simp only [List.Forall]; repeat' constructor
abbrev S6_W : List (Ref sig .tc) := [main_cst_11, main_v69, main_v70, main_v71, main_v72, main_v73, main_c_12, main_v74, main_v75, main_c_13, main_v76, main_v77, main_v78, main_v79, main_v80, main_cst_14, main_v81, main_v82, main_v83, main_v84, main_v85, main_v86, main_v87, main_v88, main_c_15, main_v89, main_v90, main_c_16, main_v91, main_v92, main_v93, main_v94, main_v95, main_cst_17, main_v96, main_v97, main_v98, main_v99]
theorem S6_writes : (main_part1_ops2 : List (HloOp τ sig (Elt F))).Forall fun op => op.writes ⊆ (S6_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
theorem S6_fresh : (main_part1_ops2 : List (HloOp τ sig (Elt F))).Forall fun op => op.fresh = ∅ := by
  simp only [List.Forall]; repeat' constructor
abbrev S7_W : List (Ref sig .tc) := [main_v100, main_v101, main_v102, main_v103, main_v104, main_v105, main_v106, main_v107, main_v108, main_v109, main_v110, main_v111, main_cst_18, main_v112, main_cst_19, main_v113, main_v114, main_v115, main_cst_20, main_v116, main_v117, main_v118, main_cst_21, main_v119, main_v120, main_v121, main_cst_22, main_v122, main_cst_23, main_v123, main_v124, main_v125, main_cst_24, main_v126, main_v127, main_v128, main_cst_25, main_v129, main_v130, main_v131, main_cst_26, main_v132, main_cst_27, main_v133, main_v134, main_v135, main_cst_28, main_v136, main_v137, main_v138, main_cst_29, main_v139, main_v140, main_v141, main_v142, main_v143, main_v144, main_v145, main_v146]
theorem S7_writes : (main_part2_ops0 : List (HloOp τ sig (Elt F))).Forall fun op => op.writes ⊆ (S7_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
theorem S7_fresh : (main_part2_ops0 : List (HloOp τ sig (Elt F))).Forall fun op => op.fresh = ∅ := by
  simp only [List.Forall]; repeat' constructor

/-! ## A buffer no stretch writes and no region has as an array ends as launched -/

theorem W10_unwritten (c : Dev nD) (b : Ref sig .tc)
    (h0 : b ∉ S0_W) (h1 : b ∉ S1_W) (h2 : b ∉ S2_W) (h3 : b ∉ S3_W) (h4 : b ∉ S4_W) (h5 : b ∉ S5_W) (h6 : b ∉ S6_W) (h7 : b ∉ S7_W)
    (hr0 : ∀ w, Pipeline.arrRef spec0 w ≠ b) (hr1 : ∀ w, Pipeline.arrRef spec1 w ≠ b) :
    W10 m ρ c (Proc.devRef .tc b) = m ((c : Thread nD τ).loc b) :=
  calc W10 m ρ c (Proc.devRef .tc b)
    _ = W9 m ρ c (Proc.devRef .tc b) := W10_of_ne m ρ c b hr1
    _ = W8 m ρ c (Proc.devRef .tc b) := StableHlo.after_of_writes_sub main_part2_ops0 _ S7_writes h7
    _ = W7 m ρ c (Proc.devRef .tc b) := StableHlo.after_of_writes_sub main_part1_ops2 _ S6_writes h6
    _ = W6 m ρ c (Proc.devRef .tc b) := StableHlo.after_of_writes_sub main_part1_ops1 _ S5_writes h5
    _ = W5 m ρ c (Proc.devRef .tc b) := StableHlo.after_of_writes_sub main_part1_ops0 _ S4_writes h4
    _ = W4 m ρ c (Proc.devRef .tc b) := StableHlo.after_of_writes_sub main_part0_ops3 _ S3_writes h3
    _ = W3 m ρ c (Proc.devRef .tc b) := StableHlo.after_of_writes_sub main_part0_ops2 _ S2_writes h2
    _ = W2 m ρ c (Proc.devRef .tc b) := StableHlo.after_of_writes_sub main_part0_ops1 _ S1_writes h1
    _ = W1 m ρ c (Proc.devRef .tc b) := W2_of_ne m ρ c b hr0
    _ = W0 m ρ c (Proc.devRef .tc b) := StableHlo.after_of_writes_sub main_part0_ops0 _ S0_writes h0
    _ = m ((c : Thread nD τ).loc b) := rfl

theorem W10_main_arg0 (c : Dev nD) : W10 m ρ c (Proc.devRef .tc main_arg0) = m ((c : Thread nD τ).loc main_arg0) :=
  W10_unwritten m ρ c main_arg0 (by decide) (by decide) (by decide) (by decide) (by decide) (by decide) (by decide) (by decide) (by decide) (by decide)
theorem W10_main_arg1 (c : Dev nD) : W10 m ρ c (Proc.devRef .tc main_arg1) = m ((c : Thread nD τ).loc main_arg1) :=
  W10_unwritten m ρ c main_arg1 (by decide) (by decide) (by decide) (by decide) (by decide) (by decide) (by decide) (by decide) (by decide) (by decide)
theorem W10_main_arg2 (c : Dev nD) : W10 m ρ c (Proc.devRef .tc main_arg2) = m ((c : Thread nD τ).loc main_arg2) :=
  W10_unwritten m ρ c main_arg2 (by decide) (by decide) (by decide) (by decide) (by decide) (by decide) (by decide) (by decide) (by decide) (by decide)
theorem W10_main_arg3 (c : Dev nD) : W10 m ρ c (Proc.devRef .tc main_arg3) = m ((c : Thread nD τ).loc main_arg3) :=
  W10_unwritten m ρ c main_arg3 (by decide) (by decide) (by decide) (by decide) (by decide) (by decide) (by decide) (by decide) (by decide) (by decide)
theorem W10_main_arg4 (c : Dev nD) : W10 m ρ c (Proc.devRef .tc main_arg4) = m ((c : Thread nD τ).loc main_arg4) :=
  W10_unwritten m ρ c main_arg4 (by decide) (by decide) (by decide) (by decide) (by decide) (by decide) (by decide) (by decide) (by decide) (by decide)
theorem W10_main_arg5 (c : Dev nD) : W10 m ρ c (Proc.devRef .tc main_arg5) = m ((c : Thread nD τ).loc main_arg5) :=
  W10_unwritten m ρ c main_arg5 (by decide) (by decide) (by decide) (by decide) (by decide) (by decide) (by decide) (by decide) (by decide) (by decide)
theorem W10_main_arg6 (c : Dev nD) : W10 m ρ c (Proc.devRef .tc main_arg6) = m ((c : Thread nD τ).loc main_arg6) :=
  W10_unwritten m ρ c main_arg6 (by decide) (by decide) (by decide) (by decide) (by decide) (by decide) (by decide) (by decide) (by decide) (by decide)
theorem W10_main_arg7 (c : Dev nD) : W10 m ρ c (Proc.devRef .tc main_arg7) = m ((c : Thread nD τ).loc main_arg7) :=
  W10_unwritten m ρ c main_arg7 (by decide) (by decide) (by decide) (by decide) (by decide) (by decide) (by decide) (by decide) (by decide) (by decide)
theorem W10_main_arg8 (c : Dev nD) : W10 m ρ c (Proc.devRef .tc main_arg8) = m ((c : Thread nD τ).loc main_arg8) :=
  W10_unwritten m ρ c main_arg8 (by decide) (by decide) (by decide) (by decide) (by decide) (by decide) (by decide) (by decide) (by decide) (by decide)
theorem W10_main_arg9 (c : Dev nD) : W10 m ρ c (Proc.devRef .tc main_arg9) = m ((c : Thread nD τ).loc main_arg9) :=
  W10_unwritten m ρ c main_arg9 (by decide) (by decide) (by decide) (by decide) (by decide) (by decide) (by decide) (by decide) (by decide) (by decide)
theorem W10_main_arg10 (c : Dev nD) : W10 m ρ c (Proc.devRef .tc main_arg10) = m ((c : Thread nD τ).loc main_arg10) :=
  W10_unwritten m ρ c main_arg10 (by decide) (by decide) (by decide) (by decide) (by decide) (by decide) (by decide) (by decide) (by decide) (by decide)
theorem W10_main_arg11 (c : Dev nD) : W10 m ρ c (Proc.devRef .tc main_arg11) = m ((c : Thread nD τ).loc main_arg11) :=
  W10_unwritten m ρ c main_arg11 (by decide) (by decide) (by decide) (by decide) (by decide) (by decide) (by decide) (by decide) (by decide) (by decide)
theorem W10_main_arg12 (c : Dev nD) : W10 m ρ c (Proc.devRef .tc main_arg12) = m ((c : Thread nD τ).loc main_arg12) :=
  W10_unwritten m ρ c main_arg12 (by decide) (by decide) (by decide) (by decide) (by decide) (by decide) (by decide) (by decide) (by decide) (by decide)
theorem W10_main_arg13 (c : Dev nD) : W10 m ρ c (Proc.devRef .tc main_arg13) = m ((c : Thread nD τ).loc main_arg13) :=
  W10_unwritten m ρ c main_arg13 (by decide) (by decide) (by decide) (by decide) (by decide) (by decide) (by decide) (by decide) (by decide) (by decide)
theorem W10_main_arg14 (c : Dev nD) : W10 m ρ c (Proc.devRef .tc main_arg14) = m ((c : Thread nD τ).loc main_arg14) :=
  W10_unwritten m ρ c main_arg14 (by decide) (by decide) (by decide) (by decide) (by decide) (by decide) (by decide) (by decide) (by decide) (by decide)
theorem W10_main_arg15 (c : Dev nD) : W10 m ρ c (Proc.devRef .tc main_arg15) = m ((c : Thread nD τ).loc main_arg15) :=
  W10_unwritten m ρ c main_arg15 (by decide) (by decide) (by decide) (by decide) (by decide) (by decide) (by decide) (by decide) (by decide) (by decide)

/-! ## The proof data family and the thread state -/

abbrev adm : (p : Fin 2) → (pcfgs (F := F) p).Adm := fun p => (cfgs p).toPCfg_adm
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V9 m ρ) c
abbrev 𝒱₀ : Variants := Variants.none
abbrev L : GSem nD τ sig → Finset Unit := fun _ => ∅
abbrev lv : GSem nD τ sig → Unit → ℕ := fun _ _ => 0
/-- What rides beside the buffers through every segment: the generator register at some state, nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W10 m ρ c) ∗ ∃ r, prngReg c r)

/-! ## The regions as segments -/

set_option backward.isDefEq.respectTransparency.types false in
/-- Region 0 over the thread state: its arrays split out of the unscoped buffers and put back at the exit contents;
    the generator register into the invariant and out; nothing owed; no semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: its arrays split out of the unscoped buffers and put back at the exit contents;
    the generator register into the invariant and out; nothing owed; no semaphore of the kernel's own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V9 m ρ) c).loose
  hwaits := Pipeline.hwaits_of_owed_zero _ _ _ _ L lv 1 fun _ _ => rfl
  pre c := iprop(StableHlo.held (c : Thread nD τ) (Pipeline.ucRefs τ sig) (W9 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V9 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V9 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V9 m ρ c) (V10 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the run -/

abbrev segs : List (Pipeline.Seg (pcfgs (F := F)) adm (pdats m ρ) () defs₀ 𝒱₀ L lv) :=
  [ .host (hseg main_part0_ops0 main_part0_ops0_sub S0_fresh (W0 m ρ)),
    .region (reg0 m ρ),
    .host (hseg main_part0_ops1 main_part0_ops1_sub S1_fresh (W2 m ρ)),
    .host (hseg main_part0_ops2 main_part0_ops2_sub S2_fresh (W3 m ρ)),
    .host (hseg main_part0_ops3 main_part0_ops3_sub S3_fresh (W4 m ρ)),
    .host (hseg main_part1_ops0 main_part1_ops0_sub S4_fresh (W5 m ρ)),
    .host (hseg main_part1_ops1 main_part1_ops1_sub S5_fresh (W6 m ρ)),
    .host (hseg main_part1_ops2 main_part1_ops2_sub S6_fresh (W7 m ρ)),
    .host (hseg main_part2_ops0 main_part2_ops0_sub S7_fresh (W8 m ρ)),
    .region (reg1 m ρ) ]
theorem main_run (c : Dev nD) : main (F := F) c = Pipeline.Seg.run (segs m ρ) := (main_chain_windows c).trans (by chain_rfl)

set_option backward.isDefEq.respectTransparency.types false in
/-- THE RUN, at any instance: from any memory with zero counters every weakly fair execution of @main terminates,
    nothing faulting; the result array ends at what region 1's write-backs leave, and every argument as launched. -/
theorem run : θ_run defs (onTc (τ := τ) (main (F := F))) ⟨m, fun _ => 0, ρ⟩ (fun r => ∀ c : Dev nD,
      r.2.mem ((c.tc : Thread nD τ).loc main_v147) = W10 m ρ c (Proc.devRef .tc main_v147)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m ρ c b)
    (hfin := fun c s' => by
      iintro ⟨⟨Hh, -⟩, HSI⟩
      unfold StableHlo.held
      imodintro
      iapply (pointsTo_read_all (Pipeline.ucRefs τ sig) (fun b => (((c : Thread nD τ)).1, b)) (W10 m ρ c) s')
      isplitl [Hh] <;> iassumption)
    (hQ := fun s h c =>
      ⟨h c _ (mem_uc main_v147 (by decide)),
       (h c _ (mem_uc main_arg0 (by decide))).trans (W10_main_arg0 m ρ c),
       (h c _ (mem_uc main_arg1 (by decide))).trans (W10_main_arg1 m ρ c),
       (h c _ (mem_uc main_arg2 (by decide))).trans (W10_main_arg2 m ρ c),
       (h c _ (mem_uc main_arg3 (by decide))).trans (W10_main_arg3 m ρ c),
       (h c _ (mem_uc main_arg4 (by decide))).trans (W10_main_arg4 m ρ c),
       (h c _ (mem_uc main_arg5 (by decide))).trans (W10_main_arg5 m ρ c),
       (h c _ (mem_uc main_arg6 (by decide))).trans (W10_main_arg6 m ρ c),
       (h c _ (mem_uc main_arg7 (by decide))).trans (W10_main_arg7 m ρ c),
       (h c _ (mem_uc main_arg8 (by decide))).trans (W10_main_arg8 m ρ c),
       (h c _ (mem_uc main_arg9 (by decide))).trans (W10_main_arg9 m ρ c),
       (h c _ (mem_uc main_arg10 (by decide))).trans (W10_main_arg10 m ρ c),
       (h c _ (mem_uc main_arg11 (by decide))).trans (W10_main_arg11 m ρ c),
       (h c _ (mem_uc main_arg12 (by decide))).trans (W10_main_arg12 m ρ c),
       (h c _ (mem_uc main_arg13 (by decide))).trans (W10_main_arg13 m ρ c),
       (h c _ (mem_uc main_arg14 (by decide))).trans (W10_main_arg14 m ρ c),
       (h c _ (mem_uc main_arg15 (by decide))).trans (W10_main_arg15 m ρ c)⟩)

end Cert.KernelIdeal.Hand

end
-- ==== Proof.BRegion0.lean ====
/- The body half of region 0 (pipeline 0, custom_call 0, the two-layer MLP tile) of the kernel program,
   at a parameter `V`: the TensorCore's buffer contents when the region is entered. Each window's block at a
   point, what each input's staging buffer holds when the body is called, what the body leaves in the output
   window's buffer (one whole-block store over the five loaded blocks), the body's triple, the pipeline's proof
   data and the body obligation. Generic in the float model `F`. -/
import proofs.«121376_j36636071035259_2_alg».proof.Proof.Gen.Kernel.Launch
import proofs.«121376_j36636071035259_2_alg».proof.Proof.Gen.Kernel.Skeleton
import proofs.«121376_j36636071035259_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of extent 10000 along one axis recurses once per coordinate of the long axis
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region0
-- the TensorCore's buffer contents when the region is entered: the parameter the whole half is stated at
variable (V : (c : Dev nD) → (b : Ref sig .tc) → Buf (Elt F) ((c : Thread nD τ).loc b))

/-! # REGION 0: custom_call 0, `cc0__mlp_kernel` (pipeline 0), at the entry contents `V` -/

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for ANY proof
    data whose array is `V`'s (`hA`) and whose body leaves the block in place (`hafter`): unfetched, the block
    index has not moved, and the buffer still holds the previous point's block, which is this point's; the window
    is uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, fetched there or not, for ANY proof
    data whose array is `V`'s (`hA`) and whose body leaves the block in place (`hafter`): unfetched, the block
    index has not moved, and the buffer still holds the previous point's block, which is this point's; the window
    is uncut and never idle. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every point, fetched there or not, for ANY proof
    data whose array is `V`'s (`hA`) and whose body leaves the block in place (`hafter`): unfetched, the block
    index has not moved, and the buffer still holds the previous point's block, which is this point's; the window
    is uncut and never idle. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's current staging buffer holds its block at every point, fetched there or not, for ANY proof
    data whose array is `V`'s (`hA`) and whose body leaves the block in place (`hafter`): unfetched, the block
    index has not moved, and the buffer still holds the previous point's block, which is this point's; the window
    is uncut and never idle. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- Input window 4's current staging buffer holds its block at every point, fetched there or not, for ANY proof
    data whose array is `V`'s (`hA`) and whose body leaves the block in place (`hafter`): unfetched, the block
    index has not moved, and the buffer still holds the previous point's block, which is this point's; the window
    is uncut and never idle. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses -/

/-- The whole block of each staging buffer: the rectangle at the origin with the buffer's own extents. -/
abbrev r0_0 : Rect S1x10000x128 := Rect.unit (s := S1x10000x128) ![0, 0, 0] S1x10000x128.size inb_S1x10000x128_S1x10000x128_0_0_0
abbrev r0_1 : Rect S1x128x64 := Rect.unit (s := S1x128x64) ![0, 0, 0] S1x128x64.size inb_S1x128x64_S1x128x64_0_0_0
abbrev r0_2 : Rect S1x1x64 := Rect.unit (s := S1x1x64) ![0, 0, 0] S1x1x64.size inb_S1x1x64_S1x1x64_0_0_0
abbrev r0_3 : Rect S1x64x64 := Rect.unit (s := S1x64x64) ![0, 0, 0] S1x64x64.size inb_S1x64x64_S1x64x64_0_0_0
abbrev r0_5 : Rect S1x10000x64 := Rect.unit (s := S1x10000x64) ![0, 0, 0] S1x10000x64.size inb_S1x10000x64_S1x10000x64_0_0_0

/-! ## What the body leaves in the output window's buffer -/

/-- Window 5's staging buffer after the body, from the input windows' blocks: its one store as a piece, the
    payload the two-layer MLP of the five loaded blocks (x, W1, b1, W2, b2). -/
def out0_5 (x0 : Vec F S1x10000x128 .f32) (x1 : Vec F S1x128x64 .f32) (x2 : Vec F S1x1x64 .f32) (x3 : Vec F S1x64x64 .f32) (x4 : Vec F S1x1x64 .f32) : Vec F S1x10000x64 .f32 :=
  View.canon [⟨r0_5, k0_pay1 (View.ld x0 r0_0) (View.ld x1 r0_1) (View.ld x2 r0_2) (View.ld x3 r0_3) (View.ld x4 r0_2)⟩]

/-- Its one store is the whole buffer (checked by evaluation), so it covers it. -/
theorem cover0_5 (p0 : Vec F S1x10000x64 .f32) (y : S1x10000x64.Idx) :
    ∃ pc ∈ ([⟨r0_5, p0⟩] : List (View.Piece (Elt F) S1x10000x64 .f32)), y ∈ pc.1.set :=
  View.cover_of_tiled [⟨r0_5, p0⟩] S1x10000x64.size (by rfl) y

/-! ## The body's triple -/

set_option maxHeartbeats 1000000 in
/-- The kernel body on whole staging memrefs, the inputs' at read contents `xW` and the output's at anything, runs to
    the continuation holding the inputs' as they were and the output's at `out0_5` of the inputs'. -/
theorem sound_kernel0 (c : Dev nD) (E : Set ℕ) (i : grid0.Coords)
    (arg0 : Memref sig .tc .vmem S1x10000x128 .f32) (harg0 : arg0.IsWhole) (arg1 : Memref sig .tc .vmem S1x128x64 .f32) (harg1 : arg1.IsWhole)
    (arg2 : Memref sig .tc .vmem S1x1x64 .f32) (harg2 : arg2.IsWhole) (arg3 : Memref sig .tc .vmem S1x64x64 .f32) (harg3 : arg3.IsWhole)
    (arg4 : Memref sig .tc .vmem S1x1x64 .f32) (harg4 : arg4.IsWhole) (arg5 : Memref sig .tc .vmem S1x10000x64 .f32) (harg5 : arg5.IsWhole)
    (x0 : Vec F S1x10000x128 .f32) (x1 : Vec F S1x128x64 .f32) (x2 : Vec F S1x1x64 .f32) (x3 : Vec F S1x64x64 .f32) (x4 : Vec F S1x1x64 .f32)
    (K : PUnit → sProp 𝕄) :
    iprop(owns (c : Thread nD τ) arg0 fullShare x0 ∗ owns (c : Thread nD τ) arg1 fullShare x1 ∗ owns (c : Thread nD τ) arg2 fullShare x2
        ∗ owns (c : Thread nD τ) arg3 fullShare x3 ∗ owns (c : Thread nD τ) arg4 fullShare x4 ∗ (∃ d, owns (c : Thread nD τ) arg5 fullShare d)
        ∗ (iprop(owns (c : Thread nD τ) arg0 fullShare x0 ∗ owns (c : Thread nD τ) arg1 fullShare x1 ∗ owns (c : Thread nD τ) arg2 fullShare x2
            ∗ owns (c : Thread nD τ) arg3 fullShare x3 ∗ owns (c : Thread nD τ) arg4 fullShare x4
            ∗ owns (c : Thread nD τ) arg5 fullShare (out0_5 x0 x1 x2 x3 x4)) -∗ K ⟨⟩))
      ⊢ wp frame (wpE (defs₀ (F := F)) Variants.none c none) E (cc0__mlp_kernel i arg0 harg0 arg1 harg1 arg2 harg2 arg3 harg3 arg4 harg4 arg5 harg5) K := by
  simp only [cc0__mlp_kernel_eq_skeleton]; unfold cc0__mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover0_5 _)

/-! ## The pipeline's proof data -/

/-- The proof data of pipeline 0 on core `c`: the arrays as the region finds them (`V`); after the body at
    point `t` each input's buffer at its block and the output's at `out0_5` of the input blocks; the invariant
    the scoped rest and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => out0_5 (iblk0 V c 0 t) (iblk0 V c 1 t) (iblk0 V c 2 t) (iblk0 V c 3 t) (iblk0 V c 4 t)
  Φ _ := Pipeline.ΦA spec0 c
  q _ := fullShare
  owed _ := 0

/-- The proof data's arrays are the region-entry contents (the proof data's definition projected). -/
theorem A_eq0 (c : Dev nD) (w : Fin cfg0.W) : (dat0 V c).A w = V c (Pipeline.arrRef spec0 w) := by
  dsimp only [dat0]

/-- What the body leaves, window by window (the proof data's `match` reduced). -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = out0_5 (iblk0 V c 0 t) (iblk0 V c 1 t) (iblk0 V c 2 t) (iblk0 V c 3 t) (iblk0 V c 4 t) := by dsimp only [dat0]

/-- Each input's current staging buffer holds its block at every point, fetched there or not (`before0_W_of`). -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d

/-! ## The body obligation, at a generic point -/

/-- What the body is called with at point `t` (the body obligation's precondition, the windows one by one), -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t))

/-- The body at any point: the inputs' memrefs hold their blocks (`before0_W`), so `sound_kernel0` applies; the invariant and
    the core's `owes` pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).Φ t.succ = (dat0 V c).Φ t.castSucc from rfl,
    show (dat0 V c).owesAt () t.succ = (dat0 V c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel0 c Set.univ (grid0.coords t) _ _ _ _ _ _ _ _ _ _ _ _ (iblk0 V c 0 t) (iblk0 V c 1 t) (iblk0 V c 2 t) (iblk0 V c 3 t) (iblk0 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation0 (c : Dev nD) : BodyObligation (dat0 (F := F) V c) (defs₀ (F := F)) Variants.none () Set.univ := fun t => by
  rw [bigSep_W0, bigSep_W0]
  exact sound_body0 V c t

end Region0

end Cert.Kernel.Hand

end
-- ==== Proof.BRegion1Runs.lean ====
/-
  Region 1 (the program's second kernel call, grid [5, 2], the second axis innermost): what the two whole-body runs and
  the frame half share. Each window's block at a point read off the region-entry contents; the three input
  windows' staging buffers hold their blocks at every point; the body's three branch conditions in closed form
  over the linear point t = 2 i + r (the first holds exactly at even t, the second and third exactly at odd
  t); the output window is live at every point (at every point one of the conditions holds); the staging
  memrefs as the pipeline passes them.
-/
import proofs.«121376_j36636071035259_2_alg».proof.Proof.Gen.Kernel.Launch
import proofs.«121376_j36636071035259_2_alg».proof.Proof.Gen.Kernel.Skeleton
import proofs.«121376_j36636071035259_2_alg».proof.Proof.Gen.Kernel.Points
import Idealize.ShloMosaic.Lib.Pipeline.FrameBody
import Idealize.ShloMosaic.Lib.Ring
import Idealize.ShloMosaic.Lib.Tactic

-- membership in a rectangle of full extents recurses once per coordinate of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: every statement below is at this parameter
variable (V : (c : Dev nD) → (b : Ref sig .tc) → Buf (Elt F) ((c : Thread nD τ).loc b))

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, for any proof data whose array is
    `V`'s and whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1 likewise (fetched at the first point only: the index never moves). -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2 likewise. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The body's branch conditions, in closed form -/

/-- The first condition (second coordinate = 0) holds exactly at the even points. -/
theorem hcond1_1 : ∀ t : Fin cfg1.N, k1_cond1 (grid1.coords t) = 1#1 ↔ t.val % 2 = 0 :=
  (by decide +kernel : ∀ t : Fin grid1.N, k1_cond1 (grid1.coords t) = 1#1 ↔ t.val % 2 = 0)
/-- The second condition (second coordinate ≠ 0) holds exactly at the odd points. -/
theorem hcond1_2 : ∀ t : Fin cfg1.N, k1_cond2 (grid1.coords t) = 1#1 ↔ ¬t.val % 2 = 0 :=
  (by decide +kernel : ∀ t : Fin grid1.N, k1_cond2 (grid1.coords t) = 1#1 ↔ ¬t.val % 2 = 0)
/-- The third condition (second coordinate = 1) holds exactly at the odd points. -/
theorem hcond1_3 : ∀ t : Fin cfg1.N, k1_cond3 (grid1.coords t) = 1#1 ↔ ¬t.val % 2 = 0 :=
  (by decide +kernel : ∀ t : Fin grid1.N, k1_cond3 (grid1.coords t) = 1#1 ↔ ¬t.val % 2 = 0)

/-! ## Where the windows are idle -/

/-- The output window is live at every point: at every point one of the three conditions holds. -/
theorem liveAt1_3 : ∀ i : grid1.Coords, cfg1.idle 3 i = false :=
  (by decide +kernel : ∀ i : grid1.Coords, idle1 3 i = false)

/-! ## The staging memrefs -/

/-- One staging buffer of the output window, through which its contents are stated (the choice does not matter). -/
abbrev VO1_3 : View sig .tc .vmem S10000x64 .f32 := (Memref.whole cc1_stg3_0 : Memref sig .tc .vmem S10000x64 .f32).view
/-- Each window's current staging memref at point `t`, spelled as the pipeline passes it, and its wholeness. -/
abbrev ms1_0 (t : Fin cfg1.N) : Memref sig .tc .vmem S1x3x10000x64 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S3x64x64 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x64 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S10000x64 .f32 := win1_3.stage (cfg1.slots t 3)
abbrev hs1_3 (t : Fin cfg1.N) : (ms1_3 t).IsWhole := hstage1_3 ((cfg1.slots t 3).cast nbuf1_3)

end Cert.Kernel.Hand

end
-- ==== Proof.BRegion1A.lean ====
/-
  Region 1, CASE A (second grid coordinate 0: the first conditional taken, the second and third not): the whole
  body on any whole staging memrefs, the three inputs' at their contents and the output's at anything, runs to
  the continuation holding the inputs' as they were and the output's buffer with the pieces the body's one
  store leaves written into it. The pieces are the witness the run finds.
-/
import proofs.«121376_j36636071035259_2_alg».proof.Proof.BRegion1Runs

-- membership in a rectangle of full extents recurses once per coordinate of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: every statement below is at this parameter
variable (V : (c : Dev nD) → (b : Ref sig .tc) → Buf (Elt F) ((c : Thread nD τ).loc b))

set_option maxHeartbeats 1000000 in
/-- What the body's stores leave in the output's staging memref, as pieces (last first), in case A, with the
    proof that the body runs to the continuation holding each input's buffer as it was and the output's with
    its pieces written. -/
noncomputable def kernelRun1_A (c : Dev nD) (i : grid1.Coords)
    (arg2 : Memref sig .tc .vmem S1x3x10000x64 .f32) (harg2 : arg2.IsWhole) (arg3 : Memref sig .tc .vmem S3x64x64 .f32) (harg3 : arg3.IsWhole) (arg4 : Memref sig .tc .vmem S1x64 .f32) (harg4 : arg4.IsWhole) (arg5 : Memref sig .tc .vmem S10000x64 .f32) (harg5 : arg5.IsWhole)
    (hc1 : k1_cond1 i = 1#1) (hc2 : ¬k1_cond2 i = 1#1) (hc3 : ¬k1_cond3 i = 1#1)
    (x0 : Vec F S1x3x10000x64 .f32) (x1 : Vec F S3x64x64 .f32) (x2 : Vec F S1x64 .f32) :
    { L3 : List (View.Piece (Elt F) S10000x64 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d)
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3)) -∗ K ⟨⟩))
          ⊢ wp frame (wpE (defs₀ (F := F)) Variants.none c none) E (cc1__final_kernel i arg2 harg2 arg3 harg3 arg4 harg4 arg5 harg5) K } := by
  refine ⟨?_, fun E K => ?run⟩
  case run =>
    simp only [cc1__final_kernel_eq_skeleton]; unfold cc1__final_kernel_skel
    simp only [k1_part1_eq_skeleton]
    unfold owns
    iintro ⟨⟨%f0, %hf0, H0⟩, ⟨%f1, %hf1, H1⟩, ⟨%f2, %hf2, H2⟩, ⟨%d3, %f3, -, H3⟩, Hk⟩
    obtain rfl := harg2.eq_unread hf0; obtain rfl := harg3.eq_unread hf1; obtain rfl := harg4.eq_unread hf2
    sl_exec (disch := first | exact hc1 | exact hc2 | exact hc3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact H3

end Cert.Kernel.Hand

end
-- ==== Proof.BRegion1B.lean ====
/-
  Region 1, CASE B (second grid coordinate 1: the first conditional not taken, the second and third taken): the
  whole body on any whole staging memrefs, the three inputs' at their contents and the output's at its running
  contents (it is read back before it is covered), runs to the continuation holding the inputs' as they were
  and the output's buffer with the pieces the body's two stores leave written into it. The pieces are the
  witness the run finds.
-/
import proofs.«121376_j36636071035259_2_alg».proof.Proof.BRegion1A

-- membership in a rectangle of full extents recurses once per coordinate of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: every statement below is at this parameter
variable (V : (c : Dev nD) → (b : Ref sig .tc) → Buf (Elt F) ((c : Thread nD τ).loc b))

set_option maxHeartbeats 1000000 in
/-- What the body's stores leave in the output's staging memref, as pieces (last first), in case B, with the
    proof that the body runs to the continuation holding each input's buffer as it was and the output's with
    its pieces written. -/
noncomputable def kernelRun1_B (c : Dev nD) (i : grid1.Coords)
    (arg2 : Memref sig .tc .vmem S1x3x10000x64 .f32) (harg2 : arg2.IsWhole) (arg3 : Memref sig .tc .vmem S3x64x64 .f32) (harg3 : arg3.IsWhole) (arg4 : Memref sig .tc .vmem S1x64 .f32) (harg4 : arg4.IsWhole) (arg5 : Memref sig .tc .vmem S10000x64 .f32) (harg5 : arg5.IsWhole)
    (hc1 : ¬k1_cond1 i = 1#1) (hc2 : k1_cond2 i = 1#1) (hc3 : k1_cond3 i = 1#1)
    (x0 : Vec F S1x3x10000x64 .f32) (x1 : Vec F S3x64x64 .f32) (x2 : Vec F S1x64 .f32) (xo3 : Vec F S10000x64 .f32) :
    { L3 : List (View.Piece (Elt F) S10000x64 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xo3
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3)) -∗ K ⟨⟩))
          ⊢ wp frame (wpE (defs₀ (F := F)) Variants.none c none) E (cc1__final_kernel i arg2 harg2 arg3 harg3 arg4 harg4 arg5 harg5) K } := by
  refine ⟨?_, fun E K => ?run⟩
  case run =>
    simp only [cc1__final_kernel_eq_skeleton]; unfold cc1__final_kernel_skel
    simp only [k1_part1_eq_skeleton]
    unfold owns
    iintro ⟨⟨%f0, %hf0, H0⟩, ⟨%f1, %hf1, H1⟩, ⟨%f2, %hf2, H2⟩, ⟨%f3, %hf3, H3⟩, Hk⟩
    obtain rfl := harg2.eq_unread hf0; obtain rfl := harg3.eq_unread hf1; obtain rfl := harg4.eq_unread hf2; obtain rfl := harg5.eq_unread hf3
    sl_exec (disch := first | exact hc1 | exact hc2 | exact hc3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact H3

end Cert.Kernel.Hand

end
-- ==== Proof.BRegion1.lean ====
/-
  Region 1 (the program's second kernel call), the frame half, at the region-entry contents `V`. The output
  block (index (i, 0)) is visited twice, at the points t = 2 i and t = 2 i + 1, and written back after the
  second only. At an even point the body stores the affine sum of the point's three feature slabs; at an odd
  point it reads that sum back, adds the point's own, stores, reads the total back and stores its leaky
  rectification. What the output's staging buffer holds after each point is therefore a recursion on the
  point (`outsAt1`) with one equation per case; the proof data, the body obligation, and the two case values
  as explicit terms over the skeleton's payloads follow.
-/
import proofs.«121376_j36636071035259_2_alg».proof.Proof.BRegion1B
import Idealize.ShloMosaic.Lib.Pipeline.Value

-- membership in a rectangle of full extents recurses once per coordinate of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: every statement below is at this parameter
variable (V : (c : Dev nD) → (b : Ref sig .tc) → Buf (Elt F) ((c : Thread nD τ).loc b))

/-! ## What each case leaves in the output's staging buffer -/

/-- Case A's pieces tile the output block, so they cover it. -/
theorem cover1_A_3 (c : Dev nD) (i : grid1.Coords) (arg2 : Memref sig .tc .vmem S1x3x10000x64 .f32) (harg2 : arg2.IsWhole) (arg3 : Memref sig .tc .vmem S3x64x64 .f32) (harg3 : arg3.IsWhole) (arg4 : Memref sig .tc .vmem S1x64 .f32) (harg4 : arg4.IsWhole) (arg5 : Memref sig .tc .vmem S10000x64 .f32) (harg5 : arg5.IsWhole) (hc1 : k1_cond1 i = 1#1) (hc2 : ¬k1_cond2 i = 1#1) (hc3 : ¬k1_cond3 i = 1#1)
    (x0 : Vec F S1x3x10000x64 .f32) (x1 : Vec F S3x64x64 .f32) (x2 : Vec F S1x64 .f32) (y : S10000x64.Idx) :
    ∃ pc ∈ (kernelRun1_A c i arg2 harg2 arg3 harg3 arg4 harg4 arg5 harg5 hc1 hc2 hc3 x0 x1 x2).1, y ∈ pc.1.set :=
  View.cover_of_tiledL (kernelRun1_A c i arg2 harg2 arg3 harg3 arg4 harg4 arg5 harg5 hc1 hc2 hc3 x0 x1 x2).1 S10000x64.size (by sl_kernel_rfl) y

/-- What case A leaves in the output's staging buffer: its pieces read back over junk. -/
def out1_A_3 (c : Dev nD) (i : grid1.Coords) (arg2 : Memref sig .tc .vmem S1x3x10000x64 .f32) (harg2 : arg2.IsWhole) (arg3 : Memref sig .tc .vmem S3x64x64 .f32) (harg3 : arg3.IsWhole) (arg4 : Memref sig .tc .vmem S1x64 .f32) (harg4 : arg4.IsWhole) (arg5 : Memref sig .tc .vmem S10000x64 .f32) (harg5 : arg5.IsWhole) (hc1 : k1_cond1 i = 1#1) (hc2 : ¬k1_cond2 i = 1#1) (hc3 : ¬k1_cond3 i = 1#1)
    (x0 : Vec F S1x3x10000x64 .f32) (x1 : Vec F S3x64x64 .f32) (x2 : Vec F S1x64 .f32) : Vec F S10000x64 .f32 :=
  VO1_3.read (Elt F) (VO1_3.writes (Elt F) VO1_3.junk (kernelRun1_A c i arg2 harg2 arg3 harg3 arg4 harg4 arg5 harg5 hc1 hc2 hc3 x0 x1 x2).1)

/-- Case B's pieces tile the output block, so they cover it. -/
theorem cover1_B_3 (c : Dev nD) (i : grid1.Coords) (arg2 : Memref sig .tc .vmem S1x3x10000x64 .f32) (harg2 : arg2.IsWhole) (arg3 : Memref sig .tc .vmem S3x64x64 .f32) (harg3 : arg3.IsWhole) (arg4 : Memref sig .tc .vmem S1x64 .f32) (harg4 : arg4.IsWhole) (arg5 : Memref sig .tc .vmem S10000x64 .f32) (harg5 : arg5.IsWhole) (hc1 : ¬k1_cond1 i = 1#1) (hc2 : k1_cond2 i = 1#1) (hc3 : k1_cond3 i = 1#1)
    (x0 : Vec F S1x3x10000x64 .f32) (x1 : Vec F S3x64x64 .f32) (x2 : Vec F S1x64 .f32) (xo3 : Vec F S10000x64 .f32) (y : S10000x64.Idx) :
    ∃ pc ∈ (kernelRun1_B c i arg2 harg2 arg3 harg3 arg4 harg4 arg5 harg5 hc1 hc2 hc3 x0 x1 x2 xo3).1, y ∈ pc.1.set :=
  View.cover_of_tiledL (kernelRun1_B c i arg2 harg2 arg3 harg3 arg4 harg4 arg5 harg5 hc1 hc2 hc3 x0 x1 x2 xo3).1 S10000x64.size (by sl_kernel_rfl) y

/-- What case B leaves in the output's staging buffer: its pieces read back over junk. -/
def out1_B_3 (c : Dev nD) (i : grid1.Coords) (arg2 : Memref sig .tc .vmem S1x3x10000x64 .f32) (harg2 : arg2.IsWhole) (arg3 : Memref sig .tc .vmem S3x64x64 .f32) (harg3 : arg3.IsWhole) (arg4 : Memref sig .tc .vmem S1x64 .f32) (harg4 : arg4.IsWhole) (arg5 : Memref sig .tc .vmem S10000x64 .f32) (harg5 : arg5.IsWhole) (hc1 : ¬k1_cond1 i = 1#1) (hc2 : k1_cond2 i = 1#1) (hc3 : k1_cond3 i = 1#1)
    (x0 : Vec F S1x3x10000x64 .f32) (x1 : Vec F S3x64x64 .f32) (x2 : Vec F S1x64 .f32) (xo3 : Vec F S10000x64 .f32) : Vec F S10000x64 .f32 :=
  VO1_3.read (Elt F) (VO1_3.writes (Elt F) VO1_3.junk (kernelRun1_B c i arg2 harg2 arg3 harg3 arg4 harg4 arg5 harg5 hc1 hc2 hc3 x0 x1 x2 xo3).1)

/-! ## What the output holds after each point -/

/-- What the output's staging buffer holds after the body at position `n`: the case the closed forms select at
    `n`, run at the point's memrefs and input blocks; in case B the buffer, read before it is covered, at what
    this leaves at `n - 1` (it is not written back between). -/
def outsAt1 (c : Dev nD) : (n : ℕ) → n < cfg1.N → Vec F S10000x64 .f32
  | 0, hn => out1_A_3 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) ((hcond1_1 ⟨0, hn⟩).mpr (Nat.zero_mod _)) (fun h => (hcond1_2 ⟨0, hn⟩).mp h (Nat.zero_mod _)) (fun h => (hcond1_3 ⟨0, hn⟩).mp h (Nat.zero_mod _)) (iblk1 V c 0 ⟨0, hn⟩) (iblk1 V c 1 ⟨0, hn⟩) (iblk1 V c 2 ⟨0, hn⟩)
  | n + 1, hn =>
    if h0 : (n + 1) % 2 = 0 then
      out1_A_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) ((hcond1_1 ⟨n + 1, hn⟩).mpr h0) (fun h => (hcond1_2 ⟨n + 1, hn⟩).mp h h0) (fun h => (hcond1_3 ⟨n + 1, hn⟩).mp h h0) (iblk1 V c 0 ⟨n + 1, hn⟩) (iblk1 V c 1 ⟨n + 1, hn⟩) (iblk1 V c 2 ⟨n + 1, hn⟩)
    else
      out1_B_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (fun h => h0 ((hcond1_1 ⟨n + 1, hn⟩).mp h)) ((hcond1_2 ⟨n + 1, hn⟩).mpr h0) ((hcond1_3 ⟨n + 1, hn⟩).mpr h0) (iblk1 V c 0 ⟨n + 1, hn⟩) (iblk1 V c 1 ⟨n + 1, hn⟩) (iblk1 V c 2 ⟨n + 1, hn⟩) (outsAt1 c n (Nat.lt_of_succ_lt hn))

/-- `outsAt1` at a point of case A (even): that case's contents. -/
theorem outsAt1_A (c : Dev nD) (t : Fin cfg1.N) (h0 : t.val % 2 = 0) :
    outsAt1 V c t.val t.isLt = out1_A_3 c (grid1.coords t) (ms1_0 t) (hs1_0 t) (ms1_1 t) (hs1_1 t) (ms1_2 t) (hs1_2 t) (ms1_3 t) (hs1_3 t) ((hcond1_1 t).mpr h0) (fun h => (hcond1_2 t).mp h h0) (fun h => (hcond1_3 t).mp h h0) (iblk1 V c 0 t) (iblk1 V c 1 t) (iblk1 V c 2 t) := by
  obtain ⟨n, hn⟩ := t
  cases n with
  | zero => exact rfl
  | succ n => exact (dif_pos h0).trans rfl

/-- `outsAt1` at a point of case B (odd): that case's contents, over what the point before left. -/
theorem outsAt1_B (c : Dev nD) (t : Fin cfg1.N) (h0 : ¬t.val % 2 = 0) :
    outsAt1 V c t.val t.isLt = out1_B_3 c (grid1.coords t) (ms1_0 t) (hs1_0 t) (ms1_1 t) (hs1_1 t) (ms1_2 t) (hs1_2 t) (ms1_3 t) (hs1_3 t) (fun h => h0 ((hcond1_1 t).mp h)) ((hcond1_2 t).mpr h0) ((hcond1_3 t).mpr h0) (iblk1 V c 0 t) (iblk1 V c 1 t) (iblk1 V c 2 t) (outsAt1 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans rfl

/-! ## The proof data -/

/-- The proof data of pipeline 1 on core `c`: the arrays as the region finds them (`V`); after the body at point
    `t` each input's buffer at its block and the output's at `outsAt1`; the class's invariant; nothing owed;
    full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t.val t.isLt)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = (outsAt1 V c t.val t.isLt) := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
/-- At a point of case B the output's current staging buffer holds what the body left at the point before: the
    point is not the first, the buffer was not written back between (write-backs follow the odd points only), the
    window is live and uncut. -/
theorem before1_3_B (c : Dev nD) (t : Fin cfg1.N) (h0 : ¬t.val % 2 = 0) (d) :
    (dat1 V c).before 3 t d = (outsAt1 V c (t.val - 1) (Nat.lt_of_le_of_lt (Nat.sub_le _ _) t.isLt)) := by
  have hN : t.val < 10 := lt_of_lt_of_eq t.isLt (show cfg1.N = 10 from N_1)
  rw [Dat.before_out_kept _ 3 rfl t (by omega) (Bool.eq_false_iff.mpr fun h => by have := (flush1_3 _).mp h; dsimp only at this; omega)
    liveAt1_3 (fun _ _ => rfl)]
  dsimp only [dat1]

/-! ## The body obligation, at a generic point -/

/-- What the body is called with at point `t` (the library's precondition, the windows one by one), -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

/-- and what it returns (the output window's post the library's exact one, rewritten by its liveness). -/
def bodyPost1 (c : Dev nD) (t : Fin cfg1.N) : sProp 𝕄 :=
  iprop((dat1 V c).Φ t.succ ∗ (dat1 V c).owesAt () t.succ
    ∗ owns (c : Thread nD τ) (ms1_0 t) fullShare ((dat1 V c).after 0 t)
    ∗ owns (c : Thread nD τ) (ms1_1 t) fullShare ((dat1 V c).after 1 t)
    ∗ owns (c : Thread nD τ) (ms1_2 t) fullShare ((dat1 V c).after 2 t)
    ∗ (dat1 V c).leavesExact 3 t)

set_option maxHeartbeats 800000 in
/-- The body at any point: the inputs' memrefs hold their blocks; the closed forms say which case the point is
    in; in case B the output's buffer holds what the point before left; so the case's run applies; the
    invariant passes through unread; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).leavesExact 3 t = owns (c : Thread nD τ) (ms1_3 t) fullShare ((dat1 V c).after 3 t) from by
      unfold Dat.leavesExact; rw [liveAt1_3]]
  rw [show (dat1 V c).Φ t.succ = (dat1 V c).Φ t.castSucc from rfl,
    show (dat1 V c).owesAt () t.succ = (dat1 V c).owesAt () t.castSucc from rfl,
    after1_0, after1_1, after1_2, after1_3]
  have hN : t.val < 10 := lt_of_lt_of_eq t.isLt (show cfg1.N = 10 from N_1)
  by_cases h0 : t.val % 2 = 0
  · rw [outsAt1_A V c t h0]
    unfold out1_A_3
    iintro ⟨HΦ, Ho, ⟨%d0, H0⟩, ⟨%d1, H1⟩, ⟨%d2, H2⟩, ⟨%d3, H3⟩⟩
    iapply ((kernelRun1_A c (grid1.coords t) _ _ _ _ _ _ _ _ ((hcond1_1 t).mpr h0) (fun h => (hcond1_2 t).mp h h0) (fun h => (hcond1_3 t).mp h h0) (iblk1 V c 0 t) (iblk1 V c 1 t) (iblk1 V c 2 t)).2 Set.univ _)
    isplitl [H0]; · iexact H0
    isplitl [H1]; · iexact H1
    isplitl [H2]; · iexact H2
    isplitl [H3]; · iexists _; iexact H3
    iintro ⟨H0, H1, H2, ⟨%e3, H3⟩⟩
    isplitl [HΦ]; · iexact HΦ
    isplitl [Ho]; · iexact Ho
    isplitl [H0]; · iexact H0
    isplitl [H1]; · iexact H1
    isplitl [H2]; · iexact H2
    unfold owns; iexists _; isplitr
    swap; · iexact H3
    ipureintro; exact View.read_writes_of_cover _ _ _ _ _ (cover1_A_3 c _ _ _ _ _ _ _ _ _ _ _ _ _ _ _)
  · rw [outsAt1_B V c t h0]
    simp only [before1_3_B V c t h0]
    unfold out1_B_3
    iintro ⟨HΦ, Ho, ⟨%d0, H0⟩, ⟨%d1, H1⟩, ⟨%d2, H2⟩, ⟨%d3, H3⟩⟩
    iapply ((kernelRun1_B c (grid1.coords t) _ _ _ _ _ _ _ _ (fun h => h0 ((hcond1_1 t).mp h)) ((hcond1_2 t).mpr h0) ((hcond1_3 t).mpr h0) (iblk1 V c 0 t) (iblk1 V c 1 t) (iblk1 V c 2 t) _).2 Set.univ _)
    isplitl [H0]; · iexact H0
    isplitl [H1]; · iexact H1
    isplitl [H2]; · iexact H2
    isplitl [H3]; · iexact H3
    iintro ⟨H0, H1, H2, ⟨%e3, H3⟩⟩
    isplitl [HΦ]; · iexact HΦ
    isplitl [Ho]; · iexact Ho
    isplitl [H0]; · iexact H0
    isplitl [H1]; · iexact H1
    isplitl [H2]; · iexact H2
    unfold owns; iexists _; isplitr
    swap; · iexact H3
    ipureintro; exact View.read_writes_of_cover _ _ _ _ _ (cover1_B_3 c _ _ _ _ _ _ _ _ _ _ _ _ _ _ _ _)

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.BRun.lean ====
import proofs.«121376_j36636071035259_2_alg».proof.Proof.Gen.Kernel.Launch
import proofs.«121376_j36636071035259_2_alg».proof.Proof.Gen.Kernel.Skeleton
import proofs.«121376_j36636071035259_2_alg».proof.Proof.Gen.Kernel.Points
import proofs.«121376_j36636071035259_2_alg».proof.Proof.BRegion0
import proofs.«121376_j36636071035259_2_alg».proof.Proof.BRegion1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary of @main: a fold from the launch memory -/

/-- Core `c`'s buffers at launch. -/
abbrev W0 : Dev nD → Valuation τ sig (Elt F) := fun c b => (s₀ m ρ).mem ((c : Dev nD), b)
/-- After the first stretch of host operations: what region 0 is entered from. -/
abbrev W1 : Dev nD → Valuation τ sig (Elt F) := fun c => StableHlo.after main_part0_ops0 (W0 m ρ c)
abbrev V1 : (c : Dev nD) → (b : Ref sig .tc) → Buf (Elt F) ((c : Thread nD τ).loc b) := fun c b => W1 m ρ c b
/-- At region 0's exit: its arrays at what the write-backs leave, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)
/-- After host stretch 1. -/
abbrev W3 : Dev nD → Valuation τ sig (Elt F) := fun c => StableHlo.after main_part0_ops1 (W2 m ρ c)
/-- After host stretch 2. -/
abbrev W4 : Dev nD → Valuation τ sig (Elt F) := fun c => StableHlo.after main_part0_ops2 (W3 m ρ c)
/-- After host stretch 3. -/
abbrev W5 : Dev nD → Valuation τ sig (Elt F) := fun c => StableHlo.after main_part0_ops3 (W4 m ρ c)
/-- After host stretch 4. -/
abbrev W6 : Dev nD → Valuation τ sig (Elt F) := fun c => StableHlo.after main_part1_ops0 (W5 m ρ c)
/-- After host stretch 5. -/
abbrev W7 : Dev nD → Valuation τ sig (Elt F) := fun c => StableHlo.after main_part1_ops1 (W6 m ρ c)
/-- After host stretch 6. -/
abbrev W8 : Dev nD → Valuation τ sig (Elt F) := fun c => StableHlo.after main_part1_ops2 (W7 m ρ c)
/-- After host stretch 7. -/
abbrev W9 : Dev nD → Valuation τ sig (Elt F) := fun c => StableHlo.after main_part2_ops0 (W8 m ρ c)
abbrev V9 : (c : Dev nD) → (b : Ref sig .tc) → Buf (Elt F) ((c : Thread nD τ).loc b) := fun c b => W9 m ρ c b
/-- At region 1's exit. -/
def W10 (c : Dev nD) : Valuation τ sig (Elt F) :=
  Pipeline.withArrays spec1 c (W9 m ρ c) fun w => (dat1 (V9 m ρ) c).arrAt w cfg1.N
theorem W10_arr (c : Dev nD) (w : Fin cfg1.W) :
    W10 m ρ c (Proc.devRef .tc (Pipeline.arrRef spec1 w)) = (dat1 (V9 m ρ) c).arrAt w cfg1.N := by
  unfold W10; exact Pipeline.withArrays_arr spec1 launch1.win.arr_inj c _ _ w
theorem W10_of_ne (c : Dev nD) (b : Ref sig .tc) (hb : ∀ w, Pipeline.arrRef spec1 w ≠ b) :
    W10 m ρ c (Proc.devRef .tc b) = W9 m ρ c (Proc.devRef .tc b) := by
  unfold W10; exact Pipeline.withArrays_of_ne spec1 c _ _ b hb
abbrev V10 : (c : Dev nD) → (b : Ref sig .tc) → Buf (Elt F) ((c : Thread nD τ).loc b) := fun c b => W10 m ρ c b
theorem hF1 (c : Dev nD) (w : Fin cfg1.W) : (dat1 (V9 m ρ) c).arrAt w cfg1.N = V10 m ρ c (Pipeline.arrRef spec1 w) :=
  (W10_arr m ρ c w).symm
theorem hrest1 (c : Dev nD) : ∀ b, b ∉ Finset.univ.image (Pipeline.arrRef spec1) → V10 m ρ c b = V9 m ρ c b :=
  fun b hb => W10_of_ne m ρ c b fun w e => hb (Finset.mem_image.mpr ⟨w, Finset.mem_univ _, e⟩)

/-! ## What each stretch of host operations writes -/

abbrev S0_W : List (Ref sig .tc) := [main_v0, main_v1, main_v2, main_v3, main_v4, main_v5, main_v6, main_v7, main_v8, main_v9, main_v10, main_v11, main_v12, main_v13, main_v14, main_v15, main_v16]
theorem S0_writes : (main_part0_ops0 : List (HloOp τ sig (Elt F))).Forall fun op => op.writes ⊆ (S0_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
theorem S0_fresh : (main_part0_ops0 : List (HloOp τ sig (Elt F))).Forall fun op => op.fresh = ∅ := by
  simp only [List.Forall]; repeat' constructor
abbrev S1_W : List (Ref sig .tc) := [main_v18, main_v19, main_cst, main_v20, main_cst_0, main_v21, main_v22, main_v23, main_cst_1]
theorem S1_writes : (main_part0_ops1 : List (HloOp τ sig (Elt F))).Forall fun op => op.writes ⊆ (S1_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
theorem S1_fresh : (main_part0_ops1 : List (HloOp τ sig (Elt F))).Forall fun op => op.fresh = ∅ := by
  simp only [List.Forall]; repeat' constructor
abbrev S2_W : List (Ref sig .tc) := [main_call0_v0, main_call0_v1, main_v24]
theorem S2_writes : (main_part0_ops2 : List (HloOp τ sig (Elt F))).Forall fun op => op.writes ⊆ (S2_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
theorem S2_fresh : (main_part0_ops2 : List (HloOp τ sig (Elt F))).Forall fun op => op.fresh = ∅ := by
  simp only [List.Forall]; repeat' constructor
abbrev S3_W : List (Ref sig .tc) := [main_cst_2, main_v25, main_v26, main_v27, main_v28, main_v29, main_c, main_v30, main_v31, main_c_3, main_v32, main_v33, main_v34, main_v35, main_v36, main_cst_4, main_v37, main_v38, main_v39, main_v40, main_v41, main_v42, main_v43, main_v44, main_c_5, main_v45, main_v46, main_c_6, main_v47, main_v48, main_v49, main_v50]
theorem S3_writes : (main_part0_ops3 : List (HloOp τ sig (Elt F))).Forall fun op => op.writes ⊆ (S3_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
theorem S3_fresh : (main_part0_ops3 : List (HloOp τ sig (Elt F))).Forall fun op => op.fresh = ∅ := by
  simp only [List.Forall]; repeat' constructor
abbrev S4_W : List (Ref sig .tc) := [main_v51, main_cst_7, main_v52, main_v53, main_v54, main_v55, main_v56, main_v57, main_v58, main_v59, main_v60, main_v61, main_v62, main_v63, main_cst_8, main_v64, main_cst_9, main_v65, main_v66, main_v67, main_cst_10]
theorem S4_writes : (main_part1_ops0 : List (HloOp τ sig (Elt F))).Forall fun op => op.writes ⊆ (S4_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
theorem S4_fresh : (main_part1_ops0 : List (HloOp τ sig (Elt F))).Forall fun op => op.fresh = ∅ := by
  simp only [List.Forall]; repeat' constructor
abbrev S5_W : List (Ref sig .tc) := [main_call1_v0, main_call1_v1, main_v68]
theorem S5_writes : (main_part1_ops1 : List (HloOp τ sig (Elt F))).Forall fun op => op.writes ⊆ (S5_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
theorem S5_fresh : (main_part1_ops1 : List (HloOp τ sig (Elt F))).Forall fun op => op.fresh = ∅ := by
  simp only [List.Forall]; repeat' constructor
abbrev S6_W : List (Ref sig .tc) := [main_cst_11, main_v69, main_v70, main_v71, main_v72, main_v73, main_c_12, main_v74, main_v75, main_c_13, main_v76, main_v77, main_v78, main_v79, main_v80, main_cst_14, main_v81, main_v82, main_v83, main_v84, main_v85, main_v86, main_v87, main_v88, main_c_15, main_v89, main_v90, main_c_16, main_v91, main_v92, main_v93, main_v94, main_v95, main_cst_17, main_v96, main_v97, main_v98, main_v99]
theorem S6_writes : (main_part1_ops2 : List (HloOp τ sig (Elt F))).Forall fun op => op.writes ⊆ (S6_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
theorem S6_fresh : (main_part1_ops2 : List (HloOp τ sig (Elt F))).Forall fun op => op.fresh = ∅ := by
  simp only [List.Forall]; repeat' constructor
abbrev S7_W : List (Ref sig .tc) := [main_v100, main_v101, main_v102, main_v103, main_v104, main_v105, main_v106, main_v107, main_v108, main_v109, main_v110, main_v111, main_cst_18, main_v112, main_cst_19, main_v113, main_v114, main_v115, main_cst_20, main_v116, main_v117, main_v118, main_cst_21, main_v119, main_v120, main_v121, main_cst_22, main_v122, main_cst_23, main_v123, main_v124, main_v125, main_cst_24, main_v126, main_v127, main_v128, main_cst_25, main_v129, main_v130, main_v131, main_cst_26, main_v132, main_cst_27, main_v133, main_v134, main_v135, main_cst_28, main_v136, main_v137, main_v138, main_cst_29, main_v139, main_v140, main_v141, main_v142, main_v143, main_v144, main_v145, main_v146]
theorem S7_writes : (main_part2_ops0 : List (HloOp τ sig (Elt F))).Forall fun op => op.writes ⊆ (S7_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
theorem S7_fresh : (main_part2_ops0 : List (HloOp τ sig (Elt F))).Forall fun op => op.fresh = ∅ := by
  simp only [List.Forall]; repeat' constructor

/-! ## A buffer no stretch writes and no region has as an array ends as launched -/

theorem W10_unwritten (c : Dev nD) (b : Ref sig .tc)
    (h0 : b ∉ S0_W) (h1 : b ∉ S1_W) (h2 : b ∉ S2_W) (h3 : b ∉ S3_W) (h4 : b ∉ S4_W) (h5 : b ∉ S5_W) (h6 : b ∉ S6_W) (h7 : b ∉ S7_W)
    (hr0 : ∀ w, Pipeline.arrRef spec0 w ≠ b) (hr1 : ∀ w, Pipeline.arrRef spec1 w ≠ b) :
    W10 m ρ c (Proc.devRef .tc b) = m ((c : Thread nD τ).loc b) :=
  calc W10 m ρ c (Proc.devRef .tc b)
    _ = W9 m ρ c (Proc.devRef .tc b) := W10_of_ne m ρ c b hr1
    _ = W8 m ρ c (Proc.devRef .tc b) := StableHlo.after_of_writes_sub main_part2_ops0 _ S7_writes h7
    _ = W7 m ρ c (Proc.devRef .tc b) := StableHlo.after_of_writes_sub main_part1_ops2 _ S6_writes h6
    _ = W6 m ρ c (Proc.devRef .tc b) := StableHlo.after_of_writes_sub main_part1_ops1 _ S5_writes h5
    _ = W5 m ρ c (Proc.devRef .tc b) := StableHlo.after_of_writes_sub main_part1_ops0 _ S4_writes h4
    _ = W4 m ρ c (Proc.devRef .tc b) := StableHlo.after_of_writes_sub main_part0_ops3 _ S3_writes h3
    _ = W3 m ρ c (Proc.devRef .tc b) := StableHlo.after_of_writes_sub main_part0_ops2 _ S2_writes h2
    _ = W2 m ρ c (Proc.devRef .tc b) := StableHlo.after_of_writes_sub main_part0_ops1 _ S1_writes h1
    _ = W1 m ρ c (Proc.devRef .tc b) := W2_of_ne m ρ c b hr0
    _ = W0 m ρ c (Proc.devRef .tc b) := StableHlo.after_of_writes_sub main_part0_ops0 _ S0_writes h0
    _ = m ((c : Thread nD τ).loc b) := rfl

theorem W10_main_arg0 (c : Dev nD) : W10 m ρ c (Proc.devRef .tc main_arg0) = m ((c : Thread nD τ).loc main_arg0) :=
  W10_unwritten m ρ c main_arg0 (by decide) (by decide) (by decide) (by decide) (by decide) (by decide) (by decide) (by decide) (by decide) (by decide)
theorem W10_main_arg1 (c : Dev nD) : W10 m ρ c (Proc.devRef .tc main_arg1) = m ((c : Thread nD τ).loc main_arg1) :=
  W10_unwritten m ρ c main_arg1 (by decide) (by decide) (by decide) (by decide) (by decide) (by decide) (by decide) (by decide) (by decide) (by decide)
theorem W10_main_arg2 (c : Dev nD) : W10 m ρ c (Proc.devRef .tc main_arg2) = m ((c : Thread nD τ).loc main_arg2) :=
  W10_unwritten m ρ c main_arg2 (by decide) (by decide) (by decide) (by decide) (by decide) (by decide) (by decide) (by decide) (by decide) (by decide)
theorem W10_main_arg3 (c : Dev nD) : W10 m ρ c (Proc.devRef .tc main_arg3) = m ((c : Thread nD τ).loc main_arg3) :=
  W10_unwritten m ρ c main_arg3 (by decide) (by decide) (by decide) (by decide) (by decide) (by decide) (by decide) (by decide) (by decide) (by decide)
theorem W10_main_arg4 (c : Dev nD) : W10 m ρ c (Proc.devRef .tc main_arg4) = m ((c : Thread nD τ).loc main_arg4) :=
  W10_unwritten m ρ c main_arg4 (by decide) (by decide) (by decide) (by decide) (by decide) (by decide) (by decide) (by decide) (by decide) (by decide)
theorem W10_main_arg5 (c : Dev nD) : W10 m ρ c (Proc.devRef .tc main_arg5) = m ((c : Thread nD τ).loc main_arg5) :=
  W10_unwritten m ρ c main_arg5 (by decide) (by decide) (by decide) (by decide) (by decide) (by decide) (by decide) (by decide) (by decide) (by decide)
theorem W10_main_arg6 (c : Dev nD) : W10 m ρ c (Proc.devRef .tc main_arg6) = m ((c : Thread nD τ).loc main_arg6) :=
  W10_unwritten m ρ c main_arg6 (by decide) (by decide) (by decide) (by decide) (by decide) (by decide) (by decide) (by decide) (by decide) (by decide)
theorem W10_main_arg7 (c : Dev nD) : W10 m ρ c (Proc.devRef .tc main_arg7) = m ((c : Thread nD τ).loc main_arg7) :=
  W10_unwritten m ρ c main_arg7 (by decide) (by decide) (by decide) (by decide) (by decide) (by decide) (by decide) (by decide) (by decide) (by decide)
theorem W10_main_arg8 (c : Dev nD) : W10 m ρ c (Proc.devRef .tc main_arg8) = m ((c : Thread nD τ).loc main_arg8) :=
  W10_unwritten m ρ c main_arg8 (by decide) (by decide) (by decide) (by decide) (by decide) (by decide) (by decide) (by decide) (by decide) (by decide)
theorem W10_main_arg9 (c : Dev nD) : W10 m ρ c (Proc.devRef .tc main_arg9) = m ((c : Thread nD τ).loc main_arg9) :=
  W10_unwritten m ρ c main_arg9 (by decide) (by decide) (by decide) (by decide) (by decide) (by decide) (by decide) (by decide) (by decide) (by decide)
theorem W10_main_arg10 (c : Dev nD) : W10 m ρ c (Proc.devRef .tc main_arg10) = m ((c : Thread nD τ).loc main_arg10) :=
  W10_unwritten m ρ c main_arg10 (by decide) (by decide) (by decide) (by decide) (by decide) (by decide) (by decide) (by decide) (by decide) (by decide)
theorem W10_main_arg11 (c : Dev nD) : W10 m ρ c (Proc.devRef .tc main_arg11) = m ((c : Thread nD τ).loc main_arg11) :=
  W10_unwritten m ρ c main_arg11 (by decide) (by decide) (by decide) (by decide) (by decide) (by decide) (by decide) (by decide) (by decide) (by decide)
theorem W10_main_arg12 (c : Dev nD) : W10 m ρ c (Proc.devRef .tc main_arg12) = m ((c : Thread nD τ).loc main_arg12) :=
  W10_unwritten m ρ c main_arg12 (by decide) (by decide) (by decide) (by decide) (by decide) (by decide) (by decide) (by decide) (by decide) (by decide)
theorem W10_main_arg13 (c : Dev nD) : W10 m ρ c (Proc.devRef .tc main_arg13) = m ((c : Thread nD τ).loc main_arg13) :=
  W10_unwritten m ρ c main_arg13 (by decide) (by decide) (by decide) (by decide) (by decide) (by decide) (by decide) (by decide) (by decide) (by decide)
theorem W10_main_arg14 (c : Dev nD) : W10 m ρ c (Proc.devRef .tc main_arg14) = m ((c : Thread nD τ).loc main_arg14) :=
  W10_unwritten m ρ c main_arg14 (by decide) (by decide) (by decide) (by decide) (by decide) (by decide) (by decide) (by decide) (by decide) (by decide)
theorem W10_main_arg15 (c : Dev nD) : W10 m ρ c (Proc.devRef .tc main_arg15) = m ((c : Thread nD τ).loc main_arg15) :=
  W10_unwritten m ρ c main_arg15 (by decide) (by decide) (by decide) (by decide) (by decide) (by decide) (by decide) (by decide) (by decide) (by decide)

/-! ## The proof data family and the thread state -/

abbrev adm : (p : Fin 2) → (pcfgs (F := F) p).Adm := fun p => (cfgs p).toPCfg_adm
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V9 m ρ) c
abbrev 𝒱₀ : Variants := Variants.none
abbrev L : GSem nD τ sig → Finset Unit := fun _ => ∅
abbrev lv : GSem nD τ sig → Unit → ℕ := fun _ _ => 0
/-- What rides beside the buffers through every segment: the generator register at some state, nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W10 m ρ c) ∗ ∃ r, prngReg c r)

/-! ## The regions as segments -/

set_option backward.isDefEq.respectTransparency.types false in
/-- Region 0 over the thread state: its arrays split out of the unscoped buffers and put back at the exit contents;
    the generator register into the invariant and out; nothing owed; no semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: its arrays split out of the unscoped buffers and put back at the exit contents;
    the generator register into the invariant and out; nothing owed; no semaphore of the kernel's own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V9 m ρ) c).loose
  hwaits := Pipeline.hwaits_of_owed_zero _ _ _ _ L lv 1 fun _ _ => rfl
  pre c := iprop(StableHlo.held (c : Thread nD τ) (Pipeline.ucRefs τ sig) (W9 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V9 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V9 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V9 m ρ c) (V10 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the run -/

abbrev segs : List (Pipeline.Seg (pcfgs (F := F)) adm (pdats m ρ) () defs₀ 𝒱₀ L lv) :=
  [ .host (hseg main_part0_ops0 main_part0_ops0_sub S0_fresh (W0 m ρ)),
    .region (reg0 m ρ),
    .host (hseg main_part0_ops1 main_part0_ops1_sub S1_fresh (W2 m ρ)),
    .host (hseg main_part0_ops2 main_part0_ops2_sub S2_fresh (W3 m ρ)),
    .host (hseg main_part0_ops3 main_part0_ops3_sub S3_fresh (W4 m ρ)),
    .host (hseg main_part1_ops0 main_part1_ops0_sub S4_fresh (W5 m ρ)),
    .host (hseg main_part1_ops1 main_part1_ops1_sub S5_fresh (W6 m ρ)),
    .host (hseg main_part1_ops2 main_part1_ops2_sub S6_fresh (W7 m ρ)),
    .host (hseg main_part2_ops0 main_part2_ops0_sub S7_fresh (W8 m ρ)),
    .region (reg1 m ρ) ]
theorem main_run (c : Dev nD) : main (F := F) c = Pipeline.Seg.run (segs m ρ) := (main_chain_windows c).trans (by chain_rfl)

set_option backward.isDefEq.respectTransparency.types false in
/-- THE RUN, at any instance: from any memory with zero counters every weakly fair execution of @main terminates,
    nothing faulting; the result array ends at what region 1's write-backs leave, and every argument as launched. -/
theorem run : θ_run defs (onTc (τ := τ) (main (F := F))) ⟨m, fun _ => 0, ρ⟩ (fun r => ∀ c : Dev nD,
      r.2.mem ((c.tc : Thread nD τ).loc main_v147) = W10 m ρ c (Proc.devRef .tc main_v147)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m ρ c b)
    (hfin := fun c s' => by
      iintro ⟨⟨Hh, -⟩, HSI⟩
      unfold StableHlo.held
      imodintro
      iapply (pointsTo_read_all (Pipeline.ucRefs τ sig) (fun b => (((c : Thread nD τ)).1, b)) (W10 m ρ c) s')
      isplitl [Hh] <;> iassumption)
    (hQ := fun s h c =>
      ⟨h c _ (mem_uc main_v147 (by decide)),
       (h c _ (mem_uc main_arg0 (by decide))).trans (W10_main_arg0 m ρ c),
       (h c _ (mem_uc main_arg1 (by decide))).trans (W10_main_arg1 m ρ c),
       (h c _ (mem_uc main_arg2 (by decide))).trans (W10_main_arg2 m ρ c),
       (h c _ (mem_uc main_arg3 (by decide))).trans (W10_main_arg3 m ρ c),
       (h c _ (mem_uc main_arg4 (by decide))).trans (W10_main_arg4 m ρ c),
       (h c _ (mem_uc main_arg5 (by decide))).trans (W10_main_arg5 m ρ c),
       (h c _ (mem_uc main_arg6 (by decide))).trans (W10_main_arg6 m ρ c),
       (h c _ (mem_uc main_arg7 (by decide))).trans (W10_main_arg7 m ρ c),
       (h c _ (mem_uc main_arg8 (by decide))).trans (W10_main_arg8 m ρ c),
       (h c _ (mem_uc main_arg9 (by decide))).trans (W10_main_arg9 m ρ c),
       (h c _ (mem_uc main_arg10 (by decide))).trans (W10_main_arg10 m ρ c),
       (h c _ (mem_uc main_arg11 (by decide))).trans (W10_main_arg11 m ρ c),
       (h c _ (mem_uc main_arg12 (by decide))).trans (W10_main_arg12 m ρ c),
       (h c _ (mem_uc main_arg13 (by decide))).trans (W10_main_arg13 m ρ c),
       (h c _ (mem_uc main_arg14 (by decide))).trans (W10_main_arg14 m ρ c),
       (h c _ (mem_uc main_arg15 (by decide))).trans (W10_main_arg15 m ρ c)⟩)

end Cert.Kernel.Hand

end
-- ==== Proof.RefRunW0.lean ====
/- The reference program's @main, operations 1 … 74 of 377 (the window `main_part0`): the window as a
   straight line of host operations, each module-local function's body written out at its call over that call's buffers. -/
import proofs.«121376_j36636071035259_2_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

set_option maxHeartbeats 4000000 in
/-- The window's 74 operations, in program order. -/
abbrev ops0 : List (HloOp τ sig (Elt F)) :=
  [ binary main_arg0 main_arg6 main_v0 ((fun l r => Host.dotGeneral dot_S50000x128_S128x64_S50000x64_1_0_0_1_n_n none l r) : (⟨S50000x128, .f32⟩ : BufTy).Contents (Elt F) → (⟨S128x64, .f32⟩ : BufTy).Contents (Elt F) → (⟨S50000x64, .f32⟩ : BufTy).Contents (Elt F)),
    unary main_arg7 main_v1 (broadcastInDim S1x64 ![1] bcast_S64_S1x64_1 : (⟨S64, .f32⟩ : BufTy).Contents (Elt F) → (⟨S1x64, .f32⟩ : BufTy).Contents (Elt F)),
    unary main_v1 main_v2 (broadcastInDim S50000x64 ![0, 1] bcast_S1x64_S50000x64_0_1 : (⟨S1x64, .f32⟩ : BufTy).Contents (Elt F) → (⟨S50000x64, .f32⟩ : BufTy).Contents (Elt F)),
    binary main_v0 main_v2 main_v3 (addf : (⟨S50000x64, .f32⟩ : BufTy).Contents (Elt F) → (⟨S50000x64, .f32⟩ : BufTy).Contents (Elt F) → (⟨S50000x64, .f32⟩ : BufTy).Contents (Elt F)),
    nullary main_cst (constant S_ .f32 0x3C23D70A#32),
    TRef.nullary main_call0.cst (constant S_ .f32 0x00000000#32),
    TRef.unary main_call0.cst main_call0.v0 (broadcastInDim S50000x64 ![] bcast_S_S50000x64),
    TRef.binary (TRef.of main_v3 : TRef sig ⟨S50000x64, .f32⟩) main_call0.v0 main_call0.v1 (cmpf .oge),
    TRef.unary (TRef.of main_cst : TRef sig ⟨S_, .f32⟩) main_call0.v2 id,
    TRef.unary main_call0.v2 main_call0.v3 (broadcastInDim S50000x64 ![] bcast_S_S50000x64),
    TRef.binary main_call0.v3 (TRef.of main_v3 : TRef sig ⟨S50000x64, .f32⟩) main_call0.v4 mulf,
    TRef.ternary main_call0.v1 (TRef.of main_v3 : TRef sig ⟨S50000x64, .f32⟩) main_call0.v4 main_call0.call0.v0 select,
    binary main_v4 main_arg8 main_v5 ((fun l r => Host.dotGeneral dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)),
    unary main_arg9 main_v6 (broadcastInDim S1x64 ![1] bcast_S64_S1x64_1 : (⟨S64, .f32⟩ : BufTy).Contents (Elt F) → (⟨S1x64, .f32⟩ : BufTy).Contents (Elt F)),
    unary main_v6 main_v7 (broadcastInDim S50000x64 ![0, 1] bcast_S1x64_S50000x64_0_1 : (⟨S1x64, .f32⟩ : BufTy).Contents (Elt F) → (⟨S50000x64, .f32⟩ : BufTy).Contents (Elt F)),
    binary main_v5 main_v7 main_v8 (addf : (⟨S50000x64, .f32⟩ : BufTy).Contents (Elt F) → (⟨S50000x64, .f32⟩ : BufTy).Contents (Elt F) → (⟨S50000x64, .f32⟩ : BufTy).Contents (Elt F)),
    nullary main_cst_0 (constant S_ .f32 0x3C23D70A#32),
    TRef.nullary main_call1.cst (constant S_ .f32 0x00000000#32),
    TRef.unary main_call1.cst main_call1.v0 (broadcastInDim S50000x64 ![] bcast_S_S50000x64),
    TRef.binary (TRef.of main_v8 : TRef sig ⟨S50000x64, .f32⟩) main_call1.v0 main_call1.v1 (cmpf .oge),
    TRef.unary (TRef.of main_cst_0 : TRef sig ⟨S_, .f32⟩) main_call1.v2 id,
    TRef.unary main_call1.v2 main_call1.v3 (broadcastInDim S50000x64 ![] bcast_S_S50000x64),
    TRef.binary main_call1.v3 (TRef.of main_v8 : TRef sig ⟨S50000x64, .f32⟩) main_call1.v4 mulf,
    TRef.ternary main_call1.v1 (TRef.of main_v8 : TRef sig ⟨S50000x64, .f32⟩) main_call1.v4 main_call1.call0.v0 select,
    nullary main_cst_1 (constant S_ .f32 0x3F800000#32),
    unary main_cst_1 main_v10 (broadcastInDim S800000 ![] bcast_S_S800000 : (⟨S_, .f32⟩ : BufTy).Contents (Elt F) → (⟨S800000, .f32⟩ : BufTy).Contents (Elt F)),
    nullary main_cst_2 (constant S_ .f32 0x00000000#32),
    unary main_cst_2 main_v11 (broadcastInDim S50000 ![] bcast_S_S50000 : (⟨S_, .f32⟩ : BufTy).Contents (Elt F) → (⟨S50000, .f32⟩ : BufTy).Contents (Elt F)),
    unary main_arg3 main_v12 (broadcastInDim S800000x1 ![0] bcast_S800000_S800000x1_0 : (⟨S800000, .i32⟩ : BufTy).Contents (Elt F) → (⟨S800000x1, .i32⟩ : BufTy).Contents (Elt F)),
    ternary main_v11 main_v12 main_v10 main_v13 ((fun x i u => Host.scatterAdd scatter_S50000_S800000x1_S800000_n_0_0_1 x i u) : (⟨S50000, .f32⟩ : BufTy).Contents (Elt F) → (⟨S800000x1, .i32⟩ : BufTy).Contents (Elt F) → (⟨S800000, .f32⟩ : BufTy).Contents (Elt F) → (⟨S50000, .f32⟩ : BufTy).Contents (Elt F)),
    nullary main_cst_3 (constant S_ .f32 0x3F800000#32),
    TRef.unary (TRef.of main_cst_3 : TRef sig ⟨S_, .f32⟩) main_call2.v0 id,
    TRef.unary main_call2.v0 main_call2.v1 (broadcastInDim S50000 ![] bcast_S_S50000),
    TRef.binary main_call2.v1 (TRef.of main_v13 : TRef sig ⟨S50000, .f32⟩) main_call2.v2 maximumf,
    nullary main_cst_4 (constant S_ .f32 0xBF000000#32),
    unary main_cst_4 main_v15 (broadcastInDim S50000 ![] bcast_S_S50000 : (⟨S_, .f32⟩ : BufTy).Contents (Elt F) → (⟨S50000, .f32⟩ : BufTy).Contents (Elt F)),
    binary main_v14 main_v15 main_v16 (Host.powf : (⟨S50000, .f32⟩ : BufTy).Contents (Elt F) → (⟨S50000, .f32⟩ : BufTy).Contents (Elt F) → (⟨S50000, .f32⟩ : BufTy).Contents (Elt F)),
    unary main_v16 main_v17 (broadcastInDim S50000x1 ![0] bcast_S50000_S50000x1_0 : (⟨S50000, .f32⟩ : BufTy).Contents (Elt F) → (⟨S50000x1, .f32⟩ : BufTy).Contents (Elt F)),
    nullary main_cst_5 (constant S_ .f32 0x40400000#32),
    unary main_cst_5 main_v18 (broadcastInDim S50000x64 ![] bcast_S_S50000x64 : (⟨S_, .f32⟩ : BufTy).Contents (Elt F) → (⟨S50000x64, .f32⟩ : BufTy).Contents (Elt F)),
    binary main_v18 main_v9 main_v19 (mulf : (⟨S50000x64, .f32⟩ : BufTy).Contents (Elt F) → (⟨S50000x64, .f32⟩ : BufTy).Contents (Elt F) → (⟨S50000x64, .f32⟩ : BufTy).Contents (Elt F)),
    unary main_v17 main_v20 (broadcastInDim S50000x64 ![0, 1] bcast_S50000x1_S50000x64_0_1 : (⟨S50000x1, .f32⟩ : BufTy).Contents (Elt F) → (⟨S50000x64, .f32⟩ : BufTy).Contents (Elt F)),
    binary main_v9 main_v20 main_v21 (mulf : (⟨S50000x64, .f32⟩ : BufTy).Contents (Elt F) → (⟨S50000x64, .f32⟩ : BufTy).Contents (Elt F) → (⟨S50000x64, .f32⟩ : BufTy).Contents (Elt F)),
    nullary main_c (constantI S_ 32 0#32),
    unary main_c main_v22 (broadcastInDim S800000 ![] bcast_S_S800000 : (⟨S_, .i32⟩ : BufTy).Contents (Elt F) → (⟨S800000, .i32⟩ : BufTy).Contents (Elt F)),
    binary main_arg2 main_v22 main_v23 (cmpi .slt : (⟨S800000, .i32⟩ : BufTy).Contents (Elt F) → (⟨S800000, .i32⟩ : BufTy).Contents (Elt F) → (⟨S800000, .i1⟩ : BufTy).Contents (Elt F)),
    nullary main_c_6 (constantI S_ 32 50000#32),
    unary main_c_6 main_v24 (broadcastInDim S800000 ![] bcast_S_S800000 : (⟨S_, .i32⟩ : BufTy).Contents (Elt F) → (⟨S800000, .i32⟩ : BufTy).Contents (Elt F)),
    binary main_arg2 main_v24 main_v25 (addi : (⟨S800000, .i32⟩ : BufTy).Contents (Elt F) → (⟨S800000, .i32⟩ : BufTy).Contents (Elt F) → (⟨S800000, .i32⟩ : BufTy).Contents (Elt F)),
    ternary main_v23 main_v25 main_arg2 main_v26 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v26 main_v27 (broadcastInDim S800000x1 ![0] bcast_S800000_S800000x1_0 : (⟨S800000, .i32⟩ : BufTy).Contents (Elt F) → (⟨S800000x1, .i32⟩ : BufTy).Contents (Elt F)),
    binary main_v21 main_v27 main_v28 ((fun x i => Host.gather gather_S50000x64_S800000x1_S800000x64_1_0_n_n_0_1_164 x i) : (⟨S50000x64, .f32⟩ : BufTy).Contents (Elt F) → (⟨S800000x1, .i32⟩ : BufTy).Contents (Elt F) → (⟨S800000x64, .f32⟩ : BufTy).Contents (Elt F)),
    nullary main_cst_7 (constant S_ .f32 0x00000000#32),
    unary main_cst_7 main_v29 (broadcastInDim S50000x64 ![] bcast_S_S50000x64 : (⟨S_, .f32⟩ : BufTy).Contents (Elt F) → (⟨S50000x64, .f32⟩ : BufTy).Contents (Elt F)),
    unary main_arg3 main_v30 (broadcastInDim S800000x1 ![0] bcast_S800000_S800000x1_0 : (⟨S800000, .i32⟩ : BufTy).Contents (Elt F) → (⟨S800000x1, .i32⟩ : BufTy).Contents (Elt F)),
    ternary main_v29 main_v30 main_v28 main_v31 ((fun x i u => Host.scatterAdd scatter_S50000x64_S800000x1_S800000x64_1_0_0_1 x i u) : (⟨S50000x64, .f32⟩ : BufTy).Contents (Elt F) → (⟨S800000x1, .i32⟩ : BufTy).Contents (Elt F) → (⟨S800000x64, .f32⟩ : BufTy).Contents (Elt F) → (⟨S50000x64, .f32⟩ : BufTy).Contents (Elt F)),
    unary main_v17 main_v32 (broadcastInDim S50000x64 ![0, 1] bcast_S50000x1_S50000x64_0_1 : (⟨S50000x1, .f32⟩ : BufTy).Contents (Elt F) → (⟨S50000x64, .f32⟩ : BufTy).Contents (Elt F)),
    binary main_v31 main_v32 main_v33 (mulf : (⟨S50000x64, .f32⟩ : BufTy).Contents (Elt F) → (⟨S50000x64, .f32⟩ : BufTy).Contents (Elt F) → (⟨S50000x64, .f32⟩ : BufTy).Contents (Elt F)),
    binary main_v9 main_v33 main_v34 (subf : (⟨S50000x64, .f32⟩ : BufTy).Contents (Elt F) → (⟨S50000x64, .f32⟩ : BufTy).Contents (Elt F) → (⟨S50000x64, .f32⟩ : BufTy).Contents (Elt F)),
    nullary main_cst_8 (constant S_ .f32 0xC0400000#32),
    unary main_cst_8 main_v35 (broadcastInDim S50000x64 ![] bcast_S_S50000x64 : (⟨S_, .f32⟩ : BufTy).Contents (Elt F) → (⟨S50000x64, .f32⟩ : BufTy).Contents (Elt F)),
    binary main_v35 main_v34 main_v36 (mulf : (⟨S50000x64, .f32⟩ : BufTy).Contents (Elt F) → (⟨S50000x64, .f32⟩ : BufTy).Contents (Elt F) → (⟨S50000x64, .f32⟩ : BufTy).Contents (Elt F)),
    binary main_v19 main_v36 main_v37 (addf : (⟨S50000x64, .f32⟩ : BufTy).Contents (Elt F) → (⟨S50000x64, .f32⟩ : BufTy).Contents (Elt F) → (⟨S50000x64, .f32⟩ : BufTy).Contents (Elt F)),
    unary main_v17 main_v38 (broadcastInDim S50000x64 ![0, 1] bcast_S50000x1_S50000x64_0_1 : (⟨S50000x1, .f32⟩ : BufTy).Contents (Elt F) → (⟨S50000x64, .f32⟩ : BufTy).Contents (Elt F)),
    binary main_v34 main_v38 main_v39 (mulf : (⟨S50000x64, .f32⟩ : BufTy).Contents (Elt F) → (⟨S50000x64, .f32⟩ : BufTy).Contents (Elt F) → (⟨S50000x64, .f32⟩ : BufTy).Contents (Elt F)),
    nullary main_c_9 (constantI S_ 32 0#32),
    unary main_c_9 main_v40 (broadcastInDim S800000 ![] bcast_S_S800000 : (⟨S_, .i32⟩ : BufTy).Contents (Elt F) → (⟨S800000, .i32⟩ : BufTy).Contents (Elt F)),
    binary main_arg2 main_v40 main_v41 (cmpi .slt : (⟨S800000, .i32⟩ : BufTy).Contents (Elt F) → (⟨S800000, .i32⟩ : BufTy).Contents (Elt F) → (⟨S800000, .i1⟩ : BufTy).Contents (Elt F)),
    nullary main_c_10 (constantI S_ 32 50000#32),
    unary main_c_10 main_v42 (broadcastInDim S800000 ![] bcast_S_S800000 : (⟨S_, .i32⟩ : BufTy).Contents (Elt F) → (⟨S800000, .i32⟩ : BufTy).Contents (Elt F)),
    binary main_arg2 main_v42 main_v43 (addi : (⟨S800000, .i32⟩ : BufTy).Contents (Elt F) → (⟨S800000, .i32⟩ : BufTy).Contents (Elt F) → (⟨S800000, .i32⟩ : BufTy).Contents (Elt F)),
    ternary main_v41 main_v43 main_arg2 main_v44 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v44 main_v45 (broadcastInDim S800000x1 ![0] bcast_S800000_S800000x1_0 : (⟨S800000, .i32⟩ : BufTy).Contents (Elt F) → (⟨S800000x1, .i32⟩ : BufTy).Contents (Elt F)),
    binary main_v39 main_v45 main_v46 ((fun x i => Host.gather gather_S50000x64_S800000x1_S800000x64_1_0_n_n_0_1_164 x i) : (⟨S50000x64, .f32⟩ : BufTy).Contents (Elt F) → (⟨S800000x1, .i32⟩ : BufTy).Contents (Elt F) → (⟨S800000x64, .f32⟩ : BufTy).Contents (Elt F)) ]

set_option maxRecDepth 8192 in
set_option maxHeartbeats 4000000 in
/-- The window is that straight line: both sides are one chain of `hlo` steps, the functions' bodies unfolded at their calls. -/
theorem main_part0_eq (c : Dev nD) : main_part0 (F := F) c = seq ops0 := rfl

set_option maxRecDepth 8192 in
/-- Every operation of the window touches TensorCore references only. -/
theorem ops0_sub : (ops0 : List (HloOp τ sig (Elt F))).Forall fun op => op.bufs ⊆ tcRefs τ sig :=
  ⟨
    binary_bufs_sub .., unary_bufs_sub .., unary_bufs_sub .., binary_bufs_sub .., nullary_bufs_sub .., nullary_bufs_sub ..,
    unary_bufs_sub .., binary_bufs_sub .., unary_bufs_sub .., unary_bufs_sub .., binary_bufs_sub .., ternary_bufs_sub ..,
    binary_bufs_sub .., unary_bufs_sub .., unary_bufs_sub .., binary_bufs_sub .., nullary_bufs_sub .., nullary_bufs_sub ..,
    unary_bufs_sub .., binary_bufs_sub .., unary_bufs_sub .., unary_bufs_sub .., binary_bufs_sub .., ternary_bufs_sub ..,
    nullary_bufs_sub .., unary_bufs_sub .., nullary_bufs_sub .., unary_bufs_sub .., unary_bufs_sub .., ternary_bufs_sub ..,
    nullary_bufs_sub .., unary_bufs_sub .., unary_bufs_sub .., binary_bufs_sub .., nullary_bufs_sub .., unary_bufs_sub ..,
    binary_bufs_sub .., unary_bufs_sub .., nullary_bufs_sub .., unary_bufs_sub .., binary_bufs_sub .., unary_bufs_sub ..,
    binary_bufs_sub .., nullary_bufs_sub .., unary_bufs_sub .., binary_bufs_sub .., nullary_bufs_sub .., unary_bufs_sub ..,
    binary_bufs_sub .., ternary_bufs_sub .., unary_bufs_sub .., binary_bufs_sub .., nullary_bufs_sub .., unary_bufs_sub ..,
    unary_bufs_sub .., ternary_bufs_sub .., unary_bufs_sub .., binary_bufs_sub .., binary_bufs_sub .., nullary_bufs_sub ..,
    unary_bufs_sub .., binary_bufs_sub .., binary_bufs_sub .., unary_bufs_sub .., binary_bufs_sub .., nullary_bufs_sub ..,
    unary_bufs_sub .., binary_bufs_sub .., nullary_bufs_sub .., unary_bufs_sub .., binary_bufs_sub .., ternary_bufs_sub ..,
    unary_bufs_sub .., binary_bufs_sub ..⟩

set_option maxRecDepth 8192 in
/-- Every operation of the window writes exactly one buffer, and its index is at least 16: none of @main's sixteen arguments. -/
theorem ops0_writes : (ops0 : List (HloOp τ sig (Elt F))).Forall fun op => ∃ y : Ref sig .tc, op.writes = {Proc.devRef (τ := τ) .tc y} ∧ 16 ≤ y.idx.val :=
  ⟨
    ⟨_, rfl, by decide⟩, ⟨_, rfl, by decide⟩, ⟨_, rfl, by decide⟩, ⟨_, rfl, by decide⟩, ⟨_, rfl, by decide⟩, ⟨_, rfl, by decide⟩,
    ⟨_, rfl, by decide⟩, ⟨_, rfl, by decide⟩, ⟨_, rfl, by decide⟩, ⟨_, rfl, by decide⟩, ⟨_, rfl, by decide⟩, ⟨_, rfl, by decide⟩,
    ⟨_, rfl, by decide⟩, ⟨_, rfl, by decide⟩, ⟨_, rfl, by decide⟩, ⟨_, rfl, by decide⟩, ⟨_, rfl, by decide⟩, ⟨_, rfl, by decide⟩,
    ⟨_, rfl, by decide⟩, ⟨_, rfl, by decide⟩, ⟨_, rfl, by decide⟩, ⟨_, rfl, by decide⟩, ⟨_, rfl, by decide⟩, ⟨_, rfl, by decide⟩,
    ⟨_, rfl, by decide⟩, ⟨_, rfl, by decide⟩, ⟨_, rfl, by decide⟩, ⟨_, rfl, by decide⟩, ⟨_, rfl, by decide⟩, ⟨_, rfl, by decide⟩,
    ⟨_, rfl, by decide⟩, ⟨_, rfl, by decide⟩, ⟨_, rfl, by decide⟩, ⟨_, rfl, by decide⟩, ⟨_, rfl, by decide⟩, ⟨_, rfl, by decide⟩,
    ⟨_, rfl, by decide⟩, ⟨_, rfl, by decide⟩, ⟨_, rfl, by decide⟩, ⟨_, rfl, by decide⟩, ⟨_, rfl, by decide⟩, ⟨_, rfl, by decide⟩,
    ⟨_, rfl, by decide⟩, ⟨_, rfl, by decide⟩, ⟨_, rfl, by decide⟩, ⟨_, rfl, by decide⟩, ⟨_, rfl, by decide⟩, ⟨_, rfl, by decide⟩,
    ⟨_, rfl, by decide⟩, ⟨_, rfl, by decide⟩, ⟨_, rfl, by decide⟩, ⟨_, rfl, by decide⟩, ⟨_, rfl, by decide⟩, ⟨_, rfl, by decide⟩,
    ⟨_, rfl, by decide⟩, ⟨_, rfl, by decide⟩, ⟨_, rfl, by decide⟩, ⟨_, rfl, by decide⟩, ⟨_, rfl, by decide⟩, ⟨_, rfl, by decide⟩,
    ⟨_, rfl, by decide⟩, ⟨_, rfl, by decide⟩, ⟨_, rfl, by decide⟩, ⟨_, rfl, by decide⟩, ⟨_, rfl, by decide⟩, ⟨_, rfl, by decide⟩,
    ⟨_, rfl, by decide⟩, ⟨_, rfl, by decide⟩, ⟨_, rfl, by decide⟩, ⟨_, rfl, by decide⟩, ⟨_, rfl, by decide⟩, ⟨_, rfl, by decide⟩,
    ⟨_, rfl, by decide⟩, ⟨_, rfl, by decide⟩⟩

end Cert.ReferenceIdeal.RefRun

end
-- ==== Proof.RefRunW1.lean ====
/- The reference program's @main, operations 75 … 134 of 377 (the window `main_part1`): the window as a
   straight line of host operations, each module-local function's body written out at its call over that call's buffers. -/
import proofs.«121376_j36636071035259_2_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

set_option maxHeartbeats 4000000 in
/-- The window's 60 operations, in program order. -/
abbrev ops1 : List (HloOp τ sig (Elt F)) :=
  [ nullary main_cst_11 (constant S_ .f32 0x00000000#32),
    unary main_cst_11 main_v47 (broadcastInDim S50000x64 ![] bcast_S_S50000x64 : (⟨S_, .f32⟩ : BufTy).Contents (Elt F) → (⟨S50000x64, .f32⟩ : BufTy).Contents (Elt F)),
    unary main_arg3 main_v48 (broadcastInDim S800000x1 ![0] bcast_S800000_S800000x1_0 : (⟨S800000, .i32⟩ : BufTy).Contents (Elt F) → (⟨S800000x1, .i32⟩ : BufTy).Contents (Elt F)),
    ternary main_v47 main_v48 main_v46 main_v49 ((fun x i u => Host.scatterAdd scatter_S50000x64_S800000x1_S800000x64_1_0_0_1 x i u) : (⟨S50000x64, .f32⟩ : BufTy).Contents (Elt F) → (⟨S800000x1, .i32⟩ : BufTy).Contents (Elt F) → (⟨S800000x64, .f32⟩ : BufTy).Contents (Elt F) → (⟨S50000x64, .f32⟩ : BufTy).Contents (Elt F)),
    unary main_v17 main_v50 (broadcastInDim S50000x64 ![0, 1] bcast_S50000x1_S50000x64_0_1 : (⟨S50000x1, .f32⟩ : BufTy).Contents (Elt F) → (⟨S50000x64, .f32⟩ : BufTy).Contents (Elt F)),
    binary main_v49 main_v50 main_v51 (mulf : (⟨S50000x64, .f32⟩ : BufTy).Contents (Elt F) → (⟨S50000x64, .f32⟩ : BufTy).Contents (Elt F) → (⟨S50000x64, .f32⟩ : BufTy).Contents (Elt F)),
    binary main_v34 main_v51 main_v52 (subf : (⟨S50000x64, .f32⟩ : BufTy).Contents (Elt F) → (⟨S50000x64, .f32⟩ : BufTy).Contents (Elt F) → (⟨S50000x64, .f32⟩ : BufTy).Contents (Elt F)),
    nullary main_cst_12 (constant S_ .f32 0x3F400000#32),
    unary main_cst_12 main_v53 (broadcastInDim S50000x64 ![] bcast_S_S50000x64 : (⟨S_, .f32⟩ : BufTy).Contents (Elt F) → (⟨S50000x64, .f32⟩ : BufTy).Contents (Elt F)),
    binary main_v53 main_v52 main_v54 (mulf : (⟨S50000x64, .f32⟩ : BufTy).Contents (Elt F) → (⟨S50000x64, .f32⟩ : BufTy).Contents (Elt F) → (⟨S50000x64, .f32⟩ : BufTy).Contents (Elt F)),
    binary main_v37 main_v54 main_v55 (addf : (⟨S50000x64, .f32⟩ : BufTy).Contents (Elt F) → (⟨S50000x64, .f32⟩ : BufTy).Contents (Elt F) → (⟨S50000x64, .f32⟩ : BufTy).Contents (Elt F)),
    nullary main_cst_13 (constant S_ .f32 0x00000000#32),
    unary main_cst_13 main_v56 (broadcastInDim S50000x64 ![] bcast_S_S50000x64 : (⟨S_, .f32⟩ : BufTy).Contents (Elt F) → (⟨S50000x64, .f32⟩ : BufTy).Contents (Elt F)),
    binary main_v56 main_v9 main_v57 (mulf : (⟨S50000x64, .f32⟩ : BufTy).Contents (Elt F) → (⟨S50000x64, .f32⟩ : BufTy).Contents (Elt F) → (⟨S50000x64, .f32⟩ : BufTy).Contents (Elt F)),
    unary main_v17 main_v58 (broadcastInDim S50000x64 ![0, 1] bcast_S50000x1_S50000x64_0_1 : (⟨S50000x1, .f32⟩ : BufTy).Contents (Elt F) → (⟨S50000x64, .f32⟩ : BufTy).Contents (Elt F)),
    binary main_v9 main_v58 main_v59 (mulf : (⟨S50000x64, .f32⟩ : BufTy).Contents (Elt F) → (⟨S50000x64, .f32⟩ : BufTy).Contents (Elt F) → (⟨S50000x64, .f32⟩ : BufTy).Contents (Elt F)),
    nullary main_c_14 (constantI S_ 32 0#32),
    unary main_c_14 main_v60 (broadcastInDim S800000 ![] bcast_S_S800000 : (⟨S_, .i32⟩ : BufTy).Contents (Elt F) → (⟨S800000, .i32⟩ : BufTy).Contents (Elt F)),
    binary main_arg2 main_v60 main_v61 (cmpi .slt : (⟨S800000, .i32⟩ : BufTy).Contents (Elt F) → (⟨S800000, .i32⟩ : BufTy).Contents (Elt F) → (⟨S800000, .i1⟩ : BufTy).Contents (Elt F)),
    nullary main_c_15 (constantI S_ 32 50000#32),
    unary main_c_15 main_v62 (broadcastInDim S800000 ![] bcast_S_S800000 : (⟨S_, .i32⟩ : BufTy).Contents (Elt F) → (⟨S800000, .i32⟩ : BufTy).Contents (Elt F)),
    binary main_arg2 main_v62 main_v63 (addi : (⟨S800000, .i32⟩ : BufTy).Contents (Elt F) → (⟨S800000, .i32⟩ : BufTy).Contents (Elt F) → (⟨S800000, .i32⟩ : BufTy).Contents (Elt F)),
    ternary main_v61 main_v63 main_arg2 main_v64 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v64 main_v65 (broadcastInDim S800000x1 ![0] bcast_S800000_S800000x1_0 : (⟨S800000, .i32⟩ : BufTy).Contents (Elt F) → (⟨S800000x1, .i32⟩ : BufTy).Contents (Elt F)),
    binary main_v59 main_v65 main_v66 ((fun x i => Host.gather gather_S50000x64_S800000x1_S800000x64_1_0_n_n_0_1_164 x i) : (⟨S50000x64, .f32⟩ : BufTy).Contents (Elt F) → (⟨S800000x1, .i32⟩ : BufTy).Contents (Elt F) → (⟨S800000x64, .f32⟩ : BufTy).Contents (Elt F)),
    nullary main_cst_16 (constant S_ .f32 0x00000000#32),
    unary main_cst_16 main_v67 (broadcastInDim S50000x64 ![] bcast_S_S50000x64 : (⟨S_, .f32⟩ : BufTy).Contents (Elt F) → (⟨S50000x64, .f32⟩ : BufTy).Contents (Elt F)),
    unary main_arg3 main_v68 (broadcastInDim S800000x1 ![0] bcast_S800000_S800000x1_0 : (⟨S800000, .i32⟩ : BufTy).Contents (Elt F) → (⟨S800000x1, .i32⟩ : BufTy).Contents (Elt F)),
    ternary main_v67 main_v68 main_v66 main_v69 ((fun x i u => Host.scatterAdd scatter_S50000x64_S800000x1_S800000x64_1_0_0_1 x i u) : (⟨S50000x64, .f32⟩ : BufTy).Contents (Elt F) → (⟨S800000x1, .i32⟩ : BufTy).Contents (Elt F) → (⟨S800000x64, .f32⟩ : BufTy).Contents (Elt F) → (⟨S50000x64, .f32⟩ : BufTy).Contents (Elt F)),
    unary main_v17 main_v70 (broadcastInDim S50000x64 ![0, 1] bcast_S50000x1_S50000x64_0_1 : (⟨S50000x1, .f32⟩ : BufTy).Contents (Elt F) → (⟨S50000x64, .f32⟩ : BufTy).Contents (Elt F)),
    binary main_v69 main_v70 main_v71 (mulf : (⟨S50000x64, .f32⟩ : BufTy).Contents (Elt F) → (⟨S50000x64, .f32⟩ : BufTy).Contents (Elt F) → (⟨S50000x64, .f32⟩ : BufTy).Contents (Elt F)),
    binary main_v9 main_v71 main_v72 (subf : (⟨S50000x64, .f32⟩ : BufTy).Contents (Elt F) → (⟨S50000x64, .f32⟩ : BufTy).Contents (Elt F) → (⟨S50000x64, .f32⟩ : BufTy).Contents (Elt F)),
    nullary main_cst_17 (constant S_ .f32 0x40400000#32),
    unary main_cst_17 main_v73 (broadcastInDim S50000x64 ![] bcast_S_S50000x64 : (⟨S_, .f32⟩ : BufTy).Contents (Elt F) → (⟨S50000x64, .f32⟩ : BufTy).Contents (Elt F)),
    binary main_v73 main_v72 main_v74 (mulf : (⟨S50000x64, .f32⟩ : BufTy).Contents (Elt F) → (⟨S50000x64, .f32⟩ : BufTy).Contents (Elt F) → (⟨S50000x64, .f32⟩ : BufTy).Contents (Elt F)),
    binary main_v57 main_v74 main_v75 (addf : (⟨S50000x64, .f32⟩ : BufTy).Contents (Elt F) → (⟨S50000x64, .f32⟩ : BufTy).Contents (Elt F) → (⟨S50000x64, .f32⟩ : BufTy).Contents (Elt F)),
    unary main_v17 main_v76 (broadcastInDim S50000x64 ![0, 1] bcast_S50000x1_S50000x64_0_1 : (⟨S50000x1, .f32⟩ : BufTy).Contents (Elt F) → (⟨S50000x64, .f32⟩ : BufTy).Contents (Elt F)),
    binary main_v72 main_v76 main_v77 (mulf : (⟨S50000x64, .f32⟩ : BufTy).Contents (Elt F) → (⟨S50000x64, .f32⟩ : BufTy).Contents (Elt F) → (⟨S50000x64, .f32⟩ : BufTy).Contents (Elt F)),
    nullary main_c_18 (constantI S_ 32 0#32),
    unary main_c_18 main_v78 (broadcastInDim S800000 ![] bcast_S_S800000 : (⟨S_, .i32⟩ : BufTy).Contents (Elt F) → (⟨S800000, .i32⟩ : BufTy).Contents (Elt F)),
    binary main_arg2 main_v78 main_v79 (cmpi .slt : (⟨S800000, .i32⟩ : BufTy).Contents (Elt F) → (⟨S800000, .i32⟩ : BufTy).Contents (Elt F) → (⟨S800000, .i1⟩ : BufTy).Contents (Elt F)),
    nullary main_c_19 (constantI S_ 32 50000#32),
    unary main_c_19 main_v80 (broadcastInDim S800000 ![] bcast_S_S800000 : (⟨S_, .i32⟩ : BufTy).Contents (Elt F) → (⟨S800000, .i32⟩ : BufTy).Contents (Elt F)),
    binary main_arg2 main_v80 main_v81 (addi : (⟨S800000, .i32⟩ : BufTy).Contents (Elt F) → (⟨S800000, .i32⟩ : BufTy).Contents (Elt F) → (⟨S800000, .i32⟩ : BufTy).Contents (Elt F)),
    ternary main_v79 main_v81 main_arg2 main_v82 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v82 main_v83 (broadcastInDim S800000x1 ![0] bcast_S800000_S800000x1_0 : (⟨S800000, .i32⟩ : BufTy).Contents (Elt F) → (⟨S800000x1, .i32⟩ : BufTy).Contents (Elt F)),
    binary main_v77 main_v83 main_v84 ((fun x i => Host.gather gather_S50000x64_S800000x1_S800000x64_1_0_n_n_0_1_164 x i) : (⟨S50000x64, .f32⟩ : BufTy).Contents (Elt F) → (⟨S800000x1, .i32⟩ : BufTy).Contents (Elt F) → (⟨S800000x64, .f32⟩ : BufTy).Contents (Elt F)),
    nullary main_cst_20 (constant S_ .f32 0x00000000#32),
    unary main_cst_20 main_v85 (broadcastInDim S50000x64 ![] bcast_S_S50000x64 : (⟨S_, .f32⟩ : BufTy).Contents (Elt F) → (⟨S50000x64, .f32⟩ : BufTy).Contents (Elt F)),
    unary main_arg3 main_v86 (broadcastInDim S800000x1 ![0] bcast_S800000_S800000x1_0 : (⟨S800000, .i32⟩ : BufTy).Contents (Elt F) → (⟨S800000x1, .i32⟩ : BufTy).Contents (Elt F)),
    ternary main_v85 main_v86 main_v84 main_v87 ((fun x i u => Host.scatterAdd scatter_S50000x64_S800000x1_S800000x64_1_0_0_1 x i u) : (⟨S50000x64, .f32⟩ : BufTy).Contents (Elt F) → (⟨S800000x1, .i32⟩ : BufTy).Contents (Elt F) → (⟨S800000x64, .f32⟩ : BufTy).Contents (Elt F) → (⟨S50000x64, .f32⟩ : BufTy).Contents (Elt F)),
    unary main_v17 main_v88 (broadcastInDim S50000x64 ![0, 1] bcast_S50000x1_S50000x64_0_1 : (⟨S50000x1, .f32⟩ : BufTy).Contents (Elt F) → (⟨S50000x64, .f32⟩ : BufTy).Contents (Elt F)),
    binary main_v87 main_v88 main_v89 (mulf : (⟨S50000x64, .f32⟩ : BufTy).Contents (Elt F) → (⟨S50000x64, .f32⟩ : BufTy).Contents (Elt F) → (⟨S50000x64, .f32⟩ : BufTy).Contents (Elt F)),
    binary main_v72 main_v89 main_v90 (subf : (⟨S50000x64, .f32⟩ : BufTy).Contents (Elt F) → (⟨S50000x64, .f32⟩ : BufTy).Contents (Elt F) → (⟨S50000x64, .f32⟩ : BufTy).Contents (Elt F)),
    nullary main_cst_21 (constant S_ .f32 0xBFC00000#32),
    unary main_cst_21 main_v91 (broadcastInDim S50000x64 ![] bcast_S_S50000x64 : (⟨S_, .f32⟩ : BufTy).Contents (Elt F) → (⟨S50000x64, .f32⟩ : BufTy).Contents (Elt F)),
    binary main_v91 main_v90 main_v92 (mulf : (⟨S50000x64, .f32⟩ : BufTy).Contents (Elt F) → (⟨S50000x64, .f32⟩ : BufTy).Contents (Elt F) → (⟨S50000x64, .f32⟩ : BufTy).Contents (Elt F)),
    binary main_v75 main_v92 main_v93 (addf : (⟨S50000x64, .f32⟩ : BufTy).Contents (Elt F) → (⟨S50000x64, .f32⟩ : BufTy).Contents (Elt F) → (⟨S50000x64, .f32⟩ : BufTy).Contents (Elt F)),
    nullary main_cst_22 (constant S_ .f32 0x00000000#32),
    unary main_cst_22 main_v94 (broadcastInDim S50000x64 ![] bcast_S_S50000x64 : (⟨S_, .f32⟩ : BufTy).Contents (Elt F) → (⟨S50000x64, .f32⟩ : BufTy).Contents (Elt F)) ]

set_option maxRecDepth 8192 in
set_option maxHeartbeats 4000000 in
/-- The window is that straight line: both sides are one chain of `hlo` steps, the functions' bodies unfolded at their calls. -/
theorem main_part1_eq (c : Dev nD) : main_part1 (F := F) c = seq ops1 := rfl

set_option maxRecDepth 8192 in
/-- Every operation of the window touches TensorCore references only. -/
theorem ops1_sub : (ops1 : List (HloOp τ sig (Elt F))).Forall fun op => op.bufs ⊆ tcRefs τ sig :=
  ⟨
    nullary_bufs_sub .., unary_bufs_sub .., unary_bufs_sub .., ternary_bufs_sub .., unary_bufs_sub .., binary_bufs_sub ..,
    binary_bufs_sub .., nullary_bufs_sub .., unary_bufs_sub .., binary_bufs_sub .., binary_bufs_sub .., nullary_bufs_sub ..,
    unary_bufs_sub .., binary_bufs_sub .., unary_bufs_sub .., binary_bufs_sub .., nullary_bufs_sub .., unary_bufs_sub ..,
    binary_bufs_sub .., nullary_bufs_sub .., unary_bufs_sub .., binary_bufs_sub .., ternary_bufs_sub .., unary_bufs_sub ..,
    binary_bufs_sub .., nullary_bufs_sub .., unary_bufs_sub .., unary_bufs_sub .., ternary_bufs_sub .., unary_bufs_sub ..,
    binary_bufs_sub .., binary_bufs_sub .., nullary_bufs_sub .., unary_bufs_sub .., binary_bufs_sub .., binary_bufs_sub ..,
    unary_bufs_sub .., binary_bufs_sub .., nullary_bufs_sub .., unary_bufs_sub .., binary_bufs_sub .., nullary_bufs_sub ..,
    unary_bufs_sub .., binary_bufs_sub .., ternary_bufs_sub .., unary_bufs_sub .., binary_bufs_sub .., nullary_bufs_sub ..,
    unary_bufs_sub .., unary_bufs_sub .., ternary_bufs_sub .., unary_bufs_sub .., binary_bufs_sub .., binary_bufs_sub ..,
    nullary_bufs_sub .., unary_bufs_sub .., binary_bufs_sub .., binary_bufs_sub .., nullary_bufs_sub .., unary_bufs_sub ..⟩

set_option maxRecDepth 8192 in
/-- Every operation of the window writes exactly one buffer, and its index is at least 16: none of @main's sixteen arguments. -/
theorem ops1_writes : (ops1 : List (HloOp τ sig (Elt F))).Forall fun op => ∃ y : Ref sig .tc, op.writes = {Proc.devRef (τ := τ) .tc y} ∧ 16 ≤ y.idx.val :=
  ⟨
    ⟨_, rfl, by decide⟩, ⟨_, rfl, by decide⟩, ⟨_, rfl, by decide⟩, ⟨_, rfl, by decide⟩, ⟨_, rfl, by decide⟩, ⟨_, rfl, by decide⟩,
    ⟨_, rfl, by decide⟩, ⟨_, rfl, by decide⟩, ⟨_, rfl, by decide⟩, ⟨_, rfl, by decide⟩, ⟨_, rfl, by decide⟩, ⟨_, rfl, by decide⟩,
    ⟨_, rfl, by decide⟩, ⟨_, rfl, by decide⟩, ⟨_, rfl, by decide⟩, ⟨_, rfl, by decide⟩, ⟨_, rfl, by decide⟩, ⟨_, rfl, by decide⟩,
    ⟨_, rfl, by decide⟩, ⟨_, rfl, by decide⟩, ⟨_, rfl, by decide⟩, ⟨_, rfl, by decide⟩, ⟨_, rfl, by decide⟩, ⟨_, rfl, by decide⟩,
    ⟨_, rfl, by decide⟩, ⟨_, rfl, by decide⟩, ⟨_, rfl, by decide⟩, ⟨_, rfl, by decide⟩, ⟨_, rfl, by decide⟩, ⟨_, rfl, by decide⟩,
    ⟨_, rfl, by decide⟩, ⟨_, rfl, by decide⟩, ⟨_, rfl, by decide⟩, ⟨_, rfl, by decide⟩, ⟨_, rfl, by decide⟩, ⟨_, rfl, by decide⟩,
    ⟨_, rfl, by decide⟩, ⟨_, rfl, by decide⟩, ⟨_, rfl, by decide⟩, ⟨_, rfl, by decide⟩, ⟨_, rfl, by decide⟩, ⟨_, rfl, by decide⟩,
    ⟨_, rfl, by decide⟩, ⟨_, rfl, by decide⟩, ⟨_, rfl, by decide⟩, ⟨_, rfl, by decide⟩, ⟨_, rfl, by decide⟩, ⟨_, rfl, by decide⟩,
    ⟨_, rfl, by decide⟩, ⟨_, rfl, by decide⟩, ⟨_, rfl, by decide⟩, ⟨_, rfl, by decide⟩, ⟨_, rfl, by decide⟩, ⟨_, rfl, by decide⟩,
    ⟨_, rfl, by decide⟩, ⟨_, rfl, by decide⟩, ⟨_, rfl, by decide⟩, ⟨_, rfl, by decide⟩, ⟨_, rfl, by decide⟩, ⟨_, rfl, by decide⟩⟩

end Cert.ReferenceIdeal.RefRun

end
-- ==== Proof.RefRunW2.lean ====
/- The reference program's @main, operations 135 … 200 of 377 (the window `main_part2`): the window as a
   straight line of host operations, each module-local function's body written out at its call over that call's buffers. -/
import proofs.«121376_j36636071035259_2_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

set_option maxHeartbeats 4000000 in
/-- The window's 66 operations, in program order. -/
abbrev ops2 : List (HloOp τ sig (Elt F)) :=
  [ binary main_v94 main_v9 main_v95 (mulf : (⟨S50000x64, .f32⟩ : BufTy).Contents (Elt F) → (⟨S50000x64, .f32⟩ : BufTy).Contents (Elt F) → (⟨S50000x64, .f32⟩ : BufTy).Contents (Elt F)),
    unary main_v17 main_v96 (broadcastInDim S50000x64 ![0, 1] bcast_S50000x1_S50000x64_0_1 : (⟨S50000x1, .f32⟩ : BufTy).Contents (Elt F) → (⟨S50000x64, .f32⟩ : BufTy).Contents (Elt F)),
    binary main_v9 main_v96 main_v97 (mulf : (⟨S50000x64, .f32⟩ : BufTy).Contents (Elt F) → (⟨S50000x64, .f32⟩ : BufTy).Contents (Elt F) → (⟨S50000x64, .f32⟩ : BufTy).Contents (Elt F)),
    nullary main_c_23 (constantI S_ 32 0#32),
    unary main_c_23 main_v98 (broadcastInDim S800000 ![] bcast_S_S800000 : (⟨S_, .i32⟩ : BufTy).Contents (Elt F) → (⟨S800000, .i32⟩ : BufTy).Contents (Elt F)),
    binary main_arg2 main_v98 main_v99 (cmpi .slt : (⟨S800000, .i32⟩ : BufTy).Contents (Elt F) → (⟨S800000, .i32⟩ : BufTy).Contents (Elt F) → (⟨S800000, .i1⟩ : BufTy).Contents (Elt F)),
    nullary main_c_24 (constantI S_ 32 50000#32),
    unary main_c_24 main_v100 (broadcastInDim S800000 ![] bcast_S_S800000 : (⟨S_, .i32⟩ : BufTy).Contents (Elt F) → (⟨S800000, .i32⟩ : BufTy).Contents (Elt F)),
    binary main_arg2 main_v100 main_v101 (addi : (⟨S800000, .i32⟩ : BufTy).Contents (Elt F) → (⟨S800000, .i32⟩ : BufTy).Contents (Elt F) → (⟨S800000, .i32⟩ : BufTy).Contents (Elt F)),
    ternary main_v99 main_v101 main_arg2 main_v102 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v102 main_v103 (broadcastInDim S800000x1 ![0] bcast_S800000_S800000x1_0 : (⟨S800000, .i32⟩ : BufTy).Contents (Elt F) → (⟨S800000x1, .i32⟩ : BufTy).Contents (Elt F)),
    binary main_v97 main_v103 main_v104 ((fun x i => Host.gather gather_S50000x64_S800000x1_S800000x64_1_0_n_n_0_1_164 x i) : (⟨S50000x64, .f32⟩ : BufTy).Contents (Elt F) → (⟨S800000x1, .i32⟩ : BufTy).Contents (Elt F) → (⟨S800000x64, .f32⟩ : BufTy).Contents (Elt F)),
    nullary main_cst_25 (constant S_ .f32 0x00000000#32),
    unary main_cst_25 main_v105 (broadcastInDim S50000x64 ![] bcast_S_S50000x64 : (⟨S_, .f32⟩ : BufTy).Contents (Elt F) → (⟨S50000x64, .f32⟩ : BufTy).Contents (Elt F)),
    unary main_arg3 main_v106 (broadcastInDim S800000x1 ![0] bcast_S800000_S800000x1_0 : (⟨S800000, .i32⟩ : BufTy).Contents (Elt F) → (⟨S800000x1, .i32⟩ : BufTy).Contents (Elt F)),
    ternary main_v105 main_v106 main_v104 main_v107 ((fun x i u => Host.scatterAdd scatter_S50000x64_S800000x1_S800000x64_1_0_0_1 x i u) : (⟨S50000x64, .f32⟩ : BufTy).Contents (Elt F) → (⟨S800000x1, .i32⟩ : BufTy).Contents (Elt F) → (⟨S800000x64, .f32⟩ : BufTy).Contents (Elt F) → (⟨S50000x64, .f32⟩ : BufTy).Contents (Elt F)),
    unary main_v17 main_v108 (broadcastInDim S50000x64 ![0, 1] bcast_S50000x1_S50000x64_0_1 : (⟨S50000x1, .f32⟩ : BufTy).Contents (Elt F) → (⟨S50000x64, .f32⟩ : BufTy).Contents (Elt F)),
    binary main_v107 main_v108 main_v109 (mulf : (⟨S50000x64, .f32⟩ : BufTy).Contents (Elt F) → (⟨S50000x64, .f32⟩ : BufTy).Contents (Elt F) → (⟨S50000x64, .f32⟩ : BufTy).Contents (Elt F)),
    binary main_v9 main_v109 main_v110 (subf : (⟨S50000x64, .f32⟩ : BufTy).Contents (Elt F) → (⟨S50000x64, .f32⟩ : BufTy).Contents (Elt F) → (⟨S50000x64, .f32⟩ : BufTy).Contents (Elt F)),
    nullary main_cst_26 (constant S_ .f32 0x00000000#32),
    unary main_cst_26 main_v111 (broadcastInDim S50000x64 ![] bcast_S_S50000x64 : (⟨S_, .f32⟩ : BufTy).Contents (Elt F) → (⟨S50000x64, .f32⟩ : BufTy).Contents (Elt F)),
    binary main_v111 main_v110 main_v112 (mulf : (⟨S50000x64, .f32⟩ : BufTy).Contents (Elt F) → (⟨S50000x64, .f32⟩ : BufTy).Contents (Elt F) → (⟨S50000x64, .f32⟩ : BufTy).Contents (Elt F)),
    binary main_v95 main_v112 main_v113 (addf : (⟨S50000x64, .f32⟩ : BufTy).Contents (Elt F) → (⟨S50000x64, .f32⟩ : BufTy).Contents (Elt F) → (⟨S50000x64, .f32⟩ : BufTy).Contents (Elt F)),
    unary main_v17 main_v114 (broadcastInDim S50000x64 ![0, 1] bcast_S50000x1_S50000x64_0_1 : (⟨S50000x1, .f32⟩ : BufTy).Contents (Elt F) → (⟨S50000x64, .f32⟩ : BufTy).Contents (Elt F)),
    binary main_v110 main_v114 main_v115 (mulf : (⟨S50000x64, .f32⟩ : BufTy).Contents (Elt F) → (⟨S50000x64, .f32⟩ : BufTy).Contents (Elt F) → (⟨S50000x64, .f32⟩ : BufTy).Contents (Elt F)),
    nullary main_c_27 (constantI S_ 32 0#32),
    unary main_c_27 main_v116 (broadcastInDim S800000 ![] bcast_S_S800000 : (⟨S_, .i32⟩ : BufTy).Contents (Elt F) → (⟨S800000, .i32⟩ : BufTy).Contents (Elt F)),
    binary main_arg2 main_v116 main_v117 (cmpi .slt : (⟨S800000, .i32⟩ : BufTy).Contents (Elt F) → (⟨S800000, .i32⟩ : BufTy).Contents (Elt F) → (⟨S800000, .i1⟩ : BufTy).Contents (Elt F)),
    nullary main_c_28 (constantI S_ 32 50000#32),
    unary main_c_28 main_v118 (broadcastInDim S800000 ![] bcast_S_S800000 : (⟨S_, .i32⟩ : BufTy).Contents (Elt F) → (⟨S800000, .i32⟩ : BufTy).Contents (Elt F)),
    binary main_arg2 main_v118 main_v119 (addi : (⟨S800000, .i32⟩ : BufTy).Contents (Elt F) → (⟨S800000, .i32⟩ : BufTy).Contents (Elt F) → (⟨S800000, .i32⟩ : BufTy).Contents (Elt F)),
    ternary main_v117 main_v119 main_arg2 main_v120 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v120 main_v121 (broadcastInDim S800000x1 ![0] bcast_S800000_S800000x1_0 : (⟨S800000, .i32⟩ : BufTy).Contents (Elt F) → (⟨S800000x1, .i32⟩ : BufTy).Contents (Elt F)),
    binary main_v115 main_v121 main_v122 ((fun x i => Host.gather gather_S50000x64_S800000x1_S800000x64_1_0_n_n_0_1_164 x i) : (⟨S50000x64, .f32⟩ : BufTy).Contents (Elt F) → (⟨S800000x1, .i32⟩ : BufTy).Contents (Elt F) → (⟨S800000x64, .f32⟩ : BufTy).Contents (Elt F)),
    nullary main_cst_29 (constant S_ .f32 0x00000000#32),
    unary main_cst_29 main_v123 (broadcastInDim S50000x64 ![] bcast_S_S50000x64 : (⟨S_, .f32⟩ : BufTy).Contents (Elt F) → (⟨S50000x64, .f32⟩ : BufTy).Contents (Elt F)),
    unary main_arg3 main_v124 (broadcastInDim S800000x1 ![0] bcast_S800000_S800000x1_0 : (⟨S800000, .i32⟩ : BufTy).Contents (Elt F) → (⟨S800000x1, .i32⟩ : BufTy).Contents (Elt F)),
    ternary main_v123 main_v124 main_v122 main_v125 ((fun x i u => Host.scatterAdd scatter_S50000x64_S800000x1_S800000x64_1_0_0_1 x i u) : (⟨S50000x64, .f32⟩ : BufTy).Contents (Elt F) → (⟨S800000x1, .i32⟩ : BufTy).Contents (Elt F) → (⟨S800000x64, .f32⟩ : BufTy).Contents (Elt F) → (⟨S50000x64, .f32⟩ : BufTy).Contents (Elt F)),
    unary main_v17 main_v126 (broadcastInDim S50000x64 ![0, 1] bcast_S50000x1_S50000x64_0_1 : (⟨S50000x1, .f32⟩ : BufTy).Contents (Elt F) → (⟨S50000x64, .f32⟩ : BufTy).Contents (Elt F)),
    binary main_v125 main_v126 main_v127 (mulf : (⟨S50000x64, .f32⟩ : BufTy).Contents (Elt F) → (⟨S50000x64, .f32⟩ : BufTy).Contents (Elt F) → (⟨S50000x64, .f32⟩ : BufTy).Contents (Elt F)),
    binary main_v110 main_v127 main_v128 (subf : (⟨S50000x64, .f32⟩ : BufTy).Contents (Elt F) → (⟨S50000x64, .f32⟩ : BufTy).Contents (Elt F) → (⟨S50000x64, .f32⟩ : BufTy).Contents (Elt F)),
    nullary main_cst_30 (constant S_ .f32 0x3F400000#32),
    unary main_cst_30 main_v129 (broadcastInDim S50000x64 ![] bcast_S_S50000x64 : (⟨S_, .f32⟩ : BufTy).Contents (Elt F) → (⟨S50000x64, .f32⟩ : BufTy).Contents (Elt F)),
    binary main_v129 main_v128 main_v130 (mulf : (⟨S50000x64, .f32⟩ : BufTy).Contents (Elt F) → (⟨S50000x64, .f32⟩ : BufTy).Contents (Elt F) → (⟨S50000x64, .f32⟩ : BufTy).Contents (Elt F)),
    binary main_v113 main_v130 main_v131 (addf : (⟨S50000x64, .f32⟩ : BufTy).Contents (Elt F) → (⟨S50000x64, .f32⟩ : BufTy).Contents (Elt F) → (⟨S50000x64, .f32⟩ : BufTy).Contents (Elt F)),
    nary ![main_v55, main_v93, main_v131] main_v132 (fun u => concatenate S50000x192 1 [⟨S50000x64, u 0⟩, ⟨S50000x64, u 1⟩, ⟨S50000x64, u 2⟩] concatenates_S50000x64_S50000x64_S50000x64_S50000x192_d1),
    binary main_v132 main_arg14 main_v133 ((fun l r => Host.dotGeneral dot_S50000x192_S192x64_S50000x64_1_0_0_1_n_n none l r) : (⟨S50000x192, .f32⟩ : BufTy).Contents (Elt F) → (⟨S192x64, .f32⟩ : BufTy).Contents (Elt F) → (⟨S50000x64, .f32⟩ : BufTy).Contents (Elt F)),
    unary main_arg15 main_v134 (broadcastInDim S1x64 ![1] bcast_S64_S1x64_1 : (⟨S64, .f32⟩ : BufTy).Contents (Elt F) → (⟨S1x64, .f32⟩ : BufTy).Contents (Elt F)),
    unary main_v134 main_v135 (broadcastInDim S50000x64 ![0, 1] bcast_S1x64_S50000x64_0_1 : (⟨S1x64, .f32⟩ : BufTy).Contents (Elt F) → (⟨S50000x64, .f32⟩ : BufTy).Contents (Elt F)),
    binary main_v133 main_v135 main_v136 (addf : (⟨S50000x64, .f32⟩ : BufTy).Contents (Elt F) → (⟨S50000x64, .f32⟩ : BufTy).Contents (Elt F) → (⟨S50000x64, .f32⟩ : BufTy).Contents (Elt F)),
    binary main_arg1 main_arg10 main_v137 ((fun l r => Host.dotGeneral dot_S50000x128_S128x64_S50000x64_1_0_0_1_n_n none l r) : (⟨S50000x128, .f32⟩ : BufTy).Contents (Elt F) → (⟨S128x64, .f32⟩ : BufTy).Contents (Elt F) → (⟨S50000x64, .f32⟩ : BufTy).Contents (Elt F)),
    unary main_arg11 main_v138 (broadcastInDim S1x64 ![1] bcast_S64_S1x64_1 : (⟨S64, .f32⟩ : BufTy).Contents (Elt F) → (⟨S1x64, .f32⟩ : BufTy).Contents (Elt F)),
    unary main_v138 main_v139 (broadcastInDim S50000x64 ![0, 1] bcast_S1x64_S50000x64_0_1 : (⟨S1x64, .f32⟩ : BufTy).Contents (Elt F) → (⟨S50000x64, .f32⟩ : BufTy).Contents (Elt F)),
    binary main_v137 main_v139 main_v140 (addf : (⟨S50000x64, .f32⟩ : BufTy).Contents (Elt F) → (⟨S50000x64, .f32⟩ : BufTy).Contents (Elt F) → (⟨S50000x64, .f32⟩ : BufTy).Contents (Elt F)),
    nullary main_cst_31 (constant S_ .f32 0x3C23D70A#32),
    TRef.nullary main_call3.cst (constant S_ .f32 0x00000000#32),
    TRef.unary main_call3.cst main_call3.v0 (broadcastInDim S50000x64 ![] bcast_S_S50000x64),
    TRef.binary (TRef.of main_v140 : TRef sig ⟨S50000x64, .f32⟩) main_call3.v0 main_call3.v1 (cmpf .oge),
    TRef.unary (TRef.of main_cst_31 : TRef sig ⟨S_, .f32⟩) main_call3.v2 id,
    TRef.unary main_call3.v2 main_call3.v3 (broadcastInDim S50000x64 ![] bcast_S_S50000x64),
    TRef.binary main_call3.v3 (TRef.of main_v140 : TRef sig ⟨S50000x64, .f32⟩) main_call3.v4 mulf,
    TRef.ternary main_call3.v1 (TRef.of main_v140 : TRef sig ⟨S50000x64, .f32⟩) main_call3.v4 main_call3.call0.v0 select,
    binary main_v141 main_arg12 main_v142 ((fun l r => Host.dotGeneral dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)),
    unary main_arg13 main_v143 (broadcastInDim S1x64 ![1] bcast_S64_S1x64_1 : (⟨S64, .f32⟩ : BufTy).Contents (Elt F) → (⟨S1x64, .f32⟩ : BufTy).Contents (Elt F)),
    unary main_v143 main_v144 (broadcastInDim S50000x64 ![0, 1] bcast_S1x64_S50000x64_0_1 : (⟨S1x64, .f32⟩ : BufTy).Contents (Elt F) → (⟨S50000x64, .f32⟩ : BufTy).Contents (Elt F)),
    binary main_v142 main_v144 main_v145 (addf : (⟨S50000x64, .f32⟩ : BufTy).Contents (Elt F) → (⟨S50000x64, .f32⟩ : BufTy).Contents (Elt F) → (⟨S50000x64, .f32⟩ : BufTy).Contents (Elt F)) ]

set_option maxRecDepth 8192 in
set_option maxHeartbeats 4000000 in
/-- The window is that straight line: both sides are one chain of `hlo` steps, the functions' bodies unfolded at their calls. -/
theorem main_part2_eq (c : Dev nD) : main_part2 (F := F) c = seq ops2 := rfl

set_option maxRecDepth 8192 in
/-- Every operation of the window touches TensorCore references only. -/
theorem ops2_sub : (ops2 : List (HloOp τ sig (Elt F))).Forall fun op => op.bufs ⊆ tcRefs τ sig :=
  ⟨
    binary_bufs_sub .., unary_bufs_sub .., binary_bufs_sub .., nullary_bufs_sub .., unary_bufs_sub .., binary_bufs_sub ..,
    nullary_bufs_sub .., unary_bufs_sub .., binary_bufs_sub .., ternary_bufs_sub .., unary_bufs_sub .., binary_bufs_sub ..,
    nullary_bufs_sub .., unary_bufs_sub .., unary_bufs_sub .., ternary_bufs_sub .., unary_bufs_sub .., binary_bufs_sub ..,
    binary_bufs_sub .., nullary_bufs_sub .., unary_bufs_sub .., binary_bufs_sub .., binary_bufs_sub .., unary_bufs_sub ..,
    binary_bufs_sub .., nullary_bufs_sub .., unary_bufs_sub .., binary_bufs_sub .., nullary_bufs_sub .., unary_bufs_sub ..,
    binary_bufs_sub .., ternary_bufs_sub .., unary_bufs_sub .., binary_bufs_sub .., nullary_bufs_sub .., unary_bufs_sub ..,
    unary_bufs_sub .., ternary_bufs_sub .., unary_bufs_sub .., binary_bufs_sub .., binary_bufs_sub .., nullary_bufs_sub ..,
    unary_bufs_sub .., binary_bufs_sub .., binary_bufs_sub .., nary_bufs_sub .., binary_bufs_sub .., unary_bufs_sub ..,
    unary_bufs_sub .., binary_bufs_sub .., binary_bufs_sub .., unary_bufs_sub .., unary_bufs_sub .., binary_bufs_sub ..,
    nullary_bufs_sub .., nullary_bufs_sub .., unary_bufs_sub .., binary_bufs_sub .., unary_bufs_sub .., unary_bufs_sub ..,
    binary_bufs_sub .., ternary_bufs_sub .., binary_bufs_sub .., unary_bufs_sub .., unary_bufs_sub .., binary_bufs_sub ..⟩

set_option maxRecDepth 8192 in
/-- Every operation of the window writes exactly one buffer, and its index is at least 16: none of @main's sixteen arguments. -/
theorem ops2_writes : (ops2 : List (HloOp τ sig (Elt F))).Forall fun op => ∃ y : Ref sig .tc, op.writes = {Proc.devRef (τ := τ) .tc y} ∧ 16 ≤ y.idx.val :=
  ⟨
    ⟨_, rfl, by decide⟩, ⟨_, rfl, by decide⟩, ⟨_, rfl, by decide⟩, ⟨_, rfl, by decide⟩, ⟨_, rfl, by decide⟩, ⟨_, rfl, by decide⟩,
    ⟨_, rfl, by decide⟩, ⟨_, rfl, by decide⟩, ⟨_, rfl, by decide⟩, ⟨_, rfl, by decide⟩, ⟨_, rfl, by decide⟩, ⟨_, rfl, by decide⟩,
    ⟨_, rfl, by decide⟩, ⟨_, rfl, by decide⟩, ⟨_, rfl, by decide⟩, ⟨_, rfl, by decide⟩, ⟨_, rfl, by decide⟩, ⟨_, rfl, by decide⟩,
    ⟨_, rfl, by decide⟩, ⟨_, rfl, by decide⟩, ⟨_, rfl, by decide⟩, ⟨_, rfl, by decide⟩, ⟨_, rfl, by decide⟩, ⟨_, rfl, by decide⟩,
    ⟨_, rfl, by decide⟩, ⟨_, rfl, by decide⟩, ⟨_, rfl, by decide⟩, ⟨_, rfl, by decide⟩, ⟨_, rfl, by decide⟩, ⟨_, rfl, by decide⟩,
    ⟨_, rfl, by decide⟩, ⟨_, rfl, by decide⟩, ⟨_, rfl, by decide⟩, ⟨_, rfl, by decide⟩, ⟨_, rfl, by decide⟩, ⟨_, rfl, by decide⟩,
    ⟨_, rfl, by decide⟩, ⟨_, rfl, by decide⟩, ⟨_, rfl, by decide⟩, ⟨_, rfl, by decide⟩, ⟨_, rfl, by decide⟩, ⟨_, rfl, by decide⟩,
    ⟨_, rfl, by decide⟩, ⟨_, rfl, by decide⟩, ⟨_, rfl, by decide⟩, ⟨_, rfl, by decide⟩, ⟨_, rfl, by decide⟩, ⟨_, rfl, by decide⟩,
    ⟨_, rfl, by decide⟩, ⟨_, rfl, by decide⟩, ⟨_, rfl, by decide⟩, ⟨_, rfl, by decide⟩, ⟨_, rfl, by decide⟩, ⟨_, rfl, by decide⟩,
    ⟨_, rfl, by decide⟩, ⟨_, rfl, by decide⟩, ⟨_, rfl, by decide⟩, ⟨_, rfl, by decide⟩, ⟨_, rfl, by decide⟩, ⟨_, rfl, by decide⟩,
    ⟨_, rfl, by decide⟩, ⟨_, rfl, by decide⟩, ⟨_, rfl, by decide⟩, ⟨_, rfl, by decide⟩, ⟨_, rfl, by decide⟩, ⟨_, rfl, by decide⟩⟩

end Cert.ReferenceIdeal.RefRun

end
-- ==== Proof.RefRunW3.lean ====
/- The reference program's @main, operations 201 … 268 of 377 (the window `main_part3`): the window as a
   straight line of host operations, each module-local function's body written out at its call over that call's buffers. -/
import proofs.«121376_j36636071035259_2_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

set_option maxHeartbeats 4000000 in
/-- The window's 68 operations, in program order. -/
abbrev ops3 : List (HloOp τ sig (Elt F)) :=
  [ nullary main_cst_32 (constant S_ .f32 0x3C23D70A#32),
    TRef.nullary main_call4.cst (constant S_ .f32 0x00000000#32),
    TRef.unary main_call4.cst main_call4.v0 (broadcastInDim S50000x64 ![] bcast_S_S50000x64),
    TRef.binary (TRef.of main_v145 : TRef sig ⟨S50000x64, .f32⟩) main_call4.v0 main_call4.v1 (cmpf .oge),
    TRef.unary (TRef.of main_cst_32 : TRef sig ⟨S_, .f32⟩) main_call4.v2 id,
    TRef.unary main_call4.v2 main_call4.v3 (broadcastInDim S50000x64 ![] bcast_S_S50000x64),
    TRef.binary main_call4.v3 (TRef.of main_v145 : TRef sig ⟨S50000x64, .f32⟩) main_call4.v4 mulf,
    TRef.ternary main_call4.v1 (TRef.of main_v145 : TRef sig ⟨S50000x64, .f32⟩) main_call4.v4 main_call4.call0.v0 select,
    nullary main_cst_33 (constant S_ .f32 0x3F800000#32),
    unary main_cst_33 main_v147 (broadcastInDim S800000 ![] bcast_S_S800000 : (⟨S_, .f32⟩ : BufTy).Contents (Elt F) → (⟨S800000, .f32⟩ : BufTy).Contents (Elt F)),
    nullary main_cst_34 (constant S_ .f32 0x00000000#32),
    unary main_cst_34 main_v148 (broadcastInDim S50000 ![] bcast_S_S50000 : (⟨S_, .f32⟩ : BufTy).Contents (Elt F) → (⟨S50000, .f32⟩ : BufTy).Contents (Elt F)),
    unary main_arg5 main_v149 (broadcastInDim S800000x1 ![0] bcast_S800000_S800000x1_0 : (⟨S800000, .i32⟩ : BufTy).Contents (Elt F) → (⟨S800000x1, .i32⟩ : BufTy).Contents (Elt F)),
    ternary main_v148 main_v149 main_v147 main_v150 ((fun x i u => Host.scatterAdd scatter_S50000_S800000x1_S800000_n_0_0_1 x i u) : (⟨S50000, .f32⟩ : BufTy).Contents (Elt F) → (⟨S800000x1, .i32⟩ : BufTy).Contents (Elt F) → (⟨S800000, .f32⟩ : BufTy).Contents (Elt F) → (⟨S50000, .f32⟩ : BufTy).Contents (Elt F)),
    nullary main_cst_35 (constant S_ .f32 0x3F800000#32),
    TRef.unary (TRef.of main_cst_35 : TRef sig ⟨S_, .f32⟩) main_call5.v0 id,
    TRef.unary main_call5.v0 main_call5.v1 (broadcastInDim S50000 ![] bcast_S_S50000),
    TRef.binary main_call5.v1 (TRef.of main_v150 : TRef sig ⟨S50000, .f32⟩) main_call5.v2 maximumf,
    nullary main_cst_36 (constant S_ .f32 0xBF000000#32),
    unary main_cst_36 main_v152 (broadcastInDim S50000 ![] bcast_S_S50000 : (⟨S_, .f32⟩ : BufTy).Contents (Elt F) → (⟨S50000, .f32⟩ : BufTy).Contents (Elt F)),
    binary main_v151 main_v152 main_v153 (Host.powf : (⟨S50000, .f32⟩ : BufTy).Contents (Elt F) → (⟨S50000, .f32⟩ : BufTy).Contents (Elt F) → (⟨S50000, .f32⟩ : BufTy).Contents (Elt F)),
    unary main_v153 main_v154 (broadcastInDim S50000x1 ![0] bcast_S50000_S50000x1_0 : (⟨S50000, .f32⟩ : BufTy).Contents (Elt F) → (⟨S50000x1, .f32⟩ : BufTy).Contents (Elt F)),
    nullary main_cst_37 (constant S_ .f32 0x40400000#32),
    unary main_cst_37 main_v155 (broadcastInDim S50000x64 ![] bcast_S_S50000x64 : (⟨S_, .f32⟩ : BufTy).Contents (Elt F) → (⟨S50000x64, .f32⟩ : BufTy).Contents (Elt F)),
    binary main_v155 main_v146 main_v156 (mulf : (⟨S50000x64, .f32⟩ : BufTy).Contents (Elt F) → (⟨S50000x64, .f32⟩ : BufTy).Contents (Elt F) → (⟨S50000x64, .f32⟩ : BufTy).Contents (Elt F)),
    unary main_v154 main_v157 (broadcastInDim S50000x64 ![0, 1] bcast_S50000x1_S50000x64_0_1 : (⟨S50000x1, .f32⟩ : BufTy).Contents (Elt F) → (⟨S50000x64, .f32⟩ : BufTy).Contents (Elt F)),
    binary main_v146 main_v157 main_v158 (mulf : (⟨S50000x64, .f32⟩ : BufTy).Contents (Elt F) → (⟨S50000x64, .f32⟩ : BufTy).Contents (Elt F) → (⟨S50000x64, .f32⟩ : BufTy).Contents (Elt F)),
    nullary main_c_38 (constantI S_ 32 0#32),
    unary main_c_38 main_v159 (broadcastInDim S800000 ![] bcast_S_S800000 : (⟨S_, .i32⟩ : BufTy).Contents (Elt F) → (⟨S800000, .i32⟩ : BufTy).Contents (Elt F)),
    binary main_arg4 main_v159 main_v160 (cmpi .slt : (⟨S800000, .i32⟩ : BufTy).Contents (Elt F) → (⟨S800000, .i32⟩ : BufTy).Contents (Elt F) → (⟨S800000, .i1⟩ : BufTy).Contents (Elt F)),
    nullary main_c_39 (constantI S_ 32 50000#32),
    unary main_c_39 main_v161 (broadcastInDim S800000 ![] bcast_S_S800000 : (⟨S_, .i32⟩ : BufTy).Contents (Elt F) → (⟨S800000, .i32⟩ : BufTy).Contents (Elt F)),
    binary main_arg4 main_v161 main_v162 (addi : (⟨S800000, .i32⟩ : BufTy).Contents (Elt F) → (⟨S800000, .i32⟩ : BufTy).Contents (Elt F) → (⟨S800000, .i32⟩ : BufTy).Contents (Elt F)),
    ternary main_v160 main_v162 main_arg4 main_v163 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v163 main_v164 (broadcastInDim S800000x1 ![0] bcast_S800000_S800000x1_0 : (⟨S800000, .i32⟩ : BufTy).Contents (Elt F) → (⟨S800000x1, .i32⟩ : BufTy).Contents (Elt F)),
    binary main_v158 main_v164 main_v165 ((fun x i => Host.gather gather_S50000x64_S800000x1_S800000x64_1_0_n_n_0_1_164 x i) : (⟨S50000x64, .f32⟩ : BufTy).Contents (Elt F) → (⟨S800000x1, .i32⟩ : BufTy).Contents (Elt F) → (⟨S800000x64, .f32⟩ : BufTy).Contents (Elt F)),
    nullary main_cst_40 (constant S_ .f32 0x00000000#32),
    unary main_cst_40 main_v166 (broadcastInDim S50000x64 ![] bcast_S_S50000x64 : (⟨S_, .f32⟩ : BufTy).Contents (Elt F) → (⟨S50000x64, .f32⟩ : BufTy).Contents (Elt F)),
    unary main_arg5 main_v167 (broadcastInDim S800000x1 ![0] bcast_S800000_S800000x1_0 : (⟨S800000, .i32⟩ : BufTy).Contents (Elt F) → (⟨S800000x1, .i32⟩ : BufTy).Contents (Elt F)),
    ternary main_v166 main_v167 main_v165 main_v168 ((fun x i u => Host.scatterAdd scatter_S50000x64_S800000x1_S800000x64_1_0_0_1 x i u) : (⟨S50000x64, .f32⟩ : BufTy).Contents (Elt F) → (⟨S800000x1, .i32⟩ : BufTy).Contents (Elt F) → (⟨S800000x64, .f32⟩ : BufTy).Contents (Elt F) → (⟨S50000x64, .f32⟩ : BufTy).Contents (Elt F)),
    unary main_v154 main_v169 (broadcastInDim S50000x64 ![0, 1] bcast_S50000x1_S50000x64_0_1 : (⟨S50000x1, .f32⟩ : BufTy).Contents (Elt F) → (⟨S50000x64, .f32⟩ : BufTy).Contents (Elt F)),
    binary main_v168 main_v169 main_v170 (mulf : (⟨S50000x64, .f32⟩ : BufTy).Contents (Elt F) → (⟨S50000x64, .f32⟩ : BufTy).Contents (Elt F) → (⟨S50000x64, .f32⟩ : BufTy).Contents (Elt F)),
    binary main_v146 main_v170 main_v171 (subf : (⟨S50000x64, .f32⟩ : BufTy).Contents (Elt F) → (⟨S50000x64, .f32⟩ : BufTy).Contents (Elt F) → (⟨S50000x64, .f32⟩ : BufTy).Contents (Elt F)),
    nullary main_cst_41 (constant S_ .f32 0xC0400000#32),
    unary main_cst_41 main_v172 (broadcastInDim S50000x64 ![] bcast_S_S50000x64 : (⟨S_, .f32⟩ : BufTy).Contents (Elt F) → (⟨S50000x64, .f32⟩ : BufTy).Contents (Elt F)),
    binary main_v172 main_v171 main_v173 (mulf : (⟨S50000x64, .f32⟩ : BufTy).Contents (Elt F) → (⟨S50000x64, .f32⟩ : BufTy).Contents (Elt F) → (⟨S50000x64, .f32⟩ : BufTy).Contents (Elt F)),
    binary main_v156 main_v173 main_v174 (addf : (⟨S50000x64, .f32⟩ : BufTy).Contents (Elt F) → (⟨S50000x64, .f32⟩ : BufTy).Contents (Elt F) → (⟨S50000x64, .f32⟩ : BufTy).Contents (Elt F)),
    unary main_v154 main_v175 (broadcastInDim S50000x64 ![0, 1] bcast_S50000x1_S50000x64_0_1 : (⟨S50000x1, .f32⟩ : BufTy).Contents (Elt F) → (⟨S50000x64, .f32⟩ : BufTy).Contents (Elt F)),
    binary main_v171 main_v175 main_v176 (mulf : (⟨S50000x64, .f32⟩ : BufTy).Contents (Elt F) → (⟨S50000x64, .f32⟩ : BufTy).Contents (Elt F) → (⟨S50000x64, .f32⟩ : BufTy).Contents (Elt F)),
    nullary main_c_42 (constantI S_ 32 0#32),
    unary main_c_42 main_v177 (broadcastInDim S800000 ![] bcast_S_S800000 : (⟨S_, .i32⟩ : BufTy).Contents (Elt F) → (⟨S800000, .i32⟩ : BufTy).Contents (Elt F)),
    binary main_arg4 main_v177 main_v178 (cmpi .slt : (⟨S800000, .i32⟩ : BufTy).Contents (Elt F) → (⟨S800000, .i32⟩ : BufTy).Contents (Elt F) → (⟨S800000, .i1⟩ : BufTy).Contents (Elt F)),
    nullary main_c_43 (constantI S_ 32 50000#32),
    unary main_c_43 main_v179 (broadcastInDim S800000 ![] bcast_S_S800000 : (⟨S_, .i32⟩ : BufTy).Contents (Elt F) → (⟨S800000, .i32⟩ : BufTy).Contents (Elt F)),
    binary main_arg4 main_v179 main_v180 (addi : (⟨S800000, .i32⟩ : BufTy).Contents (Elt F) → (⟨S800000, .i32⟩ : BufTy).Contents (Elt F) → (⟨S800000, .i32⟩ : BufTy).Contents (Elt F)),
    ternary main_v178 main_v180 main_arg4 main_v181 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v181 main_v182 (broadcastInDim S800000x1 ![0] bcast_S800000_S800000x1_0 : (⟨S800000, .i32⟩ : BufTy).Contents (Elt F) → (⟨S800000x1, .i32⟩ : BufTy).Contents (Elt F)),
    binary main_v176 main_v182 main_v183 ((fun x i => Host.gather gather_S50000x64_S800000x1_S800000x64_1_0_n_n_0_1_164 x i) : (⟨S50000x64, .f32⟩ : BufTy).Contents (Elt F) → (⟨S800000x1, .i32⟩ : BufTy).Contents (Elt F) → (⟨S800000x64, .f32⟩ : BufTy).Contents (Elt F)),
    nullary main_cst_44 (constant S_ .f32 0x00000000#32),
    unary main_cst_44 main_v184 (broadcastInDim S50000x64 ![] bcast_S_S50000x64 : (⟨S_, .f32⟩ : BufTy).Contents (Elt F) → (⟨S50000x64, .f32⟩ : BufTy).Contents (Elt F)),
    unary main_arg5 main_v185 (broadcastInDim S800000x1 ![0] bcast_S800000_S800000x1_0 : (⟨S800000, .i32⟩ : BufTy).Contents (Elt F) → (⟨S800000x1, .i32⟩ : BufTy).Contents (Elt F)),
    ternary main_v184 main_v185 main_v183 main_v186 ((fun x i u => Host.scatterAdd scatter_S50000x64_S800000x1_S800000x64_1_0_0_1 x i u) : (⟨S50000x64, .f32⟩ : BufTy).Contents (Elt F) → (⟨S800000x1, .i32⟩ : BufTy).Contents (Elt F) → (⟨S800000x64, .f32⟩ : BufTy).Contents (Elt F) → (⟨S50000x64, .f32⟩ : BufTy).Contents (Elt F)),
    unary main_v154 main_v187 (broadcastInDim S50000x64 ![0, 1] bcast_S50000x1_S50000x64_0_1 : (⟨S50000x1, .f32⟩ : BufTy).Contents (Elt F) → (⟨S50000x64, .f32⟩ : BufTy).Contents (Elt F)),
    binary main_v186 main_v187 main_v188 (mulf : (⟨S50000x64, .f32⟩ : BufTy).Contents (Elt F) → (⟨S50000x64, .f32⟩ : BufTy).Contents (Elt F) → (⟨S50000x64, .f32⟩ : BufTy).Contents (Elt F)),
    binary main_v171 main_v188 main_v189 (subf : (⟨S50000x64, .f32⟩ : BufTy).Contents (Elt F) → (⟨S50000x64, .f32⟩ : BufTy).Contents (Elt F) → (⟨S50000x64, .f32⟩ : BufTy).Contents (Elt F)),
    nullary main_cst_45 (constant S_ .f32 0x3F400000#32),
    unary main_cst_45 main_v190 (broadcastInDim S50000x64 ![] bcast_S_S50000x64 : (⟨S_, .f32⟩ : BufTy).Contents (Elt F) → (⟨S50000x64, .f32⟩ : BufTy).Contents (Elt F)),
    binary main_v190 main_v189 main_v191 (mulf : (⟨S50000x64, .f32⟩ : BufTy).Contents (Elt F) → (⟨S50000x64, .f32⟩ : BufTy).Contents (Elt F) → (⟨S50000x64, .f32⟩ : BufTy).Contents (Elt F)) ]

set_option maxRecDepth 8192 in
set_option maxHeartbeats 4000000 in
/-- The window is that straight line: both sides are one chain of `hlo` steps, the functions' bodies unfolded at their calls. -/
theorem main_part3_eq (c : Dev nD) : main_part3 (F := F) c = seq ops3 := rfl

set_option maxRecDepth 8192 in
/-- Every operation of the window touches TensorCore references only. -/
theorem ops3_sub : (ops3 : List (HloOp τ sig (Elt F))).Forall fun op => op.bufs ⊆ tcRefs τ sig :=
  ⟨
    nullary_bufs_sub .., nullary_bufs_sub .., unary_bufs_sub .., binary_bufs_sub .., unary_bufs_sub .., unary_bufs_sub ..,
    binary_bufs_sub .., ternary_bufs_sub .., nullary_bufs_sub .., unary_bufs_sub .., nullary_bufs_sub .., unary_bufs_sub ..,
    unary_bufs_sub .., ternary_bufs_sub .., nullary_bufs_sub .., unary_bufs_sub .., unary_bufs_sub .., binary_bufs_sub ..,
    nullary_bufs_sub .., unary_bufs_sub .., binary_bufs_sub .., unary_bufs_sub .., nullary_bufs_sub .., unary_bufs_sub ..,
    binary_bufs_sub .., unary_bufs_sub .., binary_bufs_sub .., nullary_bufs_sub .., unary_bufs_sub .., binary_bufs_sub ..,
    nullary_bufs_sub .., unary_bufs_sub .., binary_bufs_sub .., ternary_bufs_sub .., unary_bufs_sub .., binary_bufs_sub ..,
    nullary_bufs_sub .., unary_bufs_sub .., unary_bufs_sub .., ternary_bufs_sub .., unary_bufs_sub .., binary_bufs_sub ..,
    binary_bufs_sub .., nullary_bufs_sub .., unary_bufs_sub .., binary_bufs_sub .., binary_bufs_sub .., unary_bufs_sub ..,
    binary_bufs_sub .., nullary_bufs_sub .., unary_bufs_sub .., binary_bufs_sub .., nullary_bufs_sub .., unary_bufs_sub ..,
    binary_bufs_sub .., ternary_bufs_sub .., unary_bufs_sub .., binary_bufs_sub .., nullary_bufs_sub .., unary_bufs_sub ..,
    unary_bufs_sub .., ternary_bufs_sub .., unary_bufs_sub .., binary_bufs_sub .., binary_bufs_sub .., nullary_bufs_sub ..,
    unary_bufs_sub .., binary_bufs_sub ..⟩

set_option maxRecDepth 8192 in
/-- Every operation of the window writes exactly one buffer, and its index is at least 16: none of @main's sixteen arguments. -/
theorem ops3_writes : (ops3 : List (HloOp τ sig (Elt F))).Forall fun op => ∃ y : Ref sig .tc, op.writes = {Proc.devRef (τ := τ) .tc y} ∧ 16 ≤ y.idx.val :=
  ⟨
    ⟨_, rfl, by decide⟩, ⟨_, rfl, by decide⟩, ⟨_, rfl, by decide⟩, ⟨_, rfl, by decide⟩, ⟨_, rfl, by decide⟩, ⟨_, rfl, by decide⟩,
    ⟨_, rfl, by decide⟩, ⟨_, rfl, by decide⟩, ⟨_, rfl, by decide⟩, ⟨_, rfl, by decide⟩, ⟨_, rfl, by decide⟩, ⟨_, rfl, by decide⟩,
    ⟨_, rfl, by decide⟩, ⟨_, rfl, by decide⟩, ⟨_, rfl, by decide⟩, ⟨_, rfl, by decide⟩, ⟨_, rfl, by decide⟩, ⟨_, rfl, by decide⟩,
    ⟨_, rfl, by decide⟩, ⟨_, rfl, by decide⟩, ⟨_, rfl, by decide⟩, ⟨_, rfl, by decide⟩, ⟨_, rfl, by decide⟩, ⟨_, rfl, by decide⟩,
    ⟨_, rfl, by decide⟩, ⟨_, rfl, by decide⟩, ⟨_, rfl, by decide⟩, ⟨_, rfl, by decide⟩, ⟨_, rfl, by decide⟩, ⟨_, rfl, by decide⟩,
    ⟨_, rfl, by decide⟩, ⟨_, rfl, by decide⟩, ⟨_, rfl, by decide⟩, ⟨_, rfl, by decide⟩, ⟨_, rfl, by decide⟩, ⟨_, rfl, by decide⟩,
    ⟨_, rfl, by decide⟩, ⟨_, rfl, by decide⟩, ⟨_, rfl, by decide⟩, ⟨_, rfl, by decide⟩, ⟨_, rfl, by decide⟩, ⟨_, rfl, by decide⟩,
    ⟨_, rfl, by decide⟩, ⟨_, rfl, by decide⟩, ⟨_, rfl, by decide⟩, ⟨_, rfl, by decide⟩, ⟨_, rfl, by decide⟩, ⟨_, rfl, by decide⟩,
    ⟨_, rfl, by decide⟩, ⟨_, rfl, by decide⟩, ⟨_, rfl, by decide⟩, ⟨_, rfl, by decide⟩, ⟨_, rfl, by decide⟩, ⟨_, rfl, by decide⟩,
    ⟨_, rfl, by decide⟩, ⟨_, rfl, by decide⟩, ⟨_, rfl, by decide⟩, ⟨_, rfl, by decide⟩, ⟨_, rfl, by decide⟩, ⟨_, rfl, by decide⟩,
    ⟨_, rfl, by decide⟩, ⟨_, rfl, by decide⟩, ⟨_, rfl, by decide⟩, ⟨_, rfl, by decide⟩, ⟨_, rfl, by decide⟩, ⟨_, rfl, by decide⟩,
    ⟨_, rfl, by decide⟩, ⟨_, rfl, by decide⟩⟩

end Cert.ReferenceIdeal.RefRun

end
-- ==== Proof.RefRunW4.lean ====
/- The reference program's @main, operations 269 … 328 of 377 (the window `main_part4`): the window as a
   straight line of host operations, each module-local function's body written out at its call over that call's buffers. -/
import proofs.«121376_j36636071035259_2_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

set_option maxHeartbeats 4000000 in
/-- The window's 60 operations, in program order. -/
abbrev ops4 : List (HloOp τ sig (Elt F)) :=
  [ binary main_v174 main_v191 main_v192 (addf : (⟨S50000x64, .f32⟩ : BufTy).Contents (Elt F) → (⟨S50000x64, .f32⟩ : BufTy).Contents (Elt F) → (⟨S50000x64, .f32⟩ : BufTy).Contents (Elt F)),
    nullary main_cst_46 (constant S_ .f32 0x00000000#32),
    unary main_cst_46 main_v193 (broadcastInDim S50000x64 ![] bcast_S_S50000x64 : (⟨S_, .f32⟩ : BufTy).Contents (Elt F) → (⟨S50000x64, .f32⟩ : BufTy).Contents (Elt F)),
    binary main_v193 main_v146 main_v194 (mulf : (⟨S50000x64, .f32⟩ : BufTy).Contents (Elt F) → (⟨S50000x64, .f32⟩ : BufTy).Contents (Elt F) → (⟨S50000x64, .f32⟩ : BufTy).Contents (Elt F)),
    unary main_v154 main_v195 (broadcastInDim S50000x64 ![0, 1] bcast_S50000x1_S50000x64_0_1 : (⟨S50000x1, .f32⟩ : BufTy).Contents (Elt F) → (⟨S50000x64, .f32⟩ : BufTy).Contents (Elt F)),
    binary main_v146 main_v195 main_v196 (mulf : (⟨S50000x64, .f32⟩ : BufTy).Contents (Elt F) → (⟨S50000x64, .f32⟩ : BufTy).Contents (Elt F) → (⟨S50000x64, .f32⟩ : BufTy).Contents (Elt F)),
    nullary main_c_47 (constantI S_ 32 0#32),
    unary main_c_47 main_v197 (broadcastInDim S800000 ![] bcast_S_S800000 : (⟨S_, .i32⟩ : BufTy).Contents (Elt F) → (⟨S800000, .i32⟩ : BufTy).Contents (Elt F)),
    binary main_arg4 main_v197 main_v198 (cmpi .slt : (⟨S800000, .i32⟩ : BufTy).Contents (Elt F) → (⟨S800000, .i32⟩ : BufTy).Contents (Elt F) → (⟨S800000, .i1⟩ : BufTy).Contents (Elt F)),
    nullary main_c_48 (constantI S_ 32 50000#32),
    unary main_c_48 main_v199 (broadcastInDim S800000 ![] bcast_S_S800000 : (⟨S_, .i32⟩ : BufTy).Contents (Elt F) → (⟨S800000, .i32⟩ : BufTy).Contents (Elt F)),
    binary main_arg4 main_v199 main_v200 (addi : (⟨S800000, .i32⟩ : BufTy).Contents (Elt F) → (⟨S800000, .i32⟩ : BufTy).Contents (Elt F) → (⟨S800000, .i32⟩ : BufTy).Contents (Elt F)),
    ternary main_v198 main_v200 main_arg4 main_v201 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v201 main_v202 (broadcastInDim S800000x1 ![0] bcast_S800000_S800000x1_0 : (⟨S800000, .i32⟩ : BufTy).Contents (Elt F) → (⟨S800000x1, .i32⟩ : BufTy).Contents (Elt F)),
    binary main_v196 main_v202 main_v203 ((fun x i => Host.gather gather_S50000x64_S800000x1_S800000x64_1_0_n_n_0_1_164 x i) : (⟨S50000x64, .f32⟩ : BufTy).Contents (Elt F) → (⟨S800000x1, .i32⟩ : BufTy).Contents (Elt F) → (⟨S800000x64, .f32⟩ : BufTy).Contents (Elt F)),
    nullary main_cst_49 (constant S_ .f32 0x00000000#32),
    unary main_cst_49 main_v204 (broadcastInDim S50000x64 ![] bcast_S_S50000x64 : (⟨S_, .f32⟩ : BufTy).Contents (Elt F) → (⟨S50000x64, .f32⟩ : BufTy).Contents (Elt F)),
    unary main_arg5 main_v205 (broadcastInDim S800000x1 ![0] bcast_S800000_S800000x1_0 : (⟨S800000, .i32⟩ : BufTy).Contents (Elt F) → (⟨S800000x1, .i32⟩ : BufTy).Contents (Elt F)),
    ternary main_v204 main_v205 main_v203 main_v206 ((fun x i u => Host.scatterAdd scatter_S50000x64_S800000x1_S800000x64_1_0_0_1 x i u) : (⟨S50000x64, .f32⟩ : BufTy).Contents (Elt F) → (⟨S800000x1, .i32⟩ : BufTy).Contents (Elt F) → (⟨S800000x64, .f32⟩ : BufTy).Contents (Elt F) → (⟨S50000x64, .f32⟩ : BufTy).Contents (Elt F)),
    unary main_v154 main_v207 (broadcastInDim S50000x64 ![0, 1] bcast_S50000x1_S50000x64_0_1 : (⟨S50000x1, .f32⟩ : BufTy).Contents (Elt F) → (⟨S50000x64, .f32⟩ : BufTy).Contents (Elt F)),
    binary main_v206 main_v207 main_v208 (mulf : (⟨S50000x64, .f32⟩ : BufTy).Contents (Elt F) → (⟨S50000x64, .f32⟩ : BufTy).Contents (Elt F) → (⟨S50000x64, .f32⟩ : BufTy).Contents (Elt F)),
    binary main_v146 main_v208 main_v209 (subf : (⟨S50000x64, .f32⟩ : BufTy).Contents (Elt F) → (⟨S50000x64, .f32⟩ : BufTy).Contents (Elt F) → (⟨S50000x64, .f32⟩ : BufTy).Contents (Elt F)),
    nullary main_cst_50 (constant S_ .f32 0x40400000#32),
    unary main_cst_50 main_v210 (broadcastInDim S50000x64 ![] bcast_S_S50000x64 : (⟨S_, .f32⟩ : BufTy).Contents (Elt F) → (⟨S50000x64, .f32⟩ : BufTy).Contents (Elt F)),
    binary main_v210 main_v209 main_v211 (mulf : (⟨S50000x64, .f32⟩ : BufTy).Contents (Elt F) → (⟨S50000x64, .f32⟩ : BufTy).Contents (Elt F) → (⟨S50000x64, .f32⟩ : BufTy).Contents (Elt F)),
    binary main_v194 main_v211 main_v212 (addf : (⟨S50000x64, .f32⟩ : BufTy).Contents (Elt F) → (⟨S50000x64, .f32⟩ : BufTy).Contents (Elt F) → (⟨S50000x64, .f32⟩ : BufTy).Contents (Elt F)),
    unary main_v154 main_v213 (broadcastInDim S50000x64 ![0, 1] bcast_S50000x1_S50000x64_0_1 : (⟨S50000x1, .f32⟩ : BufTy).Contents (Elt F) → (⟨S50000x64, .f32⟩ : BufTy).Contents (Elt F)),
    binary main_v209 main_v213 main_v214 (mulf : (⟨S50000x64, .f32⟩ : BufTy).Contents (Elt F) → (⟨S50000x64, .f32⟩ : BufTy).Contents (Elt F) → (⟨S50000x64, .f32⟩ : BufTy).Contents (Elt F)),
    nullary main_c_51 (constantI S_ 32 0#32),
    unary main_c_51 main_v215 (broadcastInDim S800000 ![] bcast_S_S800000 : (⟨S_, .i32⟩ : BufTy).Contents (Elt F) → (⟨S800000, .i32⟩ : BufTy).Contents (Elt F)),
    binary main_arg4 main_v215 main_v216 (cmpi .slt : (⟨S800000, .i32⟩ : BufTy).Contents (Elt F) → (⟨S800000, .i32⟩ : BufTy).Contents (Elt F) → (⟨S800000, .i1⟩ : BufTy).Contents (Elt F)),
    nullary main_c_52 (constantI S_ 32 50000#32),
    unary main_c_52 main_v217 (broadcastInDim S800000 ![] bcast_S_S800000 : (⟨S_, .i32⟩ : BufTy).Contents (Elt F) → (⟨S800000, .i32⟩ : BufTy).Contents (Elt F)),
    binary main_arg4 main_v217 main_v218 (addi : (⟨S800000, .i32⟩ : BufTy).Contents (Elt F) → (⟨S800000, .i32⟩ : BufTy).Contents (Elt F) → (⟨S800000, .i32⟩ : BufTy).Contents (Elt F)),
    ternary main_v216 main_v218 main_arg4 main_v219 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v219 main_v220 (broadcastInDim S800000x1 ![0] bcast_S800000_S800000x1_0 : (⟨S800000, .i32⟩ : BufTy).Contents (Elt F) → (⟨S800000x1, .i32⟩ : BufTy).Contents (Elt F)),
    binary main_v214 main_v220 main_v221 ((fun x i => Host.gather gather_S50000x64_S800000x1_S800000x64_1_0_n_n_0_1_164 x i) : (⟨S50000x64, .f32⟩ : BufTy).Contents (Elt F) → (⟨S800000x1, .i32⟩ : BufTy).Contents (Elt F) → (⟨S800000x64, .f32⟩ : BufTy).Contents (Elt F)),
    nullary main_cst_53 (constant S_ .f32 0x00000000#32),
    unary main_cst_53 main_v222 (broadcastInDim S50000x64 ![] bcast_S_S50000x64 : (⟨S_, .f32⟩ : BufTy).Contents (Elt F) → (⟨S50000x64, .f32⟩ : BufTy).Contents (Elt F)),
    unary main_arg5 main_v223 (broadcastInDim S800000x1 ![0] bcast_S800000_S800000x1_0 : (⟨S800000, .i32⟩ : BufTy).Contents (Elt F) → (⟨S800000x1, .i32⟩ : BufTy).Contents (Elt F)),
    ternary main_v222 main_v223 main_v221 main_v224 ((fun x i u => Host.scatterAdd scatter_S50000x64_S800000x1_S800000x64_1_0_0_1 x i u) : (⟨S50000x64, .f32⟩ : BufTy).Contents (Elt F) → (⟨S800000x1, .i32⟩ : BufTy).Contents (Elt F) → (⟨S800000x64, .f32⟩ : BufTy).Contents (Elt F) → (⟨S50000x64, .f32⟩ : BufTy).Contents (Elt F)),
    unary main_v154 main_v225 (broadcastInDim S50000x64 ![0, 1] bcast_S50000x1_S50000x64_0_1 : (⟨S50000x1, .f32⟩ : BufTy).Contents (Elt F) → (⟨S50000x64, .f32⟩ : BufTy).Contents (Elt F)),
    binary main_v224 main_v225 main_v226 (mulf : (⟨S50000x64, .f32⟩ : BufTy).Contents (Elt F) → (⟨S50000x64, .f32⟩ : BufTy).Contents (Elt F) → (⟨S50000x64, .f32⟩ : BufTy).Contents (Elt F)),
    binary main_v209 main_v226 main_v227 (subf : (⟨S50000x64, .f32⟩ : BufTy).Contents (Elt F) → (⟨S50000x64, .f32⟩ : BufTy).Contents (Elt F) → (⟨S50000x64, .f32⟩ : BufTy).Contents (Elt F)),
    nullary main_cst_54 (constant S_ .f32 0xBFC00000#32),
    unary main_cst_54 main_v228 (broadcastInDim S50000x64 ![] bcast_S_S50000x64 : (⟨S_, .f32⟩ : BufTy).Contents (Elt F) → (⟨S50000x64, .f32⟩ : BufTy).Contents (Elt F)),
    binary main_v228 main_v227 main_v229 (mulf : (⟨S50000x64, .f32⟩ : BufTy).Contents (Elt F) → (⟨S50000x64, .f32⟩ : BufTy).Contents (Elt F) → (⟨S50000x64, .f32⟩ : BufTy).Contents (Elt F)),
    binary main_v212 main_v229 main_v230 (addf : (⟨S50000x64, .f32⟩ : BufTy).Contents (Elt F) → (⟨S50000x64, .f32⟩ : BufTy).Contents (Elt F) → (⟨S50000x64, .f32⟩ : BufTy).Contents (Elt F)),
    nullary main_cst_55 (constant S_ .f32 0x00000000#32),
    unary main_cst_55 main_v231 (broadcastInDim S50000x64 ![] bcast_S_S50000x64 : (⟨S_, .f32⟩ : BufTy).Contents (Elt F) → (⟨S50000x64, .f32⟩ : BufTy).Contents (Elt F)),
    binary main_v231 main_v146 main_v232 (mulf : (⟨S50000x64, .f32⟩ : BufTy).Contents (Elt F) → (⟨S50000x64, .f32⟩ : BufTy).Contents (Elt F) → (⟨S50000x64, .f32⟩ : BufTy).Contents (Elt F)),
    unary main_v154 main_v233 (broadcastInDim S50000x64 ![0, 1] bcast_S50000x1_S50000x64_0_1 : (⟨S50000x1, .f32⟩ : BufTy).Contents (Elt F) → (⟨S50000x64, .f32⟩ : BufTy).Contents (Elt F)),
    binary main_v146 main_v233 main_v234 (mulf : (⟨S50000x64, .f32⟩ : BufTy).Contents (Elt F) → (⟨S50000x64, .f32⟩ : BufTy).Contents (Elt F) → (⟨S50000x64, .f32⟩ : BufTy).Contents (Elt F)),
    nullary main_c_56 (constantI S_ 32 0#32),
    unary main_c_56 main_v235 (broadcastInDim S800000 ![] bcast_S_S800000 : (⟨S_, .i32⟩ : BufTy).Contents (Elt F) → (⟨S800000, .i32⟩ : BufTy).Contents (Elt F)),
    binary main_arg4 main_v235 main_v236 (cmpi .slt : (⟨S800000, .i32⟩ : BufTy).Contents (Elt F) → (⟨S800000, .i32⟩ : BufTy).Contents (Elt F) → (⟨S800000, .i1⟩ : BufTy).Contents (Elt F)),
    nullary main_c_57 (constantI S_ 32 50000#32),
    unary main_c_57 main_v237 (broadcastInDim S800000 ![] bcast_S_S800000 : (⟨S_, .i32⟩ : BufTy).Contents (Elt F) → (⟨S800000, .i32⟩ : BufTy).Contents (Elt F)),
    binary main_arg4 main_v237 main_v238 (addi : (⟨S800000, .i32⟩ : BufTy).Contents (Elt F) → (⟨S800000, .i32⟩ : BufTy).Contents (Elt F) → (⟨S800000, .i32⟩ : BufTy).Contents (Elt F)),
    ternary main_v236 main_v238 main_arg4 main_v239 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)) ]

set_option maxRecDepth 8192 in
set_option maxHeartbeats 4000000 in
/-- The window is that straight line: both sides are one chain of `hlo` steps, the functions' bodies unfolded at their calls. -/
theorem main_part4_eq (c : Dev nD) : main_part4 (F := F) c = seq ops4 := rfl

set_option maxRecDepth 8192 in
/-- Every operation of the window touches TensorCore references only. -/
theorem ops4_sub : (ops4 : List (HloOp τ sig (Elt F))).Forall fun op => op.bufs ⊆ tcRefs τ sig :=
  ⟨
    binary_bufs_sub .., nullary_bufs_sub .., unary_bufs_sub .., binary_bufs_sub .., unary_bufs_sub .., binary_bufs_sub ..,
    nullary_bufs_sub .., unary_bufs_sub .., binary_bufs_sub .., nullary_bufs_sub .., unary_bufs_sub .., binary_bufs_sub ..,
    ternary_bufs_sub .., unary_bufs_sub .., binary_bufs_sub .., nullary_bufs_sub .., unary_bufs_sub .., unary_bufs_sub ..,
    ternary_bufs_sub .., unary_bufs_sub .., binary_bufs_sub .., binary_bufs_sub .., nullary_bufs_sub .., unary_bufs_sub ..,
    binary_bufs_sub .., binary_bufs_sub .., unary_bufs_sub .., binary_bufs_sub .., nullary_bufs_sub .., unary_bufs_sub ..,
    binary_bufs_sub .., nullary_bufs_sub .., unary_bufs_sub .., binary_bufs_sub .., ternary_bufs_sub .., unary_bufs_sub ..,
    binary_bufs_sub .., nullary_bufs_sub .., unary_bufs_sub .., unary_bufs_sub .., ternary_bufs_sub .., unary_bufs_sub ..,
    binary_bufs_sub .., binary_bufs_sub .., nullary_bufs_sub .., unary_bufs_sub .., binary_bufs_sub .., binary_bufs_sub ..,
    nullary_bufs_sub .., unary_bufs_sub .., binary_bufs_sub .., unary_bufs_sub .., binary_bufs_sub .., nullary_bufs_sub ..,
    unary_bufs_sub .., binary_bufs_sub .., nullary_bufs_sub .., unary_bufs_sub .., binary_bufs_sub .., ternary_bufs_sub ..⟩

set_option maxRecDepth 8192 in
/-- Every operation of the window writes exactly one buffer, and its index is at least 16: none of @main's sixteen arguments. -/
theorem ops4_writes : (ops4 : List (HloOp τ sig (Elt F))).Forall fun op => ∃ y : Ref sig .tc, op.writes = {Proc.devRef (τ := τ) .tc y} ∧ 16 ≤ y.idx.val :=
  ⟨
    ⟨_, rfl, by decide⟩, ⟨_, rfl, by decide⟩, ⟨_, rfl, by decide⟩, ⟨_, rfl, by decide⟩, ⟨_, rfl, by decide⟩, ⟨_, rfl, by decide⟩,
    ⟨_, rfl, by decide⟩, ⟨_, rfl, by decide⟩, ⟨_, rfl, by decide⟩, ⟨_, rfl, by decide⟩, ⟨_, rfl, by decide⟩, ⟨_, rfl, by decide⟩,
    ⟨_, rfl, by decide⟩, ⟨_, rfl, by decide⟩, ⟨_, rfl, by decide⟩, ⟨_, rfl, by decide⟩, ⟨_, rfl, by decide⟩, ⟨_, rfl, by decide⟩,
    ⟨_, rfl, by decide⟩, ⟨_, rfl, by decide⟩, ⟨_, rfl, by decide⟩, ⟨_, rfl, by decide⟩, ⟨_, rfl, by decide⟩, ⟨_, rfl, by decide⟩,
    ⟨_, rfl, by decide⟩, ⟨_, rfl, by decide⟩, ⟨_, rfl, by decide⟩, ⟨_, rfl, by decide⟩, ⟨_, rfl, by decide⟩, ⟨_, rfl, by decide⟩,
    ⟨_, rfl, by decide⟩, ⟨_, rfl, by decide⟩, ⟨_, rfl, by decide⟩, ⟨_, rfl, by decide⟩, ⟨_, rfl, by decide⟩, ⟨_, rfl, by decide⟩,
    ⟨_, rfl, by decide⟩, ⟨_, rfl, by decide⟩, ⟨_, rfl, by decide⟩, ⟨_, rfl, by decide⟩, ⟨_, rfl, by decide⟩, ⟨_, rfl, by decide⟩,
    ⟨_, rfl, by decide⟩, ⟨_, rfl, by decide⟩, ⟨_, rfl, by decide⟩, ⟨_, rfl, by decide⟩, ⟨_, rfl, by decide⟩, ⟨_, rfl, by decide⟩,
    ⟨_, rfl, by decide⟩, ⟨_, rfl, by decide⟩, ⟨_, rfl, by decide⟩, ⟨_, rfl, by decide⟩, ⟨_, rfl, by decide⟩, ⟨_, rfl, by decide⟩,
    ⟨_, rfl, by decide⟩, ⟨_, rfl, by decide⟩, ⟨_, rfl, by decide⟩, ⟨_, rfl, by decide⟩, ⟨_, rfl, by decide⟩, ⟨_, rfl, by decide⟩⟩

end Cert.ReferenceIdeal.RefRun

end
-- ==== Proof.RefRunW5.lean ====
/- The reference program's @main, operations 329 … 377 of 377 (the window `main_part5`): the window as a
   straight line of host operations, each module-local function's body written out at its call over that call's buffers. -/
import proofs.«121376_j36636071035259_2_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

set_option maxHeartbeats 4000000 in
/-- The window's 49 operations, in program order. -/
abbrev ops5 : List (HloOp τ sig (Elt F)) :=
  [ unary main_v239 main_v240 (broadcastInDim S800000x1 ![0] bcast_S800000_S800000x1_0 : (⟨S800000, .i32⟩ : BufTy).Contents (Elt F) → (⟨S800000x1, .i32⟩ : BufTy).Contents (Elt F)),
    binary main_v234 main_v240 main_v241 ((fun x i => Host.gather gather_S50000x64_S800000x1_S800000x64_1_0_n_n_0_1_164 x i) : (⟨S50000x64, .f32⟩ : BufTy).Contents (Elt F) → (⟨S800000x1, .i32⟩ : BufTy).Contents (Elt F) → (⟨S800000x64, .f32⟩ : BufTy).Contents (Elt F)),
    nullary main_cst_58 (constant S_ .f32 0x00000000#32),
    unary main_cst_58 main_v242 (broadcastInDim S50000x64 ![] bcast_S_S50000x64 : (⟨S_, .f32⟩ : BufTy).Contents (Elt F) → (⟨S50000x64, .f32⟩ : BufTy).Contents (Elt F)),
    unary main_arg5 main_v243 (broadcastInDim S800000x1 ![0] bcast_S800000_S800000x1_0 : (⟨S800000, .i32⟩ : BufTy).Contents (Elt F) → (⟨S800000x1, .i32⟩ : BufTy).Contents (Elt F)),
    ternary main_v242 main_v243 main_v241 main_v244 ((fun x i u => Host.scatterAdd scatter_S50000x64_S800000x1_S800000x64_1_0_0_1 x i u) : (⟨S50000x64, .f32⟩ : BufTy).Contents (Elt F) → (⟨S800000x1, .i32⟩ : BufTy).Contents (Elt F) → (⟨S800000x64, .f32⟩ : BufTy).Contents (Elt F) → (⟨S50000x64, .f32⟩ : BufTy).Contents (Elt F)),
    unary main_v154 main_v245 (broadcastInDim S50000x64 ![0, 1] bcast_S50000x1_S50000x64_0_1 : (⟨S50000x1, .f32⟩ : BufTy).Contents (Elt F) → (⟨S50000x64, .f32⟩ : BufTy).Contents (Elt F)),
    binary main_v244 main_v245 main_v246 (mulf : (⟨S50000x64, .f32⟩ : BufTy).Contents (Elt F) → (⟨S50000x64, .f32⟩ : BufTy).Contents (Elt F) → (⟨S50000x64, .f32⟩ : BufTy).Contents (Elt F)),
    binary main_v146 main_v246 main_v247 (subf : (⟨S50000x64, .f32⟩ : BufTy).Contents (Elt F) → (⟨S50000x64, .f32⟩ : BufTy).Contents (Elt F) → (⟨S50000x64, .f32⟩ : BufTy).Contents (Elt F)),
    nullary main_cst_59 (constant S_ .f32 0x00000000#32),
    unary main_cst_59 main_v248 (broadcastInDim S50000x64 ![] bcast_S_S50000x64 : (⟨S_, .f32⟩ : BufTy).Contents (Elt F) → (⟨S50000x64, .f32⟩ : BufTy).Contents (Elt F)),
    binary main_v248 main_v247 main_v249 (mulf : (⟨S50000x64, .f32⟩ : BufTy).Contents (Elt F) → (⟨S50000x64, .f32⟩ : BufTy).Contents (Elt F) → (⟨S50000x64, .f32⟩ : BufTy).Contents (Elt F)),
    binary main_v232 main_v249 main_v250 (addf : (⟨S50000x64, .f32⟩ : BufTy).Contents (Elt F) → (⟨S50000x64, .f32⟩ : BufTy).Contents (Elt F) → (⟨S50000x64, .f32⟩ : BufTy).Contents (Elt F)),
    unary main_v154 main_v251 (broadcastInDim S50000x64 ![0, 1] bcast_S50000x1_S50000x64_0_1 : (⟨S50000x1, .f32⟩ : BufTy).Contents (Elt F) → (⟨S50000x64, .f32⟩ : BufTy).Contents (Elt F)),
    binary main_v247 main_v251 main_v252 (mulf : (⟨S50000x64, .f32⟩ : BufTy).Contents (Elt F) → (⟨S50000x64, .f32⟩ : BufTy).Contents (Elt F) → (⟨S50000x64, .f32⟩ : BufTy).Contents (Elt F)),
    nullary main_c_60 (constantI S_ 32 0#32),
    unary main_c_60 main_v253 (broadcastInDim S800000 ![] bcast_S_S800000 : (⟨S_, .i32⟩ : BufTy).Contents (Elt F) → (⟨S800000, .i32⟩ : BufTy).Contents (Elt F)),
    binary main_arg4 main_v253 main_v254 (cmpi .slt : (⟨S800000, .i32⟩ : BufTy).Contents (Elt F) → (⟨S800000, .i32⟩ : BufTy).Contents (Elt F) → (⟨S800000, .i1⟩ : BufTy).Contents (Elt F)),
    nullary main_c_61 (constantI S_ 32 50000#32),
    unary main_c_61 main_v255 (broadcastInDim S800000 ![] bcast_S_S800000 : (⟨S_, .i32⟩ : BufTy).Contents (Elt F) → (⟨S800000, .i32⟩ : BufTy).Contents (Elt F)),
    binary main_arg4 main_v255 main_v256 (addi : (⟨S800000, .i32⟩ : BufTy).Contents (Elt F) → (⟨S800000, .i32⟩ : BufTy).Contents (Elt F) → (⟨S800000, .i32⟩ : BufTy).Contents (Elt F)),
    ternary main_v254 main_v256 main_arg4 main_v257 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v257 main_v258 (broadcastInDim S800000x1 ![0] bcast_S800000_S800000x1_0 : (⟨S800000, .i32⟩ : BufTy).Contents (Elt F) → (⟨S800000x1, .i32⟩ : BufTy).Contents (Elt F)),
    binary main_v252 main_v258 main_v259 ((fun x i => Host.gather gather_S50000x64_S800000x1_S800000x64_1_0_n_n_0_1_164 x i) : (⟨S50000x64, .f32⟩ : BufTy).Contents (Elt F) → (⟨S800000x1, .i32⟩ : BufTy).Contents (Elt F) → (⟨S800000x64, .f32⟩ : BufTy).Contents (Elt F)),
    nullary main_cst_62 (constant S_ .f32 0x00000000#32),
    unary main_cst_62 main_v260 (broadcastInDim S50000x64 ![] bcast_S_S50000x64 : (⟨S_, .f32⟩ : BufTy).Contents (Elt F) → (⟨S50000x64, .f32⟩ : BufTy).Contents (Elt F)),
    unary main_arg5 main_v261 (broadcastInDim S800000x1 ![0] bcast_S800000_S800000x1_0 : (⟨S800000, .i32⟩ : BufTy).Contents (Elt F) → (⟨S800000x1, .i32⟩ : BufTy).Contents (Elt F)),
    ternary main_v260 main_v261 main_v259 main_v262 ((fun x i u => Host.scatterAdd scatter_S50000x64_S800000x1_S800000x64_1_0_0_1 x i u) : (⟨S50000x64, .f32⟩ : BufTy).Contents (Elt F) → (⟨S800000x1, .i32⟩ : BufTy).Contents (Elt F) → (⟨S800000x64, .f32⟩ : BufTy).Contents (Elt F) → (⟨S50000x64, .f32⟩ : BufTy).Contents (Elt F)),
    unary main_v154 main_v263 (broadcastInDim S50000x64 ![0, 1] bcast_S50000x1_S50000x64_0_1 : (⟨S50000x1, .f32⟩ : BufTy).Contents (Elt F) → (⟨S50000x64, .f32⟩ : BufTy).Contents (Elt F)),
    binary main_v262 main_v263 main_v264 (mulf : (⟨S50000x64, .f32⟩ : BufTy).Contents (Elt F) → (⟨S50000x64, .f32⟩ : BufTy).Contents (Elt F) → (⟨S50000x64, .f32⟩ : BufTy).Contents (Elt F)),
    binary main_v247 main_v264 main_v265 (subf : (⟨S50000x64, .f32⟩ : BufTy).Contents (Elt F) → (⟨S50000x64, .f32⟩ : BufTy).Contents (Elt F) → (⟨S50000x64, .f32⟩ : BufTy).Contents (Elt F)),
    nullary main_cst_63 (constant S_ .f32 0x3F400000#32),
    unary main_cst_63 main_v266 (broadcastInDim S50000x64 ![] bcast_S_S50000x64 : (⟨S_, .f32⟩ : BufTy).Contents (Elt F) → (⟨S50000x64, .f32⟩ : BufTy).Contents (Elt F)),
    binary main_v266 main_v265 main_v267 (mulf : (⟨S50000x64, .f32⟩ : BufTy).Contents (Elt F) → (⟨S50000x64, .f32⟩ : BufTy).Contents (Elt F) → (⟨S50000x64, .f32⟩ : BufTy).Contents (Elt F)),
    binary main_v250 main_v267 main_v268 (addf : (⟨S50000x64, .f32⟩ : BufTy).Contents (Elt F) → (⟨S50000x64, .f32⟩ : BufTy).Contents (Elt F) → (⟨S50000x64, .f32⟩ : BufTy).Contents (Elt F)),
    nary ![main_v192, main_v230, main_v268] main_v269 (fun u => concatenate S50000x192 1 [⟨S50000x64, u 0⟩, ⟨S50000x64, u 1⟩, ⟨S50000x64, u 2⟩] concatenates_S50000x64_S50000x64_S50000x64_S50000x192_d1),
    binary main_v269 main_arg14 main_v270 ((fun l r => Host.dotGeneral dot_S50000x192_S192x64_S50000x64_1_0_0_1_n_n none l r) : (⟨S50000x192, .f32⟩ : BufTy).Contents (Elt F) → (⟨S192x64, .f32⟩ : BufTy).Contents (Elt F) → (⟨S50000x64, .f32⟩ : BufTy).Contents (Elt F)),
    unary main_arg15 main_v271 (broadcastInDim S1x64 ![1] bcast_S64_S1x64_1 : (⟨S64, .f32⟩ : BufTy).Contents (Elt F) → (⟨S1x64, .f32⟩ : BufTy).Contents (Elt F)),
    unary main_v271 main_v272 (broadcastInDim S50000x64 ![0, 1] bcast_S1x64_S50000x64_0_1 : (⟨S1x64, .f32⟩ : BufTy).Contents (Elt F) → (⟨S50000x64, .f32⟩ : BufTy).Contents (Elt F)),
    binary main_v270 main_v272 main_v273 (addf : (⟨S50000x64, .f32⟩ : BufTy).Contents (Elt F) → (⟨S50000x64, .f32⟩ : BufTy).Contents (Elt F) → (⟨S50000x64, .f32⟩ : BufTy).Contents (Elt F)),
    binary main_v136 main_v273 main_v274 (addf : (⟨S50000x64, .f32⟩ : BufTy).Contents (Elt F) → (⟨S50000x64, .f32⟩ : BufTy).Contents (Elt F) → (⟨S50000x64, .f32⟩ : BufTy).Contents (Elt F)),
    nullary main_cst_64 (constant S_ .f32 0x3C23D70A#32),
    TRef.nullary main_call6.cst (constant S_ .f32 0x00000000#32),
    TRef.unary main_call6.cst main_call6.v0 (broadcastInDim S50000x64 ![] bcast_S_S50000x64),
    TRef.binary (TRef.of main_v274 : TRef sig ⟨S50000x64, .f32⟩) main_call6.v0 main_call6.v1 (cmpf .oge),
    TRef.unary (TRef.of main_cst_64 : TRef sig ⟨S_, .f32⟩) main_call6.v2 id,
    TRef.unary main_call6.v2 main_call6.v3 (broadcastInDim S50000x64 ![] bcast_S_S50000x64),
    TRef.binary main_call6.v3 (TRef.of main_v274 : TRef sig ⟨S50000x64, .f32⟩) main_call6.v4 mulf,
    TRef.ternary main_call6.v1 (TRef.of main_v274 : TRef sig ⟨S50000x64, .f32⟩) main_call6.v4 main_call6.call0.v0 select ]

set_option maxRecDepth 8192 in
set_option maxHeartbeats 4000000 in
/-- The window is that straight line: both sides are one chain of `hlo` steps, the functions' bodies unfolded at their calls. -/
theorem main_part5_eq (c : Dev nD) : main_part5 (F := F) c = seq ops5 := rfl

set_option maxRecDepth 8192 in
/-- Every operation of the window touches TensorCore references only. -/
theorem ops5_sub : (ops5 : List (HloOp τ sig (Elt F))).Forall fun op => op.bufs ⊆ tcRefs τ sig :=
  ⟨
    unary_bufs_sub .., binary_bufs_sub .., nullary_bufs_sub .., unary_bufs_sub .., unary_bufs_sub .., ternary_bufs_sub ..,
    unary_bufs_sub .., binary_bufs_sub .., binary_bufs_sub .., nullary_bufs_sub .., unary_bufs_sub .., binary_bufs_sub ..,
    binary_bufs_sub .., unary_bufs_sub .., binary_bufs_sub .., nullary_bufs_sub .., unary_bufs_sub .., binary_bufs_sub ..,
    nullary_bufs_sub .., unary_bufs_sub .., binary_bufs_sub .., ternary_bufs_sub .., unary_bufs_sub .., binary_bufs_sub ..,
    nullary_bufs_sub .., unary_bufs_sub .., unary_bufs_sub .., ternary_bufs_sub .., unary_bufs_sub .., binary_bufs_sub ..,
    binary_bufs_sub .., nullary_bufs_sub .., unary_bufs_sub .., binary_bufs_sub .., binary_bufs_sub .., nary_bufs_sub ..,
    binary_bufs_sub .., unary_bufs_sub .., unary_bufs_sub .., binary_bufs_sub .., binary_bufs_sub .., nullary_bufs_sub ..,
    nullary_bufs_sub .., unary_bufs_sub .., binary_bufs_sub .., unary_bufs_sub .., unary_bufs_sub .., binary_bufs_sub ..,
    ternary_bufs_sub ..⟩

set_option maxRecDepth 8192 in
/-- Every operation of the window writes exactly one buffer, and its index is at least 16: none of @main's sixteen arguments. -/
theorem ops5_writes : (ops5 : List (HloOp τ sig (Elt F))).Forall fun op => ∃ y : Ref sig .tc, op.writes = {Proc.devRef (τ := τ) .tc y} ∧ 16 ≤ y.idx.val :=
  ⟨
    ⟨_, rfl, by decide⟩, ⟨_, rfl, by decide⟩, ⟨_, rfl, by decide⟩, ⟨_, rfl, by decide⟩, ⟨_, rfl, by decide⟩, ⟨_, rfl, by decide⟩,
    ⟨_, rfl, by decide⟩, ⟨_, rfl, by decide⟩, ⟨_, rfl, by decide⟩, ⟨_, rfl, by decide⟩, ⟨_, rfl, by decide⟩, ⟨_, rfl, by decide⟩,
    ⟨_, rfl, by decide⟩, ⟨_, rfl, by decide⟩, ⟨_, rfl, by decide⟩, ⟨_, rfl, by decide⟩, ⟨_, rfl, by decide⟩, ⟨_, rfl, by decide⟩,
    ⟨_, rfl, by decide⟩, ⟨_, rfl, by decide⟩, ⟨_, rfl, by decide⟩, ⟨_, rfl, by decide⟩, ⟨_, rfl, by decide⟩, ⟨_, rfl, by decide⟩,
    ⟨_, rfl, by decide⟩, ⟨_, rfl, by decide⟩, ⟨_, rfl, by decide⟩, ⟨_, rfl, by decide⟩, ⟨_, rfl, by decide⟩, ⟨_, rfl, by decide⟩,
    ⟨_, rfl, by decide⟩, ⟨_, rfl, by decide⟩, ⟨_, rfl, by decide⟩, ⟨_, rfl, by decide⟩, ⟨_, rfl, by decide⟩, ⟨_, rfl, by decide⟩,
    ⟨_, rfl, by decide⟩, ⟨_, rfl, by decide⟩, ⟨_, rfl, by decide⟩, ⟨_, rfl, by decide⟩, ⟨_, rfl, by decide⟩, ⟨_, rfl, by decide⟩,
    ⟨_, rfl, by decide⟩, ⟨_, rfl, by decide⟩, ⟨_, rfl, by decide⟩, ⟨_, rfl, by decide⟩, ⟨_, rfl, by decide⟩, ⟨_, rfl, by decide⟩,
    ⟨_, rfl, by decide⟩⟩

end Cert.ReferenceIdeal.RefRun

end
-- ==== Proof.RefRun.lean ====
/- The reference program's @main as ONE straight line of its 377 host operations (the six windows' lists joined, each
   module-local function's body written out at its call), and its run: every weakly fair execution terminates with the
   result buffer at the operations' fold over the launch contents and the sixteen arguments unchanged. -/
import proofs.«121376_j36636071035259_2_alg».proof.Proof.RefRunW0
import proofs.«121376_j36636071035259_2_alg».proof.Proof.RefRunW1
import proofs.«121376_j36636071035259_2_alg».proof.Proof.RefRunW2
import proofs.«121376_j36636071035259_2_alg».proof.Proof.RefRunW3
import proofs.«121376_j36636071035259_2_alg».proof.Proof.RefRunW4
import proofs.«121376_j36636071035259_2_alg».proof.Proof.RefRunW5
import Idealize.ShloMosaic.Lib.StableHlo.Run
import Idealize.ShloMosaic.Lib.Pipeline.Frame

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- @main's 377 operations, in program order: the six windows' lists, joined. -/
abbrev ops : List (HloOp τ sig (Elt F)) := ops0 ++ (ops1 ++ (ops2 ++ (ops3 ++ (ops4 ++ ops5))))

/-- @main runs its windows in order, each window is its straight line, and lines run one after the other are their
    concatenation run as one. -/
theorem main_eq (c : Dev nD) : main (F := F) c = seq ops := by
  simp only [ops, seq_append, ← main_part0_eq c, ← main_part1_eq c, ← main_part2_eq c, ← main_part3_eq c, ← main_part4_eq c, ← main_part5_eq c]
  rfl

theorem scopedRefs_eq : (Finset.univ.filter fun b : Ref sig .tc => b.isScoped) = ∅ := by decide
theorem scopedSems_eq : (Finset.univ.filter fun sm : SemLoc sig => sm.isScoped .tc) = ∅ := by decide

/-- Every operation touches TensorCore references only. -/
theorem ops_sub : (ops : List (HloOp τ sig (Elt F))).Forall fun op => op.bufs ⊆ tcRefs τ sig :=
  List.forall_append.mpr ⟨ops0_sub, List.forall_append.mpr ⟨ops1_sub, List.forall_append.mpr ⟨ops2_sub, List.forall_append.mpr ⟨ops3_sub, List.forall_append.mpr ⟨ops4_sub, ops5_sub⟩⟩⟩⟩⟩

/-- Every operation writes exactly one buffer, of index at least 16. -/
theorem ops_writes : (ops : List (HloOp τ sig (Elt F))).Forall fun op => ∃ y : Ref sig .tc, op.writes = {Proc.devRef (τ := τ) .tc y} ∧ 16 ≤ y.idx.val :=
  List.forall_append.mpr ⟨ops0_writes, List.forall_append.mpr ⟨ops1_writes, List.forall_append.mpr ⟨ops2_writes, List.forall_append.mpr ⟨ops3_writes, List.forall_append.mpr ⟨ops4_writes, ops5_writes⟩⟩⟩⟩⟩

set_option maxRecDepth 8192 in
/-- No operation of window 0 leaves a result undetermined. -/
theorem ops0_fresh : (ops0 : List (HloOp τ sig (Elt F))).Forall fun op => op.fresh = ∅ :=
  ⟨
    rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl⟩

set_option maxRecDepth 8192 in
/-- No operation of window 1 leaves a result undetermined. -/
theorem ops1_fresh : (ops1 : List (HloOp τ sig (Elt F))).Forall fun op => op.fresh = ∅ :=
  ⟨
    rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl⟩

set_option maxRecDepth 8192 in
/-- No operation of window 2 leaves a result undetermined. -/
theorem ops2_fresh : (ops2 : List (HloOp τ sig (Elt F))).Forall fun op => op.fresh = ∅ :=
  ⟨
    rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl, rfl, rfl, rfl, rfl, rfl⟩

set_option maxRecDepth 8192 in
/-- No operation of window 3 leaves a result undetermined. -/
theorem ops3_fresh : (ops3 : List (HloOp τ sig (Elt F))).Forall fun op => op.fresh = ∅ :=
  ⟨
    rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl, rfl, rfl, rfl, rfl, rfl, rfl, rfl⟩

set_option maxRecDepth 8192 in
/-- No operation of window 4 leaves a result undetermined. -/
theorem ops4_fresh : (ops4 : List (HloOp τ sig (Elt F))).Forall fun op => op.fresh = ∅ :=
  ⟨
    rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl⟩

set_option maxRecDepth 8192 in
/-- No operation of window 5 leaves a result undetermined. -/
theorem ops5_fresh : (ops5 : List (HloOp τ sig (Elt F))).Forall fun op => op.fresh = ∅ :=
  ⟨
    rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl, rfl, rfl, rfl, rfl, rfl, rfl, rfl, rfl⟩

/-- No operation leaves a result undetermined. -/
theorem ops_fresh : ∀ op ∈ (ops : List (HloOp τ sig (Elt F))), op.fresh = ∅ :=
  List.forall_iff_forall_mem.mp (List.forall_append.mpr ⟨ops0_fresh, List.forall_append.mpr ⟨ops1_fresh, List.forall_append.mpr ⟨ops2_fresh, List.forall_append.mpr ⟨ops3_fresh, List.forall_append.mpr ⟨ops4_fresh, ops5_fresh⟩⟩⟩⟩⟩)

/-- The fold over the whole line is the windows' folds, one after the other. -/
theorem after_ops (V : Valuation τ sig (Elt F)) :
    after ops V = after ops5 (after ops4 (after ops3 (after ops2 (after ops1 (after ops0 V))))) := by
  simp only [ops, after_append]

/-- A reference of index below 16 (one of @main's arguments) is written by no operation of a line whose operations
    each write one buffer of index at least 16: it keeps its contents through the line. -/
theorem after_arg {l : List (HloOp τ sig (Elt F))}
    (hl : l.Forall fun op => ∃ y : Ref sig .tc, op.writes = {Proc.devRef (τ := τ) .tc y} ∧ 16 ≤ y.idx.val)
    (V : Valuation τ sig (Elt F)) {r : Ref sig .tc} (hr : r.idx.val < 16) :
    after l V (Proc.devRef .tc r) = V (Proc.devRef .tc r) :=
  after_of_forall_not_mem l V fun op hop hb => by
    obtain ⟨y, hw, hy⟩ := List.forall_iff_forall_mem.mp hl op hop
    rw [hw, Finset.mem_singleton] at hb
    have hry : r = y := Proc.devRef_injective _ hb
    subst hry
    omega

/-- On every device, for any float values, from any memory with zero counters: every weakly fair execution of @main
    terminates with the result buffer at the fold of the 377 operations over the launch contents and each of the
    sixteen arguments unchanged. -/
theorem run (m : (ℓ : Loc nD τ sig) → Buf (Elt F) ℓ) (ρ : Dev nD → PrngReg) :
    θ_run (defs (F := F)) (onTc (τ := τ) (main (F := F))) ⟨m, fun _ => 0, ρ⟩ (fun r => ∀ c : Dev nD,
      r.2.mem ((c.tc : Thread nD τ).loc main_v275) = StableHlo.after ops (fun b => m (c, b)) (Proc.devRef .tc main_v275)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  (θ_run defs _ _).mono (fun _ h c => ⟨h c main_v275,
      (h c main_arg0).trans (after_arg ops_writes _ (by decide)),
      (h c main_arg1).trans (after_arg ops_writes _ (by decide)),
      (h c main_arg2).trans (after_arg ops_writes _ (by decide)),
      (h c main_arg3).trans (after_arg ops_writes _ (by decide)),
      (h c main_arg4).trans (after_arg ops_writes _ (by decide)),
      (h c main_arg5).trans (after_arg ops_writes _ (by decide)),
      (h c main_arg6).trans (after_arg ops_writes _ (by decide)),
      (h c main_arg7).trans (after_arg ops_writes _ (by decide)),
      (h c main_arg8).trans (after_arg ops_writes _ (by decide)),
      (h c main_arg9).trans (after_arg ops_writes _ (by decide)),
      (h c main_arg10).trans (after_arg ops_writes _ (by decide)),
      (h c main_arg11).trans (after_arg ops_writes _ (by decide)),
      (h c main_arg12).trans (after_arg ops_writes _ (by decide)),
      (h c main_arg13).trans (after_arg ops_writes _ (by decide)),
      (h c main_arg14).trans (after_arg ops_writes _ (by decide)),
      (h c main_arg15).trans (after_arg ops_writes _ (by decide))⟩)
    (run_seq scopedRefs_eq scopedSems_eq defs main (fun _ => ops) main_eq (fun _ => ops_sub) m ρ (fun _ => ops_fresh))

end Cert.ReferenceIdeal.RefRun

end
-- ==== Proof.LibStretch.lean ====
/-
  Reading a program's host operations stretch by stretch.  The buffer contents after a list of host operations is a fold
  of the operations over the contents the list is entered with; over two stretches run one after the other it is the
  second stretch's fold over the first's (`after_append`).  So a long host program is read one short stretch at a time,
  each stretch over ANY contents V: which buffers it leaves as they were (`unwritten`), and what it writes into the
  buffers a later stretch reads, as the operations' term of what it finds (`read_stretch`).  Short stretches matter where
  operations carry casts between a buffer's recorded type and its literal type (the operations of an outlined function):
  many of them nested under one comparison are costly, two or three are not.
-/
import Idealize.ShloMosaic.Lib.StableHlo.Run

namespace Cert.Stretch

open Idealize.ShloMosaic Idealize.ShloMosaic.StableHlo

/-- The contents after two stretches run one after the other: the second stretch's fold over the first's. -/
theorem after_append {τ : Topo} {sig : RefSig} {Val : EltTy → Type} (l₁ l₂ : List (HloOp τ sig Val)) (V : Valuation τ sig Val) :
    after (l₁ ++ l₂) V = after l₂ (after l₁ V) := by
  induction l₁ generalizing V with
  | nil => rfl
  | cons op l ih => exact ih (op.result V)

end Cert.Stretch

/-- `unwritten ops` closes `after ops V b = V b` for a literal stretch `ops` (named by an identifier that unfolds to the
    list) and a literal buffer `b` none of its operations writes: each operation's written buffer is another reference. -/
macro "unwritten" ops:ident : tactic =>
  `(tactic| exact Idealize.ShloMosaic.StableHlo.after_of_forall_not_mem _ _ (List.forall_iff_forall_mem.mp (by
      simp only [$ops:ident, List.Forall, Idealize.ShloMosaic.StableHlo.nullary_writes, Idealize.ShloMosaic.StableHlo.unary_writes, Idealize.ShloMosaic.StableHlo.binary_writes, Idealize.ShloMosaic.StableHlo.ternary_writes, Idealize.ShloMosaic.StableHlo.quaternary_writes, Idealize.ShloMosaic.StableHlo.reshape_writes, Idealize.ShloMosaic.StableHlo.binaryIndexed_writes, Finset.mem_singleton]
      repeat' apply And.intro
      all_goals exact Idealize.ShloMosaic.StableHlo.devRef_ne_of_ne (by decide))))

/-- `read_stretch` closes `after ops V b = t` for a literal stretch and a buffer it writes, `t` the operations' term over
    `V` at the buffers the stretch reads: every operation's result at its own buffer is its function's value, at any other
    buffer what was there (one pass over the stretch); what is left is the same term on both sides. -/
macro "read_stretch" : tactic =>
  `(tactic| ((open Idealize.ShloMosaic.StableHlo in after_results_simp) <;> rfl))

/-- The same, one rewrite per operation: for a stretch of a few operations. -/
macro "read_stretch_small" : tactic =>
  `(tactic| ((open Idealize.ShloMosaic.StableHlo in after_results) <;> rfl))
-- ==== Proof.KMid.lean ====
import proofs.«121376_j36636071035259_2_alg».proof.Proof.KRun
import proofs.«121376_j36636071035259_2_alg».proof.Proof.LibStretch
import Idealize.ShloMosaic.Lib.StableHlo.Run

set_option maxRecDepth 16384

noncomputable section

namespace Cert.KernelIdeal.Mid

open Idealize.ShloMosaic Idealize.ShloMosaic.TcCoe
open Cert.KernelIdeal Cert.KernelIdeal.Gen Cert.KernelIdeal.Hand

variable {F : FTy → Type} [FloatOps F]

/-! ## One relation's graph filter, as the host operations spell it -/

/-- The start column a gather reads the source words through: a negative word is first moved up by the node count. -/
def srcCol (src : IVec S800000 32) : IVec S800000x1 32 :=
  broadcastInDim S800000x1 ![0] bcast_S800000_S800000x1_0
    (select (cmpi .slt src (broadcastInDim S800000 ![] bcast_S_S800000 (constantI S_ 32 0#32)))
      (addi src (broadcastInDim S800000 ![] bcast_S_S800000 (constantI S_ 32 50000#32))) src)

/-- The index column a scatter reads the target words through. -/
def dstCol (dst : IVec S800000 32) : IVec S800000x1 32 :=
  broadcastInDim S800000x1 ![0] bcast_S800000_S800000x1_0 dst

/-- The in-degree of every node: one unit scattered to each edge's target. -/
def degree (dst : IVec S800000 32) : FVec F S50000 .f32 :=
  Host.scatterAdd scatter_S50000_S800000x1_S800000_n_0_0_1
    (broadcastInDim S50000 ![] bcast_S_S50000 (constant S_ .f32 0x00000000#32)) (dstCol dst)
    (broadcastInDim S800000 ![] bcast_S_S800000 (constant S_ .f32 0x3F800000#32))

/-- max(deg, 1) to the power −1/2, as a column. -/
def dinv (deg : FVec F S50000 .f32) : FVec F S50000x1 .f32 :=
  broadcastInDim S50000x1 ![0] bcast_S50000_S50000x1_0
    (Host.powf (maximumf (broadcastInDim S50000 ![] bcast_S_S50000 (constant S_ .f32 0x3F800000#32 : FVec F S_ .f32)) deg)
      (broadcastInDim S50000 ![] bcast_S_S50000 (constant S_ .f32 0xBF000000#32)))

/-- One Laplacian step: f − (scatter-sum over targets of the gathered rows of f · D) · D. -/
def step (f : FVec F S50000x64 .f32) (d : FVec F S50000x1 .f32) (src dst : IVec S800000 32) : FVec F S50000x64 .f32 :=
  subf f (mulf
    (Host.scatterAdd scatter_S50000x64_S800000x1_S800000x64_1_0_0_1
      (broadcastInDim S50000x64 ![] bcast_S_S50000x64 (constant S_ .f32 0x00000000#32)) (dstCol dst)
      (Host.gather gather_S50000x64_S800000x1_S800000x64_1_0_n_n_0_1_164
        (mulf f (broadcastInDim S50000x64 ![0, 1] bcast_S50000x1_S50000x64_0_1 d)) (srcCol src)))
    (broadcastInDim S50000x64 ![0, 1] bcast_S50000x1_S50000x64_0_1 d))

/-- Relation r's hidden features out of the perceptron's stacked result. -/
def hid0 (h : FVec F S2x50000x64 .f32) : FVec F S50000x64 .f32 :=
  shapeCast S50000x64 (extractStridedSlice S1x50000x64 ![0, 0, 0] h slices_S2x50000x64_S1x50000x64_0_0_0) shapeCasts_S1x50000x64_S50000x64
def hid1 (h : FVec F S2x50000x64 .f32) : FVec F S50000x64 .f32 :=
  shapeCast S50000x64 (extractStridedSlice S1x50000x64 ![1, 0, 0] h slices_S2x50000x64_S1x50000x64_1_0_0) shapeCasts_S1x50000x64_S50000x64

/-! ## The stretches between the two regions, read over any contents -/

section Stretches
variable (U : Valuation τ sig (Elt F))

theorem s1_v19 : StableHlo.after main_part0_ops1 U (Proc.devRef .tc main_v19) = hid0 (U (Proc.devRef .tc main_v17)) := by
  unfold hid0; read_stretch
theorem s1_v23 : StableHlo.after main_part0_ops1 U (Proc.devRef .tc main_v23) = degree (U (Proc.devRef .tc main_arg3)) := by
  unfold degree dstCol; read_stretch
theorem s1_cst1 : StableHlo.after main_part0_ops1 U (Proc.devRef .tc main_cst_1) = (constant S_ .f32 0x3F800000#32 : FVec F S_ .f32) := by
  read_stretch
theorem s2_v24 : StableHlo.after main_part0_ops2 U (Proc.devRef .tc main_v24)
    = maximumf (broadcastInDim S50000 ![] bcast_S_S50000 (U (Proc.devRef .tc main_cst_1) : FVec F S_ .f32)) (U (Proc.devRef .tc main_v23)) := by
  read_stretch_small
theorem s3_v27 : StableHlo.after main_part0_ops3 U (Proc.devRef .tc main_v27)
    = broadcastInDim S50000x1 ![0] bcast_S50000_S50000x1_0 (Host.powf (U (Proc.devRef .tc main_v24) : FVec F S50000 .f32)
        (broadcastInDim S50000 ![] bcast_S_S50000 (constant S_ .f32 0xBF000000#32))) := by
  read_stretch
theorem s3_v42 : StableHlo.after main_part0_ops3 U (Proc.devRef .tc main_v42)
    = step (U (Proc.devRef .tc main_v19)) (StableHlo.after main_part0_ops3 U (Proc.devRef .tc main_v27))
        (U (Proc.devRef .tc main_arg2)) (U (Proc.devRef .tc main_arg3)) := by
  rw [s3_v27]; unfold step srcCol dstCol; read_stretch
theorem s3_v44 : StableHlo.after main_part0_ops3 U (Proc.devRef .tc main_v44)
    = mulf (StableHlo.after main_part0_ops3 U (Proc.devRef .tc main_v42))
        (broadcastInDim S50000x64 ![0, 1] bcast_S50000x1_S50000x64_0_1 (StableHlo.after main_part0_ops3 U (Proc.devRef .tc main_v27))) := by
  rw [s3_v42, s3_v27]; unfold step srcCol dstCol; read_stretch
theorem s3_v50 : StableHlo.after main_part0_ops3 U (Proc.devRef .tc main_v50) = srcCol (U (Proc.devRef .tc main_arg2)) := by
  unfold srcCol; read_stretch
theorem s4_v57 : StableHlo.after main_part1_ops0 U (Proc.devRef .tc main_v57)
    = subf (U (Proc.devRef .tc main_v42)) (mulf
        (Host.scatterAdd scatter_S50000x64_S800000x1_S800000x64_1_0_0_1
          (broadcastInDim S50000x64 ![] bcast_S_S50000x64 (constant S_ .f32 0x00000000#32)) (dstCol (U (Proc.devRef .tc main_arg3)))
          (Host.gather gather_S50000x64_S800000x1_S800000x64_1_0_n_n_0_1_164 (U (Proc.devRef .tc main_v44)) (U (Proc.devRef .tc main_v50))))
        (broadcastInDim S50000x64 ![0, 1] bcast_S50000x1_S50000x64_0_1 (U (Proc.devRef .tc main_v27)))) := by
  unfold dstCol; read_stretch
theorem s4_v63 : StableHlo.after main_part1_ops0 U (Proc.devRef .tc main_v63) = hid1 (U (Proc.devRef .tc main_v17)) := by
  unfold hid1; read_stretch
theorem s4_v67 : StableHlo.after main_part1_ops0 U (Proc.devRef .tc main_v67) = degree (U (Proc.devRef .tc main_arg5)) := by
  unfold degree dstCol; read_stretch
theorem s4_cst10 : StableHlo.after main_part1_ops0 U (Proc.devRef .tc main_cst_10) = (constant S_ .f32 0x3F800000#32 : FVec F S_ .f32) := by
  read_stretch
theorem s5_v68 : StableHlo.after main_part1_ops1 U (Proc.devRef .tc main_v68)
    = maximumf (broadcastInDim S50000 ![] bcast_S_S50000 (U (Proc.devRef .tc main_cst_10) : FVec F S_ .f32)) (U (Proc.devRef .tc main_v67)) := by
  read_stretch_small
theorem s6_v71 : StableHlo.after main_part1_ops2 U (Proc.devRef .tc main_v71)
    = broadcastInDim S50000x1 ![0] bcast_S50000_S50000x1_0 (Host.powf (U (Proc.devRef .tc main_v68) : FVec F S50000 .f32)
        (broadcastInDim S50000 ![] bcast_S_S50000 (constant S_ .f32 0xBF000000#32))) := by
  read_stretch
theorem s6_v86 : StableHlo.after main_part1_ops2 U (Proc.devRef .tc main_v86)
    = step (U (Proc.devRef .tc main_v63)) (StableHlo.after main_part1_ops2 U (Proc.devRef .tc main_v71))
        (U (Proc.devRef .tc main_arg4)) (U (Proc.devRef .tc main_arg5)) := by
  rw [s6_v71]; unfold step srcCol dstCol; read_stretch
theorem s6_v98 : StableHlo.after main_part1_ops2 U (Proc.devRef .tc main_v98)
    = Host.scatterAdd scatter_S50000x64_S800000x1_S800000x64_1_0_0_1
        (broadcastInDim S50000x64 ![] bcast_S_S50000x64 (constant S_ .f32 0x00000000#32)) (dstCol (U (Proc.devRef .tc main_arg5)))
        (Host.gather gather_S50000x64_S800000x1_S800000x64_1_0_n_n_0_1_164
          (mulf (StableHlo.after main_part1_ops2 U (Proc.devRef .tc main_v86))
            (broadcastInDim S50000x64 ![0, 1] bcast_S50000x1_S50000x64_0_1 (StableHlo.after main_part1_ops2 U (Proc.devRef .tc main_v71))))
          (srcCol (U (Proc.devRef .tc main_arg4)))) := by
  rw [s6_v86, s6_v71]; unfold step srcCol dstCol; read_stretch
theorem s6_v99 : StableHlo.after main_part1_ops2 U (Proc.devRef .tc main_v99)
    = broadcastInDim S50000x64 ![0, 1] bcast_S50000x1_S50000x64_0_1 (StableHlo.after main_part1_ops2 U (Proc.devRef .tc main_v71)) := by
  rw [s6_v71]; read_stretch
theorem s7_v101 : StableHlo.after main_part2_ops0 U (Proc.devRef .tc main_v101)
    = subf (U (Proc.devRef .tc main_v86)) (mulf (U (Proc.devRef .tc main_v98)) (U (Proc.devRef .tc main_v99))) := by
  read_stretch

end Stretches

/-! ## The same at the run's boundaries -/

section Boundaries
variable (m : (ℓ : Loc nD τ sig) → Buf (Elt F) ℓ) (ρ : Dev nD → PrngReg) (c : Dev nD)

theorem keep1 (b : Ref sig .tc) (h : b ∉ S1_W) : W3 m ρ c (Proc.devRef .tc b) = W2 m ρ c (Proc.devRef .tc b) :=
  StableHlo.after_of_writes_sub main_part0_ops1 _ S1_writes h
theorem keep2 (b : Ref sig .tc) (h : b ∉ S2_W) : W4 m ρ c (Proc.devRef .tc b) = W3 m ρ c (Proc.devRef .tc b) :=
  StableHlo.after_of_writes_sub main_part0_ops2 _ S2_writes h
theorem keep3 (b : Ref sig .tc) (h : b ∉ S3_W) : W5 m ρ c (Proc.devRef .tc b) = W4 m ρ c (Proc.devRef .tc b) :=
  StableHlo.after_of_writes_sub main_part0_ops3 _ S3_writes h
theorem keep4 (b : Ref sig .tc) (h : b ∉ S4_W) : W6 m ρ c (Proc.devRef .tc b) = W5 m ρ c (Proc.devRef .tc b) :=
  StableHlo.after_of_writes_sub main_part1_ops0 _ S4_writes h
theorem keep5 (b : Ref sig .tc) (h : b ∉ S5_W) : W7 m ρ c (Proc.devRef .tc b) = W6 m ρ c (Proc.devRef .tc b) :=
  StableHlo.after_of_writes_sub main_part1_ops1 _ S5_writes h
theorem keep6 (b : Ref sig .tc) (h : b ∉ S6_W) : W8 m ρ c (Proc.devRef .tc b) = W7 m ρ c (Proc.devRef .tc b) :=
  StableHlo.after_of_writes_sub main_part1_ops2 _ S6_writes h
theorem keep7 (b : Ref sig .tc) (h : b ∉ S7_W) : W9 m ρ c (Proc.devRef .tc b) = W8 m ρ c (Proc.devRef .tc b) :=
  StableHlo.after_of_writes_sub main_part2_ops0 _ S7_writes h
theorem W2_launch (b : Ref sig .tc) (h0 : b ∉ S0_W) (hr0 : ∀ w, Pipeline.arrRef spec0 w ≠ b) :
    W2 m ρ c (Proc.devRef .tc b) = W0 m ρ c (Proc.devRef .tc b) :=
  (W2_of_ne m ρ c b hr0).trans ((StableHlo.after_of_writes_sub main_part0_ops0 _ S0_writes h0).trans rfl)
theorem W3_launch (b : Ref sig .tc) (h0 : b ∉ S0_W) (h1 : b ∉ S1_W) (hr0 : ∀ w, Pipeline.arrRef spec0 w ≠ b) :
    W3 m ρ c (Proc.devRef .tc b) = W0 m ρ c (Proc.devRef .tc b) :=
  (keep1 m ρ c b h1).trans (W2_launch m ρ c b h0 hr0)
theorem W4_launch (b : Ref sig .tc) (h0 : b ∉ S0_W) (h1 : b ∉ S1_W) (h2 : b ∉ S2_W) (hr0 : ∀ w, Pipeline.arrRef spec0 w ≠ b) :
    W4 m ρ c (Proc.devRef .tc b) = W0 m ρ c (Proc.devRef .tc b) :=
  (keep2 m ρ c b h2).trans ((keep1 m ρ c b h1).trans (W2_launch m ρ c b h0 hr0))
theorem W5_launch (b : Ref sig .tc) (h0 : b ∉ S0_W) (h1 : b ∉ S1_W) (h2 : b ∉ S2_W) (h3 : b ∉ S3_W) (hr0 : ∀ w, Pipeline.arrRef spec0 w ≠ b) :
    W5 m ρ c (Proc.devRef .tc b) = W0 m ρ c (Proc.devRef .tc b) :=
  (keep3 m ρ c b h3).trans ((keep2 m ρ c b h2).trans ((keep1 m ρ c b h1).trans (W2_launch m ρ c b h0 hr0)))
theorem W6_launch (b : Ref sig .tc) (h0 : b ∉ S0_W) (h1 : b ∉ S1_W) (h2 : b ∉ S2_W) (h3 : b ∉ S3_W) (h4 : b ∉ S4_W) (hr0 : ∀ w, Pipeline.arrRef spec0 w ≠ b) :
    W6 m ρ c (Proc.devRef .tc b) = W0 m ρ c (Proc.devRef .tc b) :=
  (keep4 m ρ c b h4).trans ((keep3 m ρ c b h3).trans ((keep2 m ρ c b h2).trans ((keep1 m ρ c b h1).trans (W2_launch m ρ c b h0 hr0))))
theorem W7_launch (b : Ref sig .tc) (h0 : b ∉ S0_W) (h1 : b ∉ S1_W) (h2 : b ∉ S2_W) (h3 : b ∉ S3_W) (h4 : b ∉ S4_W) (h5 : b ∉ S5_W) (hr0 : ∀ w, Pipeline.arrRef spec0 w ≠ b) :
    W7 m ρ c (Proc.devRef .tc b) = W0 m ρ c (Proc.devRef .tc b) :=
  (keep5 m ρ c b h5).trans ((keep4 m ρ c b h4).trans ((keep3 m ρ c b h3).trans ((keep2 m ρ c b h2).trans ((keep1 m ρ c b h1).trans (W2_launch m ρ c b h0 hr0)))))
theorem W8_launch (b : Ref sig .tc) (h0 : b ∉ S0_W) (h1 : b ∉ S1_W) (h2 : b ∉ S2_W) (h3 : b ∉ S3_W) (h4 : b ∉ S4_W) (h5 : b ∉ S5_W) (h6 : b ∉ S6_W) (hr0 : ∀ w, Pipeline.arrRef spec0 w ≠ b) :
    W8 m ρ c (Proc.devRef .tc b) = W0 m ρ c (Proc.devRef .tc b) :=
  (keep6 m ρ c b h6).trans ((keep5 m ρ c b h5).trans ((keep4 m ρ c b h4).trans ((keep3 m ρ c b h3).trans ((keep2 m ρ c b h2).trans ((keep1 m ρ c b h1).trans (W2_launch m ρ c b h0 hr0))))))
theorem W9_launch (b : Ref sig .tc) (h0 : b ∉ S0_W) (h1 : b ∉ S1_W) (h2 : b ∉ S2_W) (h3 : b ∉ S3_W) (h4 : b ∉ S4_W) (h5 : b ∉ S5_W) (h6 : b ∉ S6_W) (h7 : b ∉ S7_W) (hr0 : ∀ w, Pipeline.arrRef spec0 w ≠ b) :
    W9 m ρ c (Proc.devRef .tc b) = W0 m ρ c (Proc.devRef .tc b) :=
  (keep7 m ρ c b h7).trans ((keep6 m ρ c b h6).trans ((keep5 m ρ c b h5).trans ((keep4 m ρ c b h4).trans ((keep3 m ρ c b h3).trans ((keep2 m ρ c b h2).trans ((keep1 m ρ c b h1).trans (W2_launch m ρ c b h0 hr0)))))))

/-! ## The six feature matrices the second region is handed, as functions of the first region's result and the arguments -/

/-- The perceptron's stacked result, as region 0 leaves it. -/
abbrev Hst : FVec F S2x50000x64 .f32 := W2 m ρ c (Proc.devRef .tc main_v17)
/-- The two relations' degree scalings. -/
def D0 : FVec F S50000x1 .f32 := dinv (degree (W0 m ρ c (Proc.devRef .tc main_arg3)))
def D1 : FVec F S50000x1 .f32 := dinv (degree (W0 m ρ c (Proc.devRef .tc main_arg5)))
def f00 : FVec F S50000x64 .f32 := hid0 (Hst m ρ c)
def f01 : FVec F S50000x64 .f32 := step (f00 m ρ c) (D0 m ρ c) (W0 m ρ c (Proc.devRef .tc main_arg2)) (W0 m ρ c (Proc.devRef .tc main_arg3))
def f02 : FVec F S50000x64 .f32 := step (f01 m ρ c) (D0 m ρ c) (W0 m ρ c (Proc.devRef .tc main_arg2)) (W0 m ρ c (Proc.devRef .tc main_arg3))
def f10 : FVec F S50000x64 .f32 := hid1 (Hst m ρ c)
def f11 : FVec F S50000x64 .f32 := step (f10 m ρ c) (D1 m ρ c) (W0 m ρ c (Proc.devRef .tc main_arg4)) (W0 m ρ c (Proc.devRef .tc main_arg5))
def f12 : FVec F S50000x64 .f32 := step (f11 m ρ c) (D1 m ρ c) (W0 m ρ c (Proc.devRef .tc main_arg4)) (W0 m ρ c (Proc.devRef .tc main_arg5))

theorem w3_v19 : W3 m ρ c (Proc.devRef .tc main_v19) = f00 m ρ c := s1_v19 (W2 m ρ c)
theorem w5_v19 : W5 m ρ c (Proc.devRef .tc main_v19) = f00 m ρ c :=
  (keep3 m ρ c main_v19 (by decide)).trans ((keep2 m ρ c main_v19 (by decide)).trans (w3_v19 m ρ c))
theorem w4_v19 : W4 m ρ c (Proc.devRef .tc main_v19) = f00 m ρ c :=
  (keep2 m ρ c main_v19 (by decide)).trans (w3_v19 m ρ c)
theorem w3_v23 : W3 m ρ c (Proc.devRef .tc main_v23) = degree (W0 m ρ c (Proc.devRef .tc main_arg3)) := by
  rw [← W2_launch m ρ c main_arg3 (by decide) (by decide)]; exact s1_v23 (W2 m ρ c)
theorem w4_v24 : W4 m ρ c (Proc.devRef .tc main_v24)
    = maximumf (broadcastInDim S50000 ![] bcast_S_S50000 (constant S_ .f32 0x3F800000#32 : FVec F S_ .f32)) (degree (W0 m ρ c (Proc.devRef .tc main_arg3))) := by
  rw [← w3_v23, ← s1_cst1 (W2 m ρ c)]; exact s2_v24 (W3 m ρ c)
theorem w5_v27 : W5 m ρ c (Proc.devRef .tc main_v27) = D0 m ρ c := by
  unfold D0 dinv; rw [← w4_v24]; exact s3_v27 (W4 m ρ c)
theorem w5_v42 : W5 m ρ c (Proc.devRef .tc main_v42) = f01 m ρ c := by
  unfold f01
  rw [← w4_v19, ← w5_v27, ← W4_launch m ρ c main_arg2 (by decide) (by decide) (by decide) (by decide),
    ← W4_launch m ρ c main_arg3 (by decide) (by decide) (by decide) (by decide)]
  exact s3_v42 (W4 m ρ c)
theorem w6_v57 : W6 m ρ c (Proc.devRef .tc main_v57) = f02 m ρ c := by
  unfold f02 step
  rw [← w5_v42, ← w5_v27, ← W4_launch m ρ c main_arg2 (by decide) (by decide) (by decide) (by decide),
    ← W5_launch m ρ c main_arg3 (by decide) (by decide) (by decide) (by decide) (by decide), ← s3_v50 (W4 m ρ c)]
  have h44 := s3_v44 (W4 m ρ c)
  rw [← h44]
  exact s4_v57 (W5 m ρ c)
theorem w5_v17 : W5 m ρ c (Proc.devRef .tc main_v17) = Hst m ρ c :=
  (keep3 m ρ c main_v17 (by decide)).trans ((keep2 m ρ c main_v17 (by decide)).trans (keep1 m ρ c main_v17 (by decide)))
theorem w6_v63 : W6 m ρ c (Proc.devRef .tc main_v63) = f10 m ρ c := by
  unfold f10; rw [← w5_v17]; exact s4_v63 (W5 m ρ c)
theorem w8_v63 : W8 m ρ c (Proc.devRef .tc main_v63) = f10 m ρ c :=
  (keep6 m ρ c main_v63 (by decide)).trans ((keep5 m ρ c main_v63 (by decide)).trans (w6_v63 m ρ c))
theorem w7_v63 : W7 m ρ c (Proc.devRef .tc main_v63) = f10 m ρ c :=
  (keep5 m ρ c main_v63 (by decide)).trans (w6_v63 m ρ c)
theorem w6_v67 : W6 m ρ c (Proc.devRef .tc main_v67) = degree (W0 m ρ c (Proc.devRef .tc main_arg5)) := by
  rw [← W5_launch m ρ c main_arg5 (by decide) (by decide) (by decide) (by decide) (by decide)]; exact s4_v67 (W5 m ρ c)
theorem w7_v68 : W7 m ρ c (Proc.devRef .tc main_v68)
    = maximumf (broadcastInDim S50000 ![] bcast_S_S50000 (constant S_ .f32 0x3F800000#32 : FVec F S_ .f32)) (degree (W0 m ρ c (Proc.devRef .tc main_arg5))) := by
  rw [← w6_v67, ← s4_cst10 (W5 m ρ c)]; exact s5_v68 (W6 m ρ c)
theorem w8_v71 : W8 m ρ c (Proc.devRef .tc main_v71) = D1 m ρ c := by
  unfold D1 dinv; rw [← w7_v68]; exact s6_v71 (W7 m ρ c)
theorem w8_v86 : W8 m ρ c (Proc.devRef .tc main_v86) = f11 m ρ c := by
  unfold f11
  rw [← w7_v63, ← w8_v71, ← W7_launch m ρ c main_arg4 (by decide) (by decide) (by decide) (by decide) (by decide) (by decide) (by decide),
    ← W7_launch m ρ c main_arg5 (by decide) (by decide) (by decide) (by decide) (by decide) (by decide) (by decide)]
  exact s6_v86 (W7 m ρ c)
theorem w9_v101 : W9 m ρ c (Proc.devRef .tc main_v101) = f12 m ρ c := by
  have e : W9 m ρ c (Proc.devRef .tc main_v101)
      = subf (W8 m ρ c (Proc.devRef .tc main_v86)) (mulf (W8 m ρ c (Proc.devRef .tc main_v98)) (W8 m ρ c (Proc.devRef .tc main_v99))) :=
    s7_v101 (W8 m ρ c)
  have h99 : W8 m ρ c (Proc.devRef .tc main_v99)
      = broadcastInDim S50000x64 ![0, 1] bcast_S50000x1_S50000x64_0_1 (W8 m ρ c (Proc.devRef .tc main_v71)) := s6_v99 (W7 m ρ c)
  have h98 : W8 m ρ c (Proc.devRef .tc main_v98)
      = Host.scatterAdd scatter_S50000x64_S800000x1_S800000x64_1_0_0_1
        (broadcastInDim S50000x64 ![] bcast_S_S50000x64 (constant S_ .f32 0x00000000#32)) (dstCol (W7 m ρ c (Proc.devRef .tc main_arg5)))
        (Host.gather gather_S50000x64_S800000x1_S800000x64_1_0_n_n_0_1_164
          (mulf (W8 m ρ c (Proc.devRef .tc main_v86))
            (broadcastInDim S50000x64 ![0, 1] bcast_S50000x1_S50000x64_0_1 (W8 m ρ c (Proc.devRef .tc main_v71))))
          (srcCol (W7 m ρ c (Proc.devRef .tc main_arg4)))) := s6_v98 (W7 m ρ c)
  rw [e, h98, h99, w8_v86, w8_v71, W7_launch m ρ c main_arg4 (by decide) (by decide) (by decide) (by decide) (by decide) (by decide) (by decide),
    W7_launch m ρ c main_arg5 (by decide) (by decide) (by decide) (by decide) (by decide) (by decide) (by decide)]
  rfl

end Boundaries

end Cert.KernelIdeal.Mid

end
-- ==== Proof.KFeat.lean ====
/-
  The six feature matrices the kernel's second region is handed — relation r's hidden features and their first and second
  Laplacian images — and the weight matrix and bias, as functions of the launch memory, coordinate by coordinate.
-/
import proofs.«121376_j36636071035259_2_alg».proof.Proof.KMid
import Idealize.ShloMosaic.Lib.ValueIdx

noncomputable section

namespace Cert.Bridge

open Idealize.ShloMosaic Idealize.ShloMosaic.TcCoe Idealize.ShloMosaic.ValueIdx
open Cert.KernelIdeal Cert.KernelIdeal.Gen Cert.KernelIdeal.Hand Cert.KernelIdeal.Mid

variable (m : (ℓ : Loc nD τ sig) → Buf (Elt Ideal) ℓ) (ρ : Dev nD → PrngReg) (c : Dev nD)

/-- Feature matrix k of relation r at node n, column j. -/
def featK : Fin 2 → Fin 3 → Fin 50000 → Fin 64 → EReal := fun r k n j =>
  (if r.val = 0 then (if k.val = 0 then f00 m ρ c else if k.val = 1 then f01 m ρ c else f02 m ρ c)
    else (if k.val = 0 then f10 m ρ c else if k.val = 1 then f11 m ρ c else f12 m ρ c)) (ix2 n j)

/-- The 192 × 64 weight matrix and the bias, as launched. -/
def W3K : Fin 192 → Fin 64 → EReal := fun r q => (W0 m ρ c (Proc.devRef .tc main_arg14) : S192x64.Idx → EReal) (ix2 r q)
def b3K : Fin 64 → EReal := fun q => (W0 m ρ c (Proc.devRef .tc main_arg15) : S64.Idx → EReal) (ix1 q)

end Cert.Bridge

end
-- ==== Proof.Spec.lean ====
/-
  The mathematics of the certificate, stated once, coordinate by coordinate, on the extended reals.

  A node n of 50000 carries 128 input features; a two-layer perceptron with the leaky rectifier of slope 0.01 maps them to
  64 hidden features.  A Bernstein filter of order 2 then works on three feature matrices f 0, f 1, f 2 of a relation
  (the hidden features and their first and second graph-Laplacian images).  The reference mixes them with the nine
  Bernstein coefficients into three matrices, lays these side by side (192 columns) and applies one 192 × 64 weight
  matrix; the kernel folds the coefficients into three 64 × 64 weight matrices first.  The two relations' results are added
  and rectified.
-/
import Idealize.ShloMosaic.PureOps.Ideal
import Idealize.ShloMosaic.Lib.ValueIdx

noncomputable section

namespace Cert.Spec

open Idealize.ShloMosaic
open scoped BigOperators

/-- The leaky rectifier on one extended real: x where x ≥ 0, the slope word times x elsewhere. -/
def lk (x : EReal) : EReal :=
  Scalar.select (Ideal.cmp .oge x (Ideal.ofBits .f32 0x00000000#32)) x (Ideal.ofBits .f32 0x3C23D70A#32 * x)

/-- The two-layer perceptron at node n, hidden column q. -/
def mlpAt (x : Fin 50000 → Fin 128 → EReal) (W1 : Fin 128 → Fin 64 → EReal) (b1 : Fin 64 → EReal)
    (W2 : Fin 64 → Fin 64 → EReal) (b2 : Fin 64 → EReal) (n : Fin 50000) (q : Fin 64) : EReal :=
  lk ((∑ j : Fin 64, lk ((∑ k : Fin 128, x n k * W1 k j) + b1 j) * W2 j q) + b2 q)

/-- The Bernstein coefficients of order 2, θ i k the coefficient of the k-th Laplacian power in the i-th basis polynomial:
    (3, −3, 3/4), (0, 3, −3/2), (0, 0, 3/4), as the words both programs carry. -/
def theta : Fin 3 → Fin 3 → EReal
  | ⟨0, _⟩, ⟨0, _⟩ => Ideal.ofBits .f32 0x40400000#32
  | ⟨0, _⟩, ⟨1, _⟩ => Ideal.ofBits .f32 0xC0400000#32
  | ⟨0, _⟩, ⟨2, _⟩ => Ideal.ofBits .f32 0x3F400000#32
  | ⟨1, _⟩, ⟨0, _⟩ => Ideal.ofBits .f32 0x00000000#32
  | ⟨1, _⟩, ⟨1, _⟩ => Ideal.ofBits .f32 0x40400000#32
  | ⟨1, _⟩, ⟨2, _⟩ => Ideal.ofBits .f32 0xBFC00000#32
  | ⟨2, _⟩, ⟨0, _⟩ => Ideal.ofBits .f32 0x00000000#32
  | ⟨2, _⟩, ⟨1, _⟩ => Ideal.ofBits .f32 0x00000000#32
  | ⟨2, _⟩, ⟨2, _⟩ => Ideal.ofBits .f32 0x3F400000#32

/-- Row 64·i + j of the 192-row weight matrix. -/
def row192 (i : Fin 3) (j : Fin 64) : Fin 192 := ⟨64 * i.val + j.val, by have := i.isLt; have := j.isLt; omega⟩

/-- The kernel's folded weights: Weff k = ((0 + θ 0 k · B 0) + θ 1 k · B 1) + θ 2 k · B 2, B i the i-th block of 64 rows of W3. -/
def weffAt (W3 : Fin 192 → Fin 64 → EReal) (k : Fin 3) (j q : Fin 64) : EReal :=
  ((Ideal.ofBits .f32 0x00000000#32 + theta 0 k * W3 (row192 0 j) q) + theta 1 k * W3 (row192 1 j) q) + theta 2 k * W3 (row192 2 j) q

/-- One relation's accumulator in the kernel: the bias, then the three products in turn. -/
def accAt (f : Fin 3 → Fin 50000 → Fin 64 → EReal) (w : Fin 3 → Fin 64 → Fin 64 → EReal) (b : Fin 64 → EReal)
    (n : Fin 50000) (q : Fin 64) : EReal :=
  ((b q + ∑ j : Fin 64, f 0 n j * w 0 j q) + ∑ j : Fin 64, f 1 n j * w 1 j q) + ∑ j : Fin 64, f 2 n j * w 2 j q

/-- The kernel's result: the two relations' accumulators added, then rectified. -/
def kernelAt (f : Fin 2 → Fin 3 → Fin 50000 → Fin 64 → EReal) (w : Fin 3 → Fin 64 → Fin 64 → EReal) (b : Fin 64 → EReal)
    (n : Fin 50000) (q : Fin 64) : EReal :=
  lk (accAt (f 0) w b n q + accAt (f 1) w b n q)

/-- The reference's mixed features laid side by side: column 64·i + j is (θ i 0 · f 0 + θ i 1 · f 1) + θ i 2 · f 2 at column j. -/
def hfAt (f : Fin 3 → Fin 50000 → Fin 64 → EReal) (n : Fin 50000) (c : Fin 192) : EReal :=
  let i : Fin 3 := ⟨c.val / 64, by have := c.isLt; omega⟩
  let j : Fin 64 := ⟨c.val % 64, Nat.mod_lt _ (by decide)⟩
  (theta i 0 * f 0 n j + theta i 1 * f 1 n j) + theta i 2 * f 2 n j

/-- One relation's branch in the reference: the 192-column product with W3, plus the bias. -/
def branchAt (f : Fin 3 → Fin 50000 → Fin 64 → EReal) (W3 : Fin 192 → Fin 64 → EReal) (b : Fin 64 → EReal)
    (n : Fin 50000) (q : Fin 64) : EReal :=
  (∑ c : Fin 192, hfAt f n c * W3 c q) + b q

/-- The reference's result. -/
def referenceAt (f : Fin 2 → Fin 3 → Fin 50000 → Fin 64 → EReal) (W3 : Fin 192 → Fin 64 → EReal) (b : Fin 64 → EReal)
    (n : Fin 50000) (q : Fin 64) : EReal :=
  lk (branchAt (f 0) W3 b n q + branchAt (f 1) W3 b n q)

end Cert.Spec

end
-- ==== Proof.LibMatmulIx.lean ====
/-
  A matrix product of an `[a, K]` array with a `[K, b]` array read at the entry `(p, q)`, at the ideal values:
  the sum over `k` of the left operand's `(p, k)` entry times the right operand's `(k, q)` entry — for a kernel's
  product accumulated into the zero splat (`matmul_zero_ix2`) and for the host's product (`dotGeneral_ix2`), stated
  for any dimension numbers that contract the left operand's columns with the right operand's rows (the four
  coordinate facts `hl0 … hr1`, which a literal record proves by evaluation).
-/
import Idealize.ShloMosaic.Lib.ValueIdx
import Idealize.ShloMosaic.PureOps.Ideal.Laws

namespace MatmulIx

open Idealize.ShloMosaic Idealize.ShloMosaic.ValueIdx

variable {a K b : ℕ} {φ₁ φ₂ : FTy}

/-- The contraction's sum re-indexed by the one contracted coordinate. -/
theorem sum_contr (D : DotDims ⟨2, ![a, K]⟩ ⟨2, ![K, b]⟩ ⟨2, ![a, b]⟩) (hr : D.contr.rank = 1)
    (hs : D.contr.size ⟨0, by omega⟩ = K)
    (hl0 : ∀ i q, (D.lhsIdx i q 0).val = (i 0).val) (hl1 : ∀ i q, (D.lhsIdx i q 1).val = (q ⟨0, by omega⟩).val)
    (hr0 : ∀ i q, (D.rhsIdx i q 0).val = (q ⟨0, by omega⟩).val) (hr1 : ∀ i q, (D.rhsIdx i q 1).val = (i 1).val)
    (x : (⟨2, ![a, K]⟩ : Shape).Idx → EReal) (w : (⟨2, ![K, b]⟩ : Shape).Idx → EReal) (p : Fin a) (q : Fin b) :
    ∑ k : D.contr.Idx, x (D.lhsIdx (ix2 p q) k) * w (D.rhsIdx (ix2 p q) k) = ∑ k : Fin K, x (ix2 p k) * w (ix2 k q) := by
  rw [← Equiv.sum_comp (contrEquiv1 D K hr hs).symm]
  refine Finset.sum_congr rfl fun k _ => ?_
  have hk := contrEquiv1_symm_val D K hr hs k
  have el : D.lhsIdx (ix2 p q) ((contrEquiv1 D K hr hs).symm k) = ix2 p k := funext fun c => Fin.ext (by
    match c with
    | ⟨0, _⟩ => exact hl0 _ _
    | ⟨1, _⟩ => exact (hl1 _ _).trans hk)
  have er : D.rhsIdx (ix2 p q) ((contrEquiv1 D K hr hs).symm k) = ix2 k q := funext fun c => Fin.ext (by
    match c with
    | ⟨0, _⟩ => exact (hr0 _ _).trans hk
    | ⟨1, _⟩ => exact hr1 _ _)
  rw [el, er]

/-- A kernel's matrix product into the zero splat, at `(p, q)`: the row of the left operand times the column of the
    right one. -/
theorem matmul_zero_ix2 (D : DotDims ⟨2, ![a, K]⟩ ⟨2, ![K, b]⟩ ⟨2, ![a, b]⟩) (hr : D.contr.rank = 1)
    (hs : D.contr.size ⟨0, by omega⟩ = K)
    (hl0 : ∀ i q, (D.lhsIdx i q 0).val = (i 0).val) (hl1 : ∀ i q, (D.lhsIdx i q 1).val = (q ⟨0, by omega⟩).val)
    (hr0 : ∀ i q, (D.rhsIdx i q 0).val = (q ⟨0, by omega⟩).val) (hr1 : ∀ i q, (D.rhsIdx i q 1).val = (i 1).val)
    (prec : Option ContractPrecision)
    (x : FVec Ideal ⟨2, ![a, K]⟩ φ₁) (w : FVec Ideal ⟨2, ![K, b]⟩ φ₂) (p : Fin a) (q : Fin b) :
    matmul D prec x w (constant (F := Ideal) ⟨2, ![a, b]⟩ .f32 0x00000000#32) (ix2 p q)
      = ∑ k : Fin K, x (ix2 p k) * w (ix2 k q) :=
  (Ideal.matmul_constant_zero_apply D prec x w (ix2 p q)).trans (sum_contr D hr hs hl0 hl1 hr0 hr1 x w p q)

/-- The host's matrix product at `(p, q)`: the same sum. -/
theorem dotGeneral_ix2 (D : DotDims ⟨2, ![a, K]⟩ ⟨2, ![K, b]⟩ ⟨2, ![a, b]⟩) (hr : D.contr.rank = 1)
    (hs : D.contr.size ⟨0, by omega⟩ = K)
    (hl0 : ∀ i q, (D.lhsIdx i q 0).val = (i 0).val) (hl1 : ∀ i q, (D.lhsIdx i q 1).val = (q ⟨0, by omega⟩).val)
    (hr0 : ∀ i q, (D.rhsIdx i q 0).val = (q ⟨0, by omega⟩).val) (hr1 : ∀ i q, (D.rhsIdx i q 1).val = (i 1).val)
    (prec : Option ContractPrecision)
    (x : FVec Ideal ⟨2, ![a, K]⟩ φ₁) (w : FVec Ideal ⟨2, ![K, b]⟩ φ₂) (p : Fin a) (q : Fin b) :
    Host.dotGeneral D prec x w (ix2 p q) = ∑ k : Fin K, x (ix2 p k) * w (ix2 k q) :=
  (Ideal.dotGeneral_apply D prec .single x w (ix2 p q)).trans (sum_contr D hr hs hl0 hl1 hr0 hr1 x w p q)

end MatmulIx
-- ==== Proof.KPay0.lean ====
/- The payload of region 0's one store — the two-layer perceptron of the five loaded blocks — read at an index,
   at the ideal values: the leaky rectifier of the second layer's row-by-column sum plus its bias, the hidden
   features being the leaky rectifier of the first layer's row-by-column sum plus its bias. -/
import proofs.«121376_j36636071035259_2_alg».proof.Proof.Gen.KernelIdeal.Skeleton
import proofs.«121376_j36636071035259_2_alg».proof.Proof.Spec
import proofs.«121376_j36636071035259_2_alg».proof.Proof.LibMatmulIx
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Val0

open Cert.KernelIdeal Cert.KernelIdeal.Gen
open Idealize.ShloMosaic Idealize.ShloMosaic.ValueIdx
open scoped BigOperators

/-- The leaky rectifier on a vector as the payload writes it: compare with the zero splat, select the entry or
    the slope word times the entry. -/
def leaky {s : Shape} (v : FVec Ideal s .f32) : FVec Ideal s .f32 :=
  select (cmpf .oge v (broadcast s (Scalar.ofBits .f32 0x00000000#32)))
    v (mulf (broadcast s (Scalar.ofBits .f32 0x3C23D70A#32)) v)

/-- Entry by entry it is the specification's rectifier. -/
theorem leaky_apply {s : Shape} (v : FVec Ideal s .f32) (i : s.Idx) : leaky v i = Cert.Spec.lk (v i) := rfl

/-- The hidden features of a block: rectifier of (x · W1 + b1). -/
def layer1 (x0 : Vec Ideal S1x10000x128 .f32) (x1 : Vec Ideal S1x128x64 .f32) (x2 : Vec Ideal S1x1x64 .f32) : FVec Ideal S10000x64 .f32 :=
  leaky (addf (matmul dot_S10000x128_S128x64_S10000x64_1_0_0_1_n_n none
      (shapeCast S10000x128 x0 shapeCasts_S1x10000x128_S10000x128 : FVec Ideal S10000x128 .f32)
      (shapeCast S128x64 x1 shapeCasts_S1x128x64_S128x64 : FVec Ideal S128x64 .f32) (constant (F := Ideal) S10000x64 .f32 0x00000000#32))
    (broadcastTo S10000x64 (shapeCast S1x64 x2 shapeCasts_S1x1x64_S1x64 : FVec Ideal S1x64 .f32) broadcasts_S1x64_S10000x64))

/-- The second layer on hidden features `y`: rectifier of (y · W2 + b2). -/
def layer2 (y : FVec Ideal S10000x64 .f32) (x3 : Vec Ideal S1x64x64 .f32) (x4 : Vec Ideal S1x1x64 .f32) : FVec Ideal S10000x64 .f32 :=
  leaky (addf (matmul dot_S10000x64_S64x64_S10000x64_1_0_0_1_n_n none y
      (shapeCast S64x64 x3 shapeCasts_S1x64x64_S64x64 : FVec Ideal S64x64 .f32) (constant (F := Ideal) S10000x64 .f32 0x00000000#32))
    (broadcastTo S10000x64 (shapeCast S1x64 x4 shapeCasts_S1x1x64_S1x64 : FVec Ideal S1x64 .f32) broadcasts_S1x64_S10000x64))

/-- The payload is the two layers, with a unit axis put in front. -/
theorem pay_eq (x0 : Vec Ideal S1x10000x128 .f32) (x1 : Vec Ideal S1x128x64 .f32) (x2 : Vec Ideal S1x1x64 .f32)
    (x3 : Vec Ideal S1x64x64 .f32) (x4 : Vec Ideal S1x1x64 .f32) :
    k0_pay1 (F := Ideal) x0 x1 x2 x3 x4
      = shapeCast S1x10000x64 (layer2 (layer1 x0 x1 x2) x3 x4) shapeCasts_S10000x64_S1x10000x64 := rfl

/-- The first layer at row `p`, hidden column `j`. -/
theorem layer1_apply (x0 : Vec Ideal S1x10000x128 .f32) (x1 : Vec Ideal S1x128x64 .f32) (x2 : Vec Ideal S1x1x64 .f32)
    (p : Fin 10000) (j : Fin 64) :
    layer1 x0 x1 x2 (ix2 p j)
      = Cert.Spec.lk ((∑ k : Fin 128, x0 (ix3 (0 : Fin 1) p k) * x1 (ix3 (0 : Fin 1) k j)) + x2 (ix3 (0 : Fin 1) (0 : Fin 1) j)) := by
  unfold layer1
  rw [leaky_apply, addf_apply,
    MatmulIx.matmul_zero_ix2 dot_S10000x128_S128x64_S10000x64_1_0_0_1_n_n rfl rfl (fun _ _ => rfl) (fun _ _ => rfl) (fun _ _ => rfl) (fun _ _ => rfl),
    broadcastTo_1b_ab_apply, shapeCast_1ab_ab_apply]
  simp only [shapeCast_1ab_ab_apply]

/-- The second layer at row `p`, column `q`. -/
theorem layer2_apply (y : FVec Ideal S10000x64 .f32) (x3 : Vec Ideal S1x64x64 .f32) (x4 : Vec Ideal S1x1x64 .f32)
    (p : Fin 10000) (q : Fin 64) :
    layer2 y x3 x4 (ix2 p q)
      = Cert.Spec.lk ((∑ j : Fin 64, y (ix2 p j) * x3 (ix3 (0 : Fin 1) j q)) + x4 (ix3 (0 : Fin 1) (0 : Fin 1) q)) := by
  unfold layer2
  rw [leaky_apply, addf_apply,
    MatmulIx.matmul_zero_ix2 dot_S10000x64_S64x64_S10000x64_1_0_0_1_n_n rfl rfl (fun _ _ => rfl) (fun _ _ => rfl) (fun _ _ => rfl) (fun _ _ => rfl),
    broadcastTo_1b_ab_apply, shapeCast_1ab_ab_apply]
  simp only [shapeCast_1ab_ab_apply]

/-- THE PAYLOAD AT AN INDEX: the two-layer perceptron of the loaded blocks at row `p`, column `q`. -/
theorem pay_apply (x0 : Vec Ideal S1x10000x128 .f32) (x1 : Vec Ideal S1x128x64 .f32) (x2 : Vec Ideal S1x1x64 .f32)
    (x3 : Vec Ideal S1x64x64 .f32) (x4 : Vec Ideal S1x1x64 .f32) (u : Fin 1) (p : Fin 10000) (q : Fin 64) :
    k0_pay1 (F := Ideal) x0 x1 x2 x3 x4 (ix3 u p q)
      = Cert.Spec.lk ((∑ j : Fin 64,
            Cert.Spec.lk ((∑ k : Fin 128, x0 (ix3 (0 : Fin 1) p k) * x1 (ix3 (0 : Fin 1) k j)) + x2 (ix3 (0 : Fin 1) (0 : Fin 1) j))
              * x3 (ix3 (0 : Fin 1) j q)) + x4 (ix3 (0 : Fin 1) (0 : Fin 1) q)) := by
  rw [pay_eq, shapeCast_ab_1ab_apply, layer2_apply]
  simp only [layer1_apply]

end Cert.KernelIdeal.Val0

end
-- ==== Proof.KValue0.lean ====
/- The value of region 0 at the ideal values: the array its output window is written back to, after the last grid
   point, as ONE function of the buffer contents `V` the region is entered with — entry (r, n, q) is the two-layer
   perceptron of row n of relation r's features with relation r's weights and biases. Point t = (r, i) of the grid
   writes rows 10000·i … 10000·i + 9999 of relation r; every row is some point's. -/
import proofs.«121376_j36636071035259_2_alg».proof.Proof.KRegion0
import proofs.«121376_j36636071035259_2_alg».proof.Proof.KPay0
import proofs.«121376_j36636071035259_2_alg».proof.Proof.Spec
import Idealize.ShloMosaic.Lib.Pipeline.Value
import Idealize.ShloMosaic.Lib.ValueIdx
import Idealize.ShloMosaic.Lib.ValueLayout
import Idealize.ShloMosaic.PureOps.Ideal.Laws
import Idealize.ShloMosaic.Lib.StableHlo.Run

noncomputable section

namespace Cert.KernelIdeal.Val0

open Cert.KernelIdeal Cert.KernelIdeal.Gen Cert.KernelIdeal.Hand
open Idealize.ShloMosaic Idealize.ShloMosaic.TcCoe Idealize.SL.Sem Idealize.ShloMosaic.ValueIdx
open Idealize.ShloMosaic.Pipeline (Dat)
open scoped BigOperators

variable (V : (c : Dev nD) → (b : Ref sig .tc) → Buf (Elt Ideal) ((c : Thread nD τ).loc b))

theorem hz3 : (![0, 0, 0] : Fin 3 → Nat) = fun _ => 0 := funext fun a => by fin_cases a <;> rfl

/-- The perceptron of relation `r` at node `n`, column `q`, over the entry contents of the five operand arrays. -/
def mlpR (c : Dev nD) (r : Fin 2) (n : Fin 50000) (q : Fin 64) : EReal :=
  Cert.Spec.mlpAt (fun n k => V c main_v2 (ix3 r n k)) (fun k j => V c main_v5 (ix3 r k j))
    (fun j => V c main_v15 (ix3 r (0 : Fin 1) j)) (fun j q => V c main_v11 (ix3 r j q))
    (fun q => V c main_v16 (ix3 r (0 : Fin 1) q)) n q

/-- What the output array ends holding: `mlpR` at each index. -/
def G0 (c : Dev nD) : S2x50000x64.Idx → EReal := fun i => mlpR V c (i 0) (i 1) (i 2)

/-- The program's index maps, decided over the grid: the feature window moves with the output window on both block
    axes; the weight and bias windows follow the relation axis only; all sit at block 0 of the last axis. -/
theorem idx_facts : ∀ t : Fin cfg0.N,
    win0_0.index t (0 : Fin 3) = win0_5.index t (0 : Fin 3) ∧ win0_0.index t (1 : Fin 3) = win0_5.index t (1 : Fin 3) ∧ win0_0.index t (2 : Fin 3) = 0
    ∧ win0_1.index t (0 : Fin 3) = win0_5.index t (0 : Fin 3) ∧ win0_1.index t (1 : Fin 3) = 0 ∧ win0_1.index t (2 : Fin 3) = 0
    ∧ win0_2.index t (0 : Fin 3) = win0_5.index t (0 : Fin 3) ∧ win0_2.index t (1 : Fin 3) = 0 ∧ win0_2.index t (2 : Fin 3) = 0
    ∧ win0_3.index t (0 : Fin 3) = win0_5.index t (0 : Fin 3) ∧ win0_3.index t (1 : Fin 3) = 0 ∧ win0_3.index t (2 : Fin 3) = 0
    ∧ win0_4.index t (0 : Fin 3) = win0_5.index t (0 : Fin 3) ∧ win0_4.index t (1 : Fin 3) = 0 ∧ win0_4.index t (2 : Fin 3) = 0
    ∧ win0_5.index t (0 : Fin 3) ≤ 1 ∧ win0_5.index t (1 : Fin 3) ≤ 4 ∧ win0_5.index t (2 : Fin 3) = 0 :=
  (by decide +kernel : ∀ t : Fin grid0.N, _)

/-- Every block of the output array is SOME point's. -/
theorem idx_onto : ∀ (q0 : Fin 2) (q1 : Fin 5), ∃ t : Fin cfg0.N, win0_5.index t = ![q0.val, q1.val, 0] :=
  (by decide +kernel : ∀ (q0 : Fin 2) (q1 : Fin 5), ∃ t : Fin grid0.N, win0_5.index t = ![q0.val, q1.val, 0])

/-- WHAT POINT `t` WRITES BACK is block `t` of `G0`. -/
theorem flushed5_eq (c : Dev nD) (t : Fin cfg0.N) :
    (dat0 V c).flushed 5 t = ((cfg0.win 5).blk t).view.read (Elt Ideal) (G0 V c) := by
  show (cfg0.win 5).cut (grid0.coords t) ((dat0 V c).after 5 t) = _
  rw [after0_5]
  unfold out0_5
  rw [View.canon_unit_zero hz3]
  simp only [View.ld_unit_zero (S := S1x10000x128) hz3, View.ld_unit_zero (S := S1x128x64) hz3, View.ld_unit_zero (S := S1x1x64) hz3,
    View.ld_unit_zero (S := S1x64x64) hz3]
  obtain ⟨a0, a1, a2, b0, b1, b2, c0, c1, c2, d0, d1, d2, e0, e1, e2, f0, f1, f2⟩ := idx_facts t
  funext y
  obtain ⟨u, p, q, rfl⟩ : ∃ (u : Fin 1) (p : Fin 10000) (q : Fin 64), y = ix3 u p q := ⟨y 0, y 1, y 2, eq_ix3 y⟩
  show k0_pay1 (F := Ideal) (iblk0 V c 0 t) (iblk0 V c 1 t) (iblk0 V c 2 t) (iblk0 V c 3 t) (iblk0 V c 4 t) (ix3 u p q)
    = G0 V c (((cfg0.win 5).blk t).view.emb (ix3 u p q))
  refine (pay_apply (iblk0 V c 0 t) (iblk0 V c 1 t) (iblk0 V c 2 t) (iblk0 V c 3 t) (iblk0 V c 4 t) u p q).trans ?_
  have hu : u.val = 0 := by have := u.isLt; omega
  have h0 : ∀ k : Fin 128, iblk0 V c 0 t (ix3 (0 : Fin 1) p k)
      = V c main_v2 (ix3 ((((cfg0.win 5).blk t).view.emb (ix3 u p q)) 0) ((((cfg0.win 5).blk t).view.emb (ix3 u p q)) 1) k) := fun k => by
    show V c main_v2 (((cfg0.win 0).blk t).view.emb (ix3 (0 : Fin 1) p k)) = _
    refine congrArg (V c main_v2) (funext fun a => Fin.ext ?_)
    match a with
    | ⟨0, _⟩ => show win0_0.index t (0 : Fin 3) * 1 + 1 * 0 = win0_5.index t (0 : Fin 3) * 1 + 1 * u.val; omega
    | ⟨1, _⟩ => show win0_0.index t (1 : Fin 3) * 10000 + 1 * p.val = win0_5.index t (1 : Fin 3) * 10000 + 1 * p.val; omega
    | ⟨2, _⟩ => show win0_0.index t (2 : Fin 3) * 128 + 1 * k.val = k.val; omega
  have h1 : ∀ (k : Fin 128) (j : Fin 64), iblk0 V c 1 t (ix3 (0 : Fin 1) k j)
      = V c main_v5 (ix3 ((((cfg0.win 5).blk t).view.emb (ix3 u p q)) 0) k j) := fun k j => by
    show V c main_v5 (((cfg0.win 1).blk t).view.emb (ix3 (0 : Fin 1) k j)) = _
    refine congrArg (V c main_v5) (funext fun a => Fin.ext ?_)
    match a with
    | ⟨0, _⟩ => show win0_1.index t (0 : Fin 3) * 1 + 1 * 0 = win0_5.index t (0 : Fin 3) * 1 + 1 * u.val; omega
    | ⟨1, _⟩ => show win0_1.index t (1 : Fin 3) * 128 + 1 * k.val = k.val; omega
    | ⟨2, _⟩ => show win0_1.index t (2 : Fin 3) * 64 + 1 * j.val = j.val; omega
  have h2 : ∀ j : Fin 64, iblk0 V c 2 t (ix3 (0 : Fin 1) (0 : Fin 1) j)
      = V c main_v15 (ix3 ((((cfg0.win 5).blk t).view.emb (ix3 u p q)) 0) (0 : Fin 1) j) := fun j => by
    show V c main_v15 (((cfg0.win 2).blk t).view.emb (ix3 (0 : Fin 1) (0 : Fin 1) j)) = _
    refine congrArg (V c main_v15) (funext fun a => Fin.ext ?_)
    match a with
    | ⟨0, _⟩ => show win0_2.index t (0 : Fin 3) * 1 + 1 * 0 = win0_5.index t (0 : Fin 3) * 1 + 1 * u.val; omega
    | ⟨1, _⟩ => show win0_2.index t (1 : Fin 3) * 1 + 1 * 0 = 0; omega
    | ⟨2, _⟩ => show win0_2.index t (2 : Fin 3) * 64 + 1 * j.val = j.val; omega
  have h3 : ∀ j : Fin 64, iblk0 V c 3 t (ix3 (0 : Fin 1) j q)
      = V c main_v11 (ix3 ((((cfg0.win 5).blk t).view.emb (ix3 u p q)) 0) j ((((cfg0.win 5).blk t).view.emb (ix3 u p q)) 2)) := fun j => by
    show V c main_v11 (((cfg0.win 3).blk t).view.emb (ix3 (0 : Fin 1) j q)) = _
    refine congrArg (V c main_v11) (funext fun a => Fin.ext ?_)
    match a with
    | ⟨0, _⟩ => show win0_3.index t (0 : Fin 3) * 1 + 1 * 0 = win0_5.index t (0 : Fin 3) * 1 + 1 * u.val; omega
    | ⟨1, _⟩ => show win0_3.index t (1 : Fin 3) * 64 + 1 * j.val = j.val; omega
    | ⟨2, _⟩ => show win0_3.index t (2 : Fin 3) * 64 + 1 * q.val = win0_5.index t (2 : Fin 3) * 64 + 1 * q.val; omega
  have h4 : iblk0 V c 4 t (ix3 (0 : Fin 1) (0 : Fin 1) q)
      = V c main_v16 (ix3 ((((cfg0.win 5).blk t).view.emb (ix3 u p q)) 0) (0 : Fin 1) ((((cfg0.win 5).blk t).view.emb (ix3 u p q)) 2)) := by
    show V c main_v16 (((cfg0.win 4).blk t).view.emb (ix3 (0 : Fin 1) (0 : Fin 1) q)) = _
    refine congrArg (V c main_v16) (funext fun a => Fin.ext ?_)
    match a with
    | ⟨0, _⟩ => show win0_4.index t (0 : Fin 3) * 1 + 1 * 0 = win0_5.index t (0 : Fin 3) * 1 + 1 * u.val; omega
    | ⟨1, _⟩ => show win0_4.index t (1 : Fin 3) * 1 + 1 * 0 = 0; omega
    | ⟨2, _⟩ => show win0_4.index t (2 : Fin 3) * 64 + 1 * q.val = win0_5.index t (2 : Fin 3) * 64 + 1 * q.val; omega
  simp only [h0, h1, h2, h3, h4]
  rfl

/-- An index of the array is in point `t`'s block iff each coordinate is in the block's range on its axis. -/
theorem mem_blk5 (t : Fin cfg0.N) (i : S2x50000x64.Idx) :
    i ∈ ((cfg0.win 5).blk t).view.set ↔ ∀ a : Fin 3, win0_5.index t a * S1x10000x64.size a ≤ (i a).val ∧ (i a).val < win0_5.index t a * S1x10000x64.size a + S1x10000x64.size a := by
  show i ∈ ((View.whole main_v17).slice (win0_5.rect t)).set ↔ _
  rw [View.set_slice_whole, Rect.mem_set_unit]
  exact Iff.rfl

/-- Every index of the array is in some point's block: the point of relation `i 0` and row block `i 1 / 10000`. -/
theorem cover5 (i : S2x50000x64.Idx) : ∃ t : Fin cfg0.N, (cfg0.win 5).flush t = true ∧ i ∈ ((cfg0.win 5).blk t).view.set := by
  have hi0 : (i 0).val < 2 := (i 0).isLt
  have hi1 : (i 1).val < 50000 := (i 1).isLt
  have hi2 : (i 2).val < 64 := (i 2).isLt
  obtain ⟨t, ht⟩ := idx_onto ⟨(i 0).val, hi0⟩ ⟨(i 1).val / 10000, by omega⟩
  have q0 : win0_5.index t (0 : Fin 3) = (i 0).val := congrFun ht 0
  have q1 : win0_5.index t (1 : Fin 3) = (i 1).val / 10000 := congrFun ht 1
  have q2 : win0_5.index t (2 : Fin 3) = 0 := congrFun ht 2
  refine ⟨t, flush0_5 t, ?_⟩
  rw [mem_blk5]
  intro a
  match a with
  | ⟨0, _⟩ => show win0_5.index t (0 : Fin 3) * 1 ≤ (i 0).val ∧ (i 0).val < win0_5.index t (0 : Fin 3) * 1 + 1; omega
  | ⟨1, _⟩ => show win0_5.index t (1 : Fin 3) * 10000 ≤ (i 1).val ∧ (i 1).val < win0_5.index t (1 : Fin 3) * 10000 + 10000; omega
  | ⟨2, _⟩ => show win0_5.index t (2 : Fin 3) * 64 ≤ (i 2).val ∧ (i 2).val < win0_5.index t (2 : Fin 3) * 64 + 64; omega

/-- THE ARRAY after the last point: `G0` of the entry contents, everywhere. -/
theorem arr0_G0 (c : Dev nD) : (dat0 (F := Ideal) V c).arrAt 5 cfg0.N = G0 V c :=
  (dat0 V c).arrAt_eq_of_cover 5 (G0 V c) (fun t _ => flushed5_eq V c t) (cover5)

/-- Entry (r, n, q) of the region's output array: the two-layer perceptron of relation `r`'s row `n`. -/
theorem arr0_eq (c : Dev nD) (r : Fin 2) (n : Fin 50000) (q : Fin 64) :
    (dat0 (F := Ideal) V c).arrAt 5 cfg0.N (ix3 r n q)
      = Cert.Spec.mlpAt (fun n k => V c main_v2 (ix3 r n k)) (fun k j => V c main_v5 (ix3 r k j))
          (fun j => V c main_v15 (ix3 r (0 : Fin 1) j)) (fun j q => V c main_v11 (ix3 r j q))
          (fun q => V c main_v16 (ix3 r (0 : Fin 1) q)) n q := by
  rw [arr0_G0]
  rfl

end Cert.KernelIdeal.Val0

end
-- ==== Proof.KHost0.lean ====
/- The host operations around region 0, read at an index, over ANY contents `U` of the device's buffers:
   before the region, each operand array of the region stacks two arguments (one per relation) along a new leading
   axis — a plane [a, b] broadcast to [1, a, b], two of them concatenated to [2, a, b]; a bias row [64] broadcast to
   [1, 64], two concatenated to [2, 64] and recast to [2, 1, 64] —; after the region, relation r's hidden features
   are plane r of the region's output array, sliced out and recast to [50000, 64]. -/
import proofs.«121376_j36636071035259_2_alg».proof.Proof.Gen.KernelIdeal.Launch
import Idealize.ShloMosaic.Lib.Pipeline.Value
import Idealize.ShloMosaic.Lib.ValueIdx
import Idealize.ShloMosaic.Lib.ValueLayout
import Idealize.ShloMosaic.PureOps.Ideal.Laws
import Idealize.ShloMosaic.Lib.StableHlo.Run

noncomputable section

namespace Cert.KernelIdeal.Val0

open Cert.KernelIdeal Cert.KernelIdeal.Gen
open Idealize.ShloMosaic Idealize.ShloMosaic.TcCoe Idealize.SL.Sem Idealize.ShloMosaic.ValueIdx
open Idealize.ShloMosaic.StableHlo (after)

section Layout
variable {α : Type}

/-- A plane [a, b] broadcast to [1, a, b] reads, at (u, n, k), the plane at (n, k). -/
theorem bcast_plane_apply {a b : ℕ} (X : (⟨2, ![a, b]⟩ : Shape).Idx → α)
    (h : (⟨2, ![a, b]⟩ : Shape).BroadcastsInDim ⟨3, ![1, a, b]⟩ (![1, 2] : Fin 2 → Fin 3)) (u : Fin 1) (n : Fin a) (k : Fin b) :
    broadcastInDim ⟨3, ![1, a, b]⟩ ![1, 2] h X (ix3 u n k) = X (ix2 n k) :=
  broadcastInDim_apply _ h X _ _ (fun c => by
    have hn := n.isLt
    have hk := k.isLt
    match c with
    | ⟨0, _⟩ => show n.val = if a = 1 then 0 else n.val; split <;> omega
    | ⟨1, _⟩ => show k.val = if b = 1 then 0 else k.val; split <;> omega)

/-- A row [b] broadcast to [1, b] reads, at (u, k), the row at k. -/
theorem bcast_row_apply {b : ℕ} (X : (⟨1, ![b]⟩ : Shape).Idx → α)
    (h : (⟨1, ![b]⟩ : Shape).BroadcastsInDim ⟨2, ![1, b]⟩ (![1] : Fin 1 → Fin 2)) (u : Fin 1) (k : Fin b) :
    broadcastInDim ⟨2, ![1, b]⟩ ![1] h X (ix2 u k) = X (ix1 k) :=
  broadcastInDim_apply _ h X _ _ (fun c => by
    have hk := k.isLt
    match c with
    | ⟨0, _⟩ => show k.val = if b = 1 then 0 else k.val; split <;> omega)

/-- Two [1, a, b] arrays concatenated along the leading axis: plane 0 is the first, plane 1 the second. -/
theorem stack_planes_apply {a b : ℕ} (X Y : (⟨3, ![1, a, b]⟩ : Shape).Idx → α)
    (hc : Shape.Concatenates [(⟨3, ![1, a, b]⟩ : Shape), ⟨3, ![1, a, b]⟩] ⟨3, ![2, a, b]⟩ 0) (r : Fin 2) (n : Fin a) (k : Fin b) :
    concatenate ⟨3, ![2, a, b]⟩ 0 [⟨⟨3, ![1, a, b]⟩, X⟩, ⟨⟨3, ![1, a, b]⟩, Y⟩] hc (ix3 r n k)
      = if r.val = 0 then X (ix3 (0 : Fin 1) n k) else Y (ix3 (0 : Fin 1) n k) := by
  have hr := r.isLt
  by_cases h0 : r.val = 0
  · rw [if_pos h0]
    exact concatenate_pair_apply_left (0 : Fin 3) X Y hc (ix3 r n k) rfl (ix3 (0 : Fin 1) n k) (fun c => by
      match c with
      | ⟨0, _⟩ => exact h0.symm
      | ⟨1, _⟩ => rfl
      | ⟨2, _⟩ => rfl)
  · rw [if_neg h0]
    exact concatenate_pair_apply_right (0 : Fin 3) X Y hc (ix3 r n k) rfl rfl (ix3 (0 : Fin 1) n k) (fun c hne => by
      match c with
      | ⟨0, _⟩ => exact absurd rfl hne
      | ⟨1, _⟩ => rfl
      | ⟨2, _⟩ => rfl) (by show 0 + 1 = r.val; omega)

/-- Two [1, b] arrays concatenated along the leading axis: row 0 is the first, row 1 the second. -/
theorem stack_rows_apply {b : ℕ} (X Y : (⟨2, ![1, b]⟩ : Shape).Idx → α)
    (hc : Shape.Concatenates [(⟨2, ![1, b]⟩ : Shape), ⟨2, ![1, b]⟩] ⟨2, ![2, b]⟩ 0) (r : Fin 2) (k : Fin b) :
    concatenate ⟨2, ![2, b]⟩ 0 [⟨⟨2, ![1, b]⟩, X⟩, ⟨⟨2, ![1, b]⟩, Y⟩] hc (ix2 r k)
      = if r.val = 0 then X (ix2 (0 : Fin 1) k) else Y (ix2 (0 : Fin 1) k) := by
  have hr := r.isLt
  by_cases h0 : r.val = 0
  · rw [if_pos h0]
    exact concatenate_pair_apply_left (0 : Fin 2) X Y hc (ix2 r k) rfl (ix2 (0 : Fin 1) k) (fun c => by
      match c with
      | ⟨0, _⟩ => exact h0.symm
      | ⟨1, _⟩ => rfl)
  · rw [if_neg h0]
    exact concatenate_pair_apply_right (0 : Fin 2) X Y hc (ix2 r k) rfl rfl (ix2 (0 : Fin 1) k) (fun c hne => by
      match c with
      | ⟨0, _⟩ => exact absurd rfl hne
      | ⟨1, _⟩ => rfl) (by show 0 + 1 = r.val; omega)

/-- A [2, b] array recast to [2, 1, b] reads, at (r, u, j), the operand at (r, j). -/
theorem shapeCast_2b_21b_apply {b : ℕ} (x : (⟨2, ![2, b]⟩ : Shape).Idx → α)
    (h : (⟨2, ![2, b]⟩ : Shape).ShapeCasts ⟨3, ![2, 1, b]⟩) (r : Fin 2) (u : Fin 1) (j : Fin b) :
    shapeCast ⟨3, ![2, 1, b]⟩ x h (ix3 r u j) = x (ix2 r j) :=
  shapeCast_apply x h _ _ (by
    have hu : u.val = 0 := by omega
    rw [Shape.rowMajor_val_three, Shape.rowMajor_val_two]
    show r.val * b + j.val = (r.val * 1 + u.val) * b + j.val
    rw [hu, Nat.mul_one, Nat.add_zero])

/-- Plane `o` of a [2, a, b] array, sliced out as [1, a, b], reads at (u, n, q) the array at (o, n, q). -/
theorem slice_plane_apply {a b : ℕ} (o : ℕ) (ho : o < 2) (X : (⟨3, ![2, a, b]⟩ : Shape).Idx → α)
    (h : (⟨3, ![2, a, b]⟩ : Shape).Slices ![o, 0, 0] ⟨3, ![1, a, b]⟩) (u : Fin 1) (n : Fin a) (q : Fin b) :
    extractStridedSlice ⟨3, ![1, a, b]⟩ ![o, 0, 0] X h (ix3 u n q) = X (ix3 (⟨o, ho⟩ : Fin 2) n q) :=
  extractStridedSlice_apply _ X h _ _ (fun c => by
    have hu : u.val = 0 := by omega
    match c with
    | ⟨0, _⟩ => show o = o + u.val; omega
    | ⟨1, _⟩ => show n.val = 0 + n.val; omega
    | ⟨2, _⟩ => show q.val = 0 + q.val; omega)

end Layout

variable (U : Valuation τ sig (Elt Ideal))

/-! ## Before the region: the region's operand arrays -/

/-- `main_v2` [2, 50000, 128]: plane 0 is `main_arg0`, plane 1 is `main_arg1`. -/
theorem after_v2 (r : Fin 2) (n : Fin 50000) (k : Fin 128) :
    (after (main_part0_ops0 (F := Ideal)) U (Proc.devRef .tc main_v2) : S2x50000x128.Idx → EReal) (ix3 r n k)
      = if r.val = 0 then (U (Proc.devRef .tc main_arg0) : S50000x128.Idx → EReal) (ix2 n k)
        else (U (Proc.devRef .tc main_arg1) : S50000x128.Idx → EReal) (ix2 n k) := by
  after_results
  rw [stack_planes_apply, bcast_plane_apply, bcast_plane_apply]

/-- `main_v5` [2, 128, 64]: plane 0 is `main_arg6`, plane 1 is `main_arg10`. -/
theorem after_v5 (r : Fin 2) (n : Fin 128) (k : Fin 64) :
    (after (main_part0_ops0 (F := Ideal)) U (Proc.devRef .tc main_v5) : S2x128x64.Idx → EReal) (ix3 r n k)
      = if r.val = 0 then (U (Proc.devRef .tc main_arg6) : S128x64.Idx → EReal) (ix2 n k)
        else (U (Proc.devRef .tc main_arg10) : S128x64.Idx → EReal) (ix2 n k) := by
  after_results
  rw [stack_planes_apply, bcast_plane_apply, bcast_plane_apply]

/-- `main_v11` [2, 64, 64]: plane 0 is `main_arg8`, plane 1 is `main_arg12`. -/
theorem after_v11 (r : Fin 2) (n : Fin 64) (k : Fin 64) :
    (after (main_part0_ops0 (F := Ideal)) U (Proc.devRef .tc main_v11) : S2x64x64.Idx → EReal) (ix3 r n k)
      = if r.val = 0 then (U (Proc.devRef .tc main_arg8) : S64x64.Idx → EReal) (ix2 n k)
        else (U (Proc.devRef .tc main_arg12) : S64x64.Idx → EReal) (ix2 n k) := by
  after_results
  rw [stack_planes_apply, bcast_plane_apply, bcast_plane_apply]

/-- `main_v15` [2, 1, 64]: row 0 is `main_arg7`, row 1 is `main_arg11`. -/
theorem after_v15 (r : Fin 2) (u : Fin 1) (j : Fin 64) :
    (after (main_part0_ops0 (F := Ideal)) U (Proc.devRef .tc main_v15) : S2x1x64.Idx → EReal) (ix3 r u j)
      = if r.val = 0 then (U (Proc.devRef .tc main_arg7) : S64.Idx → EReal) (ix1 j)
        else (U (Proc.devRef .tc main_arg11) : S64.Idx → EReal) (ix1 j) := by
  after_results
  refine (shapeCast_2b_21b_apply _ _ r u j).trans ?_
  rw [stack_rows_apply, bcast_row_apply, bcast_row_apply]

/-- `main_v16` [2, 1, 64]: row 0 is `main_arg9`, row 1 is `main_arg13`. -/
theorem after_v16 (r : Fin 2) (u : Fin 1) (j : Fin 64) :
    (after (main_part0_ops0 (F := Ideal)) U (Proc.devRef .tc main_v16) : S2x1x64.Idx → EReal) (ix3 r u j)
      = if r.val = 0 then (U (Proc.devRef .tc main_arg9) : S64.Idx → EReal) (ix1 j)
        else (U (Proc.devRef .tc main_arg13) : S64.Idx → EReal) (ix1 j) := by
  after_results
  refine (shapeCast_2b_21b_apply _ _ r u j).trans ?_
  rw [stack_rows_apply, bcast_row_apply, bcast_row_apply]

/-! ## After the region: each relation's hidden features -/

/-- `main_v19` [50000, 64] is plane 0 of the region's output array `main_v17`. -/
theorem after_v19 (n : Fin 50000) (q : Fin 64) :
    (after (main_part0_ops1 (F := Ideal)) U (Proc.devRef .tc main_v19) : S50000x64.Idx → EReal) (ix2 n q)
      = (U (Proc.devRef .tc main_v17) : S2x50000x64.Idx → EReal) (ix3 (⟨0, by decide⟩ : Fin 2) n q) := by
  after_results
  refine (shapeCast_1ab_ab_apply _ _ n q).trans ?_
  exact slice_plane_apply 0 (by decide) _ _ _ n q

/-- `main_v63` [50000, 64] is plane 1 of the region's output array `main_v17`. -/
theorem after_v63 (n : Fin 50000) (q : Fin 64) :
    (after (main_part1_ops0 (F := Ideal)) U (Proc.devRef .tc main_v63) : S50000x64.Idx → EReal) (ix2 n q)
      = (U (Proc.devRef .tc main_v17) : S2x50000x64.Idx → EReal) (ix3 (⟨1, by decide⟩ : Fin 2) n q) := by
  after_results
  refine (shapeCast_1ab_ab_apply _ _ n q).trans ?_
  exact slice_plane_apply 1 (by decide) _ _ _ n q

end Cert.KernelIdeal.Val0

end
-- ==== Proof.LibRealSums.lean ====
import Mathlib.Data.EReal.Operations
import Mathlib.Algebra.BigOperators.Ring.Finset
import Mathlib.Tactic.Ring

/-!
# Finite sums of extended reals that are all real numbers

Multiplication of extended reals does not distribute over addition when
infinities are present, so the usual algebra of finite sums (pulling a constant
factor out of a sum, reassociating products under a sum) is not available in
general.  When every term is a genuine real number, each identity can be moved
to the field of real numbers through the coercion, proved there by ring
algebra, and moved back.  This file collects the small amount of that
machinery needed to rescale contractions and aggregations by a real constant.
-/

namespace Cert.RealSums

open scoped BigOperators

/-- An extended real that is a real number. -/
def IsReal (x : EReal) : Prop := ∃ r : ℝ, x = (r : EReal)

/-- Zero is a real number. -/
theorem IsReal.zero : IsReal 0 := ⟨0, EReal.coe_zero.symm⟩

/-- The coercion of a real number is a real number. -/
theorem IsReal.coe (r : ℝ) : IsReal (r : EReal) := ⟨r, rfl⟩

/-- The sum of two real numbers is a real number. -/
theorem IsReal.add {x y : EReal} (hx : IsReal x) (hy : IsReal y) : IsReal (x + y) := by
  obtain ⟨a, rfl⟩ := hx
  obtain ⟨b, rfl⟩ := hy
  exact ⟨a + b, (EReal.coe_add a b).symm⟩

/-- The product of two real numbers is a real number. -/
theorem IsReal.mul {x y : EReal} (hx : IsReal x) (hy : IsReal y) : IsReal (x * y) := by
  obtain ⟨a, rfl⟩ := hx
  obtain ⟨b, rfl⟩ := hy
  exact ⟨a * b, (EReal.coe_mul a b).symm⟩

/-- The larger of two real numbers is a real number: it is one of the two. -/
theorem IsReal.max {x y : EReal} (hx : IsReal x) (hy : IsReal y) : IsReal (max x y) := by
  rcases max_choice x y with h | h
  · rw [h]; exact hx
  · rw [h]; exact hy

/-- The coercion from the reals commutes with finite sums. -/
theorem coe_sum {ι : Type*} (s : Finset ι) (f : ι → ℝ) :
    ((∑ i ∈ s, f i : ℝ) : EReal) = ∑ i ∈ s, (f i : EReal) := by
  classical
  refine Finset.induction_on s ?_ ?_
  · simp
  · intro a t ha ih
    rw [Finset.sum_insert ha, Finset.sum_insert ha, EReal.coe_add, ih]

/-- A family of extended reals that are real on a finite set is, on that set,
the coercion of a real-valued family (take the real part of each term). -/
theorem exists_real_fun {ι : Type*} (s : Finset ι) (f : ι → EReal)
    (h : ∀ i ∈ s, IsReal (f i)) : ∃ g : ι → ℝ, ∀ i ∈ s, f i = (g i : EReal) := by
  refine ⟨fun i => (f i).toReal, fun i hi => ?_⟩
  obtain ⟨r, hr⟩ := h i hi
  show f i = (((f i).toReal : ℝ) : EReal)
  rw [hr, EReal.toReal_coe]

/-- A finite sum of real numbers is a real number. -/
theorem IsReal.sum {ι : Type*} (s : Finset ι) (f : ι → EReal)
    (h : ∀ i ∈ s, IsReal (f i)) : IsReal (∑ i ∈ s, f i) := by
  obtain ⟨g, hg⟩ := exists_real_fun s f h
  refine ⟨∑ i ∈ s, g i, ?_⟩
  rw [coe_sum]
  exact Finset.sum_congr rfl hg

/-- Scaling every left factor of a contraction by one real D scales the
contraction: Σ_k (a k · D) · w k = (Σ_k a k · w k) · D. -/
theorem sum_mul_scale {κ : Type*} (s : Finset κ) (a w : κ → EReal) (D : EReal)
    (ha : ∀ k ∈ s, IsReal (a k)) (hw : ∀ k ∈ s, IsReal (w k)) (hD : IsReal D) :
    ∑ k ∈ s, (a k * D) * w k = (∑ k ∈ s, a k * w k) * D := by
  obtain ⟨a', ha'⟩ := exists_real_fun s a ha
  obtain ⟨w', hw'⟩ := exists_real_fun s w hw
  obtain ⟨d, rfl⟩ := hD
  -- both sides are coercions of real sums
  have h1 : ∑ k ∈ s, (a k * (d : EReal)) * w k
      = ((∑ k ∈ s, (a' k * d) * w' k : ℝ) : EReal) := by
    rw [coe_sum]
    refine Finset.sum_congr rfl fun k hk => ?_
    rw [ha' k hk, hw' k hk, EReal.coe_mul, EReal.coe_mul]
  have h2 : ∑ k ∈ s, a k * w k = ((∑ k ∈ s, a' k * w' k : ℝ) : EReal) := by
    rw [coe_sum]
    refine Finset.sum_congr rfl fun k hk => ?_
    rw [ha' k hk, hw' k hk, EReal.coe_mul]
  -- in the reals: pull the constant out of the sum, term by term
  have h3 : (∑ k ∈ s, (a' k * d) * w' k : ℝ) = (∑ k ∈ s, a' k * w' k) * d := by
    rw [Finset.sum_mul]
    refine Finset.sum_congr rfl fun k _ => ?_
    ring
  rw [h1, h2, h3, EReal.coe_mul]

/-- The aggregation law: if every summand P u is Q u scaled by ds u, and dd is
the constant D on the set, then scaling the sum of the P's by D gives the sum of
the Q's scaled by ds·dd.  (The leading 0 + is how the sums arrive: an
accumulation into zero.) -/
theorem agg_scale {U : Type*} (A : Finset U) (P Q ds dd : U → EReal) (D : EReal)
    (hQ : ∀ u ∈ A, IsReal (Q u)) (hds : ∀ u ∈ A, IsReal (ds u)) (hD : IsReal D)
    (hP : ∀ u ∈ A, P u = Q u * ds u) (hdd : ∀ u ∈ A, dd u = D) :
    (0 + ∑ u ∈ A, P u) * D = 0 + ∑ u ∈ A, Q u * (ds u * dd u) := by
  obtain ⟨q, hq⟩ := exists_real_fun A Q hQ
  obtain ⟨e, he⟩ := exists_real_fun A ds hds
  obtain ⟨d, rfl⟩ := hD
  have h1 : ∑ u ∈ A, P u = ((∑ u ∈ A, q u * e u : ℝ) : EReal) := by
    rw [coe_sum]
    refine Finset.sum_congr rfl fun u hu => ?_
    rw [hP u hu, hq u hu, he u hu, EReal.coe_mul]
  have h2 : ∑ u ∈ A, Q u * (ds u * dd u)
      = ((∑ u ∈ A, q u * (e u * d) : ℝ) : EReal) := by
    rw [coe_sum]
    refine Finset.sum_congr rfl fun u hu => ?_
    rw [hq u hu, he u hu, hdd u hu, EReal.coe_mul, EReal.coe_mul]
  -- in the reals: (Σ q·e)·d = Σ q·(e·d)
  have h3 : (∑ u ∈ A, q u * e u : ℝ) * d = ∑ u ∈ A, q u * (e u * d) := by
    rw [Finset.sum_mul]
    refine Finset.sum_congr rfl fun u _ => ?_
    ring
  rw [zero_add, zero_add, h1, h2, ← EReal.coe_mul, h3]

/-- and the same sum is a real number -/
theorem agg_isReal {U : Type*} (A : Finset U) (Q ds dd : U → EReal) (D : EReal)
    (hQ : ∀ u ∈ A, IsReal (Q u)) (hds : ∀ u ∈ A, IsReal (ds u)) (hD : IsReal D)
    (hdd : ∀ u ∈ A, dd u = D) :
    IsReal (0 + ∑ u ∈ A, Q u * (ds u * dd u)) := by
  rw [zero_add]
  refine IsReal.sum A _ fun u hu => ?_
  rw [hdd u hu]
  exact (hQ u hu).mul ((hds u hu).mul hD)

end Cert.RealSums
-- ==== Proof.BernsteinFold.lean ====
import proofs.«121376_j36636071035259_2_alg».proof.Proof.LibRealSums
import Mathlib.Algebra.BigOperators.Fin
import Mathlib.Logic.Equiv.Fin.Basic
import Mathlib.Tactic.Ring
import Mathlib.Tactic.Linarith

/-!
# Folding polynomial-filter coefficients into the weights of a linear layer

A polynomial graph filter produces, from three feature rows f 0, f 1, f 2 (64
entries each) and nine coefficients θ i k, the three combinations
h i = θ i 0 · f 0 + θ i 1 · f 1 + θ i 2 · f 2.  Placing h 0, h 1, h 2 side by
side gives a row of 192 entries, which a linear layer contracts against a
column of 192 weights (three blocks B 0, B 1, B 2 of 64) and shifts by a bias.

The same number is obtained by first combining the weight blocks,
Weff k = θ 0 k · B 0 + θ 1 k · B 1 + θ 2 k · B 2, and then contracting each
f k against Weff k: both sides are the triple sum Σ_i Σ_k Σ_j θ i k · f k j · B i j
plus the bias, read in two different orders.

On the extended reals multiplication does not distribute over addition at the
infinities, so the identity is stated for entries that are real numbers: real
witnesses are chosen, the coercion is pushed outwards, the identity is proved in
the field of real numbers, and the result is moved back.
-/

namespace Cert.RealSums

/-- The negative of a real number is a real number. -/
theorem IsReal.neg {x : EReal} (hx : IsReal x) : IsReal (-x) := by
  obtain ⟨a, rfl⟩ := hx
  exact ⟨-a, (EReal.coe_neg a).symm⟩

/-- The difference of two real numbers is a real number. -/
theorem IsReal.sub {x y : EReal} (hx : IsReal x) (hy : IsReal y) : IsReal (x - y) := by
  obtain ⟨a, rfl⟩ := hx
  obtain ⟨b, rfl⟩ := hy
  exact ⟨a - b, (EReal.coe_sub a b).symm⟩

/-- A choice between two real numbers is a real number. -/
theorem IsReal.ite {c : Prop} [Decidable c] {x y : EReal} (hx : IsReal x) (hy : IsReal y) :
    IsReal (if c then x else y) := by
  split
  · exact hx
  · exact hy

/-- The smaller of two real numbers is a real number: it is one of the two. -/
theorem IsReal.min {x y : EReal} (hx : IsReal x) (hy : IsReal y) : IsReal (min x y) := by
  rcases min_choice x y with h | h
  · rw [h]; exact hx
  · rw [h]; exact hy

/-- One is a real number. -/
theorem IsReal.one : IsReal 1 := ⟨1, EReal.coe_one.symm⟩

end Cert.RealSums

namespace Cert.Fold

open Cert.RealSums
open scoped BigOperators

/-- A sum over 192 = 3 · 64 indices is a sum over 3 blocks of 64: the index
64 · i + j runs through block i. -/
theorem sum_split {M : Type*} [AddCommMonoid M] (g : Fin 192 → M) :
    ∑ c : Fin 192, g c
      = ∑ i : Fin 3, ∑ j : Fin 64,
          g ⟨64 * i.val + j.val, by have := i.isLt; have := j.isLt; omega⟩ := by
  rw [← Fintype.sum_prod_type']
  refine (Fintype.sum_equiv (finProdFinEquiv (m := 3) (n := 64)) _ _ fun x => ?_).symm
  congr 1
  apply Fin.ext
  simp only [finProdFinEquiv_apply_val]
  omega

/-- The identity in the real numbers: both sides are the triple sum
Σ_i Σ_k Σ_j t i k · F k j · β i j plus the bias. -/
theorem fold_real (t : Fin 3 → Fin 3 → ℝ) (F β : Fin 3 → Fin 64 → ℝ) (b : ℝ) :
    ((b + ∑ j, F 0 j * (t 0 0 * β 0 j + t 1 0 * β 1 j + t 2 0 * β 2 j))
        + ∑ j, F 1 j * (t 0 1 * β 0 j + t 1 1 * β 1 j + t 2 1 * β 2 j))
        + ∑ j, F 2 j * (t 0 2 * β 0 j + t 1 2 * β 1 j + t 2 2 * β 2 j)
      = (∑ i : Fin 3, ∑ j, (t i 0 * F 0 j + t i 1 * F 1 j + t i 2 * F 2 j) * β i j) + b := by
  rw [Fin.sum_univ_three]
  have e : ∀ a0 a1 a2 c0 c1 c2 : ℝ, a0 + a1 + a2 = c0 + c1 + c2 →
      b + a0 + a1 + a2 = c0 + c1 + c2 + b := by
    intro a0 a1 a2 c0 c1 c2 h
    linarith
  apply e
  rw [← Finset.sum_add_distrib, ← Finset.sum_add_distrib, ← Finset.sum_add_distrib,
    ← Finset.sum_add_distrib]
  refine Finset.sum_congr rfl fun j _ => ?_
  ring

/-- Folding the coefficients into the weights does not change the output of the
linear layer, when every entry is a real number. -/
theorem fold_eq (θ : Fin 3 → Fin 3 → EReal) (hθ : ∀ i k, IsReal (θ i k))
    (f : Fin 3 → Fin 64 → EReal) (hf : ∀ k j, IsReal (f k j))
    (B : Fin 3 → Fin 64 → EReal) (hB : ∀ i j, IsReal (B i j))
    (W hfc : Fin 192 → EReal)
    (hW : ∀ (i : Fin 3) (j : Fin 64) (h : 64 * i.val + j.val < 192),
      W ⟨64 * i.val + j.val, h⟩ = B i j)
    (hhf : ∀ (i : Fin 3) (j : Fin 64) (h : 64 * i.val + j.val < 192),
      hfc ⟨64 * i.val + j.val, h⟩ = (θ i 0 * f 0 j + θ i 1 * f 1 j) + θ i 2 * f 2 j)
    (b : EReal) (hb : IsReal b) :
    ((b + ∑ j, f 0 j * (((0 + θ 0 0 * B 0 j) + θ 1 0 * B 1 j) + θ 2 0 * B 2 j))
        + ∑ j, f 1 j * (((0 + θ 0 1 * B 0 j) + θ 1 1 * B 1 j) + θ 2 1 * B 2 j))
        + ∑ j, f 2 j * (((0 + θ 0 2 * B 0 j) + θ 1 2 * B 1 j) + θ 2 2 * B 2 j)
      = (∑ c : Fin 192, hfc c * W c) + b := by
  -- real witnesses for every entry
  have hθ' : ∀ i k, ∃ r : ℝ, θ i k = (r : EReal) := hθ
  have hf' : ∀ k j, ∃ r : ℝ, f k j = (r : EReal) := hf
  have hB' : ∀ i j, ∃ r : ℝ, B i j = (r : EReal) := hB
  choose t ht using hθ'
  choose F hF using hf'
  choose β hβ using hB'
  obtain ⟨b', rfl⟩ := hb
  -- the layer applied to the concatenated row is the coercion of a real double sum
  have hR : ∑ c : Fin 192, hfc c * W c
      = ((∑ i : Fin 3, ∑ j : Fin 64,
          (t i 0 * F 0 j + t i 1 * F 1 j + t i 2 * F 2 j) * β i j : ℝ) : EReal) := by
    rw [sum_split, coe_sum]
    refine Finset.sum_congr rfl fun i _ => ?_
    rw [coe_sum]
    refine Finset.sum_congr rfl fun j _ => ?_
    rw [hhf i j, hW i j]
    simp only [ht, hF, hβ, EReal.coe_mul, EReal.coe_add]
  -- each contraction against a folded weight is the coercion of a real sum
  have hK : ∀ k, ∑ j, f k j * (((0 + θ 0 k * B 0 j) + θ 1 k * B 1 j) + θ 2 k * B 2 j)
      = ((∑ j, F k j * (t 0 k * β 0 j + t 1 k * β 1 j + t 2 k * β 2 j) : ℝ) : EReal) := by
    intro k
    rw [coe_sum]
    refine Finset.sum_congr rfl fun j _ => ?_
    simp only [zero_add, ht, hF, hβ, EReal.coe_mul, EReal.coe_add]
  rw [hK 0, hK 1, hK 2, hR, ← EReal.coe_add, ← EReal.coe_add, ← EReal.coe_add,
    ← EReal.coe_add, fold_real]

/-- The output of the linear layer on the concatenated row is a real number. -/
theorem fold_isReal (θ : Fin 3 → Fin 3 → EReal) (hθ : ∀ i k, IsReal (θ i k))
    (f : Fin 3 → Fin 64 → EReal) (hf : ∀ k j, IsReal (f k j))
    (B : Fin 3 → Fin 64 → EReal) (hB : ∀ i j, IsReal (B i j))
    (W hfc : Fin 192 → EReal)
    (hW : ∀ (i : Fin 3) (j : Fin 64) (h : 64 * i.val + j.val < 192),
      W ⟨64 * i.val + j.val, h⟩ = B i j)
    (hhf : ∀ (i : Fin 3) (j : Fin 64) (h : 64 * i.val + j.val < 192),
      hfc ⟨64 * i.val + j.val, h⟩ = (θ i 0 * f 0 j + θ i 1 * f 1 j) + θ i 2 * f 2 j)
    (b : EReal) (hb : IsReal b) :
    IsReal ((∑ c : Fin 192, hfc c * W c) + b) := by
  rw [sum_split]
  refine IsReal.add (IsReal.sum _ _ fun i _ => IsReal.sum _ _ fun j _ => ?_) hb
  rw [hhf i j, hW i j]
  exact ((((hθ i 0).mul (hf 0 j)).add ((hθ i 1).mul (hf 1 j))).add
    ((hθ i 2).mul (hf 2 j))).mul (hB i j)

end Cert.Fold
-- ==== Proof.RealOps.lean ====
import Idealize.ShloMosaic.PureOps.Ideal
import Idealize.ShloMosaic.PureOps.Ideal.Laws
import Idealize.ShloMosaic.Lib.ValueIdx
import proofs.«121376_j36636071035259_2_alg».proof.Proof.LibRealSums
import proofs.«121376_j36636071035259_2_alg».proof.Proof.BernsteinFold
import proofs.«121376_j36636071035259_2_alg».proof.Proof.Spec

/-!
# Every operation of the graph filter keeps real numbers real

An array of extended reals is called real when each of its entries is a real
number.  The operations the two programs use (products, sums, differences,
maxima, selections, broadcasts, constants denoted by finite patterns, powers of
reals, gathers, accumulating scatters) all send real arrays to real arrays:
each entry of the result is obtained from entries of the operands by
operations under which the real numbers are closed.  The same holds for the
leaky rectifier, the filter's coefficients and the two-layer perceptron of the
specification.
-/

namespace Cert.RealOps

open Idealize.ShloMosaic
open Cert.RealSums
open scoped BigOperators

/-- An array of extended reals all of whose entries are real numbers. -/
def AllReal {s : Shape} (x : s.Idx → EReal) : Prop := ∀ i, IsReal (x i)

/-! ### Patterns that denote real numbers -/

/-- A pattern whose exponent field is not all ones denotes a real number: it is
a zero, a subnormal or a normal, each a dyadic rational. -/
theorem isReal_ieee (e m : Nat) {w : Nat} (b : BitVec w)
    (h : (b.extractLsb' m e).toNat ≠ 2 ^ e - 1) : IsReal (Ideal.ieee e m b) := by
  simp only [Ideal.ieee, if_neg h]
  split
  · exact ⟨_, rfl⟩
  · exact ⟨_, rfl⟩

/-- A single-precision pattern whose exponent field is not 255 denotes a real number. -/
theorem isReal_ofBits_f32 (w : BitVec 32) (h : (w.extractLsb' 23 8).toNat ≠ 2 ^ 8 - 1) :
    IsReal (Ideal.ofBits .f32 w) :=
  isReal_ieee 8 23 w h

/-- 0 -/
theorem isReal_00000000 : IsReal (Ideal.ofBits .f32 0x00000000#32) := isReal_ofBits_f32 _ (by decide)
/-- 1 -/
theorem isReal_3F800000 : IsReal (Ideal.ofBits .f32 0x3F800000#32) := isReal_ofBits_f32 _ (by decide)
/-- −1/2 -/
theorem isReal_BF000000 : IsReal (Ideal.ofBits .f32 0xBF000000#32) := isReal_ofBits_f32 _ (by decide)
/-- the rectifier's slope, about 1/100 -/
theorem isReal_3C23D70A : IsReal (Ideal.ofBits .f32 0x3C23D70A#32) := isReal_ofBits_f32 _ (by decide)
/-- 3 -/
theorem isReal_40400000 : IsReal (Ideal.ofBits .f32 0x40400000#32) := isReal_ofBits_f32 _ (by decide)
/-- −3 -/
theorem isReal_C0400000 : IsReal (Ideal.ofBits .f32 0xC0400000#32) := isReal_ofBits_f32 _ (by decide)
/-- 3/4 -/
theorem isReal_3F400000 : IsReal (Ideal.ofBits .f32 0x3F400000#32) := isReal_ofBits_f32 _ (by decide)
/-- −3/2 -/
theorem isReal_BFC00000 : IsReal (Ideal.ofBits .f32 0xBFC00000#32) := isReal_ofBits_f32 _ (by decide)

/-! ### Entrywise operations -/

section Entrywise
variable {s : Shape} {φ : FTy}

theorem AllReal.addf {x y : FVec Ideal s φ} (hx : AllReal x) (hy : AllReal y) :
    AllReal (Idealize.ShloMosaic.addf x y) := fun i => (hx i).add (hy i)

theorem AllReal.subf {x y : FVec Ideal s φ} (hx : AllReal x) (hy : AllReal y) :
    AllReal (Idealize.ShloMosaic.subf x y) := fun i => (hx i).sub (hy i)

theorem AllReal.mulf {x y : FVec Ideal s φ} (hx : AllReal x) (hy : AllReal y) :
    AllReal (Idealize.ShloMosaic.mulf x y) := fun i => (hx i).mul (hy i)

theorem AllReal.maximumf {x y : FVec Ideal s φ} (hx : AllReal x) (hy : AllReal y) :
    AllReal (Idealize.ShloMosaic.maximumf x y) := fun i => (hx i).max (hy i)

/-- A power of a real number to a real exponent is a real number. -/
theorem isReal_pow {x y : EReal} (hx : IsReal x) (hy : IsReal y) : IsReal (Ideal.pow x y) := by
  obtain ⟨a, rfl⟩ := hx
  obtain ⟨b, rfl⟩ := hy
  exact ⟨Real.rpow a b, rfl⟩

theorem AllReal.hostPowf {x y : FVec Ideal s φ} (hx : AllReal x) (hy : AllReal y) :
    AllReal (Host.powf x y) := fun i => isReal_pow (hx i) (hy i)

/-- A selection between two real numbers is a real number. -/
theorem isReal_select (c : BitVec 1) {x y : EReal} (hx : IsReal x) (hy : IsReal y) :
    IsReal (Scalar.select c x y) := by
  unfold Scalar.select
  exact hx.ite hy

theorem AllReal.select (c : IVec s 1) {x y : s.Idx → EReal} (hx : AllReal x) (hy : AllReal y) :
    AllReal (Idealize.ShloMosaic.select c x y) := fun i => isReal_select (c i) (hx i) (hy i)

/-- The splat of a pattern that denotes a real number. -/
theorem allReal_constant_of (s : Shape) (w : BitVec 32) (h : IsReal (Ideal.ofBits .f32 w)) :
    AllReal (constant (F := Ideal) s .f32 w) := fun _ => h

/-- The splat of a pattern whose exponent field is not 255. -/
theorem allReal_constant (s : Shape) (w : BitVec 32) (h : (w.extractLsb' 23 8).toNat ≠ 2 ^ 8 - 1) :
    AllReal (constant (F := Ideal) s .f32 w) := fun _ => isReal_ofBits_f32 w h

/-- The splat of a real number. -/
theorem allReal_broadcast (t : Shape) {x : EReal} (hx : IsReal x) : AllReal (broadcast t x) := fun _ => hx

end Entrywise

/-! ### Re-indexings and accumulations -/

/-- A broadcast reads entries of its operand. -/
theorem AllReal.broadcastInDim {s : Shape} (t : Shape) (dims : Fin s.rank → Fin t.rank)
    (h : s.BroadcastsInDim t dims) {x : s.Idx → EReal} (hx : AllReal x) :
    AllReal (Idealize.ShloMosaic.broadcastInDim t dims h x) := fun _ => hx _

/-- A gather reads entries of its operand, whatever its dimension numbers and indices. -/
theorem AllReal.gather {s si t : Shape} {w : Nat} (d : GatherDims s si t) {x : s.Idx → EReal}
    (hx : AllReal x) (idx : IVec si w) : AllReal (Host.gather d x idx) := fun _ => hx _

/-- An accumulating scatter adds to each entry of its operand a finite sum of
entries of the updates, whatever its dimension numbers and indices. -/
theorem AllReal.scatterAdd {s si u : Shape} {φ : FTy} {w : Nat} (d : ScatterDims s si u)
    {x : FVec Ideal s φ} (hx : AllReal x) (idx : IVec si w) {upd : FVec Ideal u φ}
    (hu : AllReal upd) : AllReal (Host.scatterAdd d x idx upd) := by
  intro i
  show IsReal (Ideal.hostScatterAdd d x idx upd i)
  unfold Ideal.hostScatterAdd
  exact (hx i).add (IsReal.sum _ _ fun j _ => hu j)

/-! ### The specification's functions -/

/-- The leaky rectifier of a real number is a real number. -/
theorem isReal_lk {x : EReal} (hx : IsReal x) : IsReal (Cert.Spec.lk x) := by
  unfold Cert.Spec.lk
  exact isReal_select _ hx (isReal_3C23D70A.mul hx)

/-- The nine coefficients are real numbers. -/
theorem isReal_theta (i k : Fin 3) : IsReal (Cert.Spec.theta i k) := by
  fin_cases i <;> fin_cases k <;>
    first
    | exact isReal_40400000
    | exact isReal_C0400000
    | exact isReal_3F400000
    | exact isReal_00000000
    | exact isReal_BFC00000

/-- The perceptron of real inputs, weights and biases is a real number. -/
theorem isReal_mlpAt {x : Fin 50000 → Fin 128 → EReal} {W1 : Fin 128 → Fin 64 → EReal}
    {b1 : Fin 64 → EReal} {W2 : Fin 64 → Fin 64 → EReal} {b2 : Fin 64 → EReal}
    (hx : ∀ n k, IsReal (x n k)) (hW1 : ∀ k j, IsReal (W1 k j)) (hb1 : ∀ j, IsReal (b1 j))
    (hW2 : ∀ j q, IsReal (W2 j q)) (hb2 : ∀ q, IsReal (b2 q)) (n : Fin 50000) (q : Fin 64) :
    IsReal (Cert.Spec.mlpAt x W1 b1 W2 b2 n q) := by
  unfold Cert.Spec.mlpAt
  refine isReal_lk (IsReal.add (IsReal.sum _ _ fun j _ => IsReal.mul (isReal_lk ?_) (hW2 j q)) (hb2 q))
  exact IsReal.add (IsReal.sum _ _ fun k _ => (hx n k).mul (hW1 k j)) (hb1 j)

end Cert.RealOps
-- ==== Proof.KFeat0.lean ====
/- Each relation's hidden features, as the second region's host stretches find them, at the ideal values: entry (n, q)
   is the two-layer perceptron of row n of that relation's ARGUMENT features with that relation's ARGUMENT weights and
   biases. The first region's stacked result is plane-by-plane the perceptron of the stacked operands; the stacked
   operands are the arguments, one relation per plane. -/
import proofs.«121376_j36636071035259_2_alg».proof.Proof.KMid
import proofs.«121376_j36636071035259_2_alg».proof.Proof.KValue0
import proofs.«121376_j36636071035259_2_alg».proof.Proof.KHost0
import proofs.«121376_j36636071035259_2_alg».proof.Proof.RealOps

noncomputable section

namespace Cert.KernelIdeal.Val0

open Cert.KernelIdeal Cert.KernelIdeal.Gen Cert.KernelIdeal.Hand Cert.KernelIdeal.Mid
open Idealize.ShloMosaic Idealize.ShloMosaic.TcCoe Idealize.SL.Sem Idealize.ShloMosaic.ValueIdx
open Cert.RealSums Cert.RealOps
open scoped BigOperators

/-- Plane 0 of a stacked [2, 50000, 64] array, as the host operations cut it out. -/
theorem hid0_apply (H : FVec Ideal S2x50000x64 .f32) (n : Fin 50000) (q : Fin 64) :
    hid0 H (ix2 n q) = H (ix3 (⟨0, by decide⟩ : Fin 2) n q) := by
  unfold hid0
  refine (shapeCast_1ab_ab_apply _ _ n q).trans ?_
  exact slice_plane_apply 0 (by decide) _ _ _ n q

/-- Plane 1. -/
theorem hid1_apply (H : FVec Ideal S2x50000x64 .f32) (n : Fin 50000) (q : Fin 64) :
    hid1 H (ix2 n q) = H (ix3 (⟨1, by decide⟩ : Fin 2) n q) := by
  unfold hid1
  refine (shapeCast_1ab_ab_apply _ _ n q).trans ?_
  exact slice_plane_apply 1 (by decide) _ _ _ n q

variable (m : (ℓ : Loc nD τ sig) → Buf (Elt Ideal) ℓ) (ρ : Dev nD → PrngReg) (c : Dev nD)

/-- The first region's result at (r, n, q): the perceptron of plane r of the region's operand arrays as it finds them. -/
theorem hst_entry (r : Fin 2) (n : Fin 50000) (q : Fin 64) :
    Hst m ρ c (ix3 r n q)
      = Cert.Spec.mlpAt (fun n k => V1 m ρ c main_v2 (ix3 r n k)) (fun k j => V1 m ρ c main_v5 (ix3 r k j))
          (fun j => V1 m ρ c main_v15 (ix3 r (0 : Fin 1) j)) (fun j q => V1 m ρ c main_v11 (ix3 r j q))
          (fun q => V1 m ρ c main_v16 (ix3 r (0 : Fin 1) q)) n q := by
  have e : Hst m ρ c = (dat0 (F := Ideal) (V1 m ρ) c).arrAt 5 cfg0.N := W2_arr m ρ c 5
  rw [e]
  exact arr0_eq (V1 m ρ) c r n q

/-- The region's operand arrays at plane r, read back to the arguments. -/
theorem v2_entry (r : Fin 2) (n : Fin 50000) (k : Fin 128) :
    V1 m ρ c main_v2 (ix3 r n k) = if r.val = 0 then (W0 m ρ c (Proc.devRef .tc main_arg0) : S50000x128.Idx → EReal) (ix2 n k)
      else (W0 m ρ c (Proc.devRef .tc main_arg1) : S50000x128.Idx → EReal) (ix2 n k) := after_v2 (W0 m ρ c) r n k
theorem v5_entry (r : Fin 2) (k : Fin 128) (j : Fin 64) :
    V1 m ρ c main_v5 (ix3 r k j) = if r.val = 0 then (W0 m ρ c (Proc.devRef .tc main_arg6) : S128x64.Idx → EReal) (ix2 k j)
      else (W0 m ρ c (Proc.devRef .tc main_arg10) : S128x64.Idx → EReal) (ix2 k j) := after_v5 (W0 m ρ c) r k j
theorem v15_entry (r : Fin 2) (j : Fin 64) :
    V1 m ρ c main_v15 (ix3 r (0 : Fin 1) j) = if r.val = 0 then (W0 m ρ c (Proc.devRef .tc main_arg7) : S64.Idx → EReal) (ix1 j)
      else (W0 m ρ c (Proc.devRef .tc main_arg11) : S64.Idx → EReal) (ix1 j) := after_v15 (W0 m ρ c) r 0 j
theorem v11_entry (r : Fin 2) (j : Fin 64) (q : Fin 64) :
    V1 m ρ c main_v11 (ix3 r j q) = if r.val = 0 then (W0 m ρ c (Proc.devRef .tc main_arg8) : S64x64.Idx → EReal) (ix2 j q)
      else (W0 m ρ c (Proc.devRef .tc main_arg12) : S64x64.Idx → EReal) (ix2 j q) := after_v11 (W0 m ρ c) r j q
theorem v16_entry (r : Fin 2) (q : Fin 64) :
    V1 m ρ c main_v16 (ix3 r (0 : Fin 1) q) = if r.val = 0 then (W0 m ρ c (Proc.devRef .tc main_arg9) : S64.Idx → EReal) (ix1 q)
      else (W0 m ρ c (Proc.devRef .tc main_arg13) : S64.Idx → EReal) (ix1 q) := after_v16 (W0 m ρ c) r 0 q

/-- The perceptron depends on its five tables only through their entries. -/
theorem mlpAt_congr {x x' : Fin 50000 → Fin 128 → EReal} {W1 W1' : Fin 128 → Fin 64 → EReal} {b1 b1' : Fin 64 → EReal}
    {W2 W2' : Fin 64 → Fin 64 → EReal} {b2 b2' : Fin 64 → EReal}
    (hx : ∀ n k, x n k = x' n k) (hW1 : ∀ k j, W1 k j = W1' k j) (hb1 : ∀ j, b1 j = b1' j)
    (hW2 : ∀ j q, W2 j q = W2' j q) (hb2 : ∀ q, b2 q = b2' q) (n : Fin 50000) (q : Fin 64) :
    Cert.Spec.mlpAt x W1 b1 W2 b2 n q = Cert.Spec.mlpAt x' W1' b1' W2' b2' n q := by
  rw [show x = x' from funext fun n => funext (hx n), show W1 = W1' from funext fun k => funext (hW1 k),
    show b1 = b1' from funext hb1, show W2 = W2' from funext fun j => funext (hW2 j), show b2 = b2' from funext hb2]

/-- Relation 0's hidden features at (n, q): the perceptron of its arguments. -/
theorem f00_apply (n : Fin 50000) (q : Fin 64) :
    f00 m ρ c (ix2 n q)
      = Cert.Spec.mlpAt (fun n k => (W0 m ρ c (Proc.devRef .tc main_arg0) : S50000x128.Idx → EReal) (ix2 n k))
          (fun k j => (W0 m ρ c (Proc.devRef .tc main_arg6) : S128x64.Idx → EReal) (ix2 k j))
          (fun j => (W0 m ρ c (Proc.devRef .tc main_arg7) : S64.Idx → EReal) (ix1 j))
          (fun j q => (W0 m ρ c (Proc.devRef .tc main_arg8) : S64x64.Idx → EReal) (ix2 j q))
          (fun q => (W0 m ρ c (Proc.devRef .tc main_arg9) : S64.Idx → EReal) (ix1 q)) n q := by
  unfold f00
  exact (hid0_apply _ n q).trans ((hst_entry m ρ c _ n q).trans (mlpAt_congr
    (fun n k => (v2_entry m ρ c _ n k).trans (if_pos rfl)) (fun k j => (v5_entry m ρ c _ k j).trans (if_pos rfl))
    (fun j => (v15_entry m ρ c _ j).trans (if_pos rfl)) (fun j q => (v11_entry m ρ c _ j q).trans (if_pos rfl))
    (fun q => (v16_entry m ρ c _ q).trans (if_pos rfl)) n q))

/-- Relation 1's hidden features at (n, q): the perceptron of its arguments. -/
theorem f10_apply (n : Fin 50000) (q : Fin 64) :
    f10 m ρ c (ix2 n q)
      = Cert.Spec.mlpAt (fun n k => (W0 m ρ c (Proc.devRef .tc main_arg1) : S50000x128.Idx → EReal) (ix2 n k))
          (fun k j => (W0 m ρ c (Proc.devRef .tc main_arg10) : S128x64.Idx → EReal) (ix2 k j))
          (fun j => (W0 m ρ c (Proc.devRef .tc main_arg11) : S64.Idx → EReal) (ix1 j))
          (fun j q => (W0 m ρ c (Proc.devRef .tc main_arg12) : S64x64.Idx → EReal) (ix2 j q))
          (fun q => (W0 m ρ c (Proc.devRef .tc main_arg13) : S64.Idx → EReal) (ix1 q)) n q := by
  unfold f10
  exact (hid1_apply _ n q).trans ((hst_entry m ρ c _ n q).trans (mlpAt_congr
    (fun n k => (v2_entry m ρ c _ n k).trans (if_neg (by decide))) (fun k j => (v5_entry m ρ c _ k j).trans (if_neg (by decide)))
    (fun j => (v15_entry m ρ c _ j).trans (if_neg (by decide))) (fun j q => (v11_entry m ρ c _ j q).trans (if_neg (by decide)))
    (fun q => (v16_entry m ρ c _ q).trans (if_neg (by decide))) n q))

/-- The first region's result is real everywhere when the ten argument arrays it reads are. -/
theorem hst_real
    (h0 : AllReal (s := S50000x128) (W0 m ρ c (Proc.devRef .tc main_arg0))) (h1 : AllReal (s := S50000x128) (W0 m ρ c (Proc.devRef .tc main_arg1)))
    (h6 : AllReal (s := S128x64) (W0 m ρ c (Proc.devRef .tc main_arg6))) (h10 : AllReal (s := S128x64) (W0 m ρ c (Proc.devRef .tc main_arg10)))
    (h7 : AllReal (s := S64) (W0 m ρ c (Proc.devRef .tc main_arg7))) (h11 : AllReal (s := S64) (W0 m ρ c (Proc.devRef .tc main_arg11)))
    (h8 : AllReal (s := S64x64) (W0 m ρ c (Proc.devRef .tc main_arg8))) (h12 : AllReal (s := S64x64) (W0 m ρ c (Proc.devRef .tc main_arg12)))
    (h9 : AllReal (s := S64) (W0 m ρ c (Proc.devRef .tc main_arg9))) (h13 : AllReal (s := S64) (W0 m ρ c (Proc.devRef .tc main_arg13))) :
    AllReal (Hst m ρ c) := by
  intro i
  obtain ⟨r, n, q, rfl⟩ : ∃ (r : Fin 2) (n : Fin 50000) (q : Fin 64), i = ix3 r n q := ⟨i 0, i 1, i 2, eq_ix3 i⟩
  rw [hst_entry]
  refine isReal_mlpAt (fun n k => ?_) (fun k j => ?_) (fun j => ?_) (fun j q => ?_) (fun q => ?_) n q
  · rw [v2_entry]; split
    · exact h0 _
    · exact h1 _
  · rw [v5_entry]; split
    · exact h6 _
    · exact h10 _
  · rw [v15_entry]; split
    · exact h7 _
    · exact h11 _
  · rw [v11_entry]; split
    · exact h8 _
    · exact h12 _
  · rw [v16_entry]; split
    · exact h9 _
    · exact h13 _

end Cert.KernelIdeal.Val0

end
-- ==== Proof.KMidReal.lean ====
import proofs.«121376_j36636071035259_2_alg».proof.Proof.KMid
import proofs.«121376_j36636071035259_2_alg».proof.Proof.RealOps

/-!
# The six feature matrices are real when the hidden features are

Each relation's three feature matrices are the hidden features, their image
under one Laplacian step and the image of that under a second step.  A step
multiplies by the degree scaling, gathers rows, sums them over the edges'
targets, multiplies by the scaling again and subtracts from its input; the
degree scaling is a power of the larger of one and an in-degree, and an
in-degree is a sum of ones.  Every operation involved sends real arrays to
real arrays, so the six matrices are real as soon as the hidden features are.
-/

namespace Cert.RealOps

open Idealize.ShloMosaic

/-- A reshaping reads entries of its operand. -/
theorem AllReal.shapeCast {s : Shape} (t : Shape) {x : s.Idx → EReal} (hx : AllReal x)
    (h : s.ShapeCasts t) : AllReal (Idealize.ShloMosaic.shapeCast t x h) := fun _ => hx _

/-- A slice reads entries of its operand. -/
theorem AllReal.extractStridedSlice {s : Shape} (t : Shape) (off : Fin s.rank → Nat)
    {x : s.Idx → EReal} (hx : AllReal x) (h : s.Slices off t) :
    AllReal (Idealize.ShloMosaic.extractStridedSlice t off x h) := fun _ => hx _

end Cert.RealOps

namespace Cert.KernelIdeal.Mid

open Idealize.ShloMosaic Idealize.ShloMosaic.TcCoe
open Cert.KernelIdeal Cert.KernelIdeal.Gen Cert.KernelIdeal.Hand
open Cert.RealSums Cert.RealOps

/-- An in-degree is a sum of ones added to zero. -/
theorem allReal_degree (dst : IVec S800000 32) : AllReal (degree (F := Ideal) dst) := by
  unfold degree
  exact AllReal.scatterAdd _
    (AllReal.broadcastInDim _ _ _ (allReal_constant_of _ _ isReal_00000000)) _
    (AllReal.broadcastInDim _ _ _ (allReal_constant_of _ _ isReal_3F800000))

/-- The degree scaling, a power of the larger of one and a real degree, is real. -/
theorem allReal_dinv {deg : FVec Ideal S50000 .f32} (hdeg : AllReal deg) : AllReal (dinv deg) := by
  unfold dinv
  exact AllReal.broadcastInDim _ _ _
    (AllReal.hostPowf
      (AllReal.maximumf (AllReal.broadcastInDim _ _ _ (allReal_constant_of _ _ isReal_3F800000)) hdeg)
      (AllReal.broadcastInDim _ _ _ (allReal_constant_of _ _ isReal_BF000000)))

/-- A Laplacian step of a real matrix with a real scaling is real. -/
theorem _root_.Cert.RealOps.AllReal.step {f : FVec Ideal S50000x64 .f32} {d : FVec Ideal S50000x1 .f32}
    (hf : AllReal f) (hd : AllReal d) (src dst : IVec S800000 32) :
    AllReal (Cert.KernelIdeal.Mid.step f d src dst) := by
  unfold Cert.KernelIdeal.Mid.step
  exact AllReal.subf hf
    (AllReal.mulf
      (AllReal.scatterAdd _
        (AllReal.broadcastInDim _ _ _ (allReal_constant_of _ _ isReal_00000000)) _
        (AllReal.gather _ (AllReal.mulf hf (AllReal.broadcastInDim _ _ _ hd)) _))
      (AllReal.broadcastInDim _ _ _ hd))

/-- Either relation's hidden features are entries of the stacked result. -/
theorem allReal_hid0 {H : FVec Ideal S2x50000x64 .f32} (h : AllReal H) : AllReal (hid0 H) := by
  unfold hid0
  exact AllReal.shapeCast _ (AllReal.extractStridedSlice _ _ h _) _

theorem allReal_hid1 {H : FVec Ideal S2x50000x64 .f32} (h : AllReal H) : AllReal (hid1 H) := by
  unfold hid1
  exact AllReal.shapeCast _ (AllReal.extractStridedSlice _ _ h _) _

section Six
variable (m : (ℓ : Loc nD τ sig) → Buf (Elt Ideal) ℓ) (ρ : Dev nD → PrngReg) (c : Dev nD)

theorem allReal_D0 : AllReal (D0 m ρ c) := by
  unfold D0
  exact allReal_dinv (allReal_degree _)

theorem allReal_D1 : AllReal (D1 m ρ c) := by
  unfold D1
  exact allReal_dinv (allReal_degree _)

variable (hH : AllReal (Hst m ρ c))
include hH

theorem allReal_f00 : AllReal (f00 m ρ c) := by
  unfold f00
  exact allReal_hid0 hH

theorem allReal_f01 : AllReal (f01 m ρ c) := by
  unfold f01
  exact AllReal.step (allReal_f00 m ρ c hH) (allReal_D0 m ρ c) _ _

theorem allReal_f02 : AllReal (f02 m ρ c) := by
  unfold f02
  exact AllReal.step (allReal_f01 m ρ c hH) (allReal_D0 m ρ c) _ _

theorem allReal_f10 : AllReal (f10 m ρ c) := by
  unfold f10
  exact allReal_hid1 hH

theorem allReal_f11 : AllReal (f11 m ρ c) := by
  unfold f11
  exact AllReal.step (allReal_f10 m ρ c hH) (allReal_D1 m ρ c) _ _

theorem allReal_f12 : AllReal (f12 m ρ c) := by
  unfold f12
  exact AllReal.step (allReal_f11 m ρ c hH) (allReal_D1 m ρ c) _ _

end Six

end Cert.KernelIdeal.Mid
-- ==== Proof.PreReal.lean ====
import proofs.«121376_j36636071035259_2_alg».proof.Defs
import proofs.«121376_j36636071035259_2_alg».proof.Proof.Gen.Pre_finite_inputs
import proofs.«121376_j36636071035259_2_alg».proof.Proof.LibRealSums
import Idealize.ShloMosaic.Lib.ReduceAll
import Idealize.ShloMosaic.Lib.ValueIdx
import Idealize.ShloMosaic.PureOps.Ideal.Laws

/-!
# The precondition says that every floating-point input is a real number

The precondition is the conjunction, over the twelve floating-point argument
arrays, of "every entry x satisfies |x| < +∞".  On the extended reals |x| is
max x (−x), which is +∞ at both infinities, so the strict inequality holds
exactly when x is a real number.  The conjunction is read back conjunct by
conjunct, each "for all entries" from the reduction by "and" that states it.
-/

namespace Cert.PreReal

open Idealize.ShloMosaic Idealize.SL.Sem
open Cert.RealSums
open Cert.Pre_finite_inputs

/-- The shape with no axes has one index. -/
instance subsingleton_S_ : Subsingleton S_.Idx := ⟨fun _ _ => funext fun d => d.elim0⟩

/-- The element fact: |x| < +∞ makes x a real number. -/
theorem isReal_of_abs_lt_top (x : EReal)
    (h : Ideal.cmp .olt (max x (-x)) (Ideal.ofBits .f32 0x7F800000#32) = 1#1) : IsReal x := by
  have htop : Ideal.ofBits .f32 0x7F800000#32 = ⊤ := by simp [Ideal.ofBits, Ideal.ieee]
  rw [htop] at h
  induction x using EReal.rec with
  | bot => simp [Ideal.cmp] at h
  | coe r => exact ⟨r, rfl⟩
  | top => simp [Ideal.cmp] at h

/-- One conjunct: if the reduction by "and" of the entrywise test |x| < +∞ is one,
every entry of x is a real number. -/
theorem allReal_of_all {S T U : Shape} {axes : List (Fin S.rank)} [Subsingleton T.Idx]
    (x : FVec Ideal S .f32) (hb : S_.BroadcastsInDim S (![] : Fin 0 → Fin S.rank))
    (init : U.Idx → BitVec 1) (hr : S.ReducesTo axes T) (hu : 0 < U.numel) (j : T.Idx)
    (e : Host.reduce IntOp.andi
        (cmpf .olt (Host.absf x) (broadcastInDim S ![] hb (constant (F := Ideal) S_ .f32 0x7F800000#32)))
        init hr hu j = 1#1)
    (i : S.Idx) : IsReal (x i) :=
  isReal_of_abs_lt_top (x i) (Host.reduce_andi_all _ init hr hu j e i)

/-- The precondition's predicate, read back: where it is one, every entry of every
floating-point argument is a real number. -/
theorem fn_real [Facts] (a0 a1 : FVec Ideal S50000x128 .f32) (a2 a3 a4 a5 : IVec S800000 32)
    (a6 : FVec Ideal S128x64 .f32) (a7 : FVec Ideal S64 .f32) (a8 : FVec Ideal S64x64 .f32)
    (a9 : FVec Ideal S64 .f32) (a10 : FVec Ideal S128x64 .f32) (a11 : FVec Ideal S64 .f32)
    (a12 : FVec Ideal S64x64 .f32) (a13 : FVec Ideal S64 .f32) (a14 : FVec Ideal S192x64 .f32)
    (a15 : FVec Ideal S64 .f32)
    (h : fn (F := Ideal) a0 a1 a2 a3 a4 a5 a6 a7 a8 a9 a10 a11 a12 a13 a14 a15 = fun _ => 1#1) :
    (∀ i, IsReal (a0 i)) ∧ (∀ i, IsReal (a1 i)) ∧ (∀ i, IsReal (a6 i)) ∧ (∀ i, IsReal (a7 i)) ∧
    (∀ i, IsReal (a8 i)) ∧ (∀ i, IsReal (a9 i)) ∧ (∀ i, IsReal (a10 i)) ∧ (∀ i, IsReal (a11 i)) ∧
    (∀ i, IsReal (a12 i)) ∧ (∀ i, IsReal (a13 i)) ∧ (∀ i, IsReal (a14 i)) ∧ (∀ i, IsReal (a15 i)) := by
  have h0 := congrFun h ValueIdx.ix0
  dsimp only [fn, fn_part1, fn_part2, fn_part3, Idealize.ShloMosaic.andi] at h0
  simp only [IntOp.andi_eq_one] at h0
  obtain ⟨⟨⟨⟨⟨⟨⟨⟨⟨⟨⟨h0', h1'⟩, h6'⟩, h7'⟩, h8'⟩, h9'⟩, h10'⟩, h11'⟩, h12'⟩, h13'⟩, h14'⟩, h15'⟩ := h0
  exact ⟨allReal_of_all a0 _ _ _ _ _ h0', allReal_of_all a1 _ _ _ _ _ h1',
    allReal_of_all a6 _ _ _ _ _ h6', allReal_of_all a7 _ _ _ _ _ h7',
    allReal_of_all a8 _ _ _ _ _ h8', allReal_of_all a9 _ _ _ _ _ h9',
    allReal_of_all a10 _ _ _ _ _ h10', allReal_of_all a11 _ _ _ _ _ h11',
    allReal_of_all a12 _ _ _ _ _ h12', allReal_of_all a13 _ _ _ _ _ h13',
    allReal_of_all a14 _ _ _ _ _ h14', allReal_of_all a15 _ _ _ _ _ h15'⟩

/-- Under the precondition every entry of the twelve floating-point arguments
(the two feature arrays and the ten weight and bias arrays; the four index
arrays are integers) is a real number, on every device. -/
theorem real_of_pre
    (m : (ℓ : Loc Cert.KernelIdeal.nD Cert.KernelIdeal.τ Cert.KernelIdeal.sig) → Buf (Elt Ideal) ℓ)
    (h : Cert.Pre_KernelIdeal m) (c : Dev Cert.KernelIdeal.nD) :
    (∀ i, IsReal (m ((c.tc : Thread Cert.KernelIdeal.nD Cert.KernelIdeal.τ).loc Cert.KernelIdeal.main_arg0) i)) ∧
    (∀ i, IsReal (m ((c.tc : Thread Cert.KernelIdeal.nD Cert.KernelIdeal.τ).loc Cert.KernelIdeal.main_arg1) i)) ∧
    (∀ i, IsReal (m ((c.tc : Thread Cert.KernelIdeal.nD Cert.KernelIdeal.τ).loc Cert.KernelIdeal.main_arg6) i)) ∧
    (∀ i, IsReal (m ((c.tc : Thread Cert.KernelIdeal.nD Cert.KernelIdeal.τ).loc Cert.KernelIdeal.main_arg7) i)) ∧
    (∀ i, IsReal (m ((c.tc : Thread Cert.KernelIdeal.nD Cert.KernelIdeal.τ).loc Cert.KernelIdeal.main_arg8) i)) ∧
    (∀ i, IsReal (m ((c.tc : Thread Cert.KernelIdeal.nD Cert.KernelIdeal.τ).loc Cert.KernelIdeal.main_arg9) i)) ∧
    (∀ i, IsReal (m ((c.tc : Thread Cert.KernelIdeal.nD Cert.KernelIdeal.τ).loc Cert.KernelIdeal.main_arg10) i)) ∧
    (∀ i, IsReal (m ((c.tc : Thread Cert.KernelIdeal.nD Cert.KernelIdeal.τ).loc Cert.KernelIdeal.main_arg11) i)) ∧
    (∀ i, IsReal (m ((c.tc : Thread Cert.KernelIdeal.nD Cert.KernelIdeal.τ).loc Cert.KernelIdeal.main_arg12) i)) ∧
    (∀ i, IsReal (m ((c.tc : Thread Cert.KernelIdeal.nD Cert.KernelIdeal.τ).loc Cert.KernelIdeal.main_arg13) i)) ∧
    (∀ i, IsReal (m ((c.tc : Thread Cert.KernelIdeal.nD Cert.KernelIdeal.τ).loc Cert.KernelIdeal.main_arg14) i)) ∧
    (∀ i, IsReal (m ((c.tc : Thread Cert.KernelIdeal.nD Cert.KernelIdeal.τ).loc Cert.KernelIdeal.main_arg15) i)) :=
  fn_real _ _ _ _ _ _ _ _ _ _ _ _ _ _ _ _ (h c)

/-- The same for the other program's arguments. -/
theorem real_of_pre_reference
    (m : (ℓ : Loc Cert.ReferenceIdeal.nD Cert.ReferenceIdeal.τ Cert.ReferenceIdeal.sig) → Buf (Elt Ideal) ℓ)
    (h : Cert.Pre_ReferenceIdeal m) (c : Dev Cert.ReferenceIdeal.nD) :
    (∀ i, IsReal (m ((c.tc : Thread Cert.ReferenceIdeal.nD Cert.ReferenceIdeal.τ).loc Cert.ReferenceIdeal.main_arg0) i)) ∧
    (∀ i, IsReal (m ((c.tc : Thread Cert.ReferenceIdeal.nD Cert.ReferenceIdeal.τ).loc Cert.ReferenceIdeal.main_arg1) i)) ∧
    (∀ i, IsReal (m ((c.tc : Thread Cert.ReferenceIdeal.nD Cert.ReferenceIdeal.τ).loc Cert.ReferenceIdeal.main_arg6) i)) ∧
    (∀ i, IsReal (m ((c.tc : Thread Cert.ReferenceIdeal.nD Cert.ReferenceIdeal.τ).loc Cert.ReferenceIdeal.main_arg7) i)) ∧
    (∀ i, IsReal (m ((c.tc : Thread Cert.ReferenceIdeal.nD Cert.ReferenceIdeal.τ).loc Cert.ReferenceIdeal.main_arg8) i)) ∧
    (∀ i, IsReal (m ((c.tc : Thread Cert.ReferenceIdeal.nD Cert.ReferenceIdeal.τ).loc Cert.ReferenceIdeal.main_arg9) i)) ∧
    (∀ i, IsReal (m ((c.tc : Thread Cert.ReferenceIdeal.nD Cert.ReferenceIdeal.τ).loc Cert.ReferenceIdeal.main_arg10) i)) ∧
    (∀ i, IsReal (m ((c.tc : Thread Cert.ReferenceIdeal.nD Cert.ReferenceIdeal.τ).loc Cert.ReferenceIdeal.main_arg11) i)) ∧
    (∀ i, IsReal (m ((c.tc : Thread Cert.ReferenceIdeal.nD Cert.ReferenceIdeal.τ).loc Cert.ReferenceIdeal.main_arg12) i)) ∧
    (∀ i, IsReal (m ((c.tc : Thread Cert.ReferenceIdeal.nD Cert.ReferenceIdeal.τ).loc Cert.ReferenceIdeal.main_arg13) i)) ∧
    (∀ i, IsReal (m ((c.tc : Thread Cert.ReferenceIdeal.nD Cert.ReferenceIdeal.τ).loc Cert.ReferenceIdeal.main_arg14) i)) ∧
    (∀ i, IsReal (m ((c.tc : Thread Cert.ReferenceIdeal.nD Cert.ReferenceIdeal.τ).loc Cert.ReferenceIdeal.main_arg15) i)) :=
  fn_real _ _ _ _ _ _ _ _ _ _ _ _ _ _ _ _ (h c)

end Cert.PreReal
-- ==== Proof.KFeatReal.lean ====
/- Under the precondition every number the second region is handed is real: the six feature matrices (each relation's
   hidden features and their two Laplacian images), the 192 × 64 weight matrix and the bias. The arguments are real by
   the precondition; the perceptron of reals is real; a Laplacian step of real features with real scalings is real. -/
import proofs.«121376_j36636071035259_2_alg».proof.Proof.KFeat
import proofs.«121376_j36636071035259_2_alg».proof.Proof.KFeat0
import proofs.«121376_j36636071035259_2_alg».proof.Proof.KMidReal
import proofs.«121376_j36636071035259_2_alg».proof.Proof.PreReal
import proofs.«121376_j36636071035259_2_alg».proof.Proof.RealOps

noncomputable section

namespace Cert.Bridge

open Idealize.ShloMosaic Idealize.ShloMosaic.TcCoe Idealize.ShloMosaic.ValueIdx
open Cert.KernelIdeal Cert.KernelIdeal.Gen Cert.KernelIdeal.Hand Cert.KernelIdeal.Mid Cert.KernelIdeal.Val0
open Cert.RealSums Cert.RealOps

variable (m : (ℓ : Loc nD τ sig) → Buf (Elt Ideal) ℓ) (h : Cert.Pre_KernelIdeal m) (ρ : Dev nD → PrngReg) (c : Dev nD)
include h

/-- The first region's stacked result is real everywhere: the perceptron of real arguments. -/
theorem hst_allReal : AllReal (Hst m ρ c) := by
  obtain ⟨r0, r1, r6, r7, r8, r9, r10, r11, r12, r13, r14, r15⟩ := Cert.PreReal.real_of_pre m h c
  exact hst_real m ρ c r0 r1 r6 r10 r7 r11 r8 r12 r9 r13

/-- Every entry of the six feature matrices is real. -/
theorem featK_real : ∀ r k n j, IsReal (featK m ρ c r k n j) := by
  intro r k n j
  have hH := hst_allReal m h ρ c
  unfold featK
  split
  · split
    · exact allReal_f00 m ρ c hH _
    · split
      · exact allReal_f01 m ρ c hH _
      · exact allReal_f02 m ρ c hH _
  · split
    · exact allReal_f10 m ρ c hH _
    · split
      · exact allReal_f11 m ρ c hH _
      · exact allReal_f12 m ρ c hH _

/-- Every entry of the weight matrix is real. -/
theorem W3K_real : ∀ r q, IsReal (W3K m ρ c r q) := by
  intro r q
  obtain ⟨r0, r1, r6, r7, r8, r9, r10, r11, r12, r13, r14, r15⟩ := Cert.PreReal.real_of_pre m h c
  exact r14 (ix2 r q)

/-- Every entry of the bias is real. -/
theorem b3K_real : ∀ q, IsReal (b3K m ρ c q) := by
  intro q
  obtain ⟨r0, r1, r6, r7, r8, r9, r10, r11, r12, r13, r14, r15⟩ := Cert.PreReal.real_of_pre m h c
  exact r15 (ix1 q)

end Cert.Bridge

end
-- ==== Proof.KRegion1Val.lean ====
/-
  Region 1, the VALUES the frame half's recursion holds, as explicit terms over the skeleton's payloads. With
  acc(x0, x1, x2) the affine sum of a point's three feature slabs (payload 3 of the bias block, and of slab k of
  the feature block against slab k of the weight block, k = 0, 1, 2): case A leaves acc of the point's blocks;
  case B, entered with the buffer at xo, leaves payload 2 (the leaky rectification) of payload 1 (the sum) of
  acc of the point's blocks and xo. Hence, point by point: after an even point t the buffer holds acc of the
  blocks at t; after an odd point t it holds payload 2 of payload 1 of acc of the blocks at t and acc of the
  blocks at t - 1.
-/
import proofs.«121376_j36636071035259_2_alg».proof.Proof.KRegion1

-- membership in a rectangle of full extents recurses once per coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: every statement below is at this parameter
variable (V : (c : Dev nD) → (b : Ref sig .tc) → Buf (Elt F) ((c : Thread nD τ).loc b))

theorem hz1 : (![0, 0] : Fin 2 → Nat) = fun _ => 0 := funext fun a => by fin_cases a <;> rfl

/-- Slab `k` of the feature block [1, 3, 10000, 64], as the body loads it. -/
abbrev rX1_0 : Rect S1x3x10000x64 := Rect.unit (s := S1x3x10000x64) ![0, 0, 0, 0] S1x1x10000x64.size inb_S1x3x10000x64_S1x1x10000x64_0_0_0_0
abbrev rX1_1 : Rect S1x3x10000x64 := Rect.unit (s := S1x3x10000x64) ![0, 1, 0, 0] S1x1x10000x64.size inb_S1x3x10000x64_S1x1x10000x64_0_1_0_0
abbrev rX1_2 : Rect S1x3x10000x64 := Rect.unit (s := S1x3x10000x64) ![0, 2, 0, 0] S1x1x10000x64.size inb_S1x3x10000x64_S1x1x10000x64_0_2_0_0
/-- Slab `k` of the weight block [3, 64, 64], as the body loads it. -/
abbrev rW1_0 : Rect S3x64x64 := Rect.unit (s := S3x64x64) ![0, 0, 0] S1x64x64.size inb_S3x64x64_S1x64x64_0_0_0
abbrev rW1_1 : Rect S3x64x64 := Rect.unit (s := S3x64x64) ![1, 0, 0] S1x64x64.size inb_S3x64x64_S1x64x64_1_0_0
abbrev rW1_2 : Rect S3x64x64 := Rect.unit (s := S3x64x64) ![2, 0, 0] S1x64x64.size inb_S3x64x64_S1x64x64_2_0_0

/-- The affine sum of a point's three feature slabs: payload 3 at the bias block and the three slab pairs. -/
def acc1 (x0 : Vec F S1x3x10000x64 .f32) (x1 : Vec F S3x64x64 .f32) (x2 : Vec F S1x64 .f32) : FVec F S10000x64 .f32 :=
  k1_pay3 x2 (View.ld x0 rX1_0) (View.ld x1 rW1_0) (View.ld x0 rX1_1) (View.ld x1 rW1_1) (View.ld x0 rX1_2) (View.ld x1 rW1_2)

/-- CASE A's value: the body's one covering store leaves `acc1` of the input blocks. -/
theorem out1_A_3_eq (c : Dev nD) (i : grid1.Coords) (arg2 : Memref sig .tc .vmem S1x3x10000x64 .f32) (harg2 : arg2.IsWhole) (arg3 : Memref sig .tc .vmem S3x64x64 .f32) (harg3 : arg3.IsWhole) (arg4 : Memref sig .tc .vmem S1x64 .f32) (harg4 : arg4.IsWhole) (arg5 : Memref sig .tc .vmem S10000x64 .f32) (harg5 : arg5.IsWhole) (hc1 : k1_cond1 i = 1#1) (hc2 : ¬k1_cond2 i = 1#1) (hc3 : ¬k1_cond3 i = 1#1)
    (x0 : Vec F S1x3x10000x64 .f32) (x1 : Vec F S3x64x64 .f32) (x2 : Vec F S1x64 .f32) :
    out1_A_3 c i arg2 harg2 arg3 harg3 arg4 harg4 arg5 harg5 hc1 hc2 hc3 x0 x1 x2 = acc1 x0 x1 x2 := by
  unfold out1_A_3
  rw [View.read_writes_eq_canon _ _ _ (cover1_A_3 c i arg2 harg2 arg3 harg3 arg4 harg4 arg5 harg5 hc1 hc2 hc3 x0 x1 x2)]
  unfold kernelRun1_A
  dsimp only
  rw [View.canon_unit_zero (S := S10000x64) hz1]
  unfold acc1
  simp only [View.readAt_eq_ld, harg2.read_unread, harg3.read_unread, harg4.read_unread, View.ld_unit_zero (S := S1x64) hz1]

/-- CASE B's value: entered with the output's buffer at `xo3`, the body stores payload 1 of `acc1` of the input
    blocks and `xo3`, reads it back, and leaves payload 2 of it. -/
theorem out1_B_3_eq (c : Dev nD) (i : grid1.Coords) (arg2 : Memref sig .tc .vmem S1x3x10000x64 .f32) (harg2 : arg2.IsWhole) (arg3 : Memref sig .tc .vmem S3x64x64 .f32) (harg3 : arg3.IsWhole) (arg4 : Memref sig .tc .vmem S1x64 .f32) (harg4 : arg4.IsWhole) (arg5 : Memref sig .tc .vmem S10000x64 .f32) (harg5 : arg5.IsWhole) (hc1 : ¬k1_cond1 i = 1#1) (hc2 : k1_cond2 i = 1#1) (hc3 : k1_cond3 i = 1#1)
    (x0 : Vec F S1x3x10000x64 .f32) (x1 : Vec F S3x64x64 .f32) (x2 : Vec F S1x64 .f32) (xo3 : Vec F S10000x64 .f32) :
    out1_B_3 c i arg2 harg2 arg3 harg3 arg4 harg4 arg5 harg5 hc1 hc2 hc3 x0 x1 x2 xo3 = k1_pay2 (k1_pay1 (acc1 x0 x1 x2) xo3) := by
  unfold out1_B_3
  rw [View.read_writes_eq_canon _ _ _ (cover1_B_3 c i arg2 harg2 arg3 harg3 arg4 harg4 arg5 harg5 hc1 hc2 hc3 x0 x1 x2 xo3)]
  unfold kernelRun1_B
  dsimp only
  sl_unfold_words
  rw [View.canon_cons_unit_zero (S := S10000x64) hz1, View.readCov_unit_zero (S := S10000x64) _ hz1]
  unfold acc1
  simp only [View.readAt_eq_ld, harg2.read_unread, harg3.read_unread, harg4.read_unread, harg5.read_unread,
    View.ld_unit_zero (S := S1x64) hz1, View.ld_unit_zero (S := S10000x64) hz1]

/-! ## Point by point -/

/-- After an even point the output's staging buffer holds `acc1` of that point's blocks. -/
theorem outsAt1_even (c : Dev nD) (t : Fin cfg1.N) (h0 : t.val % 2 = 0) :
    outsAt1 V c t.val t.isLt = acc1 (iblk1 V c 0 t) (iblk1 V c 1 t) (iblk1 V c 2 t) := by
  rw [outsAt1_A V c t h0, out1_A_3_eq]

/-- After an odd point it holds payload 2 of payload 1 of `acc1` of that point's blocks and what the point
    before left. -/
theorem outsAt1_odd (c : Dev nD) (t : Fin cfg1.N) (h0 : ¬t.val % 2 = 0) :
    outsAt1 V c t.val t.isLt
      = k1_pay2 (k1_pay1 (acc1 (iblk1 V c 0 t) (iblk1 V c 1 t) (iblk1 V c 2 t)) (outsAt1 V c (t.val - 1) (Nat.lt_of_le_of_lt (Nat.sub_le _ _) t.isLt))) := by
  rw [outsAt1_B V c t h0, out1_B_3_eq]

/-- The same with the point before (even) read: payload 2 of payload 1 of `acc1` at the point and `acc1` at the
    point before. -/
theorem outsAt1_odd' (c : Dev nD) (t : Fin cfg1.N) (h0 : ¬t.val % 2 = 0) :
    outsAt1 V c t.val t.isLt
      = k1_pay2 (k1_pay1 (acc1 (iblk1 V c 0 t) (iblk1 V c 1 t) (iblk1 V c 2 t))
          (acc1 (iblk1 V c 0 ⟨t.val - 1, Nat.lt_of_le_of_lt (Nat.sub_le _ _) t.isLt⟩) (iblk1 V c 1 ⟨t.val - 1, Nat.lt_of_le_of_lt (Nat.sub_le _ _) t.isLt⟩) (iblk1 V c 2 ⟨t.val - 1, Nat.lt_of_le_of_lt (Nat.sub_le _ _) t.isLt⟩))) := by
  rw [outsAt1_odd V c t h0]
  have h1 : (⟨t.val - 1, Nat.lt_of_le_of_lt (Nat.sub_le _ _) t.isLt⟩ : Fin cfg1.N).val % 2 = 0 := by
    show (t.val - 1) % 2 = 0; omega
  rw [show outsAt1 V c (t.val - 1) (Nat.lt_of_le_of_lt (Nat.sub_le _ _) t.isLt)
      = outsAt1 V c (⟨t.val - 1, Nat.lt_of_le_of_lt (Nat.sub_le _ _) t.isLt⟩ : Fin cfg1.N).val
          (⟨t.val - 1, Nat.lt_of_le_of_lt (Nat.sub_le _ _) t.isLt⟩ : Fin cfg1.N).isLt from rfl,
    outsAt1_even V c _ h1]

/-- What the proof data's output window holds after each point. -/
theorem after1_3_even (c : Dev nD) (t : Fin cfg1.N) (h0 : t.val % 2 = 0) :
    (dat1 V c).after 3 t = acc1 (iblk1 V c 0 t) (iblk1 V c 1 t) (iblk1 V c 2 t) :=
  (after1_3 V c t).trans (outsAt1_even V c t h0)
theorem after1_3_odd (c : Dev nD) (t : Fin cfg1.N) (h0 : ¬t.val % 2 = 0) :
    (dat1 V c).after 3 t
      = k1_pay2 (k1_pay1 (acc1 (iblk1 V c 0 t) (iblk1 V c 1 t) (iblk1 V c 2 t))
          (acc1 (iblk1 V c 0 ⟨t.val - 1, Nat.lt_of_le_of_lt (Nat.sub_le _ _) t.isLt⟩) (iblk1 V c 1 ⟨t.val - 1, Nat.lt_of_le_of_lt (Nat.sub_le _ _) t.isLt⟩) (iblk1 V c 2 ⟨t.val - 1, Nat.lt_of_le_of_lt (Nat.sub_le _ _) t.isLt⟩))) :=
  (after1_3 V c t).trans (outsAt1_odd' V c t h0)

end Cert.KernelIdeal.Hand

end
-- ==== Proof.KValue1Pay.lean ====
/-
  Region 1's payloads read at one entry, on the extended reals. A point's accumulator acc(x0, x1, x2) at the
  entry (p, q) of the [10000, 64] block is the bias row at q plus, slab by slab (k = 0, 1, 2, in that order), the
  sum over j of the feature slab's entry (p, j) times the weight slab's entry (j, q): a matrix product into the
  zero splat is the plain sum over the one contracted coordinate; the casts that drop the leading unit axes of
  a slab re-index nothing but those axes; the bias row is laid along every row. Payload 1 adds the buffer's old
  entry and the accumulator's (old entry first); payload 2 is the leaky rectifier of the specification, entry
  by entry.
-/
import proofs.«121376_j36636071035259_2_alg».proof.Proof.KRegion1Val
import proofs.«121376_j36636071035259_2_alg».proof.Proof.Spec
import proofs.«121376_j36636071035259_2_alg».proof.Proof.LibMatmulIx
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Val1

open Cert.KernelIdeal Cert.KernelIdeal.Gen Cert.KernelIdeal.Hand
open Idealize.ShloMosaic Idealize.ShloMosaic.TcCoe Idealize.ShloMosaic.ValueIdx Idealize.SL.Sem
open Idealize.ShloMosaic.Pipeline (Dat)
open scoped BigOperators

/-! ## Layout: a cast that drops two leading unit axes, and the slabs the body loads -/

/-- A `[1, 1, a, b]` array cast to `[a, b]` reads, at `(i, j)`, the operand at `(0, 0, i, j)`. -/
theorem shapeCast_11ab_ab_apply {α : Type} {a b : ℕ} (x : (⟨4, ![1, 1, a, b]⟩ : Shape).Idx → α)
    (h : (⟨4, ![1, 1, a, b]⟩ : Shape).ShapeCasts ⟨2, ![a, b]⟩) (i : Fin a) (j : Fin b) :
    shapeCast ⟨2, ![a, b]⟩ x h (ix2 i j) = x (ix4 (0 : Fin 1) (0 : Fin 1) i j) :=
  shapeCast_apply x h _ _ (by
    rw [Shape.rowMajor_val_four, Shape.rowMajor_val_two]
    show ((0 * 1 + 0) * a + i.val) * b + j.val = i.val * b + j.val
    simp only [Nat.zero_mul, Nat.zero_add])

/-- Slab `k` of the feature block, read at `(z0, z1, p, j)`: the block at `(0, k, p, j)`. -/
theorem ldX_0 (x0 : Vec Ideal S1x3x10000x64 .f32) (z0 z1 : Fin 1) (p : Fin 10000) (j : Fin 64) :
    View.ld x0 rX1_0 (ix4 z0 z1 p j) = x0 (ix4 (0 : Fin 1) (0 : Fin 3) p j) :=
  congrArg x0 (funext fun a => Fin.ext (by
    have h0 := z0.isLt; have h1 := z1.isLt
    match a with
    | ⟨0, _⟩ => show 0 + 1 * z0.val = 0; omega
    | ⟨1, _⟩ => show 0 + 1 * z1.val = 0; omega
    | ⟨2, _⟩ => show 0 + 1 * p.val = p.val; omega
    | ⟨3, _⟩ => show 0 + 1 * j.val = j.val; omega))
theorem ldX_1 (x0 : Vec Ideal S1x3x10000x64 .f32) (z0 z1 : Fin 1) (p : Fin 10000) (j : Fin 64) :
    View.ld x0 rX1_1 (ix4 z0 z1 p j) = x0 (ix4 (0 : Fin 1) (1 : Fin 3) p j) :=
  congrArg x0 (funext fun a => Fin.ext (by
    have h0 := z0.isLt; have h1 := z1.isLt
    match a with
    | ⟨0, _⟩ => show 0 + 1 * z0.val = 0; omega
    | ⟨1, _⟩ => show 1 + 1 * z1.val = 1; omega
    | ⟨2, _⟩ => show 0 + 1 * p.val = p.val; omega
    | ⟨3, _⟩ => show 0 + 1 * j.val = j.val; omega))
theorem ldX_2 (x0 : Vec Ideal S1x3x10000x64 .f32) (z0 z1 : Fin 1) (p : Fin 10000) (j : Fin 64) :
    View.ld x0 rX1_2 (ix4 z0 z1 p j) = x0 (ix4 (0 : Fin 1) (2 : Fin 3) p j) :=
  congrArg x0 (funext fun a => Fin.ext (by
    have h0 := z0.isLt; have h1 := z1.isLt
    match a with
    | ⟨0, _⟩ => show 0 + 1 * z0.val = 0; omega
    | ⟨1, _⟩ => show 2 + 1 * z1.val = 2; omega
    | ⟨2, _⟩ => show 0 + 1 * p.val = p.val; omega
    | ⟨3, _⟩ => show 0 + 1 * j.val = j.val; omega))

/-- Slab `k` of the weight block, read at `(z, j, q)`: the block at `(k, j, q)`. -/
theorem ldW_0 (x1 : Vec Ideal S3x64x64 .f32) (z : Fin 1) (j q : Fin 64) :
    View.ld x1 rW1_0 (ix3 z j q) = x1 (ix3 (0 : Fin 3) j q) :=
  congrArg x1 (funext fun a => Fin.ext (by
    have h0 := z.isLt
    match a with
    | ⟨0, _⟩ => show 0 + 1 * z.val = 0; omega
    | ⟨1, _⟩ => show 0 + 1 * j.val = j.val; omega
    | ⟨2, _⟩ => show 0 + 1 * q.val = q.val; omega))
theorem ldW_1 (x1 : Vec Ideal S3x64x64 .f32) (z : Fin 1) (j q : Fin 64) :
    View.ld x1 rW1_1 (ix3 z j q) = x1 (ix3 (1 : Fin 3) j q) :=
  congrArg x1 (funext fun a => Fin.ext (by
    have h0 := z.isLt
    match a with
    | ⟨0, _⟩ => show 1 + 1 * z.val = 1; omega
    | ⟨1, _⟩ => show 0 + 1 * j.val = j.val; omega
    | ⟨2, _⟩ => show 0 + 1 * q.val = q.val; omega))
theorem ldW_2 (x1 : Vec Ideal S3x64x64 .f32) (z : Fin 1) (j q : Fin 64) :
    View.ld x1 rW1_2 (ix3 z j q) = x1 (ix3 (2 : Fin 3) j q) :=
  congrArg x1 (funext fun a => Fin.ext (by
    have h0 := z.isLt
    match a with
    | ⟨0, _⟩ => show 2 + 1 * z.val = 2; omega
    | ⟨1, _⟩ => show 0 + 1 * j.val = j.val; omega
    | ⟨2, _⟩ => show 0 + 1 * q.val = q.val; omega))

/-! ## The product of a feature slab with a weight slab, at an entry -/

theorem D_l0 (i : S10000x64.Idx) (k : dot_S10000x64_S64x64_S10000x64_1_0_0_1_n_n.contr.Idx) : (dot_S10000x64_S64x64_S10000x64_1_0_0_1_n_n.lhsIdx i k 0).val = (i 0).val := by
  simp [DotDims.lhsIdx, dot_S10000x64_S64x64_S10000x64_1_0_0_1_n_n]; rfl
theorem D_l1 (i : S10000x64.Idx) (k : dot_S10000x64_S64x64_S10000x64_1_0_0_1_n_n.contr.Idx) : (dot_S10000x64_S64x64_S10000x64_1_0_0_1_n_n.lhsIdx i k 1).val = (k ⟨0, by decide⟩).val := by
  simp [DotDims.lhsIdx, dot_S10000x64_S64x64_S10000x64_1_0_0_1_n_n]; rfl
theorem D_r0 (i : S10000x64.Idx) (k : dot_S10000x64_S64x64_S10000x64_1_0_0_1_n_n.contr.Idx) : (dot_S10000x64_S64x64_S10000x64_1_0_0_1_n_n.rhsIdx i k 0).val = (k ⟨0, by decide⟩).val := by
  simp [DotDims.rhsIdx, dot_S10000x64_S64x64_S10000x64_1_0_0_1_n_n]; rfl
theorem D_r1 (i : S10000x64.Idx) (k : dot_S10000x64_S64x64_S10000x64_1_0_0_1_n_n.contr.Idx) : (dot_S10000x64_S64x64_S10000x64_1_0_0_1_n_n.rhsIdx i k 1).val = (i 1).val := by
  simp [DotDims.rhsIdx, dot_S10000x64_S64x64_S10000x64_1_0_0_1_n_n]; rfl

/-- One slab product into the zero splat, at `(p, q)`: the sum over `j` of the feature slab at `(0, 0, p, j)` times
    the weight slab at `(0, j, q)`. -/
theorem slab_apply (X : Vec Ideal S1x1x10000x64 .f32) (W : Vec Ideal S1x64x64 .f32) (p : Fin 10000) (q : Fin 64) :
    matmul (φ₁ := .f32) (φ₂ := .f32) dot_S10000x64_S64x64_S10000x64_1_0_0_1_n_n none (shapeCast S10000x64 X shapeCasts_S1x1x10000x64_S10000x64)
        (shapeCast S64x64 W shapeCasts_S1x64x64_S64x64) (constant (F := Ideal) S10000x64 .f32 0x00000000#32) (ix2 p q)
      = ∑ j : Fin 64, X (ix4 (0 : Fin 1) (0 : Fin 1) p j) * W (ix3 (0 : Fin 1) j q) := by
  refine (MatmulIx.matmul_zero_ix2 (φ₁ := .f32) (φ₂ := .f32) dot_S10000x64_S64x64_S10000x64_1_0_0_1_n_n (by decide) (by decide) D_l0 D_l1 D_r0 D_r1 none
    (shapeCast S10000x64 X shapeCasts_S1x1x10000x64_S10000x64) (shapeCast S64x64 W shapeCasts_S1x64x64_S64x64) p q).trans ?_
  exact Finset.sum_congr rfl fun j _ => congrArg₂ (· * ·)
    (shapeCast_11ab_ab_apply X shapeCasts_S1x1x10000x64_S10000x64 p j)
    (shapeCast_1ab_ab_apply W shapeCasts_S1x64x64_S64x64 j q)

/-! ## The accumulator, and payloads 1 and 2, at an entry -/

/-- A point's accumulator at the entry `(p, q)` of its block, from the point's three blocks: the bias row, then the
    three slab products in turn. -/
def accBlk (x0 : Vec Ideal S1x3x10000x64 .f32) (x1 : Vec Ideal S3x64x64 .f32) (x2 : Vec Ideal S1x64 .f32)
    (p : Fin 10000) (q : Fin 64) : EReal :=
  ((x2 (ix2 (0 : Fin 1) q) + ∑ j : Fin 64, x0 (ix4 (0 : Fin 1) (0 : Fin 3) p j) * x1 (ix3 (0 : Fin 3) j q))
      + ∑ j : Fin 64, x0 (ix4 (0 : Fin 1) (1 : Fin 3) p j) * x1 (ix3 (1 : Fin 3) j q))
    + ∑ j : Fin 64, x0 (ix4 (0 : Fin 1) (2 : Fin 3) p j) * x1 (ix3 (2 : Fin 3) j q)

theorem acc1_apply (x0 : Vec Ideal S1x3x10000x64 .f32) (x1 : Vec Ideal S3x64x64 .f32) (x2 : Vec Ideal S1x64 .f32)
    (p : Fin 10000) (q : Fin 64) : acc1 x0 x1 x2 (ix2 p q) = accBlk x0 x1 x2 p q := by
  have hb : broadcastTo S10000x64 (shapeCast S1x64 x2 shapeCasts_S1x64_S1x64) broadcasts_S1x64_S10000x64 (ix2 p q)
      = x2 (ix2 (0 : Fin 1) q) :=
    (broadcastTo_1b_ab_apply (shapeCast S1x64 x2 shapeCasts_S1x64_S1x64) broadcasts_S1x64_S10000x64 p q).trans
      (congrFun (shapeCast_self x2 shapeCasts_S1x64_S1x64) _)
  have h0 := (slab_apply (View.ld x0 rX1_0) (View.ld x1 rW1_0) p q).trans
    (Finset.sum_congr rfl fun j _ => congrArg₂ (· * ·) (ldX_0 x0 0 0 p j) (ldW_0 x1 0 j q))
  have h1 := (slab_apply (View.ld x0 rX1_1) (View.ld x1 rW1_1) p q).trans
    (Finset.sum_congr rfl fun j _ => congrArg₂ (· * ·) (ldX_1 x0 0 0 p j) (ldW_1 x1 0 j q))
  have h2 := (slab_apply (View.ld x0 rX1_2) (View.ld x1 rW1_2) p q).trans
    (Finset.sum_congr rfl fun j _ => congrArg₂ (· * ·) (ldX_2 x0 0 0 p j) (ldW_2 x1 0 j q))
  unfold acc1 k1_pay3 accBlk
  exact congrArg₂ (· + ·) (congrArg₂ (· + ·) (congrArg₂ (· + ·) hb h0) h1) h2

/-- Payload 1 at an entry: the buffer's old entry plus the accumulator's. -/
theorem k1_pay1_apply (a : FVec Ideal S10000x64 .f32) (o : Vec Ideal S10000x64 .f32) (i : S10000x64.Idx) :
    k1_pay1 a o i = o i + a i := by
  unfold k1_pay1
  exact congrArg (· + a i) (congrFun (shapeCast_self o shapeCasts_S10000x64_S10000x64) i)

/-- Payload 2 at an entry: the leaky rectifier of the specification. -/
theorem k1_pay2_apply (v : Vec Ideal S10000x64 .f32) (i : S10000x64.Idx) : k1_pay2 v i = Cert.Spec.lk (v i) := by
  unfold k1_pay2
  have e : shapeCast S10000x64 v shapeCasts_S10000x64_S10000x64 = v := shapeCast_self v shapeCasts_S10000x64_S10000x64
  rw [e]
  rfl

/-- What an odd point leaves at an entry of the block, from the two points' blocks: the rectifier of the even
    point's accumulator plus the odd point's. -/
theorem odd_apply (x0 : Vec Ideal S1x3x10000x64 .f32) (x1 : Vec Ideal S3x64x64 .f32) (x2 : Vec Ideal S1x64 .f32)
    (y0 : Vec Ideal S1x3x10000x64 .f32) (y1 : Vec Ideal S3x64x64 .f32) (y2 : Vec Ideal S1x64 .f32)
    (p : Fin 10000) (q : Fin 64) :
    k1_pay2 (k1_pay1 (acc1 x0 x1 x2) (acc1 y0 y1 y2)) (ix2 p q)
      = Cert.Spec.lk (accBlk y0 y1 y2 p q + accBlk x0 x1 x2 p q) :=
  (k1_pay2_apply _ _).trans (congrArg Cert.Spec.lk
    ((k1_pay1_apply _ _ _).trans (congrArg₂ (· + ·) (acc1_apply y0 y1 y2 p q) (acc1_apply x0 x1 x2 p q))))

end Cert.KernelIdeal.Val1

end
-- ==== Proof.KValue1Blk.lean ====
/-
  Region 1's blocks in their arrays, on the extended reals, entry by entry. The [50000, 64] result is
  written back in five row tiles of 10000 nodes; tile i is written after the odd point t = 2 i + 1, and what is
  written there is, at the entry (p, q) of the block, the rectifier of the two relations' accumulators at node
  10000 i + p: the even point t - 1 reads relation 0's feature slabs of that tile, the odd point relation 1's,
  both the same weight and bias blocks. A block's entry sits in its array at block index times block size plus
  the coordinate inside the block on every axis, and the block indices are decided once over the ten points.
  Every node lies in exactly the tile n / 10000, so the written-back blocks cover the array.
-/
import proofs.«121376_j36636071035259_2_alg».proof.Proof.KValue1Pay
import Idealize.ShloMosaic.Lib.Pipeline.Value

set_option maxRecDepth 16384

noncomputable section

namespace Cert.KernelIdeal.Val1

open Cert.KernelIdeal Cert.KernelIdeal.Gen Cert.KernelIdeal.Hand
open Idealize.ShloMosaic Idealize.ShloMosaic.TcCoe Idealize.ShloMosaic.ValueIdx Idealize.SL.Sem
open Idealize.ShloMosaic.Pipeline (Dat)
open scoped BigOperators

variable (V : (c : Dev nD) → (b : Ref sig .tc) → Buf (Elt Ideal) ((c : Thread nD τ).loc b))

/-! ## Tile arithmetic (pure) -/

theorem prev_tile (tv nv pv : ℕ) (h0 : ¬tv % 2 = 0) (hn : nv = tv / 2 * 10000 + pv) : nv = (tv - 1) / 2 * 10000 + pv := by
  have h1 : (tv - 1) / 2 = tv / 2 := by omega
  rw [h1]; exact hn
theorem prev_even (tv : ℕ) (h0 : ¬tv % 2 = 0) : (tv - 1) % 2 = 0 := by omega
theorem odd_one (tv : ℕ) (h0 : ¬tv % 2 = 0) : tv % 2 = 1 := by omega
theorem node_lt (tv pv : ℕ) (ht : tv < 10) (hp : pv < 10000) : tv / 2 * 10000 + pv < 50000 := by
  have h1 : tv / 2 ≤ 4 := by omega
  have h2 : tv / 2 * 10000 ≤ 4 * 10000 := Nat.mul_le_mul_right _ h1
  omega
theorem tile_point_lt (iv : ℕ) (hi : iv < 50000) : 2 * (iv / 10000) + 1 < 10 := by omega
theorem tile_point_odd (iv : ℕ) : (2 * (iv / 10000) + 1) % 2 = 1 := by omega
theorem tile_point_half (iv : ℕ) : (2 * (iv / 10000) + 1) / 2 = iv / 10000 := by omega
theorem tile_bounds (iv : ℕ) : iv / 10000 * 10000 ≤ iv ∧ iv < iv / 10000 * 10000 + 10000 := by
  have := Nat.div_add_mod iv 10000; have := Nat.mod_lt iv (by decide : 0 < 10000); omega

/-! ## The block indices, decided over the grid -/

theorem idx_facts1 : ∀ t : Fin cfg1.N,
    win1_0.index t (0 : Fin 4) = t.val % 2 ∧ win1_0.index t (1 : Fin 4) = 0
    ∧ win1_0.index t (2 : Fin 4) = t.val / 2 ∧ win1_0.index t (3 : Fin 4) = 0
    ∧ win1_1.index t (0 : Fin 3) = 0 ∧ win1_1.index t (1 : Fin 3) = 0 ∧ win1_1.index t (2 : Fin 3) = 0
    ∧ win1_2.index t (0 : Fin 2) = 0 ∧ win1_2.index t (1 : Fin 2) = 0
    ∧ win1_3.index t (0 : Fin 2) = t.val / 2 ∧ win1_3.index t (1 : Fin 2) = 0 :=
  (by decide +kernel : ∀ t : Fin grid1.N, _)

/-! ## A block's entries in its array -/

/-- The feature block at point `t`, entry `(0, k, p, j)`: the array at relation `t % 2`, slab `k`, node
    `10000 (t / 2) + p`, column `j`. -/
theorem leafX (c : Dev nD) (t : Fin cfg1.N) (r : Fin 2) (hr : t.val % 2 = r.val) (k : Fin 3) (p : Fin 10000) (j : Fin 64)
    (n : Fin 50000) (hn : n.val = t.val / 2 * 10000 + p.val) :
    (iblk1 V c 0 t : Vec Ideal S1x3x10000x64 .f32) (ix4 (0 : Fin 1) k p j) = V c main_v108 (ix4 r k n j) := by
  obtain ⟨e0, e1, e2, e3, -⟩ := idx_facts1 t
  unfold iblk1
  rw [View.read_apply]
  show V c main_v108 _ = V c main_v108 _
  congr 1
  funext a; apply Fin.ext
  match a with
  | ⟨0, _⟩ => show win1_0.index t (0 : Fin 4) * 1 + 1 * 0 = r.val; rw [e0]; omega
  | ⟨1, _⟩ => show win1_0.index t (1 : Fin 4) * 3 + 1 * k.val = k.val; rw [e1]; omega
  | ⟨2, _⟩ => show win1_0.index t (2 : Fin 4) * 10000 + 1 * p.val = n.val; rw [e2]; omega
  | ⟨3, _⟩ => show win1_0.index t (3 : Fin 4) * 64 + 1 * j.val = j.val; rw [e3]; omega

/-- The weight block at any point is the whole weight array. -/
theorem leafW (c : Dev nD) (t : Fin cfg1.N) (k : Fin 3) (j q : Fin 64) :
    (iblk1 V c 1 t : Vec Ideal S3x64x64 .f32) (ix3 k j q) = V c main_v145 (ix3 k j q) := by
  obtain ⟨-, -, -, -, e4, e5, e6, -⟩ := idx_facts1 t
  unfold iblk1
  rw [View.read_apply]
  show V c main_v145 _ = V c main_v145 _
  congr 1
  funext a; apply Fin.ext
  match a with
  | ⟨0, _⟩ => show win1_1.index t (0 : Fin 3) * 3 + 1 * k.val = k.val; rw [e4]; omega
  | ⟨1, _⟩ => show win1_1.index t (1 : Fin 3) * 64 + 1 * j.val = j.val; rw [e5]; omega
  | ⟨2, _⟩ => show win1_1.index t (2 : Fin 3) * 64 + 1 * q.val = q.val; rw [e6]; omega

/-- The bias block at any point is the whole bias row. -/
theorem leafB (c : Dev nD) (t : Fin cfg1.N) (q : Fin 64) :
    (iblk1 V c 2 t : Vec Ideal S1x64 .f32) (ix2 (0 : Fin 1) q) = V c main_v146 (ix2 ⟨0, by decide⟩ q) := by
  obtain ⟨-, -, -, -, -, -, -, e7, e8, -⟩ := idx_facts1 t
  unfold iblk1
  rw [View.read_apply]
  show V c main_v146 _ = V c main_v146 _
  congr 1
  funext a; apply Fin.ext
  match a with
  | ⟨0, _⟩ => show win1_2.index t (0 : Fin 2) * 1 + 1 * 0 = 0; rw [e7]
  | ⟨1, _⟩ => show win1_2.index t (1 : Fin 2) * 64 + 1 * q.val = q.val; rw [e8]; omega

/-! ## A point's accumulator is the specification's, at the node its block entry names -/

theorem accBlk_eq (c : Dev nD) (t : Fin cfg1.N) (r : Fin 2) (hr : t.val % 2 = r.val) (p : Fin 10000) (q : Fin 64)
    (n : Fin 50000) (hn : n.val = t.val / 2 * 10000 + p.val) :
    accBlk (iblk1 V c 0 t) (iblk1 V c 1 t) (iblk1 V c 2 t) p q = Cert.Spec.accAt (fun k n j => V c main_v108 (ix4 r k n j)) (fun k j q => V c main_v145 (ix3 k j q)) (fun q => V c main_v146 (ix2 ⟨0, by decide⟩ q)) n q := by
  unfold accBlk Cert.Spec.accAt
  exact congrArg₂ (· + ·) (congrArg₂ (· + ·) (congrArg₂ (· + ·) (leafB V c t q)
    (Finset.sum_congr rfl fun j _ => congrArg₂ (· * ·) (leafX V c t r hr 0 p j n hn) (leafW V c t 0 j q)))
    (Finset.sum_congr rfl fun j _ => congrArg₂ (· * ·) (leafX V c t r hr 1 p j n hn) (leafW V c t 1 j q)))
    (Finset.sum_congr rfl fun j _ => congrArg₂ (· * ·) (leafX V c t r hr 2 p j n hn) (leafW V c t 2 j q))

/-- What an odd point leaves at the entry `(p, q)` of the output block: the specification's result at node
    `10000 (t / 2) + p`. -/
theorem entry_eq (c : Dev nD) (t : Fin cfg1.N) (h0 : ¬t.val % 2 = 0) (p : Fin 10000) (q : Fin 64)
    (n : Fin 50000) (hn : n.val = t.val / 2 * 10000 + p.val) :
    k1_pay2 (k1_pay1 (acc1 (iblk1 V c 0 t) (iblk1 V c 1 t) (iblk1 V c 2 t)) (acc1 (iblk1 V c 0 ⟨t.val - 1, Nat.lt_of_le_of_lt (Nat.sub_le _ _) t.isLt⟩) (iblk1 V c 1 ⟨t.val - 1, Nat.lt_of_le_of_lt (Nat.sub_le _ _) t.isLt⟩) (iblk1 V c 2 ⟨t.val - 1, Nat.lt_of_le_of_lt (Nat.sub_le _ _) t.isLt⟩))) (ix2 p q)
      = Cert.Spec.kernelAt (fun r k n j => V c main_v108 (ix4 r k n j)) (fun k j q => V c main_v145 (ix3 k j q)) (fun q => V c main_v146 (ix2 ⟨0, by decide⟩ q)) n q := by
  have hv : (⟨t.val - 1, Nat.lt_of_le_of_lt (Nat.sub_le _ _) t.isLt⟩ : Fin cfg1.N).val = t.val - 1 := rfl
  have hr0 : (⟨t.val - 1, Nat.lt_of_le_of_lt (Nat.sub_le _ _) t.isLt⟩ : Fin cfg1.N).val % 2 = (0 : Fin 2).val := by
    rw [hv]; exact prev_even t.val h0
  have hn0 : n.val = (⟨t.val - 1, Nat.lt_of_le_of_lt (Nat.sub_le _ _) t.isLt⟩ : Fin cfg1.N).val / 2 * 10000 + p.val := by
    rw [hv]; exact prev_tile t.val n.val p.val h0 hn
  have hr1 : t.val % 2 = (1 : Fin 2).val := odd_one t.val h0
  refine (odd_apply (iblk1 V c 0 t) (iblk1 V c 1 t) (iblk1 V c 2 t) (iblk1 V c 0 ⟨t.val - 1, Nat.lt_of_le_of_lt (Nat.sub_le _ _) t.isLt⟩) (iblk1 V c 1 ⟨t.val - 1, Nat.lt_of_le_of_lt (Nat.sub_le _ _) t.isLt⟩) (iblk1 V c 2 ⟨t.val - 1, Nat.lt_of_le_of_lt (Nat.sub_le _ _) t.isLt⟩) p q).trans ?_
  unfold Cert.Spec.kernelAt
  exact congrArg Cert.Spec.lk (congrArg₂ (· + ·)
    (accBlk_eq V c ⟨t.val - 1, Nat.lt_of_le_of_lt (Nat.sub_le _ _) t.isLt⟩ 0 hr0 p q n hn0)
    (accBlk_eq V c t 1 hr1 p q n hn))

/-! ## From the blocks to the array -/

/-- The result array as one function of the three operand arrays as the region finds them. -/
def G1 (c : Dev nD) : Buf (Elt Ideal) ((c : Thread nD τ).loc main_v147) := fun (i : S50000x64.Idx) =>
  Cert.Spec.kernelAt (fun r k n j => V c main_v108 (ix4 r k n j)) (fun k j q => V c main_v145 (ix3 k j q)) (fun q => V c main_v146 (ix2 ⟨0, by decide⟩ q)) (i 0) (i 1)

/-- An index of the array is in point `t`'s block iff each coordinate is in the block's range on its axis. -/
theorem mem_blk3 (t : Fin cfg1.N) (i : S50000x64.Idx) :
    i ∈ ((cfg1.win 3).blk t).view.set ↔ ∀ a : Fin 2, win1_3.index t a * S10000x64.size a ≤ (i a).val ∧ (i a).val < win1_3.index t a * S10000x64.size a + S10000x64.size a := by
  show i ∈ ((View.whole main_v147).slice (win1_3.rect t)).set ↔ _
  rw [View.set_slice_whole, Rect.mem_set_unit]
  exact Iff.rfl

/-- Every entry of the array is in the block of the odd point of its node's tile. -/
theorem cover3 (i : S50000x64.Idx) :
    ∃ t : Fin cfg1.N, (cfg1.win 3).flush t = true ∧ i ∈ ((cfg1.win 3).blk t).view.set := by
  have hi0 : (i 0).val < 50000 := (i 0).isLt
  have hi1 : (i 1).val < 64 := (i 1).isLt
  have ht : 2 * ((i 0).val / 10000) + 1 < cfg1.N := lt_of_lt_of_eq (tile_point_lt (i 0).val hi0) (show (10 : ℕ) = cfg1.N from N_1.symm)
  obtain ⟨-, -, -, -, -, -, -, -, -, e9, e10⟩ := idx_facts1 ⟨2 * ((i 0).val / 10000) + 1, ht⟩
  have e9' : win1_3.index ⟨2 * ((i 0).val / 10000) + 1, ht⟩ (0 : Fin 2) = (i 0).val / 10000 := e9.trans (tile_point_half (i 0).val)
  refine ⟨⟨2 * ((i 0).val / 10000) + 1, ht⟩, (flush1_3 _).mpr (tile_point_odd (i 0).val), ?_⟩
  rw [mem_blk3]
  intro a
  match a with
  | ⟨0, _⟩ =>
    show win1_3.index ⟨2 * ((i 0).val / 10000) + 1, ht⟩ (0 : Fin 2) * 10000 ≤ (i 0).val ∧ (i 0).val < win1_3.index ⟨2 * ((i 0).val / 10000) + 1, ht⟩ (0 : Fin 2) * 10000 + 10000
    rw [e9']; exact tile_bounds (i 0).val
  | ⟨1, _⟩ =>
    show win1_3.index ⟨2 * ((i 0).val / 10000) + 1, ht⟩ (1 : Fin 2) * 64 ≤ (i 1).val ∧ (i 1).val < win1_3.index ⟨2 * ((i 0).val / 10000) + 1, ht⟩ (1 : Fin 2) * 64 + 64
    rw [e10]; exact ⟨by rw [Nat.zero_mul]; exact Nat.zero_le _, by rw [Nat.zero_mul, Nat.zero_add]; exact hi1⟩

end Cert.KernelIdeal.Val1

end
-- ==== Proof.KValue1.lean ====
/-
  Region 1's result array after the run, on the extended reals: what each writing-back point writes back is its
  block of one function of the operand arrays (the specification's result, node by node), the written-back blocks
  cover the array, so the array ends holding that function.
-/
import proofs.«121376_j36636071035259_2_alg».proof.Proof.KValue1Blk

set_option maxRecDepth 16384

noncomputable section

namespace Cert.KernelIdeal.Val1

open Cert.KernelIdeal Cert.KernelIdeal.Gen Cert.KernelIdeal.Hand
open Idealize.ShloMosaic Idealize.ShloMosaic.TcCoe Idealize.ShloMosaic.ValueIdx Idealize.SL.Sem
open Idealize.ShloMosaic.Pipeline (Dat)
open scoped BigOperators
variable (V : (c : Dev nD) → (b : Ref sig .tc) → Buf (Elt Ideal) ((c : Thread nD τ).loc b))

/-- What a writing-back point writes back is its block of `G1`. -/
theorem flushed3_eq (c : Dev nD) (t : Fin cfg1.N) (hf : (cfg1.win 3).flush t = true) :
    (dat1 (F := Ideal) V c).flushed 3 t = ((cfg1.win 3).blk t).view.read (Elt Ideal) (G1 V c) := by
  have hodd : t.val % 2 = 1 := (flush1_3 t).mp hf
  have h0 : ¬t.val % 2 = 0 := fun h => by rw [h] at hodd; exact absurd hodd (by decide)
  have hN : t.val < 10 := lt_of_lt_of_eq t.isLt (show cfg1.N = 10 from N_1)
  obtain ⟨-, -, -, -, -, -, -, -, -, e9, e10⟩ := idx_facts1 t
  show (cfg1.win 3).cut (grid1.coords t) ((dat1 V c).after 3 t) = _
  rw [after1_3_odd V c t h0]
  funext y
  obtain ⟨p, q, rfl⟩ : ∃ (p : Fin 10000) (q : Fin 64), y = ix2 p q := ⟨y 0, y 1, eq_ix2 y⟩
  have hn : t.val / 2 * 10000 + p.val < 50000 := node_lt t.val p.val hN p.isLt
  refine (entry_eq V c t h0 p q ⟨t.val / 2 * 10000 + p.val, hn⟩ rfl).trans ?_
  show G1 V c (ix2 ⟨t.val / 2 * 10000 + p.val, hn⟩ q) = G1 V c (((cfg1.win 3).blk t).view.emb (ix2 p q))
  refine congrArg (G1 V c) ?_
  funext a; apply Fin.ext
  match a with
  | ⟨0, _⟩ =>
    show t.val / 2 * 10000 + p.val = win1_3.index t (0 : Fin 2) * 10000 + 1 * p.val
    rw [e9, Nat.one_mul]
  | ⟨1, _⟩ =>
    show q.val = win1_3.index t (1 : Fin 2) * 64 + 1 * q.val
    rw [e10, Nat.zero_mul, Nat.zero_add, Nat.one_mul]

/-- THE ARRAY after the run. -/
theorem final3 (c : Dev nD) : (dat1 (F := Ideal) V c).arrAt 3 cfg1.N = G1 V c :=
  (dat1 (F := Ideal) V c).arrAt_eq_of_cover 3 (G1 V c) (fun t hf => flushed3_eq V c t hf) (fun i => cover3 i)

/-- Entry by entry: node `n`, column `q` of the result is the specification's `kernelAt` of the three operand arrays as
    the region finds them. -/
theorem arr1_eq (c : Dev nD) (n : Fin 50000) (q : Fin 64) :
    (dat1 (F := Ideal) V c).arrAt 3 cfg1.N (ix2 n q) = Cert.Spec.kernelAt (fun r k n j => V c main_v108 (ix4 r k n j)) (fun k j q => V c main_v145 (ix3 k j q)) (fun q => V c main_v146 (ix2 ⟨0, by decide⟩ q)) n q :=
  congrFun (final3 V c) (ix2 n q)

end Cert.KernelIdeal.Val1

end
-- ==== Proof.LibNary3.lean ====
/- The result of an n-ary host operation over a LITERAL family of three references (a concatenate of three
   operands): each operand's contents at its own reference, so that the operands' contents can be rewritten further. -/
import Idealize.ShloMosaic.Lib.StableHlo.Run

noncomputable section

namespace Cert.ReferenceIdeal.RefRun

open Idealize.ShloMosaic Idealize.ShloMosaic.StableHlo

variable {τ : Topo} {sig : RefSig} {Val : EltTy → Type} {x a b y : Ref sig .tc}

/-- `nary` over the literal family `![x, a, b]`: the result buffer holds `f` of the three operands' contents, each read
    at its own reference (`Fin.cons` at the literals `0, 1, 2` in place of `fun k => F ↑(![x, a, b] k)`). -/
theorem nary3_result
    (f : ((k : Fin 3) → ((![x, a, b] : Fin 3 → Ref sig .tc) k).ty.Contents Val) → y.ty.Contents Val) (hxs hy)
    (F : Valuation τ sig Val) :
    (nary (τ := τ) ![x, a, b] y f hxs hy).result F (Proc.devRef .tc y)
      = f (Fin.cons (F (Proc.devRef .tc x)) (Fin.cons (F (Proc.devRef .tc a)) (Fin.cons (F (Proc.devRef .tc b)) (fun i => i.elim0)))) := by
  rw [nary_result]; congr 1; funext k; fin_cases k <;> rfl

/-- The same with the result reference un-indexed, for rewriting. -/
theorem nary3_result'
    (f : ((k : Fin 3) → ((![x, a, b] : Fin 3 → Ref sig .tc) k).ty.Contents Val) → y.ty.Contents Val) (hxs hy)
    (F : Valuation τ sig Val) :
    (nary (τ := τ) ![x, a, b] y f hxs hy).result F (no_index (Proc.devRef .tc y))
      = f (Fin.cons (F (Proc.devRef .tc x)) (Fin.cons (F (Proc.devRef .tc a)) (Fin.cons (F (Proc.devRef .tc b)) (fun i => i.elim0)))) :=
  nary3_result f hxs hy F

/-- The fold of a literal line at a reference, in one rewriting pass: each operation's result at its own result buffer is
    its function's value, at any other reference what was there (the references' inequalities decided); a three-operand
    `nary` reads each operand at its own reference. -/
macro "after_results_simp3" : tactic =>
  `(tactic| (simp (disch := decide) only [after_cons, after_nil,
      nullary_result', unary_result', binary_result', ternary_result', quaternary_result', reshape_result', nary3_result',
      nullary_result_ne', unary_result_ne', binary_result_ne', ternary_result_ne', quaternary_result_ne', reshape_result_ne',
      nary_result_ne']))

end Cert.ReferenceIdeal.RefRun

end
-- ==== Proof.KValue1Host.lean ====
/-
  The host operations that build region 1's operands, read entry by entry on the extended reals, over ANY
  contents U of the buffers they start from. The feature operand [2, 3, 50000, 64] is two relations laid side by
  side, each relation three feature matrices laid side by side (two concatenations on a new leading axis); the
  weight operand [3, 64, 64] is three 64 x 64 matrices laid side by side, each the specification's folded weight:
  a zero splat plus three scalar multiples of the three 64-row blocks of the 192 x 64 weight matrix, the scalars
  the words of the specification's coefficient table; the bias operand is the bias vector with a leading unit
  axis. A concatenation along a leading axis of unit-extent pieces reads, at leading coordinate k, piece k; a
  broadcast that adds a leading unit axis reads the operand at the remaining coordinates.
-/
import proofs.«121376_j36636071035259_2_alg».proof.Proof.Gen.KernelIdeal.Launch
import proofs.«121376_j36636071035259_2_alg».proof.Proof.Spec
import proofs.«121376_j36636071035259_2_alg».proof.Proof.LibNary3
import proofs.«121376_j36636071035259_2_alg».proof.Proof.LibStretch
import Idealize.ShloMosaic.Lib.StableHlo.Run
import Idealize.ShloMosaic.Lib.Pipeline.Value
import Idealize.ShloMosaic.Lib.ValueIdx
import Idealize.ShloMosaic.Lib.ValueLayout
import Idealize.ShloMosaic.Lib.IdealHost

set_option maxRecDepth 16384

noncomputable section

namespace Cert.KernelIdeal.Val1

open Cert.KernelIdeal Cert.KernelIdeal.Gen
open Idealize.ShloMosaic Idealize.ShloMosaic.TcCoe Idealize.ShloMosaic.ValueIdx Idealize.ShloMosaic.StableHlo
open Cert.ReferenceIdeal.RefRun
open scoped BigOperators

/-! ## Layout readers -/

section Layout
variable {α : Type}

/-- A family over three literal positions given entry by entry reads back its entries. -/
theorem cons3_0 {β : Fin 3 → Type} (a : β 0) (p : (i : Fin 2) → β i.succ) : (Fin.cons a p : (i : Fin 3) → β i) 0 = a := rfl
theorem cons3_1 {β : Fin 3 → Type} (a : β 0) (b : β 1) (p : (i : Fin 1) → β i.succ.succ) :
    (Fin.cons a (Fin.cons (α := fun i : Fin 2 => β i.succ) b p) : (i : Fin 3) → β i) 1 = b := rfl
theorem cons3_2 {β : Fin 3 → Type} (a : β 0) (b : β 1) (c : β 2) (p : (i : Fin 0) → β i.succ.succ.succ) :
    (Fin.cons a (Fin.cons (α := fun i : Fin 2 => β i.succ) b (Fin.cons (α := fun i : Fin 1 => β i.succ.succ) c p)) : (i : Fin 3) → β i) 2 = c := rfl

/-- Three `[1, a, b]` pieces laid along a new leading axis: at leading coordinate 0, 1, 2 the first, second, third piece. -/
theorem concat3_0 {a b : ℕ} (x0 x1 x2 : (⟨3, ![1, a, b]⟩ : Shape).Idx → α)
    (h : Shape.Concatenates [(⟨3, ![1, a, b]⟩ : Shape), ⟨3, ![1, a, b]⟩, ⟨3, ![1, a, b]⟩] ⟨3, ![3, a, b]⟩ 0) (i : Fin a) (j : Fin b) :
    concatenate ⟨3, ![3, a, b]⟩ 0 [⟨⟨3, ![1, a, b]⟩, x0⟩, ⟨⟨3, ![1, a, b]⟩, x1⟩, ⟨⟨3, ![1, a, b]⟩, x2⟩] h (ix3 (0 : Fin 3) i j)
      = x0 (ix3 (0 : Fin 1) i j) :=
  concatenate_apply_piece 0 [⟨⟨3, ![1, a, b]⟩, x0⟩, ⟨⟨3, ![1, a, b]⟩, x1⟩, ⟨⟨3, ![1, a, b]⟩, x2⟩] h _ 0 (Nat.succ_pos _) _ x0 rfl rfl 0 (by first | rfl | simp) (ix3 (0 : Fin 1) i j)
    (fun b' hb => by match b' with | ⟨0, _⟩ => exact absurd rfl hb | ⟨1, _⟩ => rfl | ⟨2, _⟩ => rfl) rfl
theorem concat3_1 {a b : ℕ} (x0 x1 x2 : (⟨3, ![1, a, b]⟩ : Shape).Idx → α)
    (h : Shape.Concatenates [(⟨3, ![1, a, b]⟩ : Shape), ⟨3, ![1, a, b]⟩, ⟨3, ![1, a, b]⟩] ⟨3, ![3, a, b]⟩ 0) (i : Fin a) (j : Fin b) :
    concatenate ⟨3, ![3, a, b]⟩ 0 [⟨⟨3, ![1, a, b]⟩, x0⟩, ⟨⟨3, ![1, a, b]⟩, x1⟩, ⟨⟨3, ![1, a, b]⟩, x2⟩] h (ix3 (1 : Fin 3) i j)
      = x1 (ix3 (0 : Fin 1) i j) :=
  concatenate_apply_piece 0 [⟨⟨3, ![1, a, b]⟩, x0⟩, ⟨⟨3, ![1, a, b]⟩, x1⟩, ⟨⟨3, ![1, a, b]⟩, x2⟩] h _ 1 (Nat.succ_lt_succ (Nat.succ_pos _)) _ x1 rfl rfl 1 (by first | rfl | simp) (ix3 (0 : Fin 1) i j)
    (fun b' hb => by match b' with | ⟨0, _⟩ => exact absurd rfl hb | ⟨1, _⟩ => rfl | ⟨2, _⟩ => rfl) rfl
theorem concat3_2 {a b : ℕ} (x0 x1 x2 : (⟨3, ![1, a, b]⟩ : Shape).Idx → α)
    (h : Shape.Concatenates [(⟨3, ![1, a, b]⟩ : Shape), ⟨3, ![1, a, b]⟩, ⟨3, ![1, a, b]⟩] ⟨3, ![3, a, b]⟩ 0) (i : Fin a) (j : Fin b) :
    concatenate ⟨3, ![3, a, b]⟩ 0 [⟨⟨3, ![1, a, b]⟩, x0⟩, ⟨⟨3, ![1, a, b]⟩, x1⟩, ⟨⟨3, ![1, a, b]⟩, x2⟩] h (ix3 (2 : Fin 3) i j)
      = x2 (ix3 (0 : Fin 1) i j) :=
  concatenate_apply_piece 0 [⟨⟨3, ![1, a, b]⟩, x0⟩, ⟨⟨3, ![1, a, b]⟩, x1⟩, ⟨⟨3, ![1, a, b]⟩, x2⟩] h _ 2 (Nat.succ_lt_succ (Nat.succ_lt_succ (Nat.succ_pos _))) _ x2 rfl rfl 2 (by first | rfl | simp) (ix3 (0 : Fin 1) i j)
    (fun b' hb => by match b' with | ⟨0, _⟩ => exact absurd rfl hb | ⟨1, _⟩ => rfl | ⟨2, _⟩ => rfl) rfl

/-- Two `[1, m, a, b]` pieces laid along a new leading axis. -/
theorem concat2_0 {m a b : ℕ} (x0 x1 : (⟨4, ![1, m, a, b]⟩ : Shape).Idx → α)
    (h : Shape.Concatenates [(⟨4, ![1, m, a, b]⟩ : Shape), ⟨4, ![1, m, a, b]⟩] ⟨4, ![2, m, a, b]⟩ 0) (k : Fin m) (i : Fin a) (j : Fin b) :
    concatenate ⟨4, ![2, m, a, b]⟩ 0 [⟨⟨4, ![1, m, a, b]⟩, x0⟩, ⟨⟨4, ![1, m, a, b]⟩, x1⟩] h (ix4 (0 : Fin 2) k i j)
      = x0 (ix4 (0 : Fin 1) k i j) :=
  concatenate_apply_piece 0 [⟨⟨4, ![1, m, a, b]⟩, x0⟩, ⟨⟨4, ![1, m, a, b]⟩, x1⟩] h _ 0 (Nat.succ_pos _) _ x0 rfl rfl 0 (by first | rfl | simp) (ix4 (0 : Fin 1) k i j)
    (fun b' hb => by match b' with | ⟨0, _⟩ => exact absurd rfl hb | ⟨1, _⟩ => rfl | ⟨2, _⟩ => rfl | ⟨3, _⟩ => rfl) rfl
theorem concat2_1 {m a b : ℕ} (x0 x1 : (⟨4, ![1, m, a, b]⟩ : Shape).Idx → α)
    (h : Shape.Concatenates [(⟨4, ![1, m, a, b]⟩ : Shape), ⟨4, ![1, m, a, b]⟩] ⟨4, ![2, m, a, b]⟩ 0) (k : Fin m) (i : Fin a) (j : Fin b) :
    concatenate ⟨4, ![2, m, a, b]⟩ 0 [⟨⟨4, ![1, m, a, b]⟩, x0⟩, ⟨⟨4, ![1, m, a, b]⟩, x1⟩] h (ix4 (1 : Fin 2) k i j)
      = x1 (ix4 (0 : Fin 1) k i j) :=
  concatenate_apply_piece 0 [⟨⟨4, ![1, m, a, b]⟩, x0⟩, ⟨⟨4, ![1, m, a, b]⟩, x1⟩] h _ 1 (Nat.succ_lt_succ (Nat.succ_pos _)) _ x1 rfl rfl 1 (by first | rfl | simp) (ix4 (0 : Fin 1) k i j)
    (fun b' hb => by match b' with | ⟨0, _⟩ => exact absurd rfl hb | ⟨1, _⟩ => rfl | ⟨2, _⟩ => rfl | ⟨3, _⟩ => rfl) rfl

/-- An `[a, b]` array broadcast to `[1, a, b]` along the trailing axes reads, at `(z, i, j)`, the operand at `(i, j)`. -/
theorem bcast_ab_1ab {a b : ℕ} (ha : a ≠ 1) (hb : b ≠ 1) (x : (⟨2, ![a, b]⟩ : Shape).Idx → α)
    (h : (⟨2, ![a, b]⟩ : Shape).BroadcastsInDim ⟨3, ![1, a, b]⟩ ![1, 2]) (z : Fin 1) (i : Fin a) (j : Fin b) :
    broadcastInDim ⟨3, ![1, a, b]⟩ ![1, 2] h x (ix3 z i j) = x (ix2 i j) := by
  refine broadcastInDim_apply _ h x _ _ fun ax => ?_
  match ax with
  | ⟨0, _⟩ => show i.val = if a = 1 then 0 else i.val; rw [if_neg ha]
  | ⟨1, _⟩ => show j.val = if b = 1 then 0 else j.val; rw [if_neg hb]

/-- An `[m, a, b]` array broadcast to `[1, m, a, b]` along the trailing axes reads, at `(z, k, i, j)`, the operand at `(k, i, j)`. -/
theorem bcast_mab_1mab {m a b : ℕ} (hm : m ≠ 1) (ha : a ≠ 1) (hb : b ≠ 1) (x : (⟨3, ![m, a, b]⟩ : Shape).Idx → α)
    (h : (⟨3, ![m, a, b]⟩ : Shape).BroadcastsInDim ⟨4, ![1, m, a, b]⟩ ![1, 2, 3]) (z : Fin 1) (k : Fin m) (i : Fin a) (j : Fin b) :
    broadcastInDim ⟨4, ![1, m, a, b]⟩ ![1, 2, 3] h x (ix4 z k i j) = x (ix3 k i j) := by
  refine broadcastInDim_apply _ h x _ _ fun ax => ?_
  match ax with
  | ⟨0, _⟩ => show k.val = if m = 1 then 0 else k.val; rw [if_neg hm]
  | ⟨1, _⟩ => show i.val = if a = 1 then 0 else i.val; rw [if_neg ha]
  | ⟨2, _⟩ => show j.val = if b = 1 then 0 else j.val; rw [if_neg hb]

end Layout

/-! ## The bias operand -/

/-- The bias operand's one row is the bias vector. -/
theorem after_v146 (U : Valuation τ sig (Elt Ideal)) (q : Fin 64) :
    StableHlo.after (main_part2_ops0 (F := Ideal)) U (Proc.devRef .tc main_v146) (ix2 (⟨0, by decide⟩ : Fin 1) q)
      = U (Proc.devRef .tc main_arg15) (ix1 q) := by
  unfold main_part2_ops0
  after_results_simp3
  exact shapeCast_a_1a_apply _ _ _ q

/-! ## One relation's three feature matrices laid side by side -/

theorem after_v61_0 (U : Valuation τ sig (Elt Ideal)) (n : Fin 50000) (j : Fin 64) :
    StableHlo.after (main_part1_ops0 (F := Ideal)) U (Proc.devRef .tc main_v61) (ix3 (0 : Fin 3) n j)
      = U (Proc.devRef .tc main_v19) (ix2 n j) := by
  unfold main_part1_ops0
  after_results_simp3
  refine (concat3_0 _ _ _ _ n j).trans ?_
  show broadcastInDim (s := S50000x64) S1x50000x64 ![1, 2] bcast_S50000x64_S1x50000x64_1_2 _ (ix3 (0 : Fin 1) n j) = _
  exact bcast_ab_1ab (by decide) (by decide) _ bcast_S50000x64_S1x50000x64_1_2 0 n j
theorem after_v61_1 (U : Valuation τ sig (Elt Ideal)) (n : Fin 50000) (j : Fin 64) :
    StableHlo.after (main_part1_ops0 (F := Ideal)) U (Proc.devRef .tc main_v61) (ix3 (1 : Fin 3) n j)
      = U (Proc.devRef .tc main_v42) (ix2 n j) := by
  unfold main_part1_ops0
  after_results_simp3
  refine (concat3_1 _ _ _ _ n j).trans ?_
  show broadcastInDim (s := S50000x64) S1x50000x64 ![1, 2] bcast_S50000x64_S1x50000x64_1_2 _ (ix3 (0 : Fin 1) n j) = _
  exact bcast_ab_1ab (by decide) (by decide) _ bcast_S50000x64_S1x50000x64_1_2 0 n j
/-- The third matrix is written inside this stretch: the stretch is read in two parts, the contents after the first
    (which ends with the operation that writes the third matrix) standing as they are. -/
theorem after_v61_2 (U : Valuation τ sig (Elt Ideal)) (n : Fin 50000) (j : Fin 64) :
    StableHlo.after (main_part1_ops0 (F := Ideal)) U (Proc.devRef .tc main_v61) (ix3 (2 : Fin 3) n j)
      = StableHlo.after (main_part1_ops0 (F := Ideal)) U (Proc.devRef .tc main_v57) (ix2 n j) := by
  rw [← List.take_append_drop 8 (main_part1_ops0 (F := Ideal)), Cert.Stretch.after_append]
  generalize StableHlo.after (List.take 8 (main_part1_ops0 (F := Ideal))) U = U'
  unfold main_part1_ops0
  simp only [List.drop_succ_cons, List.drop_zero]
  after_results_simp3
  refine (concat3_2 _ _ _ _ n j).trans ?_
  exact bcast_ab_1ab (by decide) (by decide) (U' (Proc.devRef .tc main_v57)) bcast_S50000x64_S1x50000x64_1_2 0 n j

/-! ## The feature operand: the two relations laid side by side -/

/-- Relation 0's slabs are the first relation's three matrices as this stretch finds them. -/
theorem after_v108_0 (U : Valuation τ sig (Elt Ideal)) (k : Fin 3) (n : Fin 50000) (j : Fin 64) :
    StableHlo.after (main_part2_ops0 (F := Ideal)) U (Proc.devRef .tc main_v108) (ix4 (0 : Fin 2) k n j)
      = U (Proc.devRef .tc main_v61) (ix3 k n j) := by
  unfold main_part2_ops0
  after_results_simp3
  refine (concat2_0 _ _ _ k n j).trans ?_
  exact bcast_mab_1mab (by decide) (by decide) (by decide) _ bcast_S3x50000x64_S1x3x50000x64_1_2_3 0 k n j
/-- Relation 1's slabs: its hidden features, their first Laplacian image, and the second (written in this stretch). -/
theorem after_v108_1_0 (U : Valuation τ sig (Elt Ideal)) (n : Fin 50000) (j : Fin 64) :
    StableHlo.after (main_part2_ops0 (F := Ideal)) U (Proc.devRef .tc main_v108) (ix4 (1 : Fin 2) (0 : Fin 3) n j)
      = U (Proc.devRef .tc main_v63) (ix2 n j) := by
  unfold main_part2_ops0
  after_results_simp3
  refine (concat2_1 _ _ _ (0 : Fin 3) n j).trans ?_
  refine (bcast_mab_1mab (by decide) (by decide) (by decide) _ bcast_S3x50000x64_S1x3x50000x64_1_2_3 0 (0 : Fin 3) n j).trans ?_
  refine (concat3_0 _ _ _ _ n j).trans ?_
  show broadcastInDim (s := S50000x64) S1x50000x64 ![1, 2] bcast_S50000x64_S1x50000x64_1_2 _ (ix3 (0 : Fin 1) n j) = _
  exact bcast_ab_1ab (by decide) (by decide) _ bcast_S50000x64_S1x50000x64_1_2 0 n j
theorem after_v108_1_1 (U : Valuation τ sig (Elt Ideal)) (n : Fin 50000) (j : Fin 64) :
    StableHlo.after (main_part2_ops0 (F := Ideal)) U (Proc.devRef .tc main_v108) (ix4 (1 : Fin 2) (1 : Fin 3) n j)
      = U (Proc.devRef .tc main_v86) (ix2 n j) := by
  unfold main_part2_ops0
  after_results_simp3
  refine (concat2_1 _ _ _ (1 : Fin 3) n j).trans ?_
  refine (bcast_mab_1mab (by decide) (by decide) (by decide) _ bcast_S3x50000x64_S1x3x50000x64_1_2_3 0 (1 : Fin 3) n j).trans ?_
  refine (concat3_1 _ _ _ _ n j).trans ?_
  show broadcastInDim (s := S50000x64) S1x50000x64 ![1, 2] bcast_S50000x64_S1x50000x64_1_2 _ (ix3 (0 : Fin 1) n j) = _
  exact bcast_ab_1ab (by decide) (by decide) _ bcast_S50000x64_S1x50000x64_1_2 0 n j
theorem after_v108_1_2 (U : Valuation τ sig (Elt Ideal)) (n : Fin 50000) (j : Fin 64) :
    StableHlo.after (main_part2_ops0 (F := Ideal)) U (Proc.devRef .tc main_v108) (ix4 (1 : Fin 2) (2 : Fin 3) n j)
      = StableHlo.after (main_part2_ops0 (F := Ideal)) U (Proc.devRef .tc main_v101) (ix2 n j) := by
  unfold main_part2_ops0
  after_results_simp3
  refine (concat2_1 _ _ _ (2 : Fin 3) n j).trans ?_
  refine (bcast_mab_1mab (by decide) (by decide) (by decide) _ bcast_S3x50000x64_S1x3x50000x64_1_2_3 0 (2 : Fin 3) n j).trans ?_
  refine (concat3_2 _ _ _ _ n j).trans ?_
  exact bcast_ab_1ab (by decide) (by decide) (subf (F := Ideal) (s := S50000x64) (φ := .f32) (U (Proc.devRef .tc main_v86)) (mulf (F := Ideal) (s := S50000x64) (φ := .f32) (U (Proc.devRef .tc main_v98)) (U (Proc.devRef .tc main_v99)))) bcast_S50000x64_S1x50000x64_1_2 0 n j

/-! ## The weight operand: the specification's folded weights -/

/-- One folded weight as the host computes it: the zero splat plus three scalar multiples of the three 64-row blocks. -/
abbrev weffTerm (W : Vec Ideal S192x64 .f32) (z w0 w1 w2 : BitVec 32) : Vec Ideal S64x64 .f32 :=
  addf (addf (addf (broadcastInDim S64x64 ![] bcast_S_S64x64 (constant (F := Ideal) S_ .f32 z))
      (mulf (broadcastInDim S64x64 ![] bcast_S_S64x64 (constant (F := Ideal) S_ .f32 w0)) (extractStridedSlice S64x64 ![0, 0] W slices_S192x64_S64x64_0_0)))
      (mulf (broadcastInDim S64x64 ![] bcast_S_S64x64 (constant (F := Ideal) S_ .f32 w1)) (extractStridedSlice S64x64 ![64, 0] W slices_S192x64_S64x64_64_0)))
      (mulf (broadcastInDim S64x64 ![] bcast_S_S64x64 (constant (F := Ideal) S_ .f32 w2)) (extractStridedSlice S64x64 ![128, 0] W slices_S192x64_S64x64_128_0))

/-- It reads, at an entry, the zero word plus the three scalar multiples of the three blocks' entries. -/
theorem weff_chain (W : Vec Ideal S192x64 .f32) (z w0 w1 w2 : BitVec 32) (j q : Fin 64) :
    weffTerm W z w0 w1 w2 (ix2 j q)
      = ((Ideal.ofBits .f32 z + Ideal.ofBits .f32 w0 * W (ix2 (Cert.Spec.row192 0 j) q)) + Ideal.ofBits .f32 w1 * W (ix2 (Cert.Spec.row192 1 j) q))
          + Ideal.ofBits .f32 w2 * W (ix2 (Cert.Spec.row192 2 j) q) := by
  have hc : ∀ w : BitVec 32, (broadcastInDim S64x64 ![] bcast_S_S64x64 (constant (F := Ideal) S_ .f32 w)) (ix2 j q) = Ideal.ofBits .f32 w :=
    fun w => broadcastInDim_scalar_apply bcast_S_S64x64 _ (ix2 j q)
  have hs0 : extractStridedSlice S64x64 ![0, 0] W slices_S192x64_S64x64_0_0 (ix2 j q) = W (ix2 (Cert.Spec.row192 0 j) q) :=
    extractStridedSlice_apply _ W _ _ _ (fun a => by
      match a with
      | ⟨0, _⟩ => show 64 * 0 + j.val = 0 + j.val; omega
      | ⟨1, _⟩ => show q.val = 0 + q.val; omega)
  have hs1 : extractStridedSlice S64x64 ![64, 0] W slices_S192x64_S64x64_64_0 (ix2 j q) = W (ix2 (Cert.Spec.row192 1 j) q) :=
    extractStridedSlice_apply _ W _ _ _ (fun a => by
      match a with
      | ⟨0, _⟩ => show 64 * 1 + j.val = 64 + j.val; omega
      | ⟨1, _⟩ => show q.val = 0 + q.val; omega)
  have hs2 : extractStridedSlice S64x64 ![128, 0] W slices_S192x64_S64x64_128_0 (ix2 j q) = W (ix2 (Cert.Spec.row192 2 j) q) :=
    extractStridedSlice_apply _ W _ _ _ (fun a => by
      match a with
      | ⟨0, _⟩ => show 64 * 2 + j.val = 128 + j.val; omega
      | ⟨1, _⟩ => show q.val = 0 + q.val; omega)
  exact congrArg₂ (· + ·) (congrArg₂ (· + ·) (congrArg₂ (· + ·) (hc z) (congrArg₂ (· * ·) (hc w0) hs0)) (congrArg₂ (· * ·) (hc w1) hs1)) (congrArg₂ (· * ·) (hc w2) hs2)

theorem after_v145_0 (U : Valuation τ sig (Elt Ideal)) (j q : Fin 64) :
    StableHlo.after (main_part2_ops0 (F := Ideal)) U (Proc.devRef .tc main_v145) (ix3 (0 : Fin 3) j q)
      = Cert.Spec.weffAt (fun c q => U (Proc.devRef .tc main_arg14) (ix2 c q)) 0 j q := by
  unfold main_part2_ops0
  after_results_simp3
  refine (concat3_0 _ _ _ _ j q).trans ?_
  refine (bcast_ab_1ab (by decide) (by decide) (weffTerm (U (Proc.devRef .tc main_arg14)) 0x00000000#32 0x40400000#32 0x00000000#32 0x00000000#32) bcast_S64x64_S1x64x64_1_2 0 j q).trans ?_
  exact weff_chain (U (Proc.devRef .tc main_arg14)) 0x00000000#32 0x40400000#32 0x00000000#32 0x00000000#32 j q
theorem after_v145_1 (U : Valuation τ sig (Elt Ideal)) (j q : Fin 64) :
    StableHlo.after (main_part2_ops0 (F := Ideal)) U (Proc.devRef .tc main_v145) (ix3 (1 : Fin 3) j q)
      = Cert.Spec.weffAt (fun c q => U (Proc.devRef .tc main_arg14) (ix2 c q)) 1 j q := by
  unfold main_part2_ops0
  after_results_simp3
  refine (concat3_1 _ _ _ _ j q).trans ?_
  refine (bcast_ab_1ab (by decide) (by decide) (weffTerm (U (Proc.devRef .tc main_arg14)) 0x00000000#32 0xC0400000#32 0x40400000#32 0x00000000#32) bcast_S64x64_S1x64x64_1_2 0 j q).trans ?_
  exact weff_chain (U (Proc.devRef .tc main_arg14)) 0x00000000#32 0xC0400000#32 0x40400000#32 0x00000000#32 j q
theorem after_v145_2 (U : Valuation τ sig (Elt Ideal)) (j q : Fin 64) :
    StableHlo.after (main_part2_ops0 (F := Ideal)) U (Proc.devRef .tc main_v145) (ix3 (2 : Fin 3) j q)
      = Cert.Spec.weffAt (fun c q => U (Proc.devRef .tc main_arg14) (ix2 c q)) 2 j q := by
  unfold main_part2_ops0
  after_results_simp3
  refine (concat3_2 _ _ _ _ j q).trans ?_
  refine (bcast_ab_1ab (by decide) (by decide) (weffTerm (U (Proc.devRef .tc main_arg14)) 0x00000000#32 0x3F400000#32 0xBFC00000#32 0x3F400000#32) bcast_S64x64_S1x64x64_1_2 0 j q).trans ?_
  exact weff_chain (U (Proc.devRef .tc main_arg14)) 0x00000000#32 0x3F400000#32 0xBFC00000#32 0x3F400000#32 j q

end Cert.KernelIdeal.Val1

end
-- ==== Proof.RefValueDefs.lean ====
/- The reference program's whole-array terms, named: the edge-index columns, the degree and its inverse square root, one
   graph-Laplacian step, the two-layer perceptron with the leaky rectifier, a Bernstein basis polynomial's mix of three
   feature arrays, the three mixes laid side by side, one relation's branch and the whole result. Every constant word and
   every shape fact is the one the program's operations carry. -/
import proofs.«121376_j36636071035259_2_alg».proof.Proof.Gen.ReferenceIdeal
import Idealize.ShloMosaic.Lib.StableHlo.Run

noncomputable section

namespace Cert.ReferenceIdeal.Val

open Cert.ReferenceIdeal Cert.ReferenceIdeal.Gen Idealize.ShloMosaic Idealize.ShloMosaic.TcCoe Idealize.SL.Sem Idealize.ShloMosaic.StableHlo

variable {F : FTy → Type} [FloatOps F]

/-- The source column: a negative word moved up by 50000, then the index as a one-column array. -/
def srcCol (src : IVec S800000 32) : IVec S800000x1 32 := broadcastInDim S800000x1 ![0] bcast_S800000_S800000x1_0 (select (cmpi .slt src (broadcastInDim S800000 ![] bcast_S_S800000 (constantI S_ 32 0#32))) (addi src (broadcastInDim S800000 ![] bcast_S_S800000 (constantI S_ 32 50000#32))) src)

/-- The destination column: the index as a one-column array. -/
def dstCol (dst : IVec S800000 32) : IVec S800000x1 32 := broadcastInDim S800000x1 ![0] bcast_S800000_S800000x1_0 dst

/-- The degree: ones added up by destination over zeros. -/
def degree (dst : IVec S800000 32) : FVec F S50000 .f32 := Host.scatterAdd scatter_S50000_S800000x1_S800000_n_0_0_1 (broadcastInDim S50000 ![] bcast_S_S50000 (constant S_ .f32 0x00000000#32)) (dstCol dst) (broadcastInDim S800000 ![] bcast_S_S800000 (constant S_ .f32 0x3F800000#32))

/-- max(deg, 1) to the power −1/2, as a column. -/
def dinv (deg : FVec F S50000 .f32) : FVec F S50000x1 .f32 := broadcastInDim S50000x1 ![0] bcast_S50000_S50000x1_0 (Host.powf (maximumf (broadcastInDim S50000 ![] bcast_S_S50000 (constant S_ .f32 0x3F800000#32 : FVec F S_ .f32)) deg) (broadcastInDim S50000 ![] bcast_S_S50000 (constant S_ .f32 0xBF000000#32)))

/-- One Laplacian step: f − (scatter-add by destination of the gathered rows of f·d)·d. -/
def step (f : FVec F S50000x64 .f32) (d : FVec F S50000x1 .f32) (src dst : IVec S800000 32) : FVec F S50000x64 .f32 := subf f (mulf (Host.scatterAdd scatter_S50000x64_S800000x1_S800000x64_1_0_0_1 (broadcastInDim S50000x64 ![] bcast_S_S50000x64 (constant S_ .f32 0x00000000#32)) (dstCol dst) (Host.gather gather_S50000x64_S800000x1_S800000x64_1_0_n_n_0_1_164 (mulf f (broadcastInDim S50000x64 ![0, 1] bcast_S50000x1_S50000x64_0_1 d)) (srcCol src))) (broadcastInDim S50000x64 ![0, 1] bcast_S50000x1_S50000x64_0_1 d))

/-- A scalar word on every element of a 50000 × 64 array. -/
def bc64 (w : BitVec 32) : FVec F S50000x64 .f32 := broadcastInDim S50000x64 ![] bcast_S_S50000x64 (constant S_ .f32 w)

/-- A column on every one of the 64 columns. -/
def bcD (d : FVec F S50000x1 .f32) : FVec F S50000x64 .f32 := broadcastInDim S50000x64 ![0, 1] bcast_S50000x1_S50000x64_0_1 d

/-- A bias vector on every one of the 50000 rows. -/
def bias (b : FVec F S64 .f32) : FVec F S50000x64 .f32 := broadcastInDim S50000x64 ![0, 1] bcast_S1x64_S50000x64_0_1 (broadcastInDim S1x64 ![1] bcast_S64_S1x64_1 b)

/-- The leaky rectifier, element by element: z where z ≥ 0, the slope word times z elsewhere. -/
def leaky (z : FVec F S50000x64 .f32) : FVec F S50000x64 .f32 := select (cmpf .oge z (bc64 0x00000000#32)) z (mulf (bc64 0x3C23D70A#32) z)

/-- A dense layer on 128 input columns. -/
def dense128 (x : FVec F S50000x128 .f32) (W : FVec F S128x64 .f32) (b : FVec F S64 .f32) : FVec F S50000x64 .f32 :=
  addf (Host.dotGeneral dot_S50000x128_S128x64_S50000x64_1_0_0_1_n_n none x W) (bias b)

/-- A dense layer on 64 input columns. -/
def dense64 (x : FVec F S50000x64 .f32) (W : FVec F S64x64 .f32) (b : FVec F S64 .f32) : FVec F S50000x64 .f32 :=
  addf (Host.dotGeneral dot_S50000x64_S64x64_S50000x64_1_0_0_1_n_n none x W) (bias b)

/-- The two-layer perceptron. -/
def mlp (x : FVec F S50000x128 .f32) (W1 : FVec F S128x64 .f32) (b1 : FVec F S64 .f32) (W2 : FVec F S64x64 .f32) (b2 : FVec F S64 .f32) :
    FVec F S50000x64 .f32 := leaky (dense64 (leaky (dense128 x W1 b1)) W2 b2)

/-- The selected source words before they are laid out as a column. -/
def srcSel (src : IVec S800000 32) : IVec S800000 32 := select (cmpi .slt src (broadcastInDim S800000 ![] bcast_S_S800000 (constantI S_ 32 0#32))) (addi src (broadcastInDim S800000 ![] bcast_S_S800000 (constantI S_ 32 50000#32))) src

/-- The gathered rows of f·d: the first half of a step. -/
def gat (f : FVec F S50000x64 .f32) (d : FVec F S50000x1 .f32) (src : IVec S800000 32) : FVec F S800000x64 .f32 :=
  Host.gather gather_S50000x64_S800000x1_S800000x64_1_0_n_n_0_1_164 (mulf f (bcD d)) (srcCol src)

/-- The second half of a step, from the gathered rows. -/
def sca (f : FVec F S50000x64 .f32) (d : FVec F S50000x1 .f32) (dst : IVec S800000 32) (g : FVec F S800000x64 .f32) : FVec F S50000x64 .f32 :=
  subf f (mulf (Host.scatterAdd scatter_S50000x64_S800000x1_S800000x64_1_0_0_1 (bc64 0x00000000#32) (dstCol dst) g) (bcD d))

theorem srcCol_eq (src : IVec S800000 32) : srcCol src = broadcastInDim S800000x1 ![0] bcast_S800000_S800000x1_0 (srcSel src) := rfl
theorem step_eq (f : FVec F S50000x64 .f32) (d : FVec F S50000x1 .f32) (src dst : IVec S800000 32) : step f d src dst = sca f d dst (gat f d src) := rfl

/-- A basis polynomial's mix of the three feature arrays: (t0·H + t1·f1) + t2·f2. -/
def poly (t0 t1 t2 : BitVec 32) (H f1 f2 : FVec F S50000x64 .f32) : FVec F S50000x64 .f32 :=
  addf (addf (mulf (bc64 t0) H) (mulf (bc64 t1) f1)) (mulf (bc64 t2) f2)

/-- Three 64-column arrays laid side by side. -/
def cat3 (a b c : FVec F S50000x64 .f32) : FVec F S50000x192 .f32 :=
  concatenate S50000x192 1 [⟨S50000x64, a⟩, ⟨S50000x64, b⟩, ⟨S50000x64, c⟩] concatenates_S50000x64_S50000x64_S50000x64_S50000x192_d1

/-- The 192-column product with the shared weights, plus the bias. -/
def dense192 (x : FVec F S50000x192 .f32) (W : FVec F S192x64 .f32) (b : FVec F S64 .f32) : FVec F S50000x64 .f32 :=
  addf (Host.dotGeneral dot_S50000x192_S192x64_S50000x64_1_0_0_1_n_n none x W) (bias b)

/-- The three mixes of a relation's features H, f1 = step H, f2 = step f1, laid side by side. -/
def mixed (H : FVec F S50000x64 .f32) (D : FVec F S50000x1 .f32) (src dst : IVec S800000 32) : FVec F S50000x192 .f32 :=
  cat3 (poly 0x40400000#32 0xC0400000#32 0x3F400000#32 H (step H D src dst) (step (step H D src dst) D src dst))
    (poly 0x00000000#32 0x40400000#32 0xBFC00000#32 H (step H D src dst) (step (step H D src dst) D src dst))
    (poly 0x00000000#32 0x00000000#32 0x3F400000#32 H (step H D src dst) (step (step H D src dst) D src dst))

/-- One relation's branch. -/
def branch (H : FVec F S50000x64 .f32) (D : FVec F S50000x1 .f32) (src dst : IVec S800000 32) (W3 : FVec F S192x64 .f32) (b3 : FVec F S64 .f32) :
    FVec F S50000x64 .f32 := dense192 (mixed H D src dst) W3 b3

/-- The reference's result from the two relations' hidden features, degree columns and edge lists. -/
def refArr (H0 : FVec F S50000x64 .f32) (D0 : FVec F S50000x1 .f32) (src0 dst0 : IVec S800000 32)
    (H1 : FVec F S50000x64 .f32) (D1 : FVec F S50000x1 .f32) (src1 dst1 : IVec S800000 32) (W3 : FVec F S192x64 .f32) (b3 : FVec F S64 .f32) :
    FVec F S50000x64 .f32 := leaky (addf (branch H0 D0 src0 dst0 W3 b3) (branch H1 D1 src1 dst1 W3 b3))

end Cert.ReferenceIdeal.Val

end
-- ==== Proof.RefValueW0.lean ====
/- The reference's window 0 read at the buffers later windows read: relation 0's hidden features, the inverse-square-root degree
   column, the first Laplacian image, the first two terms of the first basis polynomial, and the gathered rows of the second step. -/
import proofs.«121376_j36636071035259_2_alg».proof.Proof.RefRun
import proofs.«121376_j36636071035259_2_alg».proof.Proof.RefValueDefs

noncomputable section

namespace Cert.ReferenceIdeal.Val

open Cert.ReferenceIdeal Cert.ReferenceIdeal.Gen Idealize.ShloMosaic Idealize.ShloMosaic.TcCoe Idealize.SL.Sem Idealize.ShloMosaic.StableHlo

variable {F : FTy → Type} [FloatOps F]

open Cert.ReferenceIdeal.RefRun
set_option maxRecDepth 8192 in
set_option maxHeartbeats 4000000 in
theorem w0_v9 (V : Valuation τ sig (Elt F)) :
    after ops0 V (Proc.devRef .tc main_v9) = (mlp (V (Proc.devRef .tc main_arg0)) (V (Proc.devRef .tc main_arg6)) (V (Proc.devRef .tc main_arg7)) (V (Proc.devRef .tc main_arg8)) (V (Proc.devRef .tc main_arg9))) := by
  simp (disch := decide) only [after_cons, after_nil, nullary_result', unary_result', binary_result', ternary_result', nullary_result_ne', unary_result_ne', binary_result_ne', ternary_result_ne', nary_result_ne'] <;> rfl

set_option maxRecDepth 8192 in
set_option maxHeartbeats 4000000 in
theorem w0_v17 (V : Valuation τ sig (Elt F)) :
    after ops0 V (Proc.devRef .tc main_v17) = (dinv (degree (V (Proc.devRef .tc main_arg3)))) := by
  simp (disch := decide) only [after_cons, after_nil, nullary_result', unary_result', binary_result', ternary_result', nullary_result_ne', unary_result_ne', binary_result_ne', ternary_result_ne', nary_result_ne'] <;> rfl

set_option maxRecDepth 8192 in
set_option maxHeartbeats 4000000 in
theorem w0_v34 (V : Valuation τ sig (Elt F)) :
    after ops0 V (Proc.devRef .tc main_v34) = (step (mlp (V (Proc.devRef .tc main_arg0)) (V (Proc.devRef .tc main_arg6)) (V (Proc.devRef .tc main_arg7)) (V (Proc.devRef .tc main_arg8)) (V (Proc.devRef .tc main_arg9))) (dinv (degree (V (Proc.devRef .tc main_arg3)))) (V (Proc.devRef .tc main_arg2)) (V (Proc.devRef .tc main_arg3))) := by
  simp (disch := decide) only [after_cons, after_nil, nullary_result', unary_result', binary_result', ternary_result', nullary_result_ne', unary_result_ne', binary_result_ne', ternary_result_ne', nary_result_ne'] <;> rfl

set_option maxRecDepth 8192 in
set_option maxHeartbeats 4000000 in
theorem w0_v37 (V : Valuation τ sig (Elt F)) :
    after ops0 V (Proc.devRef .tc main_v37) = addf (mulf (bc64 0x40400000#32) (mlp (V (Proc.devRef .tc main_arg0)) (V (Proc.devRef .tc main_arg6)) (V (Proc.devRef .tc main_arg7)) (V (Proc.devRef .tc main_arg8)) (V (Proc.devRef .tc main_arg9)))) (mulf (bc64 0xC0400000#32) (step (mlp (V (Proc.devRef .tc main_arg0)) (V (Proc.devRef .tc main_arg6)) (V (Proc.devRef .tc main_arg7)) (V (Proc.devRef .tc main_arg8)) (V (Proc.devRef .tc main_arg9))) (dinv (degree (V (Proc.devRef .tc main_arg3)))) (V (Proc.devRef .tc main_arg2)) (V (Proc.devRef .tc main_arg3)))) := by
  simp (disch := decide) only [after_cons, after_nil, nullary_result', unary_result', binary_result', ternary_result', nullary_result_ne', unary_result_ne', binary_result_ne', ternary_result_ne', nary_result_ne'] <;> rfl

set_option maxRecDepth 8192 in
set_option maxHeartbeats 4000000 in
theorem w0_v46 (V : Valuation τ sig (Elt F)) :
    after ops0 V (Proc.devRef .tc main_v46) = gat (step (mlp (V (Proc.devRef .tc main_arg0)) (V (Proc.devRef .tc main_arg6)) (V (Proc.devRef .tc main_arg7)) (V (Proc.devRef .tc main_arg8)) (V (Proc.devRef .tc main_arg9))) (dinv (degree (V (Proc.devRef .tc main_arg3)))) (V (Proc.devRef .tc main_arg2)) (V (Proc.devRef .tc main_arg3))) (dinv (degree (V (Proc.devRef .tc main_arg3)))) (V (Proc.devRef .tc main_arg2)) := by
  simp (disch := decide) only [after_cons, after_nil, nullary_result', unary_result', binary_result', ternary_result', nullary_result_ne', unary_result_ne', binary_result_ne', ternary_result_ne', nary_result_ne'] <;> rfl

theorem w0_arg0 (V : Valuation τ sig (Elt F)) : after ops0 V (Proc.devRef .tc main_arg0) = V (Proc.devRef .tc main_arg0) :=
  RefRun.after_arg RefRun.ops0_writes V (by decide)
theorem w0_arg1 (V : Valuation τ sig (Elt F)) : after ops0 V (Proc.devRef .tc main_arg1) = V (Proc.devRef .tc main_arg1) :=
  RefRun.after_arg RefRun.ops0_writes V (by decide)
theorem w0_arg2 (V : Valuation τ sig (Elt F)) : after ops0 V (Proc.devRef .tc main_arg2) = V (Proc.devRef .tc main_arg2) :=
  RefRun.after_arg RefRun.ops0_writes V (by decide)
theorem w0_arg3 (V : Valuation τ sig (Elt F)) : after ops0 V (Proc.devRef .tc main_arg3) = V (Proc.devRef .tc main_arg3) :=
  RefRun.after_arg RefRun.ops0_writes V (by decide)
theorem w0_arg4 (V : Valuation τ sig (Elt F)) : after ops0 V (Proc.devRef .tc main_arg4) = V (Proc.devRef .tc main_arg4) :=
  RefRun.after_arg RefRun.ops0_writes V (by decide)
theorem w0_arg5 (V : Valuation τ sig (Elt F)) : after ops0 V (Proc.devRef .tc main_arg5) = V (Proc.devRef .tc main_arg5) :=
  RefRun.after_arg RefRun.ops0_writes V (by decide)
theorem w0_arg6 (V : Valuation τ sig (Elt F)) : after ops0 V (Proc.devRef .tc main_arg6) = V (Proc.devRef .tc main_arg6) :=
  RefRun.after_arg RefRun.ops0_writes V (by decide)
theorem w0_arg7 (V : Valuation τ sig (Elt F)) : after ops0 V (Proc.devRef .tc main_arg7) = V (Proc.devRef .tc main_arg7) :=
  RefRun.after_arg RefRun.ops0_writes V (by decide)
theorem w0_arg8 (V : Valuation τ sig (Elt F)) : after ops0 V (Proc.devRef .tc main_arg8) = V (Proc.devRef .tc main_arg8) :=
  RefRun.after_arg RefRun.ops0_writes V (by decide)
theorem w0_arg9 (V : Valuation τ sig (Elt F)) : after ops0 V (Proc.devRef .tc main_arg9) = V (Proc.devRef .tc main_arg9) :=
  RefRun.after_arg RefRun.ops0_writes V (by decide)
theorem w0_arg10 (V : Valuation τ sig (Elt F)) : after ops0 V (Proc.devRef .tc main_arg10) = V (Proc.devRef .tc main_arg10) :=
  RefRun.after_arg RefRun.ops0_writes V (by decide)
theorem w0_arg11 (V : Valuation τ sig (Elt F)) : after ops0 V (Proc.devRef .tc main_arg11) = V (Proc.devRef .tc main_arg11) :=
  RefRun.after_arg RefRun.ops0_writes V (by decide)
theorem w0_arg12 (V : Valuation τ sig (Elt F)) : after ops0 V (Proc.devRef .tc main_arg12) = V (Proc.devRef .tc main_arg12) :=
  RefRun.after_arg RefRun.ops0_writes V (by decide)
theorem w0_arg13 (V : Valuation τ sig (Elt F)) : after ops0 V (Proc.devRef .tc main_arg13) = V (Proc.devRef .tc main_arg13) :=
  RefRun.after_arg RefRun.ops0_writes V (by decide)
theorem w0_arg14 (V : Valuation τ sig (Elt F)) : after ops0 V (Proc.devRef .tc main_arg14) = V (Proc.devRef .tc main_arg14) :=
  RefRun.after_arg RefRun.ops0_writes V (by decide)
theorem w0_arg15 (V : Valuation τ sig (Elt F)) : after ops0 V (Proc.devRef .tc main_arg15) = V (Proc.devRef .tc main_arg15) :=
  RefRun.after_arg RefRun.ops0_writes V (by decide)
end Cert.ReferenceIdeal.Val

end
-- ==== Proof.RefValueW1.lean ====
/- The reference's window 1 read at the buffers later windows read: the first basis polynomial's mix completed, the second
   polynomial's mix, a zero array; relation 0's hidden features and degree column pass through. -/
import proofs.«121376_j36636071035259_2_alg».proof.Proof.RefRun
import proofs.«121376_j36636071035259_2_alg».proof.Proof.RefValueDefs

noncomputable section

namespace Cert.ReferenceIdeal.Val

open Cert.ReferenceIdeal Cert.ReferenceIdeal.Gen Idealize.ShloMosaic Idealize.ShloMosaic.TcCoe Idealize.SL.Sem Idealize.ShloMosaic.StableHlo

variable {F : FTy → Type} [FloatOps F]

open Cert.ReferenceIdeal.RefRun
set_option maxRecDepth 8192 in
set_option maxHeartbeats 4000000 in
theorem w1_keep_v9 (V : Valuation τ sig (Elt F)) :
    after ops1 V (Proc.devRef .tc main_v9) = (V (Proc.devRef .tc main_v9)) := by
  simp (disch := decide) only [after_cons, after_nil, nullary_result', unary_result', binary_result', ternary_result', nullary_result_ne', unary_result_ne', binary_result_ne', ternary_result_ne', nary_result_ne'] <;> rfl

set_option maxRecDepth 8192 in
set_option maxHeartbeats 4000000 in
theorem w1_keep_v17 (V : Valuation τ sig (Elt F)) :
    after ops1 V (Proc.devRef .tc main_v17) = (V (Proc.devRef .tc main_v17)) := by
  simp (disch := decide) only [after_cons, after_nil, nullary_result', unary_result', binary_result', ternary_result', nullary_result_ne', unary_result_ne', binary_result_ne', ternary_result_ne', nary_result_ne'] <;> rfl

set_option maxRecDepth 8192 in
set_option maxHeartbeats 4000000 in
theorem w1_v55 (V : Valuation τ sig (Elt F)) :
    after ops1 V (Proc.devRef .tc main_v55) = addf (V (Proc.devRef .tc main_v37)) (mulf (bc64 0x3F400000#32) (sca (V (Proc.devRef .tc main_v34)) (V (Proc.devRef .tc main_v17)) (V (Proc.devRef .tc main_arg3)) (V (Proc.devRef .tc main_v46)))) := by
  simp (disch := decide) only [after_cons, after_nil, nullary_result', unary_result', binary_result', ternary_result', nullary_result_ne', unary_result_ne', binary_result_ne', ternary_result_ne', nary_result_ne'] <;> rfl

set_option maxRecDepth 8192 in
set_option maxHeartbeats 4000000 in
theorem w1_v93 (V : Valuation τ sig (Elt F)) :
    after ops1 V (Proc.devRef .tc main_v93) = poly 0x00000000#32 0x40400000#32 0xBFC00000#32 (V (Proc.devRef .tc main_v9)) (step (V (Proc.devRef .tc main_v9)) (V (Proc.devRef .tc main_v17)) (V (Proc.devRef .tc main_arg2)) (V (Proc.devRef .tc main_arg3))) (step (step (V (Proc.devRef .tc main_v9)) (V (Proc.devRef .tc main_v17)) (V (Proc.devRef .tc main_arg2)) (V (Proc.devRef .tc main_arg3))) (V (Proc.devRef .tc main_v17)) (V (Proc.devRef .tc main_arg2)) (V (Proc.devRef .tc main_arg3))) := by
  simp (disch := decide) only [after_cons, after_nil, nullary_result', unary_result', binary_result', ternary_result', nullary_result_ne', unary_result_ne', binary_result_ne', ternary_result_ne', nary_result_ne'] <;> rfl

set_option maxRecDepth 8192 in
set_option maxHeartbeats 4000000 in
theorem w1_v94 (V : Valuation τ sig (Elt F)) :
    after ops1 V (Proc.devRef .tc main_v94) = bc64 0x00000000#32 := by
  simp (disch := decide) only [after_cons, after_nil, nullary_result', unary_result', binary_result', ternary_result', nullary_result_ne', unary_result_ne', binary_result_ne', ternary_result_ne', nary_result_ne'] <;> rfl

theorem w1_arg0 (V : Valuation τ sig (Elt F)) : after ops1 V (Proc.devRef .tc main_arg0) = V (Proc.devRef .tc main_arg0) :=
  RefRun.after_arg RefRun.ops1_writes V (by decide)
theorem w1_arg1 (V : Valuation τ sig (Elt F)) : after ops1 V (Proc.devRef .tc main_arg1) = V (Proc.devRef .tc main_arg1) :=
  RefRun.after_arg RefRun.ops1_writes V (by decide)
theorem w1_arg2 (V : Valuation τ sig (Elt F)) : after ops1 V (Proc.devRef .tc main_arg2) = V (Proc.devRef .tc main_arg2) :=
  RefRun.after_arg RefRun.ops1_writes V (by decide)
theorem w1_arg3 (V : Valuation τ sig (Elt F)) : after ops1 V (Proc.devRef .tc main_arg3) = V (Proc.devRef .tc main_arg3) :=
  RefRun.after_arg RefRun.ops1_writes V (by decide)
theorem w1_arg4 (V : Valuation τ sig (Elt F)) : after ops1 V (Proc.devRef .tc main_arg4) = V (Proc.devRef .tc main_arg4) :=
  RefRun.after_arg RefRun.ops1_writes V (by decide)
theorem w1_arg5 (V : Valuation τ sig (Elt F)) : after ops1 V (Proc.devRef .tc main_arg5) = V (Proc.devRef .tc main_arg5) :=
  RefRun.after_arg RefRun.ops1_writes V (by decide)
theorem w1_arg6 (V : Valuation τ sig (Elt F)) : after ops1 V (Proc.devRef .tc main_arg6) = V (Proc.devRef .tc main_arg6) :=
  RefRun.after_arg RefRun.ops1_writes V (by decide)
theorem w1_arg7 (V : Valuation τ sig (Elt F)) : after ops1 V (Proc.devRef .tc main_arg7) = V (Proc.devRef .tc main_arg7) :=
  RefRun.after_arg RefRun.ops1_writes V (by decide)
theorem w1_arg8 (V : Valuation τ sig (Elt F)) : after ops1 V (Proc.devRef .tc main_arg8) = V (Proc.devRef .tc main_arg8) :=
  RefRun.after_arg RefRun.ops1_writes V (by decide)
theorem w1_arg9 (V : Valuation τ sig (Elt F)) : after ops1 V (Proc.devRef .tc main_arg9) = V (Proc.devRef .tc main_arg9) :=
  RefRun.after_arg RefRun.ops1_writes V (by decide)
theorem w1_arg10 (V : Valuation τ sig (Elt F)) : after ops1 V (Proc.devRef .tc main_arg10) = V (Proc.devRef .tc main_arg10) :=
  RefRun.after_arg RefRun.ops1_writes V (by decide)
theorem w1_arg11 (V : Valuation τ sig (Elt F)) : after ops1 V (Proc.devRef .tc main_arg11) = V (Proc.devRef .tc main_arg11) :=
  RefRun.after_arg RefRun.ops1_writes V (by decide)
theorem w1_arg12 (V : Valuation τ sig (Elt F)) : after ops1 V (Proc.devRef .tc main_arg12) = V (Proc.devRef .tc main_arg12) :=
  RefRun.after_arg RefRun.ops1_writes V (by decide)
theorem w1_arg13 (V : Valuation τ sig (Elt F)) : after ops1 V (Proc.devRef .tc main_arg13) = V (Proc.devRef .tc main_arg13) :=
  RefRun.after_arg RefRun.ops1_writes V (by decide)
theorem w1_arg14 (V : Valuation τ sig (Elt F)) : after ops1 V (Proc.devRef .tc main_arg14) = V (Proc.devRef .tc main_arg14) :=
  RefRun.after_arg RefRun.ops1_writes V (by decide)
theorem w1_arg15 (V : Valuation τ sig (Elt F)) : after ops1 V (Proc.devRef .tc main_arg15) = V (Proc.devRef .tc main_arg15) :=
  RefRun.after_arg RefRun.ops1_writes V (by decide)
end Cert.ReferenceIdeal.Val

end
-- ==== Proof.RefValueW2.lean ====
/- The reference's window 2 read at the buffers later windows read: relation 0's branch (the third polynomial's mix, the three
   mixes side by side, the 192-column product and its bias) and relation 1's second dense layer before its rectifier. -/
import proofs.«121376_j36636071035259_2_alg».proof.Proof.RefRun
import proofs.«121376_j36636071035259_2_alg».proof.Proof.RefValueDefs

noncomputable section

namespace Cert.ReferenceIdeal.Val

open Cert.ReferenceIdeal Cert.ReferenceIdeal.Gen Idealize.ShloMosaic Idealize.ShloMosaic.TcCoe Idealize.SL.Sem Idealize.ShloMosaic.StableHlo

variable {F : FTy → Type} [FloatOps F]

open Cert.ReferenceIdeal.RefRun
/-- The three-operand concatenate's result buffer holds the three operands' contents laid side by side. -/
theorem v132_result' (G : Valuation τ sig (Elt F)) (hxs hy) :
    (nary (τ := τ) ![main_v55, main_v93, main_v131] main_v132 (fun u => concatenate S50000x192 1 [⟨S50000x64, u 0⟩, ⟨S50000x64, u 1⟩, ⟨S50000x64, u 2⟩] concatenates_S50000x64_S50000x64_S50000x64_S50000x192_d1) hxs hy).result G (no_index (Proc.devRef .tc main_v132))
      = cat3 (G (Proc.devRef .tc main_v55)) (G (Proc.devRef .tc main_v93)) (G (Proc.devRef .tc main_v131)) := by
  rw [nary_result]; rfl

set_option maxRecDepth 8192 in
set_option maxHeartbeats 4000000 in
theorem w2_v136 (V : Valuation τ sig (Elt F)) :
    after ops2 V (Proc.devRef .tc main_v136) = dense192 (cat3 (V (Proc.devRef .tc main_v55)) (V (Proc.devRef .tc main_v93)) (addf (addf (mulf (V (Proc.devRef .tc main_v94)) (V (Proc.devRef .tc main_v9))) (mulf (bc64 0x00000000#32) (step (V (Proc.devRef .tc main_v9)) (V (Proc.devRef .tc main_v17)) (V (Proc.devRef .tc main_arg2)) (V (Proc.devRef .tc main_arg3))))) (mulf (bc64 0x3F400000#32) (step (step (V (Proc.devRef .tc main_v9)) (V (Proc.devRef .tc main_v17)) (V (Proc.devRef .tc main_arg2)) (V (Proc.devRef .tc main_arg3))) (V (Proc.devRef .tc main_v17)) (V (Proc.devRef .tc main_arg2)) (V (Proc.devRef .tc main_arg3)))))) (V (Proc.devRef .tc main_arg14)) (V (Proc.devRef .tc main_arg15)) := by
  simp (disch := decide) only [after_cons, after_nil, v132_result', nullary_result', unary_result', binary_result', ternary_result', nullary_result_ne', unary_result_ne', binary_result_ne', ternary_result_ne', nary_result_ne'] <;> rfl

set_option maxRecDepth 8192 in
set_option maxHeartbeats 4000000 in
theorem w2_v145 (V : Valuation τ sig (Elt F)) :
    after ops2 V (Proc.devRef .tc main_v145) = dense64 (leaky (dense128 (V (Proc.devRef .tc main_arg1)) (V (Proc.devRef .tc main_arg10)) (V (Proc.devRef .tc main_arg11)))) (V (Proc.devRef .tc main_arg12)) (V (Proc.devRef .tc main_arg13)) := by
  simp (disch := decide) only [after_cons, after_nil, v132_result', nullary_result', unary_result', binary_result', ternary_result', nullary_result_ne', unary_result_ne', binary_result_ne', ternary_result_ne', nary_result_ne'] <;> rfl

theorem w2_arg0 (V : Valuation τ sig (Elt F)) : after ops2 V (Proc.devRef .tc main_arg0) = V (Proc.devRef .tc main_arg0) :=
  RefRun.after_arg RefRun.ops2_writes V (by decide)
theorem w2_arg1 (V : Valuation τ sig (Elt F)) : after ops2 V (Proc.devRef .tc main_arg1) = V (Proc.devRef .tc main_arg1) :=
  RefRun.after_arg RefRun.ops2_writes V (by decide)
theorem w2_arg2 (V : Valuation τ sig (Elt F)) : after ops2 V (Proc.devRef .tc main_arg2) = V (Proc.devRef .tc main_arg2) :=
  RefRun.after_arg RefRun.ops2_writes V (by decide)
theorem w2_arg3 (V : Valuation τ sig (Elt F)) : after ops2 V (Proc.devRef .tc main_arg3) = V (Proc.devRef .tc main_arg3) :=
  RefRun.after_arg RefRun.ops2_writes V (by decide)
theorem w2_arg4 (V : Valuation τ sig (Elt F)) : after ops2 V (Proc.devRef .tc main_arg4) = V (Proc.devRef .tc main_arg4) :=
  RefRun.after_arg RefRun.ops2_writes V (by decide)
theorem w2_arg5 (V : Valuation τ sig (Elt F)) : after ops2 V (Proc.devRef .tc main_arg5) = V (Proc.devRef .tc main_arg5) :=
  RefRun.after_arg RefRun.ops2_writes V (by decide)
theorem w2_arg6 (V : Valuation τ sig (Elt F)) : after ops2 V (Proc.devRef .tc main_arg6) = V (Proc.devRef .tc main_arg6) :=
  RefRun.after_arg RefRun.ops2_writes V (by decide)
theorem w2_arg7 (V : Valuation τ sig (Elt F)) : after ops2 V (Proc.devRef .tc main_arg7) = V (Proc.devRef .tc main_arg7) :=
  RefRun.after_arg RefRun.ops2_writes V (by decide)
theorem w2_arg8 (V : Valuation τ sig (Elt F)) : after ops2 V (Proc.devRef .tc main_arg8) = V (Proc.devRef .tc main_arg8) :=
  RefRun.after_arg RefRun.ops2_writes V (by decide)
theorem w2_arg9 (V : Valuation τ sig (Elt F)) : after ops2 V (Proc.devRef .tc main_arg9) = V (Proc.devRef .tc main_arg9) :=
  RefRun.after_arg RefRun.ops2_writes V (by decide)
theorem w2_arg10 (V : Valuation τ sig (Elt F)) : after ops2 V (Proc.devRef .tc main_arg10) = V (Proc.devRef .tc main_arg10) :=
  RefRun.after_arg RefRun.ops2_writes V (by decide)
theorem w2_arg11 (V : Valuation τ sig (Elt F)) : after ops2 V (Proc.devRef .tc main_arg11) = V (Proc.devRef .tc main_arg11) :=
  RefRun.after_arg RefRun.ops2_writes V (by decide)
theorem w2_arg12 (V : Valuation τ sig (Elt F)) : after ops2 V (Proc.devRef .tc main_arg12) = V (Proc.devRef .tc main_arg12) :=
  RefRun.after_arg RefRun.ops2_writes V (by decide)
theorem w2_arg13 (V : Valuation τ sig (Elt F)) : after ops2 V (Proc.devRef .tc main_arg13) = V (Proc.devRef .tc main_arg13) :=
  RefRun.after_arg RefRun.ops2_writes V (by decide)
theorem w2_arg14 (V : Valuation τ sig (Elt F)) : after ops2 V (Proc.devRef .tc main_arg14) = V (Proc.devRef .tc main_arg14) :=
  RefRun.after_arg RefRun.ops2_writes V (by decide)
theorem w2_arg15 (V : Valuation τ sig (Elt F)) : after ops2 V (Proc.devRef .tc main_arg15) = V (Proc.devRef .tc main_arg15) :=
  RefRun.after_arg RefRun.ops2_writes V (by decide)
set_option maxRecDepth 8192 in
set_option maxHeartbeats 4000000 in
theorem w2_keep_v9 (V : Valuation τ sig (Elt F)) :
    after ops2 V (Proc.devRef .tc main_v9) = (V (Proc.devRef .tc main_v9)) := by
  simp (disch := decide) only [after_cons, after_nil, v132_result', nullary_result', unary_result', binary_result', ternary_result', nullary_result_ne', unary_result_ne', binary_result_ne', ternary_result_ne', nary_result_ne'] <;> rfl

end Cert.ReferenceIdeal.Val

end
-- ==== Proof.RefValueW3.lean ====
/- The reference's window 3 read at the buffers later windows read: relation 1's hidden features and degree column, the first
   two terms and the third term of its first basis polynomial; relation 0's branch passes through. -/
import proofs.«121376_j36636071035259_2_alg».proof.Proof.RefRun
import proofs.«121376_j36636071035259_2_alg».proof.Proof.RefValueDefs

noncomputable section

namespace Cert.ReferenceIdeal.Val

open Cert.ReferenceIdeal Cert.ReferenceIdeal.Gen Idealize.ShloMosaic Idealize.ShloMosaic.TcCoe Idealize.SL.Sem Idealize.ShloMosaic.StableHlo

variable {F : FTy → Type} [FloatOps F]

open Cert.ReferenceIdeal.RefRun
set_option maxRecDepth 8192 in
set_option maxHeartbeats 4000000 in
theorem w3_keep_v136 (V : Valuation τ sig (Elt F)) :
    after ops3 V (Proc.devRef .tc main_v136) = (V (Proc.devRef .tc main_v136)) := by
  simp (disch := decide) only [after_cons, after_nil, nullary_result', unary_result', binary_result', ternary_result', nullary_result_ne', unary_result_ne', binary_result_ne', ternary_result_ne', nary_result_ne'] <;> rfl

set_option maxRecDepth 8192 in
set_option maxHeartbeats 4000000 in
theorem w3_v146 (V : Valuation τ sig (Elt F)) :
    after ops3 V (Proc.devRef .tc main_v146) = (leaky (V (Proc.devRef .tc main_v145))) := by
  simp (disch := decide) only [after_cons, after_nil, nullary_result', unary_result', binary_result', ternary_result', nullary_result_ne', unary_result_ne', binary_result_ne', ternary_result_ne', nary_result_ne'] <;> rfl

set_option maxRecDepth 8192 in
set_option maxHeartbeats 4000000 in
theorem w3_v154 (V : Valuation τ sig (Elt F)) :
    after ops3 V (Proc.devRef .tc main_v154) = (dinv (degree (V (Proc.devRef .tc main_arg5)))) := by
  simp (disch := decide) only [after_cons, after_nil, nullary_result', unary_result', binary_result', ternary_result', nullary_result_ne', unary_result_ne', binary_result_ne', ternary_result_ne', nary_result_ne'] <;> rfl

set_option maxRecDepth 8192 in
set_option maxHeartbeats 4000000 in
theorem w3_v174 (V : Valuation τ sig (Elt F)) :
    after ops3 V (Proc.devRef .tc main_v174) = addf (mulf (bc64 0x40400000#32) (leaky (V (Proc.devRef .tc main_v145)))) (mulf (bc64 0xC0400000#32) (step (leaky (V (Proc.devRef .tc main_v145))) (dinv (degree (V (Proc.devRef .tc main_arg5)))) (V (Proc.devRef .tc main_arg4)) (V (Proc.devRef .tc main_arg5)))) := by
  simp (disch := decide) only [after_cons, after_nil, nullary_result', unary_result', binary_result', ternary_result', nullary_result_ne', unary_result_ne', binary_result_ne', ternary_result_ne', nary_result_ne'] <;> rfl

set_option maxRecDepth 8192 in
set_option maxHeartbeats 4000000 in
theorem w3_v191 (V : Valuation τ sig (Elt F)) :
    after ops3 V (Proc.devRef .tc main_v191) = mulf (bc64 0x3F400000#32) (step (step (leaky (V (Proc.devRef .tc main_v145))) (dinv (degree (V (Proc.devRef .tc main_arg5)))) (V (Proc.devRef .tc main_arg4)) (V (Proc.devRef .tc main_arg5))) (dinv (degree (V (Proc.devRef .tc main_arg5)))) (V (Proc.devRef .tc main_arg4)) (V (Proc.devRef .tc main_arg5))) := by
  simp (disch := decide) only [after_cons, after_nil, nullary_result', unary_result', binary_result', ternary_result', nullary_result_ne', unary_result_ne', binary_result_ne', ternary_result_ne', nary_result_ne'] <;> rfl

theorem w3_arg0 (V : Valuation τ sig (Elt F)) : after ops3 V (Proc.devRef .tc main_arg0) = V (Proc.devRef .tc main_arg0) :=
  RefRun.after_arg RefRun.ops3_writes V (by decide)
theorem w3_arg1 (V : Valuation τ sig (Elt F)) : after ops3 V (Proc.devRef .tc main_arg1) = V (Proc.devRef .tc main_arg1) :=
  RefRun.after_arg RefRun.ops3_writes V (by decide)
theorem w3_arg2 (V : Valuation τ sig (Elt F)) : after ops3 V (Proc.devRef .tc main_arg2) = V (Proc.devRef .tc main_arg2) :=
  RefRun.after_arg RefRun.ops3_writes V (by decide)
theorem w3_arg3 (V : Valuation τ sig (Elt F)) : after ops3 V (Proc.devRef .tc main_arg3) = V (Proc.devRef .tc main_arg3) :=
  RefRun.after_arg RefRun.ops3_writes V (by decide)
theorem w3_arg4 (V : Valuation τ sig (Elt F)) : after ops3 V (Proc.devRef .tc main_arg4) = V (Proc.devRef .tc main_arg4) :=
  RefRun.after_arg RefRun.ops3_writes V (by decide)
theorem w3_arg5 (V : Valuation τ sig (Elt F)) : after ops3 V (Proc.devRef .tc main_arg5) = V (Proc.devRef .tc main_arg5) :=
  RefRun.after_arg RefRun.ops3_writes V (by decide)
theorem w3_arg6 (V : Valuation τ sig (Elt F)) : after ops3 V (Proc.devRef .tc main_arg6) = V (Proc.devRef .tc main_arg6) :=
  RefRun.after_arg RefRun.ops3_writes V (by decide)
theorem w3_arg7 (V : Valuation τ sig (Elt F)) : after ops3 V (Proc.devRef .tc main_arg7) = V (Proc.devRef .tc main_arg7) :=
  RefRun.after_arg RefRun.ops3_writes V (by decide)
theorem w3_arg8 (V : Valuation τ sig (Elt F)) : after ops3 V (Proc.devRef .tc main_arg8) = V (Proc.devRef .tc main_arg8) :=
  RefRun.after_arg RefRun.ops3_writes V (by decide)
theorem w3_arg9 (V : Valuation τ sig (Elt F)) : after ops3 V (Proc.devRef .tc main_arg9) = V (Proc.devRef .tc main_arg9) :=
  RefRun.after_arg RefRun.ops3_writes V (by decide)
theorem w3_arg10 (V : Valuation τ sig (Elt F)) : after ops3 V (Proc.devRef .tc main_arg10) = V (Proc.devRef .tc main_arg10) :=
  RefRun.after_arg RefRun.ops3_writes V (by decide)
theorem w3_arg11 (V : Valuation τ sig (Elt F)) : after ops3 V (Proc.devRef .tc main_arg11) = V (Proc.devRef .tc main_arg11) :=
  RefRun.after_arg RefRun.ops3_writes V (by decide)
theorem w3_arg12 (V : Valuation τ sig (Elt F)) : after ops3 V (Proc.devRef .tc main_arg12) = V (Proc.devRef .tc main_arg12) :=
  RefRun.after_arg RefRun.ops3_writes V (by decide)
theorem w3_arg13 (V : Valuation τ sig (Elt F)) : after ops3 V (Proc.devRef .tc main_arg13) = V (Proc.devRef .tc main_arg13) :=
  RefRun.after_arg RefRun.ops3_writes V (by decide)
theorem w3_arg14 (V : Valuation τ sig (Elt F)) : after ops3 V (Proc.devRef .tc main_arg14) = V (Proc.devRef .tc main_arg14) :=
  RefRun.after_arg RefRun.ops3_writes V (by decide)
theorem w3_arg15 (V : Valuation τ sig (Elt F)) : after ops3 V (Proc.devRef .tc main_arg15) = V (Proc.devRef .tc main_arg15) :=
  RefRun.after_arg RefRun.ops3_writes V (by decide)
set_option maxRecDepth 8192 in
set_option maxHeartbeats 4000000 in
theorem w3_keep_v9 (V : Valuation τ sig (Elt F)) :
    after ops3 V (Proc.devRef .tc main_v9) = (V (Proc.devRef .tc main_v9)) := by
  simp (disch := decide) only [after_cons, after_nil, nullary_result', unary_result', binary_result', ternary_result', nullary_result_ne', unary_result_ne', binary_result_ne', ternary_result_ne', nary_result_ne'] <;> rfl

end Cert.ReferenceIdeal.Val

end
-- ==== Proof.RefValueW4.lean ====
/- The reference's window 4 read at the buffers the last window reads: relation 1's first and second polynomial mixes, and of
   its third the zero-weighted first term, the scaled features and the selected source words; three buffers pass through. -/
import proofs.«121376_j36636071035259_2_alg».proof.Proof.RefRun
import proofs.«121376_j36636071035259_2_alg».proof.Proof.RefValueDefs

noncomputable section

namespace Cert.ReferenceIdeal.Val

open Cert.ReferenceIdeal Cert.ReferenceIdeal.Gen Idealize.ShloMosaic Idealize.ShloMosaic.TcCoe Idealize.SL.Sem Idealize.ShloMosaic.StableHlo

variable {F : FTy → Type} [FloatOps F]

open Cert.ReferenceIdeal.RefRun
set_option maxRecDepth 8192 in
set_option maxHeartbeats 4000000 in
theorem w4_keep_v136 (V : Valuation τ sig (Elt F)) :
    after ops4 V (Proc.devRef .tc main_v136) = (V (Proc.devRef .tc main_v136)) := by
  simp (disch := decide) only [after_cons, after_nil, nullary_result', unary_result', binary_result', ternary_result', nullary_result_ne', unary_result_ne', binary_result_ne', ternary_result_ne', nary_result_ne'] <;> rfl

set_option maxRecDepth 8192 in
set_option maxHeartbeats 4000000 in
theorem w4_keep_v146 (V : Valuation τ sig (Elt F)) :
    after ops4 V (Proc.devRef .tc main_v146) = (V (Proc.devRef .tc main_v146)) := by
  simp (disch := decide) only [after_cons, after_nil, nullary_result', unary_result', binary_result', ternary_result', nullary_result_ne', unary_result_ne', binary_result_ne', ternary_result_ne', nary_result_ne'] <;> rfl

set_option maxRecDepth 8192 in
set_option maxHeartbeats 4000000 in
theorem w4_keep_v154 (V : Valuation τ sig (Elt F)) :
    after ops4 V (Proc.devRef .tc main_v154) = (V (Proc.devRef .tc main_v154)) := by
  simp (disch := decide) only [after_cons, after_nil, nullary_result', unary_result', binary_result', ternary_result', nullary_result_ne', unary_result_ne', binary_result_ne', ternary_result_ne', nary_result_ne'] <;> rfl

set_option maxRecDepth 8192 in
set_option maxHeartbeats 4000000 in
theorem w4_v192 (V : Valuation τ sig (Elt F)) :
    after ops4 V (Proc.devRef .tc main_v192) = addf (V (Proc.devRef .tc main_v174)) (V (Proc.devRef .tc main_v191)) := by
  simp (disch := decide) only [after_cons, after_nil, nullary_result', unary_result', binary_result', ternary_result', nullary_result_ne', unary_result_ne', binary_result_ne', ternary_result_ne', nary_result_ne'] <;> rfl

set_option maxRecDepth 8192 in
set_option maxHeartbeats 4000000 in
theorem w4_v230 (V : Valuation τ sig (Elt F)) :
    after ops4 V (Proc.devRef .tc main_v230) = poly 0x00000000#32 0x40400000#32 0xBFC00000#32 (V (Proc.devRef .tc main_v146)) (step (V (Proc.devRef .tc main_v146)) (V (Proc.devRef .tc main_v154)) (V (Proc.devRef .tc main_arg4)) (V (Proc.devRef .tc main_arg5))) (step (step (V (Proc.devRef .tc main_v146)) (V (Proc.devRef .tc main_v154)) (V (Proc.devRef .tc main_arg4)) (V (Proc.devRef .tc main_arg5))) (V (Proc.devRef .tc main_v154)) (V (Proc.devRef .tc main_arg4)) (V (Proc.devRef .tc main_arg5))) := by
  simp (disch := decide) only [after_cons, after_nil, nullary_result', unary_result', binary_result', ternary_result', nullary_result_ne', unary_result_ne', binary_result_ne', ternary_result_ne', nary_result_ne'] <;> rfl

set_option maxRecDepth 8192 in
set_option maxHeartbeats 4000000 in
theorem w4_v232 (V : Valuation τ sig (Elt F)) :
    after ops4 V (Proc.devRef .tc main_v232) = mulf (bc64 0x00000000#32) (V (Proc.devRef .tc main_v146)) := by
  simp (disch := decide) only [after_cons, after_nil, nullary_result', unary_result', binary_result', ternary_result', nullary_result_ne', unary_result_ne', binary_result_ne', ternary_result_ne', nary_result_ne'] <;> rfl

set_option maxRecDepth 8192 in
set_option maxHeartbeats 4000000 in
theorem w4_v234 (V : Valuation τ sig (Elt F)) :
    after ops4 V (Proc.devRef .tc main_v234) = mulf (V (Proc.devRef .tc main_v146)) (bcD (V (Proc.devRef .tc main_v154))) := by
  simp (disch := decide) only [after_cons, after_nil, nullary_result', unary_result', binary_result', ternary_result', nullary_result_ne', unary_result_ne', binary_result_ne', ternary_result_ne', nary_result_ne'] <;> rfl

set_option maxRecDepth 8192 in
set_option maxHeartbeats 4000000 in
theorem w4_v239 (V : Valuation τ sig (Elt F)) :
    after ops4 V (Proc.devRef .tc main_v239) = srcSel (V (Proc.devRef .tc main_arg4)) := by
  simp (disch := decide) only [after_cons, after_nil, nullary_result', unary_result', binary_result', ternary_result', nullary_result_ne', unary_result_ne', binary_result_ne', ternary_result_ne', nary_result_ne'] <;> rfl

theorem w4_arg0 (V : Valuation τ sig (Elt F)) : after ops4 V (Proc.devRef .tc main_arg0) = V (Proc.devRef .tc main_arg0) :=
  RefRun.after_arg RefRun.ops4_writes V (by decide)
theorem w4_arg1 (V : Valuation τ sig (Elt F)) : after ops4 V (Proc.devRef .tc main_arg1) = V (Proc.devRef .tc main_arg1) :=
  RefRun.after_arg RefRun.ops4_writes V (by decide)
theorem w4_arg2 (V : Valuation τ sig (Elt F)) : after ops4 V (Proc.devRef .tc main_arg2) = V (Proc.devRef .tc main_arg2) :=
  RefRun.after_arg RefRun.ops4_writes V (by decide)
theorem w4_arg3 (V : Valuation τ sig (Elt F)) : after ops4 V (Proc.devRef .tc main_arg3) = V (Proc.devRef .tc main_arg3) :=
  RefRun.after_arg RefRun.ops4_writes V (by decide)
theorem w4_arg4 (V : Valuation τ sig (Elt F)) : after ops4 V (Proc.devRef .tc main_arg4) = V (Proc.devRef .tc main_arg4) :=
  RefRun.after_arg RefRun.ops4_writes V (by decide)
theorem w4_arg5 (V : Valuation τ sig (Elt F)) : after ops4 V (Proc.devRef .tc main_arg5) = V (Proc.devRef .tc main_arg5) :=
  RefRun.after_arg RefRun.ops4_writes V (by decide)
theorem w4_arg6 (V : Valuation τ sig (Elt F)) : after ops4 V (Proc.devRef .tc main_arg6) = V (Proc.devRef .tc main_arg6) :=
  RefRun.after_arg RefRun.ops4_writes V (by decide)
theorem w4_arg7 (V : Valuation τ sig (Elt F)) : after ops4 V (Proc.devRef .tc main_arg7) = V (Proc.devRef .tc main_arg7) :=
  RefRun.after_arg RefRun.ops4_writes V (by decide)
theorem w4_arg8 (V : Valuation τ sig (Elt F)) : after ops4 V (Proc.devRef .tc main_arg8) = V (Proc.devRef .tc main_arg8) :=
  RefRun.after_arg RefRun.ops4_writes V (by decide)
theorem w4_arg9 (V : Valuation τ sig (Elt F)) : after ops4 V (Proc.devRef .tc main_arg9) = V (Proc.devRef .tc main_arg9) :=
  RefRun.after_arg RefRun.ops4_writes V (by decide)
theorem w4_arg10 (V : Valuation τ sig (Elt F)) : after ops4 V (Proc.devRef .tc main_arg10) = V (Proc.devRef .tc main_arg10) :=
  RefRun.after_arg RefRun.ops4_writes V (by decide)
theorem w4_arg11 (V : Valuation τ sig (Elt F)) : after ops4 V (Proc.devRef .tc main_arg11) = V (Proc.devRef .tc main_arg11) :=
  RefRun.after_arg RefRun.ops4_writes V (by decide)
theorem w4_arg12 (V : Valuation τ sig (Elt F)) : after ops4 V (Proc.devRef .tc main_arg12) = V (Proc.devRef .tc main_arg12) :=
  RefRun.after_arg RefRun.ops4_writes V (by decide)
theorem w4_arg13 (V : Valuation τ sig (Elt F)) : after ops4 V (Proc.devRef .tc main_arg13) = V (Proc.devRef .tc main_arg13) :=
  RefRun.after_arg RefRun.ops4_writes V (by decide)
theorem w4_arg14 (V : Valuation τ sig (Elt F)) : after ops4 V (Proc.devRef .tc main_arg14) = V (Proc.devRef .tc main_arg14) :=
  RefRun.after_arg RefRun.ops4_writes V (by decide)
theorem w4_arg15 (V : Valuation τ sig (Elt F)) : after ops4 V (Proc.devRef .tc main_arg15) = V (Proc.devRef .tc main_arg15) :=
  RefRun.after_arg RefRun.ops4_writes V (by decide)
set_option maxRecDepth 8192 in
set_option maxHeartbeats 4000000 in
theorem w4_keep_v9 (V : Valuation τ sig (Elt F)) :
    after ops4 V (Proc.devRef .tc main_v9) = (V (Proc.devRef .tc main_v9)) := by
  simp (disch := decide) only [after_cons, after_nil, nullary_result', unary_result', binary_result', ternary_result', nullary_result_ne', unary_result_ne', binary_result_ne', ternary_result_ne', nary_result_ne'] <;> rfl

end Cert.ReferenceIdeal.Val

end
-- ==== Proof.RefValueW5.lean ====
/- The reference's last window read at the result: relation 1's third polynomial mix completed, its three mixes side by side,
   its branch, the two branches added, the leaky rectifier. -/
import proofs.«121376_j36636071035259_2_alg».proof.Proof.RefRun
import proofs.«121376_j36636071035259_2_alg».proof.Proof.RefValueDefs

noncomputable section

namespace Cert.ReferenceIdeal.Val

open Cert.ReferenceIdeal Cert.ReferenceIdeal.Gen Idealize.ShloMosaic Idealize.ShloMosaic.TcCoe Idealize.SL.Sem Idealize.ShloMosaic.StableHlo

variable {F : FTy → Type} [FloatOps F]

open Cert.ReferenceIdeal.RefRun
/-- The three-operand concatenate's result buffer holds the three operands' contents laid side by side. -/
theorem v269_result' (G : Valuation τ sig (Elt F)) (hxs hy) :
    (nary (τ := τ) ![main_v192, main_v230, main_v268] main_v269 (fun u => concatenate S50000x192 1 [⟨S50000x64, u 0⟩, ⟨S50000x64, u 1⟩, ⟨S50000x64, u 2⟩] concatenates_S50000x64_S50000x64_S50000x64_S50000x192_d1) hxs hy).result G (no_index (Proc.devRef .tc main_v269))
      = cat3 (G (Proc.devRef .tc main_v192)) (G (Proc.devRef .tc main_v230)) (G (Proc.devRef .tc main_v268)) := by
  rw [nary_result]; rfl

set_option maxRecDepth 8192 in
set_option maxHeartbeats 4000000 in
theorem w5_v275 (V : Valuation τ sig (Elt F)) :
    after ops5 V (Proc.devRef .tc main_v275) = leaky (addf (V (Proc.devRef .tc main_v136)) (dense192 (cat3 (V (Proc.devRef .tc main_v192)) (V (Proc.devRef .tc main_v230)) (addf (addf (V (Proc.devRef .tc main_v232)) (mulf (bc64 0x00000000#32) (sca (V (Proc.devRef .tc main_v146)) (V (Proc.devRef .tc main_v154)) (V (Proc.devRef .tc main_arg5)) (Host.gather gather_S50000x64_S800000x1_S800000x64_1_0_n_n_0_1_164 (V (Proc.devRef .tc main_v234)) (broadcastInDim S800000x1 ![0] bcast_S800000_S800000x1_0 (V (Proc.devRef .tc main_v239))))))) (mulf (bc64 0x3F400000#32) (step (sca (V (Proc.devRef .tc main_v146)) (V (Proc.devRef .tc main_v154)) (V (Proc.devRef .tc main_arg5)) (Host.gather gather_S50000x64_S800000x1_S800000x64_1_0_n_n_0_1_164 (V (Proc.devRef .tc main_v234)) (broadcastInDim S800000x1 ![0] bcast_S800000_S800000x1_0 (V (Proc.devRef .tc main_v239))))) (V (Proc.devRef .tc main_v154)) (V (Proc.devRef .tc main_arg4)) (V (Proc.devRef .tc main_arg5)))))) (V (Proc.devRef .tc main_arg14)) (V (Proc.devRef .tc main_arg15)))) := by
  simp (disch := decide) only [after_cons, after_nil, v269_result', nullary_result', unary_result', binary_result', ternary_result', nullary_result_ne', unary_result_ne', binary_result_ne', ternary_result_ne', nary_result_ne'] <;> rfl

theorem w5_arg0 (V : Valuation τ sig (Elt F)) : after ops5 V (Proc.devRef .tc main_arg0) = V (Proc.devRef .tc main_arg0) :=
  RefRun.after_arg RefRun.ops5_writes V (by decide)
theorem w5_arg1 (V : Valuation τ sig (Elt F)) : after ops5 V (Proc.devRef .tc main_arg1) = V (Proc.devRef .tc main_arg1) :=
  RefRun.after_arg RefRun.ops5_writes V (by decide)
theorem w5_arg2 (V : Valuation τ sig (Elt F)) : after ops5 V (Proc.devRef .tc main_arg2) = V (Proc.devRef .tc main_arg2) :=
  RefRun.after_arg RefRun.ops5_writes V (by decide)
theorem w5_arg3 (V : Valuation τ sig (Elt F)) : after ops5 V (Proc.devRef .tc main_arg3) = V (Proc.devRef .tc main_arg3) :=
  RefRun.after_arg RefRun.ops5_writes V (by decide)
theorem w5_arg4 (V : Valuation τ sig (Elt F)) : after ops5 V (Proc.devRef .tc main_arg4) = V (Proc.devRef .tc main_arg4) :=
  RefRun.after_arg RefRun.ops5_writes V (by decide)
theorem w5_arg5 (V : Valuation τ sig (Elt F)) : after ops5 V (Proc.devRef .tc main_arg5) = V (Proc.devRef .tc main_arg5) :=
  RefRun.after_arg RefRun.ops5_writes V (by decide)
theorem w5_arg6 (V : Valuation τ sig (Elt F)) : after ops5 V (Proc.devRef .tc main_arg6) = V (Proc.devRef .tc main_arg6) :=
  RefRun.after_arg RefRun.ops5_writes V (by decide)
theorem w5_arg7 (V : Valuation τ sig (Elt F)) : after ops5 V (Proc.devRef .tc main_arg7) = V (Proc.devRef .tc main_arg7) :=
  RefRun.after_arg RefRun.ops5_writes V (by decide)
theorem w5_arg8 (V : Valuation τ sig (Elt F)) : after ops5 V (Proc.devRef .tc main_arg8) = V (Proc.devRef .tc main_arg8) :=
  RefRun.after_arg RefRun.ops5_writes V (by decide)
theorem w5_arg9 (V : Valuation τ sig (Elt F)) : after ops5 V (Proc.devRef .tc main_arg9) = V (Proc.devRef .tc main_arg9) :=
  RefRun.after_arg RefRun.ops5_writes V (by decide)
theorem w5_arg10 (V : Valuation τ sig (Elt F)) : after ops5 V (Proc.devRef .tc main_arg10) = V (Proc.devRef .tc main_arg10) :=
  RefRun.after_arg RefRun.ops5_writes V (by decide)
theorem w5_arg11 (V : Valuation τ sig (Elt F)) : after ops5 V (Proc.devRef .tc main_arg11) = V (Proc.devRef .tc main_arg11) :=
  RefRun.after_arg RefRun.ops5_writes V (by decide)
theorem w5_arg12 (V : Valuation τ sig (Elt F)) : after ops5 V (Proc.devRef .tc main_arg12) = V (Proc.devRef .tc main_arg12) :=
  RefRun.after_arg RefRun.ops5_writes V (by decide)
theorem w5_arg13 (V : Valuation τ sig (Elt F)) : after ops5 V (Proc.devRef .tc main_arg13) = V (Proc.devRef .tc main_arg13) :=
  RefRun.after_arg RefRun.ops5_writes V (by decide)
theorem w5_arg14 (V : Valuation τ sig (Elt F)) : after ops5 V (Proc.devRef .tc main_arg14) = V (Proc.devRef .tc main_arg14) :=
  RefRun.after_arg RefRun.ops5_writes V (by decide)
theorem w5_arg15 (V : Valuation τ sig (Elt F)) : after ops5 V (Proc.devRef .tc main_arg15) = V (Proc.devRef .tc main_arg15) :=
  RefRun.after_arg RefRun.ops5_writes V (by decide)
set_option maxRecDepth 8192 in
set_option maxHeartbeats 4000000 in
theorem w5_keep_v9 (V : Valuation τ sig (Elt F)) :
    after ops5 V (Proc.devRef .tc main_v9) = (V (Proc.devRef .tc main_v9)) := by
  simp (disch := decide) only [after_cons, after_nil, v269_result', nullary_result', unary_result', binary_result', ternary_result', nullary_result_ne', unary_result_ne', binary_result_ne', ternary_result_ne', nary_result_ne'] <;> rfl

set_option maxRecDepth 8192 in
set_option maxHeartbeats 4000000 in
theorem w5_keep_v146 (V : Valuation τ sig (Elt F)) :
    after ops5 V (Proc.devRef .tc main_v146) = (V (Proc.devRef .tc main_v146)) := by
  simp (disch := decide) only [after_cons, after_nil, v269_result', nullary_result', unary_result', binary_result', ternary_result', nullary_result_ne', unary_result_ne', binary_result_ne', ternary_result_ne', nary_result_ne'] <;> rfl

end Cert.ReferenceIdeal.Val

end
-- ==== Proof.RefValueArr.lean ====
/- The reference's run read as whole arrays: the two relations' hidden features and the result, each as its named term over
   the launch contents of @main's arguments — the six windows' readings composed. -/
import proofs.«121376_j36636071035259_2_alg».proof.Proof.RefValueW0
import proofs.«121376_j36636071035259_2_alg».proof.Proof.RefValueW1
import proofs.«121376_j36636071035259_2_alg».proof.Proof.RefValueW2
import proofs.«121376_j36636071035259_2_alg».proof.Proof.RefValueW3
import proofs.«121376_j36636071035259_2_alg».proof.Proof.RefValueW4
import proofs.«121376_j36636071035259_2_alg».proof.Proof.RefValueW5

noncomputable section

namespace Cert.ReferenceIdeal.Val

open Cert.ReferenceIdeal Cert.ReferenceIdeal.Gen Idealize.ShloMosaic Idealize.ShloMosaic.TcCoe Idealize.SL.Sem Idealize.ShloMosaic.StableHlo

variable {F : FTy → Type} [FloatOps F]

open Cert.ReferenceIdeal.RefRun

/-- Relation 0's hidden features are the perceptron of arguments 0, 6, 7, 8, 9. -/
theorem arr_v9 (U : Valuation τ sig (Elt F)) :
    after ops U (Proc.devRef .tc main_v9) = mlp (U (Proc.devRef .tc main_arg0)) (U (Proc.devRef .tc main_arg6)) (U (Proc.devRef .tc main_arg7)) (U (Proc.devRef .tc main_arg8)) (U (Proc.devRef .tc main_arg9)) := by
  rw [after_ops, w5_keep_v9, w4_keep_v9, w3_keep_v9, w2_keep_v9, w1_keep_v9, w0_v9]

set_option maxHeartbeats 1000000 in
/-- Relation 1's hidden features are the perceptron of arguments 1, 10, 11, 12, 13. -/
theorem arr_v146 (U : Valuation τ sig (Elt F)) :
    after ops U (Proc.devRef .tc main_v146) = mlp (U (Proc.devRef .tc main_arg1)) (U (Proc.devRef .tc main_arg10)) (U (Proc.devRef .tc main_arg11)) (U (Proc.devRef .tc main_arg12)) (U (Proc.devRef .tc main_arg13)) := by
  rw [after_ops, w5_keep_v146, w4_keep_v146, w3_v146, w2_v145]
  rw [w1_arg1, w1_arg10, w1_arg11, w1_arg12, w1_arg13, w0_arg1, w0_arg10, w0_arg11, w0_arg12, w0_arg13]
  rfl

set_option maxRecDepth 8192 in
set_option maxHeartbeats 2000000 in
/-- The result is the leaky rectifier of the two relations' branches added, each branch over that relation's hidden features,
    inverse-square-root degree column and edge lists, and the shared weights and bias. -/
theorem arr_v275 (U : Valuation τ sig (Elt F)) :
    after ops U (Proc.devRef .tc main_v275)
      = refArr (mlp (U (Proc.devRef .tc main_arg0)) (U (Proc.devRef .tc main_arg6)) (U (Proc.devRef .tc main_arg7)) (U (Proc.devRef .tc main_arg8)) (U (Proc.devRef .tc main_arg9))) (dinv (degree (U (Proc.devRef .tc main_arg3)))) (U (Proc.devRef .tc main_arg2)) (U (Proc.devRef .tc main_arg3))
          (mlp (U (Proc.devRef .tc main_arg1)) (U (Proc.devRef .tc main_arg10)) (U (Proc.devRef .tc main_arg11)) (U (Proc.devRef .tc main_arg12)) (U (Proc.devRef .tc main_arg13))) (dinv (degree (U (Proc.devRef .tc main_arg5)))) (U (Proc.devRef .tc main_arg4)) (U (Proc.devRef .tc main_arg5)) (U (Proc.devRef .tc main_arg14)) (U (Proc.devRef .tc main_arg15)) := by
  rw [after_ops, w5_v275]
  rw [w4_keep_v136, w4_keep_v146, w4_keep_v154, w4_v192, w4_v230, w4_v232, w4_v234, w4_v239, w4_arg4, w4_arg5, w4_arg14, w4_arg15]
  rw [w3_keep_v136, w3_v146, w3_v154, w3_v174, w3_v191, w3_arg4, w3_arg5, w3_arg14, w3_arg15]
  rw [w2_v136, w2_v145, w2_arg4, w2_arg5, w2_arg14, w2_arg15]
  rw [w1_keep_v9, w1_keep_v17, w1_v55, w1_v93, w1_v94, w1_arg1, w1_arg2, w1_arg3, w1_arg4, w1_arg5, w1_arg10, w1_arg11, w1_arg12, w1_arg13, w1_arg14, w1_arg15]
  rw [w0_v9, w0_v17, w0_v34, w0_v37, w0_v46, w0_arg1, w0_arg2, w0_arg3, w0_arg4, w0_arg5, w0_arg10, w0_arg11, w0_arg12, w0_arg13, w0_arg14, w0_arg15]
  rfl

end Cert.ReferenceIdeal.Val

end
-- ==== Proof.RefValueIx.lean ====
/- The reference's named whole-array terms read at an index, at the ideal values (the extended reals): a broadcast word, the
   leaky rectifier, a bias row, a dense layer as a sum over the contracted coordinate, the two-layer perceptron. -/
import proofs.«121376_j36636071035259_2_alg».proof.Proof.RefValueDefs
import proofs.«121376_j36636071035259_2_alg».proof.Proof.Spec
import Idealize.ShloMosaic.Lib.ValueIdx
import Idealize.ShloMosaic.Lib.IdealHost
import Idealize.ShloMosaic.Lib.StackMember
import Idealize.ShloMosaic.Lib.Pipeline.Value

noncomputable section

namespace Cert.ReferenceIdeal.Val

open Cert.ReferenceIdeal Cert.ReferenceIdeal.Gen Idealize.ShloMosaic Idealize.ShloMosaic.ValueIdx
open scoped BigOperators

/-- A broadcast word reads the word's value everywhere. -/
theorem bc64_apply (w : BitVec 32) (j : S50000x64.Idx) : (bc64 w : FVec Ideal S50000x64 .f32) j = Ideal.ofBits .f32 w := rfl

/-- The leaky rectifier, element by element. -/
theorem leaky_apply (z : FVec Ideal S50000x64 .f32) (j : S50000x64.Idx) : leaky z j = Cert.Spec.lk (z j) := rfl

/-- A bias row reads the bias at the column. -/
theorem bias_apply (b : FVec Ideal S64 .f32) (n : Fin 50000) (q : Fin 64) : bias b (ix2 n q) = b (ix1 q) := by
  unfold bias
  rw [broadcastInDim_apply (![0, 1]) bcast_S1x64_S50000x64_0_1 _ (ix2 n q) (ix2 (0 : Fin 1) q)
        (fun a => by match a with | ⟨0, _⟩ => rfl | ⟨1, _⟩ => rfl),
      broadcastInDim_apply (![1]) bcast_S64_S1x64_1 b (ix2 (0 : Fin 1) q) (ix1 q)
        (fun a => by match a with | ⟨0, _⟩ => rfl)]

/-- A dense layer on 128 columns at an index: the sum over the contracted coordinate, plus the bias. -/
theorem dense128_apply (x : FVec Ideal S50000x128 .f32) (W : FVec Ideal S128x64 .f32) (b : FVec Ideal S64 .f32) (n : Fin 50000) (q : Fin 64) :
    dense128 x W b (ix2 n q) = (∑ k : Fin 128, x (ix2 n k) * W (ix2 k q)) + b (ix1 q) := by
  unfold dense128
  rw [addf_apply, bias_apply]
  exact congrArg (· + b (ix1 q)) (StackMember.dotGeneral_plain_apply (m := 50000) (n := 64) (k := 128) none x W n q)

/-- A dense layer on 64 columns at an index. -/
theorem dense64_apply (x : FVec Ideal S50000x64 .f32) (W : FVec Ideal S64x64 .f32) (b : FVec Ideal S64 .f32) (n : Fin 50000) (q : Fin 64) :
    dense64 x W b (ix2 n q) = (∑ k : Fin 64, x (ix2 n k) * W (ix2 k q)) + b (ix1 q) := by
  unfold dense64
  rw [addf_apply, bias_apply]
  exact congrArg (· + b (ix1 q)) (StackMember.dotGeneral_plain_apply (m := 50000) (n := 64) (k := 64) none x W n q)

/-- The 192-column product at an index. -/
theorem dense192_apply (x : FVec Ideal S50000x192 .f32) (W : FVec Ideal S192x64 .f32) (b : FVec Ideal S64 .f32) (n : Fin 50000) (q : Fin 64) :
    dense192 x W b (ix2 n q) = (∑ c : Fin 192, x (ix2 n c) * W (ix2 c q)) + b (ix1 q) := by
  unfold dense192
  rw [addf_apply, bias_apply]
  exact congrArg (· + b (ix1 q)) (StackMember.dotGeneral_plain_apply (m := 50000) (n := 64) (k := 192) none x W n q)

/-- The two-layer perceptron at node n, hidden column q. -/
theorem mlp_apply (x : FVec Ideal S50000x128 .f32) (W1 : FVec Ideal S128x64 .f32) (b1 : FVec Ideal S64 .f32)
    (W2 : FVec Ideal S64x64 .f32) (b2 : FVec Ideal S64 .f32) (n : Fin 50000) (q : Fin 64) :
    mlp x W1 b1 W2 b2 (ix2 n q)
      = Cert.Spec.mlpAt (fun n k => x (ix2 n k)) (fun k j => W1 (ix2 k j)) (fun j => b1 (ix1 j)) (fun j q => W2 (ix2 j q))
          (fun q => b2 (ix1 q)) n q := by
  unfold mlp Cert.Spec.mlpAt
  rw [leaky_apply, dense64_apply]
  simp only [leaky_apply, dense128_apply]

/-- Column 64·i + j of the mixed features: the specification's value, with the block and the column named. -/
theorem hfAt_of (f : Fin 3 → Fin 50000 → Fin 64 → EReal) (n : Fin 50000) (col : Fin 192) (i : Fin 3) (j : Fin 64)
    (hi : col.val / 64 = i.val) (hj : col.val % 64 = j.val) :
    Cert.Spec.hfAt f n col = (Cert.Spec.theta i 0 * f 0 n j + Cert.Spec.theta i 1 * f 1 n j) + Cert.Spec.theta i 2 * f 2 n j := by
  unfold Cert.Spec.hfAt
  have e1 : (⟨col.val / 64, by have := col.isLt; omega⟩ : Fin 3) = i := Fin.ext hi
  have e2 : (⟨col.val % 64, Nat.mod_lt _ (by decide)⟩ : Fin 64) = j := Fin.ext hj
  simp only [e1, e2]

/-- Three arrays side by side, read in column block 0: the first array at the column modulo 64. -/
theorem cat3_apply0 (a b c : FVec Ideal S50000x64 .f32) (n : Fin 50000) (col : Fin 192) (h : col.val / 64 = 0) :
    cat3 a b c (ix2 n col) = a (ix2 n (⟨col.val % 64, Nat.mod_lt _ (by decide)⟩ : Fin 64)) := by
  unfold cat3
  exact concatenate_apply_piece (1 : Fin 2) _ _ (ix2 n col) 0 (by show (0 : Nat) < 3; decide) S50000x64 a rfl rfl 0 rfl
    (ix2 n (⟨col.val % 64, Nat.mod_lt _ (by decide)⟩ : Fin 64))
    (fun b hb => by match b with | ⟨0, _⟩ => rfl | ⟨1, _⟩ => exact absurd rfl hb)
    (by show 0 + col.val % 64 = col.val; omega)

/-- Three arrays side by side, read in column block 1: the second array at the column modulo 64. -/
theorem cat3_apply1 (a b c : FVec Ideal S50000x64 .f32) (n : Fin 50000) (col : Fin 192) (h : col.val / 64 = 1) :
    cat3 a b c (ix2 n col) = b (ix2 n (⟨col.val % 64, Nat.mod_lt _ (by decide)⟩ : Fin 64)) := by
  unfold cat3
  exact concatenate_apply_piece (1 : Fin 2) _ _ (ix2 n col) 1 (by show (1 : Nat) < 3; decide) S50000x64 b rfl rfl 64 rfl
    (ix2 n (⟨col.val % 64, Nat.mod_lt _ (by decide)⟩ : Fin 64))
    (fun b hb => by match b with | ⟨0, _⟩ => rfl | ⟨1, _⟩ => exact absurd rfl hb)
    (by show 64 + col.val % 64 = col.val; omega)

/-- Three arrays side by side, read in column block 2: the third array at the column modulo 64. -/
theorem cat3_apply2 (a b c : FVec Ideal S50000x64 .f32) (n : Fin 50000) (col : Fin 192) (h : col.val / 64 = 2) :
    cat3 a b c (ix2 n col) = c (ix2 n (⟨col.val % 64, Nat.mod_lt _ (by decide)⟩ : Fin 64)) := by
  unfold cat3
  exact concatenate_apply_piece (1 : Fin 2) _ _ (ix2 n col) 2 (by show (2 : Nat) < 3; decide) S50000x64 c rfl rfl 128 rfl
    (ix2 n (⟨col.val % 64, Nat.mod_lt _ (by decide)⟩ : Fin 64))
    (fun b hb => by match b with | ⟨0, _⟩ => rfl | ⟨1, _⟩ => exact absurd rfl hb)
    (by show 128 + col.val % 64 = col.val; omega)

/-- A relation's three feature arrays — the hidden features and their first and second Laplacian images — as functions of
    node and column. -/
def feat3 (H : FVec Ideal S50000x64 .f32) (D : FVec Ideal S50000x1 .f32) (src dst : IVec S800000 32) :
    Fin 3 → Fin 50000 → Fin 64 → EReal
  | ⟨0, _⟩ => fun n j => H (ix2 n j)
  | ⟨1, _⟩ => fun n j => step H D src dst (ix2 n j)
  | ⟨2, _⟩ => fun n j => step (step H D src dst) D src dst (ix2 n j)

/-- The three mixes side by side at column c are the specification's mixed features at c. -/
theorem mixed_apply (H : FVec Ideal S50000x64 .f32) (D : FVec Ideal S50000x1 .f32) (src dst : IVec S800000 32)
    (n : Fin 50000) (col : Fin 192) : mixed H D src dst (ix2 n col) = Cert.Spec.hfAt (feat3 H D src dst) n col := by
  have hc : col.val / 64 = 0 ∨ col.val / 64 = 1 ∨ col.val / 64 = 2 := by have := col.isLt; omega
  unfold mixed
  rcases hc with h | h | h
  · rw [cat3_apply0 _ _ _ n col h, hfAt_of _ n col (0 : Fin 3) ⟨col.val % 64, Nat.mod_lt _ (by decide)⟩ h rfl]
    rfl
  · rw [cat3_apply1 _ _ _ n col h, hfAt_of _ n col (1 : Fin 3) ⟨col.val % 64, Nat.mod_lt _ (by decide)⟩ h rfl]
    rfl
  · rw [cat3_apply2 _ _ _ n col h, hfAt_of _ n col (2 : Fin 3) ⟨col.val % 64, Nat.mod_lt _ (by decide)⟩ h rfl]
    rfl

/-- One relation's branch at node n, column q. -/
theorem branch_apply (H : FVec Ideal S50000x64 .f32) (D : FVec Ideal S50000x1 .f32) (src dst : IVec S800000 32)
    (W3 : FVec Ideal S192x64 .f32) (b3 : FVec Ideal S64 .f32) (n : Fin 50000) (q : Fin 64) :
    branch H D src dst W3 b3 (ix2 n q)
      = Cert.Spec.branchAt (feat3 H D src dst) (fun c q => W3 (ix2 c q)) (fun q => b3 (ix1 q)) n q := by
  unfold branch Cert.Spec.branchAt
  rw [dense192_apply]
  simp only [mixed_apply]

end Cert.ReferenceIdeal.Val

end
-- ==== Proof.RefValue.lean ====
/- The reference's value at the ideal values (the extended reals), index by index, against the specification: the two
   relations' hidden features are the two-layer perceptron, and the result is the specification's reference value over the
   relations' feature arrays (the hidden features and their first and second Laplacian images, as whole arrays). -/
import proofs.«121376_j36636071035259_2_alg».proof.Proof.RefValueArr
import proofs.«121376_j36636071035259_2_alg».proof.Proof.RefValueIx

noncomputable section

namespace Cert.ReferenceIdeal.Val

open Cert.ReferenceIdeal Cert.ReferenceIdeal.Gen Cert.ReferenceIdeal.RefRun Idealize.ShloMosaic Idealize.ShloMosaic.TcCoe Idealize.SL.Sem
  Idealize.ShloMosaic.StableHlo Idealize.ShloMosaic.ValueIdx
open scoped BigOperators

/-- Relation 0's hidden features at node n, column q: the perceptron of arguments 0, 6, 7, 8, 9. -/
theorem ref_h0 (U : Valuation τ sig (Elt Ideal)) (n : Fin 50000) (q : Fin 64) :
    StableHlo.after ops U (Proc.devRef .tc main_v9) (ix2 n q)
      = Cert.Spec.mlpAt (fun n k => (U (Proc.devRef .tc main_arg0)) (ix2 n k)) (fun k j => (U (Proc.devRef .tc main_arg6)) (ix2 k j)) (fun j => (U (Proc.devRef .tc main_arg7)) (ix1 j)) (fun j q => (U (Proc.devRef .tc main_arg8)) (ix2 j q)) (fun q => (U (Proc.devRef .tc main_arg9)) (ix1 q)) n q := by
  rw [arr_v9]; exact mlp_apply _ _ _ _ _ n q

/-- Relation 1's hidden features (the buffer main_v146) at node n, column q: the perceptron of arguments 1, 10, 11, 12, 13. -/
theorem ref_h1 (U : Valuation τ sig (Elt Ideal)) (n : Fin 50000) (q : Fin 64) :
    StableHlo.after ops U (Proc.devRef .tc main_v146) (ix2 n q)
      = Cert.Spec.mlpAt (fun n k => (U (Proc.devRef .tc main_arg1)) (ix2 n k)) (fun k j => (U (Proc.devRef .tc main_arg10)) (ix2 k j)) (fun j => (U (Proc.devRef .tc main_arg11)) (ix1 j)) (fun j q => (U (Proc.devRef .tc main_arg12)) (ix2 j q)) (fun q => (U (Proc.devRef .tc main_arg13)) (ix1 q)) n q := by
  rw [arr_v146]; exact mlp_apply _ _ _ _ _ n q

/-- The feature arrays the reference mixes, per relation r and Laplacian power k, at node n and column j: the hidden features
    (the run's buffer, as a whole array), their image under one Laplacian step, and under two. -/
def featR (U : Valuation τ sig (Elt Ideal)) : Fin 2 → Fin 3 → Fin 50000 → Fin 64 → EReal
  | ⟨0, _⟩ => feat3 (after ops U (Proc.devRef .tc main_v9)) (dinv (degree (U (Proc.devRef .tc main_arg3)))) (U (Proc.devRef .tc main_arg2)) (U (Proc.devRef .tc main_arg3))
  | ⟨1, _⟩ => feat3 (after ops U (Proc.devRef .tc main_v146)) (dinv (degree (U (Proc.devRef .tc main_arg5)))) (U (Proc.devRef .tc main_arg4)) (U (Proc.devRef .tc main_arg5))

theorem featR_0_0 (U : Valuation τ sig (Elt Ideal)) (n : Fin 50000) (j : Fin 64) : featR U 0 0 n j = (after ops U (Proc.devRef .tc main_v9)) (ix2 n j) := rfl
theorem featR_0_1 (U : Valuation τ sig (Elt Ideal)) (n : Fin 50000) (j : Fin 64) : featR U 0 1 n j = (step (F := Ideal) (after ops U (Proc.devRef .tc main_v9)) (dinv (degree (U (Proc.devRef .tc main_arg3)))) (U (Proc.devRef .tc main_arg2)) (U (Proc.devRef .tc main_arg3))) (ix2 n j) := rfl
theorem featR_0_2 (U : Valuation τ sig (Elt Ideal)) (n : Fin 50000) (j : Fin 64) : featR U 0 2 n j = (step (F := Ideal) (step (F := Ideal) (after ops U (Proc.devRef .tc main_v9)) (dinv (degree (U (Proc.devRef .tc main_arg3)))) (U (Proc.devRef .tc main_arg2)) (U (Proc.devRef .tc main_arg3))) (dinv (degree (U (Proc.devRef .tc main_arg3)))) (U (Proc.devRef .tc main_arg2)) (U (Proc.devRef .tc main_arg3))) (ix2 n j) := rfl
theorem featR_1_0 (U : Valuation τ sig (Elt Ideal)) (n : Fin 50000) (j : Fin 64) : featR U 1 0 n j = (after ops U (Proc.devRef .tc main_v146)) (ix2 n j) := rfl
theorem featR_1_1 (U : Valuation τ sig (Elt Ideal)) (n : Fin 50000) (j : Fin 64) : featR U 1 1 n j = (step (F := Ideal) (after ops U (Proc.devRef .tc main_v146)) (dinv (degree (U (Proc.devRef .tc main_arg5)))) (U (Proc.devRef .tc main_arg4)) (U (Proc.devRef .tc main_arg5))) (ix2 n j) := rfl
theorem featR_1_2 (U : Valuation τ sig (Elt Ideal)) (n : Fin 50000) (j : Fin 64) : featR U 1 2 n j = (step (F := Ideal) (step (F := Ideal) (after ops U (Proc.devRef .tc main_v146)) (dinv (degree (U (Proc.devRef .tc main_arg5)))) (U (Proc.devRef .tc main_arg4)) (U (Proc.devRef .tc main_arg5))) (dinv (degree (U (Proc.devRef .tc main_arg5)))) (U (Proc.devRef .tc main_arg4)) (U (Proc.devRef .tc main_arg5))) (ix2 n j) := rfl

set_option maxHeartbeats 1000000 in
/-- The reference's result at node n, column q is the specification's reference value over those feature arrays, the shared
    weights (argument 14) and bias (argument 15). -/
theorem ref_value (U : Valuation τ sig (Elt Ideal)) (n : Fin 50000) (q : Fin 64) :
    StableHlo.after ops U (Proc.devRef .tc main_v275) (ix2 n q)
      = Cert.Spec.referenceAt (featR U) (fun c q => (U (Proc.devRef .tc main_arg14)) (ix2 c q)) (fun q => (U (Proc.devRef .tc main_arg15)) (ix1 q)) n q := by
  rw [arr_v275, ← arr_v9 U, ← arr_v146 U]
  unfold refArr Cert.Spec.referenceAt
  rw [leaky_apply, addf_apply, branch_apply, branch_apply]
  rfl

end Cert.ReferenceIdeal.Val

end
-- ==== Proof.SpecBridge.lean ====
import proofs.«121376_j36636071035259_2_alg».proof.Proof.Spec
import proofs.«121376_j36636071035259_2_alg».proof.Proof.BernsteinFold
import proofs.«121376_j36636071035259_2_alg».proof.Proof.RealOps

/-!
# The two specifications agree on real inputs

One program contracts each of the three feature matrices against a weight
matrix into which the filter's coefficients have been folded; the other mixes
the feature matrices with the coefficients first, lays the three mixtures side
by side and contracts the 192 columns against the unfolded weights.  For each
relation the two numbers are the two sides of the folding identity, taken at
the coefficients θ, the feature rows of node n, the column q of the weights
and the bias entry q; the rectified sums of the two relations then agree.
-/

namespace Cert.SpecBridge

open Idealize.ShloMosaic
open Cert.RealSums Cert.RealOps Cert.Spec
open scoped BigOperators

/-- Column 64·i + j of the side-by-side mixtures is the i-th mixture at column j:
the quotient and remainder of 64·i + j by 64 are i and j. -/
theorem hfAt_row (g : Fin 3 → Fin 50000 → Fin 64 → EReal) (n : Fin 50000) (i : Fin 3) (j : Fin 64) :
    hfAt g n (row192 i j) = (theta i 0 * g 0 n j + theta i 1 * g 1 n j) + theta i 2 * g 2 n j := by
  have hi : (⟨(row192 i j).val / 64, by have := (row192 i j).isLt; omega⟩ : Fin 3) = i := by
    apply Fin.ext
    show (64 * i.val + j.val) / 64 = i.val
    have := j.isLt
    omega
  have hj : (⟨(row192 i j).val % 64, Nat.mod_lt _ (by decide)⟩ : Fin 64) = j := by
    apply Fin.ext
    show (64 * i.val + j.val) % 64 = j.val
    have := j.isLt
    omega
  show (theta ⟨(row192 i j).val / 64, _⟩ 0 * g 0 n ⟨(row192 i j).val % 64, _⟩
      + theta ⟨(row192 i j).val / 64, _⟩ 1 * g 1 n ⟨(row192 i j).val % 64, _⟩)
      + theta ⟨(row192 i j).val / 64, _⟩ 2 * g 2 n ⟨(row192 i j).val % 64, _⟩ = _
  rw [hi, hj]

/-- One relation: the accumulator over folded weights is the 192-column product
with the unfolded weights plus the bias. -/
theorem acc_eq_branch (g : Fin 3 → Fin 50000 → Fin 64 → EReal) (hg : ∀ k n j, IsReal (g k n j))
    (W3 : Fin 192 → Fin 64 → EReal) (hW : ∀ c q, IsReal (W3 c q))
    (b : Fin 64 → EReal) (hb : ∀ q, IsReal (b q)) (n : Fin 50000) (q : Fin 64) :
    accAt g (weffAt W3) b n q = branchAt g W3 b n q := by
  unfold accAt branchAt weffAt
  simp only [Ideal.ofBits_zero_f32]
  exact Cert.Fold.fold_eq theta isReal_theta (fun k j => g k n j) (fun k j => hg k n j)
    (fun i j => W3 (row192 i j) q) (fun i j => hW (row192 i j) q)
    (fun c => W3 c q) (fun c => hfAt g n c)
    (fun _ _ _ => rfl) (fun i j _ => hfAt_row g n i j) (b q) (hb q)

/-- The two specifications give the same number at every node and column. -/
theorem kernel_eq_reference (f : Fin 2 → Fin 3 → Fin 50000 → Fin 64 → EReal)
    (hf : ∀ r k n j, IsReal (f r k n j))
    (W3 : Fin 192 → Fin 64 → EReal) (hW : ∀ c q, IsReal (W3 c q))
    (b : Fin 64 → EReal) (hb : ∀ q, IsReal (b q)) (n : Fin 50000) (q : Fin 64) :
    Cert.Spec.kernelAt f (Cert.Spec.weffAt W3) b n q = Cert.Spec.referenceAt f W3 b n q := by
  unfold kernelAt referenceAt
  rw [acc_eq_branch (f 0) (hf 0) W3 hW b hb n q, acc_eq_branch (f 1) (hf 1) W3 hW b hb n q]

end Cert.SpecBridge
-- ==== Proof.Bridge.lean ====
/-
  The two programs' results agree, entry by entry.

  The kernel's result at (n, q) is the rectified sum over the two relations of bias + Σ_k Σ_j f_k(n, j) · Weff_k(j, q); the
  reference's is the rectified sum of Σ_c hf(n, c) · W3(c, q) + bias.  The feature matrices f_k are the same on both sides:
  the hidden features are the same perceptron of the same arguments, and each Laplacian image is the same composition of
  gather, scatter-sum and scaling applied to them.  Every feature entry is a real number when the inputs are finite, so the
  coefficients move between the features and the weights by distributivity.
-/
import proofs.«121376_j36636071035259_2_alg».proof.Proof.KFeatReal
import proofs.«121376_j36636071035259_2_alg».proof.Proof.KValue1
import proofs.«121376_j36636071035259_2_alg».proof.Proof.KValue1Host
import proofs.«121376_j36636071035259_2_alg».proof.Proof.RefValue
import proofs.«121376_j36636071035259_2_alg».proof.Proof.SpecBridge

noncomputable section

namespace Cert.Bridge

open Idealize.ShloMosaic Idealize.ShloMosaic.TcCoe Idealize.ShloMosaic.ValueIdx Idealize.SL.Sem
open Cert.RealSums Cert.RealOps
open Cert.KernelIdeal Cert.KernelIdeal.Gen Cert.KernelIdeal.Hand Cert.KernelIdeal.Mid

variable (m : (ℓ : Loc nD τ sig) → Buf (Elt Ideal) ℓ) (ρ : Dev nD → PrngReg) (c : Dev nD)

/-! ## The kernel's result, coordinate by coordinate -/

theorem feat_0_0 (n : Fin 50000) (j : Fin 64) : V9 m ρ c main_v108 (ix4 (0 : Fin 2) (0 : Fin 3) n j) = f00 m ρ c (ix2 n j) := by
  refine (Cert.KernelIdeal.Val1.after_v108_0 (W8 m ρ c) 0 n j).trans ?_
  rw [(keep6 m ρ c main_v61 (by decide)).trans (keep5 m ρ c main_v61 (by decide))]
  refine (Cert.KernelIdeal.Val1.after_v61_0 (W5 m ρ c) n j).trans ?_
  rw [w5_v19]
theorem feat_0_1 (n : Fin 50000) (j : Fin 64) : V9 m ρ c main_v108 (ix4 (0 : Fin 2) (1 : Fin 3) n j) = f01 m ρ c (ix2 n j) := by
  refine (Cert.KernelIdeal.Val1.after_v108_0 (W8 m ρ c) 1 n j).trans ?_
  rw [(keep6 m ρ c main_v61 (by decide)).trans (keep5 m ρ c main_v61 (by decide))]
  refine (Cert.KernelIdeal.Val1.after_v61_1 (W5 m ρ c) n j).trans ?_
  rw [w5_v42]
theorem feat_0_2 (n : Fin 50000) (j : Fin 64) : V9 m ρ c main_v108 (ix4 (0 : Fin 2) (2 : Fin 3) n j) = f02 m ρ c (ix2 n j) := by
  refine (Cert.KernelIdeal.Val1.after_v108_0 (W8 m ρ c) 2 n j).trans ?_
  rw [(keep6 m ρ c main_v61 (by decide)).trans (keep5 m ρ c main_v61 (by decide))]
  refine (Cert.KernelIdeal.Val1.after_v61_2 (W5 m ρ c) n j).trans ?_
  exact congrFun (w6_v57 m ρ c) _
theorem feat_1_0 (n : Fin 50000) (j : Fin 64) : V9 m ρ c main_v108 (ix4 (1 : Fin 2) (0 : Fin 3) n j) = f10 m ρ c (ix2 n j) := by
  refine (Cert.KernelIdeal.Val1.after_v108_1_0 (W8 m ρ c) n j).trans ?_
  rw [w8_v63]
theorem feat_1_1 (n : Fin 50000) (j : Fin 64) : V9 m ρ c main_v108 (ix4 (1 : Fin 2) (1 : Fin 3) n j) = f11 m ρ c (ix2 n j) := by
  refine (Cert.KernelIdeal.Val1.after_v108_1_1 (W8 m ρ c) n j).trans ?_
  rw [w8_v86]
theorem feat_1_2 (n : Fin 50000) (j : Fin 64) : V9 m ρ c main_v108 (ix4 (1 : Fin 2) (2 : Fin 3) n j) = f12 m ρ c (ix2 n j) := by
  refine (Cert.KernelIdeal.Val1.after_v108_1_2 (W8 m ρ c) n j).trans ?_
  exact congrFun (w9_v101 m ρ c) _

theorem feat_operand : (fun (r : Fin 2) (k : Fin 3) (n : Fin 50000) (j : Fin 64) => V9 m ρ c main_v108 (ix4 r k n j)) = featK m ρ c := by
  funext r k n j
  match r, k with
  | ⟨0, _⟩, ⟨0, _⟩ => exact feat_0_0 m ρ c n j
  | ⟨0, _⟩, ⟨1, _⟩ => exact feat_0_1 m ρ c n j
  | ⟨0, _⟩, ⟨2, _⟩ => exact feat_0_2 m ρ c n j
  | ⟨1, _⟩, ⟨0, _⟩ => exact feat_1_0 m ρ c n j
  | ⟨1, _⟩, ⟨1, _⟩ => exact feat_1_1 m ρ c n j
  | ⟨1, _⟩, ⟨2, _⟩ => exact feat_1_2 m ρ c n j

theorem w8_arg14 : W8 m ρ c (Proc.devRef .tc main_arg14) = W0 m ρ c (Proc.devRef .tc main_arg14) :=
  W8_launch m ρ c main_arg14 (by decide) (by decide) (by decide) (by decide) (by decide) (by decide) (by decide) (by decide)
theorem w8_arg15 : W8 m ρ c (Proc.devRef .tc main_arg15) = W0 m ρ c (Proc.devRef .tc main_arg15) :=
  W8_launch m ρ c main_arg15 (by decide) (by decide) (by decide) (by decide) (by decide) (by decide) (by decide) (by decide)

theorem weight_operand : (fun (k : Fin 3) (j q : Fin 64) => V9 m ρ c main_v145 (ix3 k j q)) = Cert.Spec.weffAt (W3K m ρ c) := by
  funext k j q
  have e : (fun (r : Fin 192) (q : Fin 64) => W8 m ρ c (Proc.devRef .tc main_arg14) (ix2 r q)) = W3K m ρ c := by
    rw [w8_arg14]; rfl
  match k with
  | ⟨0, _⟩ => exact (Cert.KernelIdeal.Val1.after_v145_0 (W8 m ρ c) j q).trans (by rw [e]; rfl)
  | ⟨1, _⟩ => exact (Cert.KernelIdeal.Val1.after_v145_1 (W8 m ρ c) j q).trans (by rw [e]; rfl)
  | ⟨2, _⟩ => exact (Cert.KernelIdeal.Val1.after_v145_2 (W8 m ρ c) j q).trans (by rw [e]; rfl)

theorem bias_operand : (fun (q : Fin 64) => V9 m ρ c main_v146 (ix2 (⟨0, by decide⟩ : Fin 1) q)) = b3K m ρ c := by
  funext q
  refine (Cert.KernelIdeal.Val1.after_v146 (W8 m ρ c) q).trans ?_
  rw [w8_arg15]; rfl

/-- The kernel's result array at (n, q). -/
theorem kernel_value (n : Fin 50000) (q : Fin 64) :
    (W10 m ρ c (Proc.devRef .tc main_v147) : S50000x64.Idx → EReal) (ix2 n q)
      = Cert.Spec.kernelAt (featK m ρ c) (Cert.Spec.weffAt (W3K m ρ c)) (b3K m ρ c) n q := by
  have h3 : W10 m ρ c (Proc.devRef .tc main_v147) = (dat1 (V9 m ρ) c).arrAt 3 cfg1.N := W10_arr m ρ c 3
  rw [h3, Cert.KernelIdeal.Val1.arr1_eq, feat_operand, weight_operand, bias_operand]

/-! ## The reference's features are the kernel's -/

section Agree

variable (m' : (ℓ : Loc Cert.ReferenceIdeal.nD Cert.ReferenceIdeal.τ Cert.ReferenceIdeal.sig) → Buf (Elt Ideal) ℓ)

/-- The two memories agree on the sixteen arguments (on core c). -/
def Agree : Prop :=
    m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
    ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
    ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
    ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
    ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
    ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
    ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
    ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
    ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
    ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
    ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
    ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
    ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
    ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
    ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
    ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)

/-- The reference's memory on core c, as contents of its buffers. -/
abbrev UR : Valuation Cert.ReferenceIdeal.τ Cert.ReferenceIdeal.sig (Elt Ideal) := fun b => m' (c, b)

variable (hag : Agree m c m')
include hag

theorem ag0 : UR c m' (Proc.devRef .tc Cert.ReferenceIdeal.main_arg0) = W0 m ρ c (Proc.devRef .tc main_arg0) := hag.1
theorem ag1 : UR c m' (Proc.devRef .tc Cert.ReferenceIdeal.main_arg1) = W0 m ρ c (Proc.devRef .tc main_arg1) := hag.2.1
theorem ag2 : UR c m' (Proc.devRef .tc Cert.ReferenceIdeal.main_arg2) = W0 m ρ c (Proc.devRef .tc main_arg2) := hag.2.2.1
theorem ag3 : UR c m' (Proc.devRef .tc Cert.ReferenceIdeal.main_arg3) = W0 m ρ c (Proc.devRef .tc main_arg3) := hag.2.2.2.1
theorem ag4 : UR c m' (Proc.devRef .tc Cert.ReferenceIdeal.main_arg4) = W0 m ρ c (Proc.devRef .tc main_arg4) := hag.2.2.2.2.1
theorem ag5 : UR c m' (Proc.devRef .tc Cert.ReferenceIdeal.main_arg5) = W0 m ρ c (Proc.devRef .tc main_arg5) := hag.2.2.2.2.2.1
theorem ag6 : UR c m' (Proc.devRef .tc Cert.ReferenceIdeal.main_arg6) = W0 m ρ c (Proc.devRef .tc main_arg6) := hag.2.2.2.2.2.2.1
theorem ag7 : UR c m' (Proc.devRef .tc Cert.ReferenceIdeal.main_arg7) = W0 m ρ c (Proc.devRef .tc main_arg7) := hag.2.2.2.2.2.2.2.1
theorem ag8 : UR c m' (Proc.devRef .tc Cert.ReferenceIdeal.main_arg8) = W0 m ρ c (Proc.devRef .tc main_arg8) := hag.2.2.2.2.2.2.2.2.1
theorem ag9 : UR c m' (Proc.devRef .tc Cert.ReferenceIdeal.main_arg9) = W0 m ρ c (Proc.devRef .tc main_arg9) := hag.2.2.2.2.2.2.2.2.2.1
theorem ag10 : UR c m' (Proc.devRef .tc Cert.ReferenceIdeal.main_arg10) = W0 m ρ c (Proc.devRef .tc main_arg10) := hag.2.2.2.2.2.2.2.2.2.2.1
theorem ag11 : UR c m' (Proc.devRef .tc Cert.ReferenceIdeal.main_arg11) = W0 m ρ c (Proc.devRef .tc main_arg11) := hag.2.2.2.2.2.2.2.2.2.2.2.1
theorem ag12 : UR c m' (Proc.devRef .tc Cert.ReferenceIdeal.main_arg12) = W0 m ρ c (Proc.devRef .tc main_arg12) := hag.2.2.2.2.2.2.2.2.2.2.2.2.1
theorem ag13 : UR c m' (Proc.devRef .tc Cert.ReferenceIdeal.main_arg13) = W0 m ρ c (Proc.devRef .tc main_arg13) := hag.2.2.2.2.2.2.2.2.2.2.2.2.2.1
theorem ag14 : UR c m' (Proc.devRef .tc Cert.ReferenceIdeal.main_arg14) = W0 m ρ c (Proc.devRef .tc main_arg14) := hag.2.2.2.2.2.2.2.2.2.2.2.2.2.2.1
theorem ag15 : UR c m' (Proc.devRef .tc Cert.ReferenceIdeal.main_arg15) = W0 m ρ c (Proc.devRef .tc main_arg15) := hag.2.2.2.2.2.2.2.2.2.2.2.2.2.2.2

open Cert.ReferenceIdeal.Val in
theorem hid_eq0 : (StableHlo.after Cert.ReferenceIdeal.RefRun.ops (UR c m') (Proc.devRef .tc Cert.ReferenceIdeal.main_v9) : S50000x64.Idx → EReal) = f00 m ρ c := by
  funext i
  obtain ⟨n, q, rfl⟩ : ∃ (n : Fin 50000) (q : Fin 64), i = ix2 n q := ⟨i 0, i 1, eq_ix2 i⟩
  rw [Cert.ReferenceIdeal.Val.ref_h0, Cert.KernelIdeal.Val0.f00_apply, ag0 m ρ c m' hag, ag6 m ρ c m' hag, ag7 m ρ c m' hag, ag8 m ρ c m' hag, ag9 m ρ c m' hag]
open Cert.ReferenceIdeal.Val in
theorem hid_eq1 : (StableHlo.after Cert.ReferenceIdeal.RefRun.ops (UR c m') (Proc.devRef .tc Cert.ReferenceIdeal.main_v146) : S50000x64.Idx → EReal) = f10 m ρ c := by
  funext i
  obtain ⟨n, q, rfl⟩ : ∃ (n : Fin 50000) (q : Fin 64), i = ix2 n q := ⟨i 0, i 1, eq_ix2 i⟩
  rw [Cert.ReferenceIdeal.Val.ref_h1, Cert.KernelIdeal.Val0.f10_apply, ag1 m ρ c m' hag, ag10 m ρ c m' hag, ag11 m ρ c m' hag, ag12 m ρ c m' hag, ag13 m ρ c m' hag]

theorem feat_eq : Cert.ReferenceIdeal.Val.featR (UR c m') = featK m ρ c := by
  funext r k n j
  match r, k with
  | ⟨0, _⟩, ⟨0, _⟩ =>
    refine (Cert.ReferenceIdeal.Val.featR_0_0 (UR c m') n j).trans ?_
    rw [hid_eq0 m ρ c m' hag]; rfl
  | ⟨0, _⟩, ⟨1, _⟩ =>
    refine (Cert.ReferenceIdeal.Val.featR_0_1 (UR c m') n j).trans ?_
    rw [hid_eq0 m ρ c m' hag, ag2 m ρ c m' hag, ag3 m ρ c m' hag]; rfl
  | ⟨0, _⟩, ⟨2, _⟩ =>
    refine (Cert.ReferenceIdeal.Val.featR_0_2 (UR c m') n j).trans ?_
    rw [hid_eq0 m ρ c m' hag, ag2 m ρ c m' hag, ag3 m ρ c m' hag]; rfl
  | ⟨1, _⟩, ⟨0, _⟩ =>
    refine (Cert.ReferenceIdeal.Val.featR_1_0 (UR c m') n j).trans ?_
    rw [hid_eq1 m ρ c m' hag]; rfl
  | ⟨1, _⟩, ⟨1, _⟩ =>
    refine (Cert.ReferenceIdeal.Val.featR_1_1 (UR c m') n j).trans ?_
    rw [hid_eq1 m ρ c m' hag, ag4 m ρ c m' hag, ag5 m ρ c m' hag]; rfl
  | ⟨1, _⟩, ⟨2, _⟩ =>
    refine (Cert.ReferenceIdeal.Val.featR_1_2 (UR c m') n j).trans ?_
    rw [hid_eq1 m ρ c m' hag, ag4 m ρ c m' hag, ag5 m ρ c m' hag]; rfl

/-- THE RESULTS AGREE: the reference's result array is the kernel's, under the precondition. -/
theorem value_eq (hpre : Cert.Pre_KernelIdeal m) :
    StableHlo.after Cert.ReferenceIdeal.RefRun.ops (UR c m') (Proc.devRef .tc Cert.ReferenceIdeal.main_v275)
      = W10 m ρ c (Proc.devRef .tc main_v147) := by
  funext i
  obtain ⟨n, q, rfl⟩ : ∃ (n : Fin 50000) (q : Fin 64), i = ix2 n q := ⟨i 0, i 1, eq_ix2 i⟩
  refine (Cert.ReferenceIdeal.Val.ref_value (UR c m') n q).trans ((?_ : _ = Cert.Spec.kernelAt (featK m ρ c) (Cert.Spec.weffAt (W3K m ρ c)) (b3K m ρ c) n q).trans (kernel_value m ρ c n q).symm)
  rw [feat_eq m ρ c m' hag, ag14 m ρ c m' hag, ag15 m ρ c m' hag]
  exact (Cert.SpecBridge.kernel_eq_reference (featK m ρ c) (featK_real m hpre ρ c) (W3K m ρ c) (W3K_real m hpre ρ c) (b3K m ρ c) (b3K_real m hpre ρ c) n q).symm

end Agree

end Cert.Bridge

end
-- ==== Proof.lean ====
/-
  The certificate's five claims.

  The kernel program runs a two-layer perceptron on both relations' node features in one tiled region, then (on the host) the
  degree scaling and two graph-Laplacian steps per relation, then a second tiled region that multiplies the three feature
  matrices of each relation by three folded 64 × 64 weights, adds the two relations and rectifies.  The reference does the
  same perceptron and Laplacian steps on the host, mixes the three feature matrices with the Bernstein coefficients, lays the
  three mixtures side by side and multiplies by one 192 × 64 weight.

  Frames: each program, from any memory, runs to the end without fault and leaves its sixteen arguments as they were — the
  kernel program by its two regions' runs between stretches of host operations (at the word-level and at the ideal instance
  alike), the reference by the run of its host operations.  The idealization changes no operation, so there is nothing to
  preserve.  Equality of the results on the extended reals: under finite inputs every feature entry is a real number, and for
  real numbers Σ_i (Σ_k θ_ik f_k) · B_i = Σ_k f_k · (Σ_i θ_ik B_i).
-/
import proofs.«121376_j36636071035259_2_alg».proof.Defs
import proofs.«121376_j36636071035259_2_alg».proof.Proof.Gen.Kernel
import proofs.«121376_j36636071035259_2_alg».proof.Proof.Gen.KernelIdeal
import proofs.«121376_j36636071035259_2_alg».proof.Proof.Gen.ReferenceIdeal
import proofs.«121376_j36636071035259_2_alg».proof.Proof.Gen.Pre_finite_inputs
import proofs.«121376_j36636071035259_2_alg».proof.Proof.KRun
import proofs.«121376_j36636071035259_2_alg».proof.Proof.BRun
import proofs.«121376_j36636071035259_2_alg».proof.Proof.RefRun
import proofs.«121376_j36636071035259_2_alg».proof.Proof.Bridge
import Idealize.ShloMosaic.Adequacy
import Idealize.ShloMosaic.Init

noncomputable section

namespace Cert.Proof

open Idealize.ShloMosaic Idealize.SL.Sem

/-- The word-level kernel program runs and keeps its arguments: its run, the result dropped. -/
theorem frame_k : @Cert.frame_Kernel Cert.Kernel.Gen.facts Cert.Pre_finite_inputs.Gen.facts := fun m ρ _ =>
  (θ_run Cert.Kernel.defs _ _).mono (fun _ h c => (h c).2) (Cert.Kernel.Hand.run (F := Bits) m ρ)

/-- The same at the ideal instance. -/
theorem frame_ki : @Cert.frame_KernelIdeal Cert.KernelIdeal.Gen.facts Cert.Pre_finite_inputs.Gen.facts := fun m ρ _ =>
  (θ_run Cert.KernelIdeal.defs _ _).mono (fun _ h c => (h c).2) (Cert.KernelIdeal.Hand.run (F := Ideal) m ρ)

/-- The reference runs and keeps its arguments. -/
theorem frame_ri : @Cert.frame_ReferenceIdeal Cert.ReferenceIdeal.Gen.facts Cert.Pre_finite_inputs.Gen.facts := fun m ρ _ =>
  (θ_run Cert.ReferenceIdeal.defs _ _).mono (fun _ h c => (h c).2) (Cert.ReferenceIdeal.RefRun.run (F := Ideal) m ρ)

/-- From memories agreeing on the arguments both programs end with the same result array: the kernel's, which the
    reference's equals entry by entry under finite inputs. -/
theorem algebraic : @Cert.algebraic_KernelIdeal_ReferenceIdeal Cert.KernelIdeal.Gen.facts Cert.ReferenceIdeal.Gen.facts Cert.Pre_finite_inputs.Gen.facts := by
  intro m ρ m' ρ' hpre hagree
  refine ⟨fun c => Cert.KernelIdeal.Hand.W10 m ρ c (Proc.devRef .tc Cert.KernelIdeal.main_v147), Cert.KernelIdeal.Hand.run (F := Ideal) m ρ, ?_⟩
  refine (θ_run Cert.ReferenceIdeal.defs _ _).mono (fun _ h c => ⟨(h c).1.trans ?_, (h c).2⟩)
    (Cert.ReferenceIdeal.RefRun.run (F := Ideal) m' ρ')
  exact Cert.Bridge.value_eq m ρ c m' (hagree c) hpre

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
